-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S4096x3072 : Shape := ⟨2, ![4096, 3072]⟩
abbrev S2x2048x3072 : Shape := ⟨3, ![2, 2048, 3072]⟩
abbrev S1x512x128 : Shape := ⟨3, ![1, 512, 128]⟩
abbrev S512x1 : Shape := ⟨2, ![512, 1]⟩
abbrev S512x64 : Shape := ⟨2, ![512, 64]⟩
abbrev S512x128 : Shape := ⟨2, ![512, 128]⟩
abbrev S512x512 : Shape := ⟨2, ![512, 512]⟩
abbrev S64x512 : Shape := ⟨2, ![64, 512]⟩
abbrev S512 : Shape := ⟨1, ![512]⟩
abbrev S1x512x64 : Shape := ⟨3, ![1, 512, 64]⟩

abbrev nBuf : Space → Nat
  | .hbm => 12
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S3072x1024, .bf16⟩
  | .hbm, ⟨4, _⟩ => ⟨S1024x1024, .bf16⟩
  | .hbm, ⟨5, _⟩ => ⟨S4096x1024, .f32⟩
  | .hbm, ⟨6, _⟩ => ⟨S4096x3072, .bf16⟩
  | .hbm, ⟨7, _⟩ => ⟨S2x2048x3072, .bf16⟩
  | .hbm, ⟨8, _⟩ => ⟨S2x2048x1024, .bf16⟩
  | .hbm, ⟨9, _⟩ => ⟨S4096x1024, .bf16⟩
  | .hbm, ⟨10, _⟩ => ⟨S4096x1024, .f32⟩
  | .hbm, ⟨11, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S512x1, .f32⟩
  | .local _ .vmem, ⟨15, _⟩ => ⟨S512x1, .f32⟩
  | .local _ .vmem, ⟨16, _⟩ => ⟨S512x64, .f32⟩
  | .local _ .vmem, ⟨17, _⟩ => ⟨S512x1, .f32⟩
  | .local _ .vmem, ⟨18, _⟩ => ⟨S512x1, .f32⟩
  | .local _ .vmem, ⟨19, _⟩ => ⟨S512x64, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .f32⟩
  | .local _ .vmem, ⟨24, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc1_scratch5 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨4, ![2, 8, 4, 4], ![false, false, false, false]⟩

def k1_cond3 (i : grid1.Coords) : BitVec 1 :=
  let arg3 : BitVec 32 := BitVec.ofNat 32 (i 3).val
  let c3_i32 : BitVec 32 := 3#32
  let v6 : BitVec 1 := Scalar.cmpi .eq arg3 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c8_i32 : BitVec 32 := 8#32
  let v1 : BitVec 32 := Scalar.addi c8_i32 arg1
  let c0_i32 : BitVec 32 := 0#32
  ![arg0.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c16_i32 : BitVec 32 := 16#32
  let v1 : BitVec 32 := Scalar.addi c16_i32 arg1
  let c0_i32 : BitVec 32 := 0#32
  ![arg0.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, true]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  packedbf16_S1024x1024_S1024x1024_0_0 : (Rect.unit (s := S1024x1024) ![0, 0] S1024x1024.size inb_S1024x1024_S1024x1024_0_0).PackedRows (EltTy.packing .bf16)
  shapeCasts_S4096x3072_S2x2048x3072 : S4096x3072.ShapeCasts S2x2048x3072
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  slices_S512x128_o0_0_S512x64 : S512x128.Slices ![0, 0] S512x64
  slices_S512x128_o0_64_S512x64 : S512x128.Slices ![0, 64] S512x64
  iota_S512x512_d0_w32 : S512x512.Iotas .tc 32 [0]
  iota_S512x512_d1_w32 : S512x512.Iotas .tc 32 [1]
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  inb_S1x512x128_S1x512x64_0_0_64 : ∀ a, (![0, 0, 64] : Fin 3 → Nat) a + S1x512x64.size a ≤ S1x512x128.size a
  packedbf16_S1x512x128_S1x512x64_0_0_64 : (Rect.unit (s := S1x512x128) ![0, 0, 64] S1x512x64.size inb_S1x512x128_S1x512x64_0_0_64).PackedRows (EltTy.packing .bf16)
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x3072.size a
  hwx0_2 : ∀ i : grid0.Coords, EltTy.bits .bf16 = 32 ∨ (Rect.block (s := S4096x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .bf16 = 32 ∨ (Rect.block (s := S2x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S2x2048x3072.size a
  hwx1_1 : ∀ i : grid1.Coords, EltTy.bits .bf16 = 32 ∨ (Rect.block (s := S2x2048x3072) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S2x2048x3072.size a
  hwx1_2 : ∀ i : grid1.Coords, EltTy.bits .bf16 = 32 ∨ (Rect.block (s := S2x2048x3072) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .bf16 = 32 ∨ (Rect.block (s := S2x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v6) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S2x16x2048x2048, .i1⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.AttnConds.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The body's three branch conditions, from the grid coordinates

The grid point is (batch, head pair, query tile, key tile). The first branch resets the running softmax state at
key tile 0; the second updates it when the key tile is not above the query tile (the causal triangle); the third
finalises at the last key tile. -/

/-- The key tile is the first one. -/
abbrev atFirst (i : grid1.Coords) : Prop :=
  (Scalar.cmpi .ne (Scalar.extui (Scalar.cmpi .eq (BitVec.ofNat 32 (i 3).val) 0#32)) 0#32) = 1#1
/-- The key tile is at or below the query tile. -/
abbrev inTriangle (i : grid1.Coords) : Prop :=
  (Scalar.cmpi .ne (Scalar.extui (Scalar.cmpi .sle (BitVec.ofNat 32 (i 3).val) (BitVec.ofNat 32 (i 2).val))) 0#32) = 1#1
/-- The key tile is the last one. -/
abbrev atLast (i : grid1.Coords) : Prop := k1_cond3 i = 1#1

theorem atFirst_iff : ∀ t : Fin cfg1.N, atFirst (grid1.coords t) ↔ t.val % 4 = 0 :=
  (by decide +kernel : ∀ t : Fin grid1.N, atFirst (grid1.coords t) ↔ t.val % 4 = 0)
theorem inTriangle_iff : ∀ t : Fin cfg1.N, inTriangle (grid1.coords t) ↔ t.val % 4 ≤ (t.val / 4) % 4 :=
  (by decide +kernel : ∀ t : Fin grid1.N, inTriangle (grid1.coords t) ↔ t.val % 4 ≤ (t.val / 4) % 4)
theorem atLast_iff : ∀ t : Fin cfg1.N, atLast (grid1.coords t) ↔ t.val % 4 = 3 :=
  (by decide +kernel : ∀ t : Fin grid1.N, atLast (grid1.coords t) ↔ t.val % 4 = 3)

end Cert.KernelIdeal.Attn

end
-- ==== Proof.AttnRunFirst.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The first key tile of a query tile: the body resets both heads' running (max, sum, accumulator) to (-∞, 0, 0), folds the tile in, and stores nothing into the output block. The scratch buffers may hold anything on entry. -/
noncomputable def runFirst (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i)
    (x0 x1 x2 : Vec F S1x512x128 .bf16)  :
    Σ' (L8 : List (View.Piece (Elt F) S512x1 .f32)), Σ' (L9 : List (View.Piece (Elt F) S512x1 .f32)), Σ' (L10 : List (View.Piece (Elt F) S512x64 .f32)), Σ' (L11 : List (View.Piece (Elt F) S512x1 .f32)), Σ' (L12 : List (View.Piece (Elt F) S512x1 .f32)), { L13 : List (View.Piece (Elt F) S512x64 .f32) //
      ∀ (xi : Vec F S1x512x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg4 fullShare x0
                ∗ owns (c : Thread nD τ) arg5 fullShare x1
                ∗ owns (c : Thread nD τ) arg6 fullShare x2
                ∗ owns (c : Thread nD τ) arg7 fullShare xi
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%e8, %g8, -, S8⟩, ⟨%e9, %g9, -, S9⟩, ⟨%e10, %g10, -, S10⟩, ⟨%e11, %g11, -, S11⟩, ⟨%e12, %g12, -, S12⟩, ⟨%e13, %g13, -, S13⟩, Hk⟩
    obtain rfl := harg4.eq_unread hf0; obtain rfl := harg5.eq_unread hf1; obtain rfl := harg6.eq_unread hf2; obtain rfl := harg7.eq_unread hf3
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [S8]; · iexists _; iexact S8
    isplitl [S9]; · iexists _; iexact S9
    isplitl [S10]; · iexists _; iexact S10
    isplitl [S11]; · iexists _; iexact S11
    isplitl [S12]; · iexists _; iexact S12
    iexists _; iexact S13

end Cert.KernelIdeal.Attn

end
-- ==== Proof.AttnRunMid.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- A key tile inside the causal triangle that is neither the first nor the last: the body folds the tile into both heads' running (max, sum, accumulator) and stores nothing into the output block. The pieces each scratch buffer ends with are what the run finds. -/
noncomputable def runMid (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    Σ' (L8 : List (View.Piece (Elt F) S512x1 .f32)), Σ' (L9 : List (View.Piece (Elt F) S512x1 .f32)), Σ' (L10 : List (View.Piece (Elt F) S512x64 .f32)), Σ' (L11 : List (View.Piece (Elt F) S512x1 .f32)), Σ' (L12 : List (View.Piece (Elt F) S512x1 .f32)), { L13 : List (View.Piece (Elt F) S512x64 .f32) //
      ∀ (xi : Vec F S1x512x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ owns (c : Thread nD τ) arg7 fullShare xi
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg7.eq_unread hf3; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [S8]; · iexists _; iexact S8
    isplitl [S9]; · iexists _; iexact S9
    isplitl [S10]; · iexists _; iexact S10
    isplitl [S11]; · iexists _; iexact S11
    isplitl [S12]; · iexists _; iexact S12
    iexists _; iexact S13

end Cert.KernelIdeal.Attn

end
-- ==== Proof.AttnRunSkip.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- A key tile above the causal triangle that is not the last: the body touches nothing. -/
theorem runSkip (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : ¬atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    ∀ (xi : Vec F S1x512x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ owns (c : Thread nD τ) arg7 fullShare xi
                ∗ owns (c : Thread nD τ) arg8 fullShare xs8
                ∗ owns (c : Thread nD τ) arg9 fullShare xs9
                ∗ owns (c : Thread nD τ) arg10 fullShare xs10
                ∗ owns (c : Thread nD τ) arg11 fullShare xs11
                ∗ owns (c : Thread nD τ) arg12 fullShare xs12
                ∗ owns (c : Thread nD τ) arg13 fullShare xs13) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K := by
  intro xi E K
  all_goals
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg7.eq_unread hf3; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [S8]
    · iexists _; isplitr; · ipureintro; exact harg8.read_unread _
      iexact S8
    isplitl [S9]
    · iexists _; isplitr; · ipureintro; exact harg9.read_unread _
      iexact S9
    isplitl [S10]
    · iexists _; isplitr; · ipureintro; exact harg10.read_unread _
      iexact S10
    isplitl [S11]
    · iexists _; isplitr; · ipureintro; exact harg11.read_unread _
      iexact S11
    isplitl [S12]
    · iexists _; isplitr; · ipureintro; exact harg12.read_unread _
      iexact S12
    iexists _; isplitr; · ipureintro; exact harg13.read_unread _
    iexact S13

end Cert.KernelIdeal.Attn

end
-- ==== Proof.AttnRunLast.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The last key tile when it lies inside the causal triangle (the last query tile): the body folds the tile in and then stores both heads' normalised accumulators into the two halves of the output block. -/
noncomputable def runLast (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    Σ' (L7 : List (View.Piece (Elt F) S1x512x128 .bf16)), Σ' (L8 : List (View.Piece (Elt F) S512x1 .f32)), Σ' (L9 : List (View.Piece (Elt F) S512x1 .f32)), Σ' (L10 : List (View.Piece (Elt F) S512x64 .f32)), Σ' (L11 : List (View.Piece (Elt F) S512x1 .f32)), Σ' (L12 : List (View.Piece (Elt F) S512x1 .f32)), { L13 : List (View.Piece (Elt F) S512x64 .f32) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [S8]; · iexists _; iexact S8
    isplitl [S9]; · iexists _; iexact S9
    isplitl [S10]; · iexists _; iexact S10
    isplitl [S11]; · iexists _; iexact S11
    isplitl [S12]; · iexists _; iexact S12
    iexists _; iexact S13

end Cert.KernelIdeal.Attn

end
-- ==== Proof.AttnRunLastSkip.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The last key tile when it lies above the causal triangle: the running state is left as it is and both heads' normalised accumulators are stored into the two halves of the output block. -/
noncomputable def runLastSkip (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    { L7 : List (View.Piece (Elt F) S1x512x128 .bf16) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L7)
                ∗ owns (c : Thread nD τ) arg8 fullShare xs8
                ∗ owns (c : Thread nD τ) arg9 fullShare xs9
                ∗ owns (c : Thread nD τ) arg10 fullShare xs10
                ∗ owns (c : Thread nD τ) arg11 fullShare xs11
                ∗ owns (c : Thread nD τ) arg12 fullShare xs12
                ∗ owns (c : Thread nD τ) arg13 fullShare xs13) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [S8]
    · iexists _; isplitr; · ipureintro; exact harg8.read_unread _
      iexact S8
    isplitl [S9]
    · iexists _; isplitr; · ipureintro; exact harg9.read_unread _
      iexact S9
    isplitl [S10]
    · iexists _; isplitr; · ipureintro; exact harg10.read_unread _
      iexact S10
    isplitl [S11]
    · iexists _; isplitr; · ipureintro; exact harg11.read_unread _
      iexact S11
    isplitl [S12]
    · iexists _; isplitr; · ipureintro; exact harg12.read_unread _
      iexact S12
    iexists _; isplitr; · ipureintro; exact harg13.read_unread _
    iexact S13

end Cert.KernelIdeal.Attn

end
-- ==== Proof.AttnPieces.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnRunFirst
import proofs.«126977_j57518202028698_2_alg».proof.Proof.AttnRunMid
import proofs.«126977_j57518202028698_2_alg».proof.Proof.AttnRunSkip
import proofs.«126977_j57518202028698_2_alg».proof.Proof.AttnRunLast
import proofs.«126977_j57518202028698_2_alg».proof.Proof.AttnRunLastSkip
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The buffers through which contents are stated -/

/-- One staging buffer of the output window, through which the block's contents are stated (the choice does not matter
    once the pieces cover the block). -/
abbrev VO3 : View sig .tc .vmem S1x512x128 .bf16 := (Memref.whole cc1_stg3_0 : Memref sig .tc .vmem S1x512x128 .bf16).view
/-- The six scratch buffers that carry the running softmax state between key tiles: per head of the pair, the row
    maxima (512×1), the row sums (512×1) and the unnormalised accumulator (512×64). -/
abbrev scM8 : Memref sig .tc .vmem S512x1 .f32 := Memref.whole cc1_scratch0
abbrev scM9 : Memref sig .tc .vmem S512x1 .f32 := Memref.whole cc1_scratch1
abbrev scM10 : Memref sig .tc .vmem S512x64 .f32 := Memref.whole cc1_scratch2
abbrev scM11 : Memref sig .tc .vmem S512x1 .f32 := Memref.whole cc1_scratch3
abbrev scM12 : Memref sig .tc .vmem S512x1 .f32 := Memref.whole cc1_scratch4
abbrev scM13 : Memref sig .tc .vmem S512x64 .f32 := Memref.whole cc1_scratch5
abbrev VS8 : View sig .tc .vmem S512x1 .f32 := scM8.view
abbrev VS9 : View sig .tc .vmem S512x1 .f32 := scM9.view
abbrev VS10 : View sig .tc .vmem S512x64 .f32 := scM10.view
abbrev VS11 : View sig .tc .vmem S512x1 .f32 := scM11.view
abbrev VS12 : View sig .tc .vmem S512x1 .f32 := scM12.view
abbrev VS13 : View sig .tc .vmem S512x64 .f32 := scM13.view

/-! ## What each case leaves in each buffer it stores into -/

/-- The pieces found for scratch buffer 0 in the First case tile it, so they cover it. -/
theorem coverFirst_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).1 S512x1.size (by sl_kernel_rfl) y
/-- What the First case leaves there: its pieces read back. -/
def leftFirst_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS8.read (Elt F) (VS8.writes (Elt F) VS8.junk (runFirst c i arg4 harg4 arg5 harg5 arg6 harg6 arg7 harg7 arg8 harg8 arg9 harg9 arg10 harg10 arg11 harg11 arg12 harg12 arg13 harg13 hc0 hc1 hc2 x0 x1 x2 ).1)

/-- The pieces found for scratch buffer 1 in the First case tile it, so they cover it. -/
theorem coverFirst_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.1 S512x1.size (by sl_kernel_rfl) y
/-- What the First case leaves there: its pieces read back. -/
def leftFirst_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS9.read (Elt F) (VS9.writes (Elt F) VS9.junk (runFirst c i arg4 harg4 arg5 harg5 arg6 harg6 arg7 harg7 arg8 harg8 arg9 harg9 arg10 harg10 arg11 harg11 arg12 harg12 arg13 harg13 hc0 hc1 hc2 x0 x1 x2 ).2.1)

/-- The pieces found for scratch buffer 2 in the First case tile it, so they cover it. -/
theorem coverFirst_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x64.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.1 S512x64.size (by sl_kernel_rfl) y
/-- What the First case leaves there: its pieces read back. -/
def leftFirst_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x64 .f32 :=
  VS10.read (Elt F) (VS10.writes (Elt F) VS10.junk (runFirst c i arg4 harg4 arg5 harg5 arg6 harg6 arg7 harg7 arg8 harg8 arg9 harg9 arg10 harg10 arg11 harg11 arg12 harg12 arg13 harg13 hc0 hc1 hc2 x0 x1 x2 ).2.2.1)

/-- The pieces found for scratch buffer 3 in the First case tile it, so they cover it. -/
theorem coverFirst_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.2.1 S512x1.size (by sl_kernel_rfl) y
/-- What the First case leaves there: its pieces read back. -/
def leftFirst_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS11.read (Elt F) (VS11.writes (Elt F) VS11.junk (runFirst c i arg4 harg4 arg5 harg5 arg6 harg6 arg7 harg7 arg8 harg8 arg9 harg9 arg10 harg10 arg11 harg11 arg12 harg12 arg13 harg13 hc0 hc1 hc2 x0 x1 x2 ).2.2.2.1)

/-- The pieces found for scratch buffer 4 in the First case tile it, so they cover it. -/
theorem coverFirst_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.2.2.1 S512x1.size (by sl_kernel_rfl) y
/-- What the First case leaves there: its pieces read back. -/
def leftFirst_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS12.read (Elt F) (VS12.writes (Elt F) VS12.junk (runFirst c i arg4 harg4 arg5 harg5 arg6 harg6 arg7 harg7 arg8 harg8 arg9 harg9 arg10 harg10 arg11 harg11 arg12 harg12 arg13 harg13 hc0 hc1 hc2 x0 x1 x2 ).2.2.2.2.1)

/-- The pieces found for scratch buffer 5 in the First case tile it, so they cover it. -/
theorem coverFirst_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x64.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.2.2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.2.2.2.1 S512x64.size (by sl_kernel_rfl) y
/-- What the First case leaves there: its pieces read back. -/
def leftFirst_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x64 .f32 :=
  VS13.read (Elt F) (VS13.writes (Elt F) VS13.junk (runFirst c i arg4 harg4 arg5 harg5 arg6 harg6 arg7 harg7 arg8 harg8 arg9 harg9 arg10 harg10 arg11 harg11 arg12 harg12 arg13 harg13 hc0 hc1 hc2 x0 x1 x2 ).2.2.2.2.2.1)

/-- The pieces found for scratch buffer 0 in the Mid case tile it, so they cover it. -/
theorem coverMid_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1 S512x1.size (by sl_kernel_rfl) y
/-- What the Mid case leaves there: its pieces read back. -/
def leftMid_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS8.read (Elt F) (VS8.writes (Elt F) VS8.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1)

/-- The pieces found for scratch buffer 1 in the Mid case tile it, so they cover it. -/
theorem coverMid_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1 S512x1.size (by sl_kernel_rfl) y
/-- What the Mid case leaves there: its pieces read back. -/
def leftMid_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS9.read (Elt F) (VS9.writes (Elt F) VS9.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1)

/-- The pieces found for scratch buffer 2 in the Mid case tile it, so they cover it. -/
theorem coverMid_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1 S512x64.size (by sl_kernel_rfl) y
/-- What the Mid case leaves there: its pieces read back. -/
def leftMid_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS10.read (Elt F) (VS10.writes (Elt F) VS10.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1)

/-- The pieces found for scratch buffer 3 in the Mid case tile it, so they cover it. -/
theorem coverMid_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1 S512x1.size (by sl_kernel_rfl) y
/-- What the Mid case leaves there: its pieces read back. -/
def leftMid_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS11.read (Elt F) (VS11.writes (Elt F) VS11.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1)

/-- The pieces found for scratch buffer 4 in the Mid case tile it, so they cover it. -/
theorem coverMid_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1 S512x1.size (by sl_kernel_rfl) y
/-- What the Mid case leaves there: its pieces read back. -/
def leftMid_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS12.read (Elt F) (VS12.writes (Elt F) VS12.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1)

/-- The pieces found for scratch buffer 5 in the Mid case tile it, so they cover it. -/
theorem coverMid_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1 S512x64.size (by sl_kernel_rfl) y
/-- What the Mid case leaves there: its pieces read back. -/
def leftMid_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS13.read (Elt F) (VS13.writes (Elt F) VS13.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1)

/-- The pieces found for the output block in the Last case tile it, so they cover it. -/
theorem coverLast_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S1x512x128.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1 S1x512x64.size (by sl_kernel_rfl) y
/-- What the Last case leaves there: its pieces read back. -/
def leftLast_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S1x512x128 .bf16 :=
  VO3.read (Elt F) (VO3.writes (Elt F) VO3.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1)

/-- The pieces found for scratch buffer 0 in the Last case tile it, so they cover it. -/
theorem coverLast_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1 S512x1.size (by sl_kernel_rfl) y
/-- What the Last case leaves there: its pieces read back. -/
def leftLast_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS8.read (Elt F) (VS8.writes (Elt F) VS8.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1)

/-- The pieces found for scratch buffer 1 in the Last case tile it, so they cover it. -/
theorem coverLast_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1 S512x1.size (by sl_kernel_rfl) y
/-- What the Last case leaves there: its pieces read back. -/
def leftLast_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS9.read (Elt F) (VS9.writes (Elt F) VS9.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1)

/-- The pieces found for scratch buffer 2 in the Last case tile it, so they cover it. -/
theorem coverLast_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1 S512x64.size (by sl_kernel_rfl) y
/-- What the Last case leaves there: its pieces read back. -/
def leftLast_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS10.read (Elt F) (VS10.writes (Elt F) VS10.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1)

/-- The pieces found for scratch buffer 3 in the Last case tile it, so they cover it. -/
theorem coverLast_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1 S512x1.size (by sl_kernel_rfl) y
/-- What the Last case leaves there: its pieces read back. -/
def leftLast_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS11.read (Elt F) (VS11.writes (Elt F) VS11.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1)

/-- The pieces found for scratch buffer 4 in the Last case tile it, so they cover it. -/
theorem coverLast_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1 S512x1.size (by sl_kernel_rfl) y
/-- What the Last case leaves there: its pieces read back. -/
def leftLast_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS12.read (Elt F) (VS12.writes (Elt F) VS12.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1)

/-- The pieces found for scratch buffer 5 in the Last case tile it, so they cover it. -/
theorem coverLast_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.2.1 S512x64.size (by sl_kernel_rfl) y
/-- What the Last case leaves there: its pieces read back. -/
def leftLast_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS13.read (Elt F) (VS13.writes (Elt F) VS13.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.2.1)

/-- The pieces found for the output block in the LastSkip case tile it, so they cover it. -/
theorem coverLastSkip_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S1x512x128.Idx) :
    ∃ pc ∈ (runLastSkip c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1, y ∈ pc.1.set :=
  View.cover_of_tiledL (runLastSkip c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1 S1x512x64.size (by sl_kernel_rfl) y
/-- What the LastSkip case leaves there: its pieces read back. -/
def leftLastSkip_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S1x512x128 .bf16 :=
  VO3.read (Elt F) (VO3.writes (Elt F) VO3.junk (runLastSkip c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1)

end Cert.KernelIdeal.Attn

end
-- ==== Proof.AttnData.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the region finds it: windows 0, 1, 2 are the query,
    key and value column blocks of the fused projection array, window 3 the output block. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched block's
    index has not moved), for any proof data whose array is the entry contents and whose body leaves the block in place. -/
theorem staged0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched block's
    index has not moved), for any proof data whose array is the entry contents and whose body leaves the block in place. -/
theorem staged1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched block's
    index has not moved), for any proof data whose array is the entry contents and whose body leaves the block in place. -/
theorem staged2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .bf16 := win1_3.stage (cfg1.slots t 3)
abbrev hs1_3 (t : Fin cfg1.N) : (ms1_3 t).IsWhole := hstage1_3 ((cfg1.slots t 3).cast nbuf1_3)

/-! ## Where the output window is idle -/

theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
/-- Off the last key tile the body stores nothing into the output block and the block is not written back. -/
theorem idle_out : ∀ t : Fin cfg1.N, ¬atLast (grid1.coords t) → cfg1.idle 3 (grid1.coords t) = true := by decide +kernel
theorem noFlush_out : ∀ t : Fin cfg1.N, ¬atLast (grid1.coords t) → (cfg1.win 3).flush t = false := by decide +kernel
/-- At the last key tile it is live. -/
theorem live_out : ∀ t : Fin cfg1.N, atLast (grid1.coords t) → cfg1.idle 3 (grid1.coords t) = false := by decide +kernel

/-! ## The running state after each grid point -/

/-- A placeholder for the output block at the points that store nothing into it: nothing consults it there. -/
def noOut : Vec F S1x512x128 .bf16 := VO3.read (Elt F) (VO3.writes (Elt F) VO3.junk [])

/-- One grid point's effect on (output block, running state), from the running state `prev` the point before left:
    by the three closed-form conditions, the case's pieces read back. At the first key tile the state is reset, so
    `prev` is not consulted; above the triangle the state passes through unchanged. -/
def stepAt (c : Dev nD) (t : Fin cfg1.N) (prev : (Vec F S512x1 .f32 × Vec F S512x1 .f32 × Vec F S512x64 .f32 × Vec F S512x1 .f32 × Vec F S512x1 .f32 × Vec F S512x64 .f32)) : Vec F S1x512x128 .bf16 × (Vec F S512x1 .f32 × Vec F S512x1 .f32 × Vec F S512x64 .f32 × Vec F S512x1 .f32 × Vec F S512x1 .f32 × Vec F S512x64 .f32) :=
  if h0 : t.val % 4 = 0 then
    if h1 : t.val % 4 ≤ (t.val / 4) % 4 then
      if h2 : t.val % 4 = 3 then (noOut, prev)
      else (noOut, ((leftFirst_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t))))
    else (noOut, prev)
  else
    if h1 : t.val % 4 ≤ (t.val / 4) % 4 then
      if h2 : t.val % 4 = 3 then ((leftLast_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), ((leftLast_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2)))
      else (noOut, ((leftMid_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2)))
    else
      if h2 : t.val % 4 = 3 then ((leftLastSkip_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) ((atLast_iff t).mpr h2) (iblk1 V c 0 t) (iblk1 V c 1 t) (iblk1 V c 2 t) (prev).1 (prev).2.1 (prev).2.2.1 (prev).2.2.2.1 (prev).2.2.2.2.1 (prev).2.2.2.2.2), prev)
      else (noOut, prev)

/-- The running state BEFORE position `n` (what position `n - 1` left); before the first point a placeholder. -/
def scrAt (c : Dev nD) : (n : ℕ) → n ≤ cfg1.N → (Vec F S512x1 .f32 × Vec F S512x1 .f32 × Vec F S512x64 .f32 × Vec F S512x1 .f32 × Vec F S512x1 .f32 × Vec F S512x64 .f32)
  | 0, _ => (VS8.read (Elt F) VS8.junk, VS9.read (Elt F) VS9.junk, VS10.read (Elt F) VS10.junk, VS11.read (Elt F) VS11.junk, VS12.read (Elt F) VS12.junk, VS13.read (Elt F) VS13.junk)
  | n + 1, hn => (stepAt V c ⟨n, hn⟩ (scrAt c n (Nat.le_of_lt hn))).2

theorem scrAt_succ (c : Dev nD) (t : Fin cfg1.N) :
    scrAt V c (t.val + 1) t.isLt = (stepAt V c t (scrAt V c t.val (Nat.le_of_lt t.isLt))).2 := rfl

/-- What the output window's staging buffer holds after point `t` (consulted at the last key tile only). -/
def outAt (c : Dev nD) (t : Fin cfg1.N) : Vec F S1x512x128 .bf16 := (stepAt V c t (scrAt V c t.val (Nat.le_of_lt t.isLt))).1

theorem stepAt_first (c : Dev nD) (t : Fin cfg1.N) (prev) (h0 : t.val % 4 = 0) (h1 : t.val % 4 ≤ (t.val / 4) % 4) (h2 : ¬t.val % 4 = 3) :
    stepAt V c t prev = (noOut, ((leftFirst_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)))) := by
  unfold stepAt; rw [dif_pos h0, dif_pos h1, dif_neg h2]
theorem stepAt_mid (c : Dev nD) (t : Fin cfg1.N) (prev) (h0 : ¬t.val % 4 = 0) (h1 : t.val % 4 ≤ (t.val / 4) % 4) (h2 : ¬t.val % 4 = 3) :
    stepAt V c t prev = (noOut, ((leftMid_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2))) := by
  unfold stepAt; rw [dif_neg h0, dif_pos h1, dif_neg h2]
theorem stepAt_last (c : Dev nD) (t : Fin cfg1.N) (prev) (h0 : ¬t.val % 4 = 0) (h1 : t.val % 4 ≤ (t.val / 4) % 4) (h2 : t.val % 4 = 3) :
    stepAt V c t prev = ((leftLast_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), ((leftLast_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2))) := by
  unfold stepAt; rw [dif_neg h0, dif_pos h1, dif_pos h2]
theorem stepAt_lastSkip (c : Dev nD) (t : Fin cfg1.N) (prev) (h0 : ¬t.val % 4 = 0) (h1 : ¬t.val % 4 ≤ (t.val / 4) % 4) (h2 : t.val % 4 = 3) :
    stepAt V c t prev = ((leftLastSkip_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) ((atLast_iff t).mpr h2) (iblk1 V c 0 t) (iblk1 V c 1 t) (iblk1 V c 2 t) (prev).1 (prev).2.1 (prev).2.2.1 (prev).2.2.2.1 (prev).2.2.2.2.1 (prev).2.2.2.2.2), prev) := by
  unfold stepAt; rw [dif_neg h0, dif_neg h1, dif_pos h2]
theorem stepAt_skip (c : Dev nD) (t : Fin cfg1.N) (prev) (h0 : ¬t.val % 4 = 0) (h1 : ¬t.val % 4 ≤ (t.val / 4) % 4) (h2 : ¬t.val % 4 = 3) :
    stepAt V c t prev = (noOut, prev) := by
  unfold stepAt; rw [dif_neg h0, dif_neg h1, dif_neg h2]

/-! ## The region's invariant -/

/-- The class invariant with the scratch buffers as memrefs owned at some contents. -/
theorem PhiA1_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM8 fullShare d) ∗ (∃ d, owns (c : Thread nD τ) scM9 fullShare d) ∗ (∃ d, owns (c : Thread nD τ) scM10 fullShare d) ∗ (∃ d, owns (c : Thread nD τ) scM11 fullShare d) ∗ (∃ d, owns (c : Thread nD τ) scM12 fullShare d) ∗ (∃ d, owns (c : Thread nD τ) scM13 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM8, scM9, scM10, scM11, scM12, scM13, owns_whole]; try rfl

/-- The invariant before position `n`: before the first point every scoped buffer the region does not stage at
    anything; afterwards the six scratch buffers at the running state the point before left, the other scoped buffers
    at anything; the generator register at some state throughout. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM8 fullShare ((scrAt V c (n + 1) hn).1) ∗ owns (c : Thread nD τ) scM9 fullShare ((scrAt V c (n + 1) hn).2.1) ∗ owns (c : Thread nD τ) scM10 fullShare ((scrAt V c (n + 1) hn).2.2.1) ∗ owns (c : Thread nD τ) scM11 fullShare ((scrAt V c (n + 1) hn).2.2.2.1) ∗ owns (c : Thread nD τ) scM12 fullShare ((scrAt V c (n + 1) hn).2.2.2.2.1) ∗ owns (c : Thread nD τ) scM13 fullShare ((scrAt V c (n + 1) hn).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM8 fullShare ((scrAt V c (n + 1) hn).1) ∗ owns (c : Thread nD τ) scM9 fullShare ((scrAt V c (n + 1) hn).2.1) ∗ owns (c : Thread nD τ) scM10 fullShare ((scrAt V c (n + 1) hn).2.2.1) ∗ owns (c : Thread nD τ) scM11 fullShare ((scrAt V c (n + 1) hn).2.2.2.1) ∗ owns (c : Thread nD τ) scM12 fullShare ((scrAt V c (n + 1) hn).2.2.2.2.1) ∗ owns (c : Thread nD τ) scM13 fullShare ((scrAt V c (n + 1) hn).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM8 fullShare ((scrAt V c n h).1) ∗ owns (c : Thread nD τ) scM9 fullShare ((scrAt V c n h).2.1) ∗ owns (c : Thread nD τ) scM10 fullShare ((scrAt V c n h).2.2.1) ∗ owns (c : Thread nD τ) scM11 fullShare ((scrAt V c n h).2.2.2.1) ∗ owns (c : Thread nD τ) scM12 fullShare ((scrAt V c n h).2.2.2.2.1) ∗ owns (c : Thread nD τ) scM13 fullShare ((scrAt V c n h).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  cases n with
  | zero => exact absurd rfl hz
  | succ n => rfl

/-! ## The proof data -/

/-- The attention region's proof data on core `c`: the arrays as the region finds them; after the body at point `t`
    each input's buffer at its block and the output's at `outAt`; the invariant `PhiS`; the three input windows
    share one array, split into three shares; nothing owed. -/
def attnDat (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

theorem attnDat_A (c : Dev nD) (w : Fin cfg1.W) : (attnDat V c).A w = V c (Pipeline.arrRef spec1 w) := by
  dsimp only [attnDat]
theorem attnDat_Phi (c : Dev nD) (t : Fin cfg1.N) :
    (attnDat V c).Φ t.castSucc = PhiS V c t.val (Nat.le_of_lt t.isLt) := by
  dsimp only [attnDat]; simp only [Fin.coe_castSucc]
theorem attnDat_after0 (c : Dev nD) (t : Fin cfg1.N) : (attnDat V c).after 0 t = iblk1 V c 0 t := by dsimp only [attnDat]
theorem attnDat_after1 (c : Dev nD) (t : Fin cfg1.N) : (attnDat V c).after 1 t = iblk1 V c 1 t := by dsimp only [attnDat]
theorem attnDat_after2 (c : Dev nD) (t : Fin cfg1.N) : (attnDat V c).after 2 t = iblk1 V c 2 t := by dsimp only [attnDat]
theorem attnDat_after3 (c : Dev nD) (t : Fin cfg1.N) : (attnDat V c).after 3 t = outAt V c t := by dsimp only [attnDat]
theorem attnDat_before0 (c : Dev nD) (t : Fin cfg1.N) (d) : (attnDat V c).before 0 t d = iblk1 V c 0 t :=
  staged0_of V (attnDat V c) (attnDat_A V c 0) (attnDat_after0 V c) t d
theorem attnDat_before1 (c : Dev nD) (t : Fin cfg1.N) (d) : (attnDat V c).before 1 t d = iblk1 V c 1 t :=
  staged1_of V (attnDat V c) (attnDat_A V c 1) (attnDat_after1 V c) t d
theorem attnDat_before2 (c : Dev nD) (t : Fin cfg1.N) (d) : (attnDat V c).before 2 t d = iblk1 V c 2 t :=
  staged2_of V (attnDat V c) (attnDat_A V c 2) (attnDat_after2 V c) t d

end Cert.KernelIdeal.Attn

end
-- ==== Proof.AttnArrays.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import proofs.«126977_j57518202028698_2_alg».proof.Proof.AttnData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## The region's arrays, in and out of the core's unscoped buffers

The query, key and value windows read ONE array (the fused projections): it is held in three shares, one per window,
split off the whole buffer on entry and rejoined on exit; the output array is held whole. -/

theorem share_q (c : Dev nD) : (attnDat V c).share 0 = (fullShare : PosShare TreeShare).left := rfl
theorem share_k (c : Dev nD) : (attnDat V c).share 1 = (fullShare : PosShare TreeShare).right.left := rfl
theorem share_v (c : Dev nD) : (attnDat V c).share 2 = (fullShare : PosShare TreeShare).right.right := rfl
theorem share_o (c : Dev nD) : (attnDat V c).share 3 = fullShare := rfl

/-- The four windows' holdings at contents `G`, spelt over the two buffers behind them. -/
theorem arrays_spelt (c : Dev nD) (G : (w : Fin cfg1.W) → Buf (Elt F) ((cfg1.win w).arr.view.loc (c : Thread nD τ))) :
    ((attnDat V c).arrays G : sProp 𝕄)
      = iprop((((c : Thread nD τ).loc main_v4) ↦{(fullShare : PosShare TreeShare).left} G 0)
          ∗ (((c : Thread nD τ).loc main_v4) ↦{(fullShare : PosShare TreeShare).right.left} G 1)
          ∗ (((c : Thread nD τ).loc main_v4) ↦{(fullShare : PosShare TreeShare).right.right} G 2)
          ∗ (((c : Thread nD τ).loc main_v5) ↦{fullShare} G 3)) := by
  unfold Dat.arrays
  rw [bigSep_W1, (arr_whole1 0).set_eq_univ, (arr_whole1 3).set_eq_univ,
    share_q, share_k, share_v, share_o]

/-- The two buffers behind the four windows, whole at contents `V'`. -/
theorem arrBufs_spelt (c : Dev nD) (V' : (b : Ref sig .tc) → Buf (Elt F) ((c : Thread nD τ).loc b)) :
    (Pipeline.arrBufs (cfgs 1).spec c V' : sProp 𝕄)
      = iprop((((c : Thread nD τ).loc main_v4) ↦{fullShare} V' main_v4) ∗ (((c : Thread nD τ).loc main_v5) ↦{fullShare} V' main_v5)) := by
  unfold Pipeline.arrBufs
  rw [BI.bigSep_eq_bigSepL_of_eq [main_v4, main_v5] (by decide) (by decide)]; rfl

/-- ENTRY: the core's unscoped buffers at the entry contents are the region's arrays at their shares beside the rest. -/
theorem attn_arrays_in (c : Dev nD) :
    (unscopedBufs c (V c) : sProp 𝕄) ⊢ iprop((attnDat V c).arrays ((attnDat V c).arrAt · 0)
      ∗ Pipeline.unscopedRest (Ix := Unit) (Name := ℕ) (U := Pipeline.UD sig nD τ) (Lvl := ℕ) spec1 c (V c)) := by
  rw [Pipeline.unscopedBufs_split₀ cfgs 1 (by decide) c (V c), arrays_spelt]
  refine sep_mono ?_ .rfl
  rw [arrBufs_spelt]
  iintro ⟨H4, H5⟩
  ihave Hs := (pointsTo_share (PosShare.mem_left_op_right fullShare)).1 $$ H4
  icases Hs with ⟨Hl, Hr⟩
  ihave Hs2 := (pointsTo_share (PosShare.mem_left_op_right (fullShare : PosShare TreeShare).right)).1 $$ Hr
  icases Hs2 with ⟨Hrl, Hrr⟩
  isplitl [Hl]; · iexact Hl
  isplitl [Hrl]; · iexact Hrl
  isplitl [Hrr]; · iexact Hrr
  iexact H5

/-- EXIT: the arrays after the last write-back (the inputs as entered, their shares rejoined; the output at what the
    write-backs left) beside the rest are the core's unscoped buffers at any contents that have the output array there
    and agree with the entry contents elsewhere. -/
theorem attn_arrays_out (c : Dev nD) (V' : (b : Ref sig .tc) → Buf (Elt F) ((c : Thread nD τ).loc b))
    (hout : V' main_v5 = (attnDat V c).arrAt 3 cfg1.N) (hrest : ∀ b : Ref sig .tc, b ≠ main_v5 → V' b = V c b) :
    iprop((attnDat V c).arrays ((attnDat V c).arrAt · cfg1.N)
      ∗ Pipeline.unscopedRest (Ix := Unit) (Name := ℕ) (U := Pipeline.UD sig nD τ) (Lvl := ℕ) spec1 c (V c))
      ⊢ (unscopedBufs c V' : sProp 𝕄) := by
  rw [Pipeline.unscopedBufs_split₀ cfgs 1 (by decide) c V', arrays_spelt]
  refine sep_mono ?_ (Entails.of_eq ?_)
  · rw [arrBufs_spelt]
    rw [(attnDat V c).arrAt_in 0 rfl cfg1.N, (attnDat V c).arrAt_in 1 rfl cfg1.N, (attnDat V c).arrAt_in 2 rfl cfg1.N]
    iintro ⟨Hl, Hrl, Hrr, H5⟩
    ihave Hr := (pointsTo_share (PosShare.mem_left_op_right (fullShare : PosShare TreeShare).right)).2 $$ [Hrl Hrr]
    · isplitl [Hrl]; · iexact Hrl
      iexact Hrr
    ihave H4 := (pointsTo_share (PosShare.mem_left_op_right fullShare)).2 $$ [Hl Hr]
    · isplitl [Hl]; · iexact Hl
      iexact Hr
    isplitl [H4]
    · rw [hrest main_v4 (by decide)]; iexact H4
    rw [hout]; iexact H5
  · unfold Pipeline.unscopedRest
    exact bigSep_congr fun b hb => by
      rw [hrest b (fun e => (Finset.mem_sdiff.mp hb).2 (Finset.mem_image.mpr ⟨3, Finset.mem_univ _, e.symm⟩))]

end Cert.KernelIdeal.Attn

end
-- ==== Proof.AttnBody.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import proofs.«126977_j57518202028698_2_alg».proof.Proof.AttnData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## The body obligation, at a generic grid point -/

/-- What the body is called with at point `t`: the invariant, nothing owed, and each window's current staging buffer. -/
def bodyPre (c : Dev nD) (t : Fin cfg1.N) : sProp 𝕄 :=
  iprop((attnDat V c).Φ t.castSucc ∗ (attnDat V c).owesAt () t.castSucc
    ∗ (∃ d, owns (c : Thread nD τ) (ms1_0 t) fullShare ((attnDat V c).before 0 t d))
    ∗ (∃ d, owns (c : Thread nD τ) (ms1_1 t) fullShare ((attnDat V c).before 1 t d))
    ∗ (∃ d, owns (c : Thread nD τ) (ms1_2 t) fullShare ((attnDat V c).before 2 t d))
    ∗ (∃ d, owns (c : Thread nD τ) (ms1_3 t) fullShare ((attnDat V c).before 3 t d)))

/-- and what it returns. -/
def bodyPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t)

set_option maxHeartbeats 8000000 in
/-- The body at any grid point. The three input buffers hold their blocks; the closed forms of the three conditions say
    which of the five cases the point is in; that case's run applies. The invariant hands the body the six scratch buffers
    at the running state the point before left (at anything before the first point, where the state is reset) and takes
    them back at this point's state; the output buffer is handed back untouched off the last key tile and holds the
    two normalised halves at it; nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [attnDat_before0, attnDat_before1, attnDat_before2]
  rw [show (attnDat V c).owesAt () t.succ = (attnDat V c).owesAt () t.castSucc from rfl]
  rw [show (attnDat V c).Φ t.succ = PhiS V c (t.val + 1) t.isLt from rfl, PhiS_succ, scrAt_succ]
  rw [show (attnDat V c).leavesExact 0 t = owns (c : Thread nD τ) (ms1_0 t) fullShare ((attnDat V c).after 0 t) from by
    unfold Dat.leavesExact; rw [live_in0 t], attnDat_after0]
  rw [show (attnDat V c).leavesExact 1 t = owns (c : Thread nD τ) (ms1_1 t) fullShare ((attnDat V c).after 1 t) from by
    unfold Dat.leavesExact; rw [live_in1 t], attnDat_after1]
  rw [show (attnDat V c).leavesExact 2 t = owns (c : Thread nD τ) (ms1_2 t) fullShare ((attnDat V c).after 2 t) from by
    unfold Dat.leavesExact; rw [live_in2 t], attnDat_after2]
  have hN : t.val < 256 := lt_of_lt_of_eq t.isLt (show cfg1.N = 256 from N_1)
  by_cases h0 : t.val % 4 = 0
  · have h1 : t.val % 4 ≤ (t.val / 4) % 4 := by omega
    have h2 : ¬t.val % 4 = 3 := by omega
    by_cases hz : t.val = 0
    · rw [Dat.leavesExact_idle (attnDat V c) 3 t (idle_out t (fun h => h2 ((atLast_iff t).mp h))) (noFlush_out t (fun h => h2 ((atLast_iff t).mp h)))]
      rw [stepAt_first V c t _ h0 h1 h2]
      unfold leftFirst_sc8 leftFirst_sc9 leftFirst_sc10 leftFirst_sc11 leftFirst_sc12 leftFirst_sc13; (try dsimp only)
      rw [attnDat_Phi V c t, PhiS_zero V c _ _ hz, PhiA1_eq]
      iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)).2.2.2.2.2.2 _ Set.univ _)
      isplitl [H0]; · iexact H0
      isplitl [H1]; · iexact H1
      isplitl [H2]; · iexact H2
      isplitl [H3]; · iexact H3
      isplitl [HS8]; · iexact HS8
      isplitl [HS9]; · iexact HS9
      isplitl [HS10]; · iexact HS10
      isplitl [HS11]; · iexact HS11
      isplitl [HS12]; · iexact HS12
      isplitl [HS13]; · iexact HS13
      iintro ⟨H0, H1, H2, H3, ⟨%e8, HS8⟩, ⟨%e9, HS9⟩, ⟨%e10, HS10⟩, ⟨%e11, HS11⟩, ⟨%e12, HS12⟩, ⟨%e13, HS13⟩⟩
      isplitl [HR0 HR1 HR2 HR3 HR4 HR5 HS8 HS9 HS10 HS11 HS12 HS13 HQ0 HQ1 HQ2 HQ3 HQ4 Hg]
      · isplitl [HR0 HR1 HR2 HR3 HR4 HR5 HS8 HS9 HS10 HS11 HS12 HS13 HQ0 HQ1 HQ2 HQ3 HQ4]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS8]
          · unfold owns; iexists _; isplitr
            swap; · iexact HS8
            ipureintro; exact View.read_writes_of_cover _ _ _ _ _ (coverFirst_sc8 c _ _ _ _ _ _ _ _ _ _ _ _ _ _ _ _ _ _ _ _ _ _ _ _ _ _ _)
          isplitl [HS9]
          · unfold owns; iexists _; isplitr
            swap; · iexact HS9
            ipureintro; exact View.read_writes_of_cover _ _ _ _ _ (coverFirst_sc9 c _ _ _ _ _ _ _ _ _ _ _ _ _ _ _ _ _ _ _ _ _ _ _ _ _ _ _)
          isplitl [HS10]
          · unfold owns; iexists _; isplitr
            swap; · iexact HS10
            ipureintro; exact View.read_writes_of_cover _ _ _ _ _ (coverFirst_sc10 c _ _ _ _ _ _ _ _ _ _ _ _ _ _ _ _ _ _ _ _ _ _ _ _ _ _ _)
          isplitl [HS11]
          · unfold owns; iexists _; isplitr
            swap; · iexact HS11
            ipureintro; exact View.read_writes_of_cover _ _ _ _ _ (coverFirst_sc11 c _ _ _ _ _ _ _ _ _ _ _ _ _ _ _ _ _ _ _ _ _ _ _ _ _ _ _)
          isplitl [HS12]
          · unfold owns; iexists _; isplitr
            swap; · iexact HS12
            ipureintro; exact View.read_writes_of_cover _ _ _ _ _ (coverFirst_sc12 c _ _ _ _ _ _ _ _ _ _ _ _ _ _ _ _ _ _ _ _ _ _ _ _ _ _ _)
          isplitl [HS13]
          · unfold owns; iexists _; isplitr
            swap; · iexact HS13
            ipureintro; exact View.read_writes_of_cover _ _ _ _ _ (coverFirst_sc13 c _ _ _ _ _ _ _ _ _ _ _ _ _ _ _ _ _ _ _ _ _ _ _ _ _ _ _)
          isplitl [HQ0]; · iexact HQ0
          isplitl [HQ1]; · iexact HQ1
          isplitl [HQ2]; · iexact HQ2
          isplitl [HQ3]; · iexact HQ3
          iexact HQ4
        iexact Hg
      isplitl [Ho]; · iexact Ho
      isplitl [H0]; · iexact H0
      isplitl [H1]; · iexact H1
      isplitl [H2]; · iexact H2
      iexists _; iexact H3
    · rw [Dat.leavesExact_idle (attnDat V c) 3 t (idle_out t (fun h => h2 ((atLast_iff t).mp h))) (noFlush_out t (fun h => h2 ((atLast_iff t).mp h)))]
      rw [stepAt_first V c t _ h0 h1 h2]
      unfold leftFirst_sc8 leftFirst_sc9 leftFirst_sc10 leftFirst_sc11 leftFirst_sc12 leftFirst_sc13; (try dsimp only)
      rw [attnDat_Phi V c t, PhiS_pos V c _ _ hz]
      iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)).2.2.2.2.2.2 _ Set.univ _)
      isplitl [H0]; · iexact H0
      isplitl [H1]; · iexact H1
      isplitl [H2]; · iexact H2
      isplitl [H3]; · iexact H3
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      iintro ⟨H0, H1, H2, H3, ⟨%e8, HS8⟩, ⟨%e9, HS9⟩, ⟨%e10, HS10⟩, ⟨%e11, HS11⟩, ⟨%e12, HS12⟩, ⟨%e13, HS13⟩⟩
      isplitl [HR0 HR1 HR2 HR3 HR4 HR5 HS8 HS9 HS10 HS11 HS12 HS13 HQ0 HQ1 HQ2 HQ3 HQ4 Hg]
      · isplitl [HR0 HR1 HR2 HR3 HR4 HR5 HS8 HS9 HS10 HS11 HS12 HS13 HQ0 HQ1 HQ2 HQ3 HQ4]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS8]
          · unfold owns; iexists _; isplitr
            swap; · iexact HS8
            ipureintro; exact View.read_writes_of_cover _ _ _ _ _ (coverFirst_sc8 c _ _ _ _ _ _ _ _ _ _ _ _ _ _ _ _ _ _ _ _ _ _ _ _ _ _ _)
          isplitl [HS9]
          · unfold owns; iexists _; isplitr
            swap; · iexact HS9
            ipureintro; exact View.read_writes_of_cover _ _ _ _ _ (coverFirst_sc9 c _ _ _ _ _ _ _ _ _ _ _ _ _ _ _ _ _ _ _ _ _ _ _ _ _ _ _)
          isplitl [HS10]
          · unfold owns; iexists _; isplitr
            swap; · iexact HS10
            ipureintro; exact View.read_writes_of_cover _ _ _ _ _ (coverFirst_sc10 c _ _ _ _ _ _ _ _ _ _ _ _ _ _ _ _ _ _ _ _ _ _ _ _ _ _ _)
          isplitl [HS11]
          · unfold owns; iexists _; isplitr
            swap; · iexact HS11
            ipureintro; exact View.read_writes_of_cover _ _ _ _ _ (coverFirst_sc11 c _ _ _ _ _ _ _ _ _ _ _ _ _ _ _ _ _ _ _ _ _ _ _ _ _ _ _)
          isplitl [HS12]
          · unfold owns; iexists _; isplitr
            swap; · iexact HS12
            ipureintro; exact View.read_writes_of_cover _ _ _ _ _ (coverFirst_sc12 c _ _ _ _ _ _ _ _ _ _ _ _ _ _ _ _ _ _ _ _ _ _ _ _ _ _ _)
          isplitl [HS13]
          · unfold owns; iexists _; isplitr
            swap; · iexact HS13
            ipureintro; exact View.read_writes_of_cover _ _ _ _ _ (coverFirst_sc13 c _ _ _ _ _ _ _ _ _ _ _ _ _ _ _ _ _ _ _ _ _ _ _ _ _ _ _)
          isplitl [HQ0]; · iexact HQ0
          isplitl [HQ1]; · iexact HQ1
          isplitl [HQ2]; · iexact HQ2
          isplitl [HQ3]; · iexact HQ3
          iexact HQ4
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 ≤ (t.val / 4) % 4
    · by_cases h2 : t.val % 4 = 3
      · rw [show (attnDat V c).leavesExact 3 t = owns (c : Thread nD τ) (ms1_3 t) fullShare ((attnDat V c).after 3 t) from by
          unfold Dat.leavesExact; rw [live_out t ((atLast_iff t).mpr h2)], attnDat_after3]
        unfold outAt
        rw [stepAt_last V c t _ h0 h1 h2]
        unfold leftLast_sc8 leftLast_sc9 leftLast_sc10 leftLast_sc11 leftLast_sc12 leftLast_sc13 leftLast_out; (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runLast c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) _ _ _ _ _ _).2.2.2.2.2.2.2 Set.univ _)
        isplitl [H0]; · iexact H0
        isplitl [H1]; · iexact H1
        isplitl [H2]; · iexact H2
        isplitl [H3]; · iexists _; iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, ⟨%e3, H3⟩, ⟨%e8, HS8⟩, ⟨%e9, HS9⟩, ⟨%e10, HS10⟩, ⟨%e11, HS11⟩, ⟨%e12, HS12⟩, ⟨%e13, HS13⟩⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]
            · unfold owns; iexists _; isplitr
              swap; · iexact HS8
              ipureintro; exact View.read_writes_of_cover _ _ _ _ _ (coverLast_sc8 c _ _ _ _ _ _ _ _ _ _ _ _ _ _ _ _ _ _ _ _ _ _ _ _ _ _ _ _ _ _ _ _ _)
            isplitl [HS9]
            · unfold owns; iexists _; isplitr
              swap; · iexact HS9
              ipureintro; exact View.read_writes_of_cover _ _ _ _ _ (coverLast_sc9 c _ _ _ _ _ _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (coverLast_sc10 c _ _ _ _ _ _ _ _ _ _ _ _ _ _ _ _ _ _ _ _ _ _ _ _ _ _ _ _ _ _ _ _ _)
            isplitl [HS11]
            · unfold owns; iexists _; isplitr
              swap; · iexact HS11
              ipureintro; exact View.read_writes_of_cover _ _ _ _ _ (coverLast_sc11 c _ _ _ _ _ _ _ _ _ _ _ _ _ _ _ _ _ _ _ _ _ _ _ _ _ _ _ _ _ _ _ _ _)
            isplitl [HS12]
            · unfold owns; iexists _; isplitr
              swap; · iexact HS12
              ipureintro; exact View.read_writes_of_cover _ _ _ _ _ (coverLast_sc12 c _ _ _ _ _ _ _ _ _ _ _ _ _ _ _ _ _ _ _ _ _ _ _ _ _ _ _ _ _ _ _ _ _)
            isplitl [HS13]
            · unfold owns; iexists _; isplitr
              swap; · iexact HS13
              ipureintro; exact View.read_writes_of_cover _ _ _ _ _ (coverLast_sc13 c _ _ _ _ _ _ _ _ _ _ _ _ _ _ _ _ _ _ _ _ _ _ _ _ _ _ _ _ _ _ _ _ _)
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLast_out c _ _ _ _ _ _ _ _ _ _ _ _ _ _ _ _ _ _ _ _ _ _ _ _ _ _ _ _ _ _ _ _ _)
      · rw [Dat.leavesExact_idle (attnDat V c) 3 t (idle_out t (fun h => h2 ((atLast_iff t).mp h))) (noFlush_out t (fun h => h2 ((atLast_iff t).mp h)))]
        rw [stepAt_mid V c t _ h0 h1 h2]
        unfold leftMid_sc8 leftMid_sc9 leftMid_sc10 leftMid_sc11 leftMid_sc12 leftMid_sc13; (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runMid c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) _ _ _ _ _ _).2.2.2.2.2.2 _ Set.univ _)
        isplitl [H0]; · iexact H0
        isplitl [H1]; · iexact H1
        isplitl [H2]; · iexact H2
        isplitl [H3]; · iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, H3, ⟨%e8, HS8⟩, ⟨%e9, HS9⟩, ⟨%e10, HS10⟩, ⟨%e11, HS11⟩, ⟨%e12, HS12⟩, ⟨%e13, HS13⟩⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]
            · unfold owns; iexists _; isplitr
              swap; · iexact HS8
              ipureintro; exact View.read_writes_of_cover _ _ _ _ _ (coverMid_sc8 c _ _ _ _ _ _ _ _ _ _ _ _ _ _ _ _ _ _ _ _ _ _ _ _ _ _ _ _ _ _ _ _ _)
            isplitl [HS9]
            · unfold owns; iexists _; isplitr
              swap; · iexact HS9
              ipureintro; exact View.read_writes_of_cover _ _ _ _ _ (coverMid_sc9 c _ _ _ _ _ _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (coverMid_sc10 c _ _ _ _ _ _ _ _ _ _ _ _ _ _ _ _ _ _ _ _ _ _ _ _ _ _ _ _ _ _ _ _ _)
            isplitl [HS11]
            · unfold owns; iexists _; isplitr
              swap; · iexact HS11
              ipureintro; exact View.read_writes_of_cover _ _ _ _ _ (coverMid_sc11 c _ _ _ _ _ _ _ _ _ _ _ _ _ _ _ _ _ _ _ _ _ _ _ _ _ _ _ _ _ _ _ _ _)
            isplitl [HS12]
            · unfold owns; iexists _; isplitr
              swap; · iexact HS12
              ipureintro; exact View.read_writes_of_cover _ _ _ _ _ (coverMid_sc12 c _ _ _ _ _ _ _ _ _ _ _ _ _ _ _ _ _ _ _ _ _ _ _ _ _ _ _ _ _ _ _ _ _)
            isplitl [HS13]
            · unfold owns; iexists _; isplitr
              swap; · iexact HS13
              ipureintro; exact View.read_writes_of_cover _ _ _ _ _ (coverMid_sc13 c _ _ _ _ _ _ _ _ _ _ _ _ _ _ _ _ _ _ _ _ _ _ _ _ _ _ _ _ _ _ _ _ _)
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        iexists _; iexact H3
    · by_cases h2 : t.val % 4 = 3
      · rw [show (attnDat V c).leavesExact 3 t = owns (c : Thread nD τ) (ms1_3 t) fullShare ((attnDat V c).after 3 t) from by
          unfold Dat.leavesExact; rw [live_out t ((atLast_iff t).mpr h2)], attnDat_after3]
        unfold outAt
        rw [stepAt_lastSkip V c t _ h0 h1 h2]
        unfold leftLastSkip_out; (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runLastSkip c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) ((atLast_iff t).mpr h2) (iblk1 V c 0 t) (iblk1 V c 1 t) (iblk1 V c 2 t) _ _ _ _ _ _).2 Set.univ _)
        isplitl [H0]; · iexact H0
        isplitl [H1]; · iexact H1
        isplitl [H2]; · iexact H2
        isplitl [H3]; · iexists _; iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, ⟨%e3, H3⟩, HS8, HS9, HS10, HS11, HS12, HS13⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]; · iexact HS8
            isplitl [HS9]; · iexact HS9
            isplitl [HS10]; · iexact HS10
            isplitl [HS11]; · iexact HS11
            isplitl [HS12]; · iexact HS12
            isplitl [HS13]; · iexact HS13
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastSkip_out c _ _ _ _ _ _ _ _ _ _ _ _ _ _ _ _ _ _ _ _ _ _ _ _ _ _ _ _ _ _ _ _ _)
      · rw [Dat.leavesExact_idle (attnDat V c) 3 t (idle_out t (fun h => h2 ((atLast_iff t).mp h))) (noFlush_out t (fun h => h2 ((atLast_iff t).mp h)))]
        rw [stepAt_skip V c t _ h0 h1 h2]
        (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runSkip c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) (fun h => h2 ((atLast_iff t).mp h)) (iblk1 V c 0 t) (iblk1 V c 1 t) (iblk1 V c 2 t) _ _ _ _ _ _) _ Set.univ _)
        isplitl [H0]; · iexact H0
        isplitl [H1]; · iexact H1
        isplitl [H2]; · iexact H2
        isplitl [H3]; · iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, H3, HS8, HS9, HS10, HS11, HS12, HS13⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]; · iexact HS8
            isplitl [HS9]; · iexact HS9
            isplitl [HS10]; · iexact HS10
            isplitl [HS11]; · iexact HS11
            isplitl [HS12]; · iexact HS12
            isplitl [HS13]; · iexact HS13
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        iexists _; iexact H3

end Cert.KernelIdeal.Attn

end
-- ==== Proof.AttnOblig.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import proofs.«126977_j57518202028698_2_alg».proof.Proof.AttnData
import proofs.«126977_j57518202028698_2_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- The library's body obligation, at every grid point. -/
theorem attn_body_obligation (c : Dev nD) : BodyObligation (attnDat (F := F) V c) (defs₀ (F := F)) Variants.none () Set.univ := fun t => by
  rw [bigSep_W1, bigSep_W1]
  exact sound_body V c t

/-- What the launch hands the region is the invariant before the first point. -/
theorem attn_hin (c : Dev nD) : Pipeline.ΦA spec1 c ⊢ (attnDat V c).Φ 0 := by
  rw [show (attnDat V c).Φ 0 = PhiS V c 0 (Nat.zero_le _) from rfl, PhiS_zero V c 0 _ rfl]
  try exact Idealize.SL.BI.Entails.refl _

/-- After any point but the first the invariant gives the class invariant back: the running state's contents are forgotten. -/
theorem attn_Phi_out (c : Dev nD) (t : Fin (cfg1.N + 1)) (ht : t.val ≠ 0) : (attnDat V c).Φ t ⊢ Pipeline.ΦA spec1 c := by
  rw [show (attnDat V c).Φ t = PhiS V c t.val (Nat.le_of_lt_succ t.isLt) from rfl, PhiS_pos V c _ _ ht, PhiA1_eq]
  iintro ⟨⟨HR0, HR1, HR2, HR3, HR4, HR5, HS8, HS9, HS10, HS11, HS12, HS13, HQ0, HQ1, HQ2, HQ3, HQ4⟩, Hg⟩
  isplitl [HR0 HR1 HR2 HR3 HR4 HR5 HS8 HS9 HS10 HS11 HS12 HS13 HQ0 HQ1 HQ2 HQ3 HQ4]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HQ0]; · iexact HQ0
    isplitl [HQ1]; · iexact HQ1
    isplitl [HQ2]; · iexact HQ2
    isplitl [HQ3]; · iexact HQ3
    iexact HQ4
  iexact Hg

/-- The same after the last point. -/
theorem attn_hout (c : Dev nD) : (attnDat V c).Φ (Fin.last cfg1.N) ⊢ Pipeline.ΦA spec1 c :=
  attn_Phi_out V c _ (by rw [Fin.val_last]; have : cfg1.N = 256 := N_1; omega)

end Cert.KernelIdeal.Attn

end
-- ==== Proof.LinRegion0.lean ====
/- The first linear kernel of @main: the projection to q, k and v, a [4096,1024] by [3072,1024]ᵀ product computed one
   1024×1024 block of the result at a time, read here as one pipeline region entered at arbitrary buffer contents V.

   At each grid point the pipeline hands the body three whole staging buffers: a block of the left factor (f32), a block of
   the right factor (bf16) and the block of the result (bf16). The body reads the two factor blocks whole, forms one
   product block (the skeleton's payload k0_pay1: round the left block, transpose the right block, multiply into a zero
   accumulator, round) and stores it over the whole result buffer. Stated below: what the two factor buffers hold at every
   point, what the result buffer holds after the body, the body's triple, and the region's proof data with its body
   obligation. -/
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The blocks the grid points work on -/

/-- The block of window w at grid point t, cut out of the window's array as the region finds it. -/
def qkvBlockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the point's block of the left factor at EVERY point — also at a point
    where the pipeline did not fetch it, because then the block index has not moved since the last fetch. For any
    proof data over V's arrays whose body leaves that buffer as it found it. -/
theorem qkv_left_staged_of {c : Dev nD} (dat : Dat τ (Elt F) Unit ℕ (Pipeline.UD sig nD τ) ℕ cfg0 c)
    (hA : dat.A 0 = V c (Pipeline.arrRef spec0 0)) (hkept : ∀ t, dat.after 0 t = qkvBlockAt V c 0 t)
    (t : Fin cfg0.N) (d) : dat.before 0 t d = qkvBlockAt V c 0 t := by
  have keep : ∀ t, (cfg0.win 0).cut (cfg0.grid.coords t) (dat.after 0 t) = dat.blockOf 0 t := fun t => by
    rw [hkept]; unfold Dat.blockOf qkvBlockAt; rw [hA]; try rfl
  rw [dat.before_in_eq_fetched 0 rfl (fun _ => rfl) (fun _ _ _ => rfl) keep t d]
  unfold Dat.fetched Dat.blockOf qkvBlockAt; rw [hA]; try rfl

/-- The same for the right factor's staging buffer. -/
theorem qkv_right_staged_of {c : Dev nD} (dat : Dat τ (Elt F) Unit ℕ (Pipeline.UD sig nD τ) ℕ cfg0 c)
    (hA : dat.A 1 = V c (Pipeline.arrRef spec0 1)) (hkept : ∀ t, dat.after 1 t = qkvBlockAt V c 1 t)
    (t : Fin cfg0.N) (d) : dat.before 1 t d = qkvBlockAt V c 1 t := by
  have keep : ∀ t, (cfg0.win 1).cut (cfg0.grid.coords t) (dat.after 1 t) = dat.blockOf 1 t := fun t => by
    rw [hkept]; unfold Dat.blockOf qkvBlockAt; rw [hA]; try rfl
  rw [dat.before_in_eq_fetched 1 rfl (fun _ => rfl) (fun _ _ _ => rfl) keep t d]
  unfold Dat.fetched Dat.blockOf qkvBlockAt; rw [hA]; try rfl

/-! ## The product block -/

/-- The rectangle of every access the body makes: the whole 1024×1024 buffer. -/
abbrev qkvTile : Rect S1024x1024 := Rect.unit (s := S1024x1024) ![0, 0] S1024x1024.size inb_S1024x1024_S1024x1024_0_0

/-- What the body leaves in the result's staging buffer, from the two factor blocks x and w: its one store, whose
    value is the payload k0_pay1 of the two loads. -/
def qkvProd (x : Vec F S1024x1024 .f32) (w : Vec F S1024x1024 .bf16) : Vec F S1024x1024 .bf16 :=
  View.canon [⟨qkvTile, k0_pay1 (View.ld x qkvTile) (View.ld w qkvTile)⟩]

/-- The one store covers the buffer: its rectangle is the whole shape. -/
theorem qkvProd_covers (p : qkvTile.shape.Idx → Elt F .bf16) (y : S1024x1024.Idx) :
    ∃ pc ∈ ([⟨qkvTile, p⟩] : List (View.Piece (Elt F) S1024x1024 .bf16)), y ∈ pc.1.set :=
  ⟨_, List.mem_singleton_self _, View.mem_set_unit_zero (by funext a; fin_cases a <;> rfl) inb_S1024x1024_S1024x1024_0_0 y⟩

/-! ## The body's triple -/

set_option maxHeartbeats 1000000 in
/-- The kernel body on three whole staging memrefs — the factors' holding x and w, the result's holding anything —
    runs to a continuation that is handed the factors' buffers unchanged and the result's holding the product block. -/
theorem qkv_kernel_triple (c : Dev nD) (E : Set ℕ) (i : grid0.Coords)
    (ax : Memref sig .tc .vmem S1024x1024 .f32) (hax : ax.IsWhole)
    (aw : Memref sig .tc .vmem S1024x1024 .bf16) (haw : aw.IsWhole)
    (ay : Memref sig .tc .vmem S1024x1024 .bf16) (hay : ay.IsWhole)
    (x : Vec F S1024x1024 .f32) (w : Vec F S1024x1024 .bf16) (K : PUnit → sProp 𝕄) :
    iprop(owns (c : Thread nD τ) ax fullShare x ∗ owns (c : Thread nD τ) aw fullShare w
        ∗ (∃ d, owns (c : Thread nD τ) ay fullShare d)
        ∗ (iprop(owns (c : Thread nD τ) ax fullShare x ∗ owns (c : Thread nD τ) aw fullShare w
            ∗ owns (c : Thread nD τ) ay fullShare (qkvProd x w)) -∗ K ⟨⟩))
      ⊢ wp frame (wpE (defs₀ (F := F)) Variants.none c none) E (cc0__linear_kernel i ax hax aw haw ay hay) K := by
  simp only [cc0__linear_kernel_eq_skeleton]; unfold cc0__linear_kernel_skel
  unfold owns
  iintro ⟨⟨%fx, %hfx, Hx⟩, ⟨%fw, %hfw, Hw⟩, ⟨%d, %fy, -, Hy⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (qkvProd_covers _)

/-! ## The region's proof data -/

/-- The proof data of the region on core c. The windows' arrays are as the region finds them (V); after the body at
    point t the two factor buffers hold their blocks still and the result's holds the product of the two blocks; the
    invariant is the untouched rest of the core's scoped memory and its generator register; every share is full and
    nothing is owed. -/
def qkvDat (c : Dev nD) : Dat τ (Elt F) Unit ℕ (Pipeline.UD sig nD τ) ℕ cfg0 c where
  A w := V c (Pipeline.arrRef spec0 w)
  after w t := match w with
    | ⟨0, _⟩ => qkvBlockAt V c 0 t
    | ⟨1, _⟩ => qkvBlockAt V c 1 t
    | ⟨2, _⟩ => qkvProd (qkvBlockAt V c 0 t) (qkvBlockAt V c 1 t)
  Φ _ := Pipeline.ΦA spec0 c
  q _ := fullShare
  owed _ := 0

/-- Its arrays are the contents at entry. -/
theorem qkvDat_A (c : Dev nD) (w : Fin cfg0.W) : (qkvDat V c).A w = V c (Pipeline.arrRef spec0 w) := by
  dsimp only [qkvDat]

/-- What the body leaves in each window's buffer. -/
theorem qkvDat_after_left (c : Dev nD) (t : Fin cfg0.N) : (qkvDat V c).after 0 t = qkvBlockAt V c 0 t := by
  dsimp only [qkvDat]
theorem qkvDat_after_right (c : Dev nD) (t : Fin cfg0.N) : (qkvDat V c).after 1 t = qkvBlockAt V c 1 t := by
  dsimp only [qkvDat]
theorem qkvDat_after_out (c : Dev nD) (t : Fin cfg0.N) :
    (qkvDat V c).after 2 t = qkvProd (qkvBlockAt V c 0 t) (qkvBlockAt V c 1 t) := by
  dsimp only [qkvDat]

/-- What the body finds in the two factor buffers: their blocks, at every point. -/
theorem qkvDat_before_left (c : Dev nD) (t : Fin cfg0.N) (d) : (qkvDat V c).before 0 t d = qkvBlockAt V c 0 t :=
  qkv_left_staged_of V (qkvDat V c) (qkvDat_A V c 0) (qkvDat_after_left V c) t d
theorem qkvDat_before_right (c : Dev nD) (t : Fin cfg0.N) (d) : (qkvDat V c).before 1 t d = qkvBlockAt V c 1 t :=
  qkv_right_staged_of V (qkvDat V c) (qkvDat_A V c 1) (qkvDat_after_right V c) t d

/-! ## The body obligation -/

/-- What the body is entered with at point t: the invariant, the core's dues, and the three current staging
    buffers at what the proof data say they hold before the body. -/
def qkvBodyPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d)))

/-- What it must return: the same with the buffers at what the proof data say the body leaves. -/
def qkvBodyPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t))

/-- The body at any point: the factor buffers hold their blocks, so the kernel's triple applies; the invariant and
    the dues are not touched. -/
theorem qkv_body_triple (c : Dev nD) (t : Fin cfg0.N) :
    qkvBodyPre V c t ⊢ wp frame (wpE (defs₀ (F := F)) Variants.none c none) Set.univ (bodyAt0 t) (fun _ => qkvBodyPost V c t) := by
  unfold qkvBodyPre qkvBodyPost bodyAt0
  simp only [qkvDat_before_left, qkvDat_before_right]
  rw [show (qkvDat V c).Φ t.succ = (qkvDat V c).Φ t.castSucc from rfl,
    show (qkvDat V c).owesAt () t.succ = (qkvDat V c).owesAt () t.castSucc from rfl,
    qkvDat_after_left, qkvDat_after_right, qkvDat_after_out]
  iintro ⟨HΦ, Ho, ⟨%dx, Hx⟩, ⟨%dw, Hw⟩, ⟨%dy, Hy⟩⟩
  iapply (qkv_kernel_triple c Set.univ (grid0.coords t) _ _ _ _ _ _ (qkvBlockAt V c 0 t) (qkvBlockAt V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

/-- The body obligation of the region's launch theorem, at every point. -/
theorem qkv_body_obligation (c : Dev nD) :
    BodyObligation (qkvDat (F := F) V c) (defs₀ (F := F)) Variants.none () Set.univ := fun t => by
  rw [bigSep_W0, bigSep_W0]
  exact qkv_body_triple V c t

end Cert.KernelIdeal.Lin

end
-- ==== Proof.LinRegion2.lean ====
/- The second linear kernel of @main: the output projection, a [4096,1024] by [1024,1024]ᵀ product computed one
   1024×1024 block of the result at a time, read here as one pipeline region entered at arbitrary buffer contents V.

   At each grid point the pipeline hands the body three whole staging buffers: a block of the left factor (bf16), the
   right factor (bf16; it is a single block, staged once in its one buffer) and the block of the result (f32). The body
   reads the two factor blocks whole, forms one product block (the skeleton's payload k2_pay1: transpose the right
   block, multiply into a zero accumulator) and stores it over the whole result buffer. Stated below: what the two factor
   buffers hold at every point, what the result buffer holds after the body, the body's triple, and the region's proof
   data with its body obligation. -/
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The blocks the grid points work on -/

/-- The block of window w at grid point t, cut out of the window's array as the region finds it. -/
def projBlockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds the point's block of the left factor at EVERY point — also at a point
    where the pipeline did not fetch it, because then the block index has not moved since the last fetch. For any
    proof data over V's arrays whose body leaves that buffer as it found it. -/
theorem proj_left_staged_of {c : Dev nD} (dat : Dat τ (Elt F) Unit ℕ (Pipeline.UD sig nD τ) ℕ cfg2 c)
    (hA : dat.A 0 = V c (Pipeline.arrRef spec2 0)) (hkept : ∀ t, dat.after 0 t = projBlockAt V c 0 t)
    (t : Fin cfg2.N) (d) : dat.before 0 t d = projBlockAt V c 0 t := by
  have keep : ∀ t, (cfg2.win 0).cut (cfg2.grid.coords t) (dat.after 0 t) = dat.blockOf 0 t := fun t => by
    rw [hkept]; unfold Dat.blockOf projBlockAt; rw [hA]; try rfl
  rw [dat.before_in_eq_fetched 0 rfl (fun _ => rfl) (fun _ _ _ => rfl) keep t d]
  unfold Dat.fetched Dat.blockOf projBlockAt; rw [hA]; try rfl

/-- The same for the right factor's staging buffer. -/
theorem proj_right_staged_of {c : Dev nD} (dat : Dat τ (Elt F) Unit ℕ (Pipeline.UD sig nD τ) ℕ cfg2 c)
    (hA : dat.A 1 = V c (Pipeline.arrRef spec2 1)) (hkept : ∀ t, dat.after 1 t = projBlockAt V c 1 t)
    (t : Fin cfg2.N) (d) : dat.before 1 t d = projBlockAt V c 1 t := by
  have keep : ∀ t, (cfg2.win 1).cut (cfg2.grid.coords t) (dat.after 1 t) = dat.blockOf 1 t := fun t => by
    rw [hkept]; unfold Dat.blockOf projBlockAt; rw [hA]; try rfl
  rw [dat.before_in_eq_fetched 1 rfl (fun _ => rfl) (fun _ _ _ => rfl) keep t d]
  unfold Dat.fetched Dat.blockOf projBlockAt; rw [hA]; try rfl

/-! ## The product block -/

/-- The rectangle of every access the body makes: the whole 1024×1024 buffer. -/
abbrev projTile : Rect S1024x1024 := Rect.unit (s := S1024x1024) ![0, 0] S1024x1024.size inb_S1024x1024_S1024x1024_0_0

/-- What the body leaves in the result's staging buffer, from the two factor blocks x and w: its one store, whose
    value is the payload k2_pay1 of the two loads. -/
def projProd (x : Vec F S1024x1024 .bf16) (w : Vec F S1024x1024 .bf16) : Vec F S1024x1024 .f32 :=
  View.canon [⟨projTile, k2_pay1 (View.ld x projTile) (View.ld w projTile)⟩]

/-- The one store covers the buffer: its rectangle is the whole shape. -/
theorem projProd_covers (p : projTile.shape.Idx → Elt F .f32) (y : S1024x1024.Idx) :
    ∃ pc ∈ ([⟨projTile, p⟩] : List (View.Piece (Elt F) S1024x1024 .f32)), y ∈ pc.1.set :=
  ⟨_, List.mem_singleton_self _, View.mem_set_unit_zero (by funext a; fin_cases a <;> rfl) inb_S1024x1024_S1024x1024_0_0 y⟩

/-! ## The body's triple -/

set_option maxHeartbeats 1000000 in
/-- The kernel body on three whole staging memrefs — the factors' holding x and w, the result's holding anything —
    runs to a continuation that is handed the factors' buffers unchanged and the result's holding the product block. -/
theorem proj_kernel_triple (c : Dev nD) (E : Set ℕ) (i : grid2.Coords)
    (ax : Memref sig .tc .vmem S1024x1024 .bf16) (hax : ax.IsWhole)
    (aw : Memref sig .tc .vmem S1024x1024 .bf16) (haw : aw.IsWhole)
    (ay : Memref sig .tc .vmem S1024x1024 .f32) (hay : ay.IsWhole)
    (x : Vec F S1024x1024 .bf16) (w : Vec F S1024x1024 .bf16) (K : PUnit → sProp 𝕄) :
    iprop(owns (c : Thread nD τ) ax fullShare x ∗ owns (c : Thread nD τ) aw fullShare w
        ∗ (∃ d, owns (c : Thread nD τ) ay fullShare d)
        ∗ (iprop(owns (c : Thread nD τ) ax fullShare x ∗ owns (c : Thread nD τ) aw fullShare w
            ∗ owns (c : Thread nD τ) ay fullShare (projProd x w)) -∗ K ⟨⟩))
      ⊢ wp frame (wpE (defs₀ (F := F)) Variants.none c none) E (cc2__linear_kernel i ax hax aw haw ay hay) K := by
  simp only [cc2__linear_kernel_eq_skeleton]; unfold cc2__linear_kernel_skel
  unfold owns
  iintro ⟨⟨%fx, %hfx, Hx⟩, ⟨%fw, %hfw, Hw⟩, ⟨%d, %fy, -, Hy⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (projProd_covers _)

/-! ## The region's proof data -/

/-- The proof data of the region on core c. The windows' arrays are as the region finds them (V); after the body at
    point t the two factor buffers hold their blocks still and the result's holds the product of the two blocks; the
    invariant is the untouched rest of the core's scoped memory and its generator register; every share is full and
    nothing is owed. -/
def projDat (c : Dev nD) : Dat τ (Elt F) Unit ℕ (Pipeline.UD sig nD τ) ℕ cfg2 c where
  A w := V c (Pipeline.arrRef spec2 w)
  after w t := match w with
    | ⟨0, _⟩ => projBlockAt V c 0 t
    | ⟨1, _⟩ => projBlockAt V c 1 t
    | ⟨2, _⟩ => projProd (projBlockAt V c 0 t) (projBlockAt V c 1 t)
  Φ _ := Pipeline.ΦA spec2 c
  q _ := fullShare
  owed _ := 0

/-- Its arrays are the contents at entry. -/
theorem projDat_A (c : Dev nD) (w : Fin cfg2.W) : (projDat V c).A w = V c (Pipeline.arrRef spec2 w) := by
  dsimp only [projDat]

/-- What the body leaves in each window's buffer. -/
theorem projDat_after_left (c : Dev nD) (t : Fin cfg2.N) : (projDat V c).after 0 t = projBlockAt V c 0 t := by
  dsimp only [projDat]
theorem projDat_after_right (c : Dev nD) (t : Fin cfg2.N) : (projDat V c).after 1 t = projBlockAt V c 1 t := by
  dsimp only [projDat]
theorem projDat_after_out (c : Dev nD) (t : Fin cfg2.N) :
    (projDat V c).after 2 t = projProd (projBlockAt V c 0 t) (projBlockAt V c 1 t) := by
  dsimp only [projDat]

/-- What the body finds in the two factor buffers: their blocks, at every point. -/
theorem projDat_before_left (c : Dev nD) (t : Fin cfg2.N) (d) : (projDat V c).before 0 t d = projBlockAt V c 0 t :=
  proj_left_staged_of V (projDat V c) (projDat_A V c 0) (projDat_after_left V c) t d
theorem projDat_before_right (c : Dev nD) (t : Fin cfg2.N) (d) : (projDat V c).before 1 t d = projBlockAt V c 1 t :=
  proj_right_staged_of V (projDat V c) (projDat_A V c 1) (projDat_after_right V c) t d

/-! ## The body obligation -/

/-- What the body is entered with at point t: the invariant, the core's dues, and the three current staging
    buffers at what the proof data say they hold before the body. -/
def projBodyPre (c : Dev nD) (t : Fin cfg2.N) : sProp 𝕄 :=
  iprop((projDat V c).Φ t.castSucc ∗ (projDat V c).owesAt () t.castSucc
    ∗ (∃ d, owns (c : Thread nD τ) (st2_0 t) fullShare ((projDat V c).before 0 t d))
    ∗ (∃ d, owns (c : Thread nD τ) (st2_1 t) fullShare ((projDat V c).before 1 t d))
    ∗ (∃ d, owns (c : Thread nD τ) (st2_2 t) fullShare ((projDat V c).before 2 t d)))

/-- What it must return: the same with the buffers at what the proof data say the body leaves. -/
def projBodyPost (c : Dev nD) (t : Fin cfg2.N) : sProp 𝕄 :=
  iprop((projDat V c).Φ t.succ ∗ (projDat V c).owesAt () t.succ
    ∗ owns (c : Thread nD τ) (st2_0 t) fullShare ((projDat V c).after 0 t)
    ∗ owns (c : Thread nD τ) (st2_1 t) fullShare ((projDat V c).after 1 t)
    ∗ owns (c : Thread nD τ) (st2_2 t) fullShare ((projDat V c).after 2 t))

/-- The body at any point: the factor buffers hold their blocks, so the kernel's triple applies; the invariant and
    the dues are not touched. -/
theorem proj_body_triple (c : Dev nD) (t : Fin cfg2.N) :
    projBodyPre V c t ⊢ wp frame (wpE (defs₀ (F := F)) Variants.none c none) Set.univ (bodyAt2 t) (fun _ => projBodyPost V c t) := by
  unfold projBodyPre projBodyPost bodyAt2
  simp only [projDat_before_left, projDat_before_right]
  rw [show (projDat V c).Φ t.succ = (projDat V c).Φ t.castSucc from rfl,
    show (projDat V c).owesAt () t.succ = (projDat V c).owesAt () t.castSucc from rfl,
    projDat_after_left, projDat_after_right, projDat_after_out]
  iintro ⟨HΦ, Ho, ⟨%dx, Hx⟩, ⟨%dw, Hw⟩, ⟨%dy, Hy⟩⟩
  iapply (proj_kernel_triple c Set.univ (grid2.coords t) _ _ _ _ _ _ (projBlockAt V c 0 t) (projBlockAt V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

/-- The body obligation of the region's launch theorem, at every point. -/
theorem proj_body_obligation (c : Dev nD) :
    BodyObligation (projDat (F := F) V c) (defs₀ (F := F)) Variants.none () Set.univ := fun t => by
  rw [bigSep_W2, bigSep_W2]
  exact proj_body_triple V c t

end Cert.KernelIdeal.Lin

end
-- ==== Proof.RunVals.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import proofs.«126977_j57518202028698_2_alg».proof.Proof.AttnData
import proofs.«126977_j57518202028698_2_alg».proof.Proof.LinRegion0
import proofs.«126977_j57518202028698_2_alg».proof.Proof.LinRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«126977_j57518202028698_2_alg».proof.Proof.Gen.KernelIdeal.Regions
set_option maxRecDepth 16384

noncomputable section

namespace Cert.KernelIdeal.Run

open Cert.KernelIdeal Cert.KernelIdeal.Gen Cert.KernelIdeal.Lin Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! # The run: @main's seven segments from the launch to the return

## The buffer contents at each segment boundary -/

/-- Core `c`'s buffers at launch. -/
abbrev W0 : Dev nD → Valuation τ sig (Elt F) := fun c b => (s₀ m ρ).mem ((c : Dev nD), b)
/-- After the first host stretch (the two weight casts and the flattening of the input): the first product's entry. -/
abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- After the first product: its output array at what its write-backs leave, every other buffer as entered. -/
def W2 (c : Dev nD) : Valuation τ sig (Elt F) :=
  Pipeline.withArrays spec0 c (W1 m ρ c) fun w => (qkvDat (V1 m ρ) c).arrAt w cfg0.N
theorem W2_arr (c : Dev nD) (w : Fin cfg0.W) :
    W2 m ρ c (Proc.devRef .tc (Pipeline.arrRef spec0 w)) = (qkvDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (qkvDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the fused projections regrouped by batch): the attention region's entry. -/
abbrev W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- After the attention region: the merged-heads array at what its write-backs leave, every other buffer as entered. -/
def W4 (c : Dev nD) : Valuation τ sig (Elt F) :=
  Function.update (W3 m ρ c) main_v5 ((attnDat (V3 m ρ) c).arrAt 3 cfg1.N)
theorem W4_out (c : Dev nD) : W4 m ρ c main_v5 = (attnDat (V3 m ρ) c).arrAt 3 cfg1.N := by
  unfold W4; exact Function.update_self _ _ _
theorem W4_of_ne (c : Dev nD) (b : Ref sig .tc) (hb : b ≠ main_v5) : W4 m ρ c b = W3 m ρ c b := by
  unfold W4; exact Function.update_of_ne (StableHlo.devRef_ne_of_ne hb : (Proc.devRef .tc b : DevRef τ sig) ≠ Proc.devRef .tc main_v5) _ _
abbrev V4 : (c : Dev nD) → (b : Ref sig .tc) → Buf (Elt F) ((c : Thread nD τ).loc b) := fun c b => W4 m ρ c b
/-- After the third host stretch (the merged heads flattened): the second product's entry. -/
abbrev W5 (c : Dev nD) : Valuation τ sig (Elt F) := StableHlo.after hostOps2 (W4 m ρ c)
abbrev V5 : (c : Dev nD) → (b : Ref sig .tc) → Buf (Elt F) ((c : Thread nD τ).loc b) := fun c b => W5 m ρ c b
/-- After the second product. -/
def W6 (c : Dev nD) : Valuation τ sig (Elt F) :=
  Pipeline.withArrays spec2 c (W5 m ρ c) fun w => (projDat (V5 m ρ) c).arrAt w cfg2.N
theorem W6_arr (c : Dev nD) (w : Fin cfg2.W) :
    W6 m ρ c (Proc.devRef .tc (Pipeline.arrRef spec2 w)) = (projDat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (projDat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch (the result regrouped by batch): what the program returns. -/
abbrev W7 (c : Dev nD) : Valuation τ sig (Elt F) := StableHlo.after hostOps3 (W6 m ρ c)

/-! ### The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

end Cert.KernelIdeal.Run

end
-- ==== Proof.Run.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import proofs.«126977_j57518202028698_2_alg».proof.Proof.AttnData
import proofs.«126977_j57518202028698_2_alg».proof.Proof.AttnArrays
import proofs.«126977_j57518202028698_2_alg».proof.Proof.AttnBody
import proofs.«126977_j57518202028698_2_alg».proof.Proof.AttnOblig
import proofs.«126977_j57518202028698_2_alg».proof.Proof.LinRegion0
import proofs.«126977_j57518202028698_2_alg».proof.Proof.LinRegion2
import proofs.«126977_j57518202028698_2_alg».proof.Proof.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«126977_j57518202028698_2_alg».proof.Proof.Gen.KernelIdeal.Regions
set_option maxRecDepth 16384

noncomputable section

namespace Cert.KernelIdeal.Run

open Cert.KernelIdeal Cert.KernelIdeal.Gen Cert.KernelIdeal.Lin Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => qkvDat (V1 m ρ) c
  | ⟨1, _⟩ => fun c => attnDat (V3 m ρ) c
  | ⟨2, _⟩ => fun c => projDat (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (qkv_body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (proj_body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. The fused
    projection array is split into the three input windows' shares on entry and rejoined on exit; the merged-heads
    array comes back at what the write-backs left; the generator register goes into the invariant and comes out; the
    scratch buffers' running state is forgotten at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (attn_body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := attn_arrays_in (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (attn_hin (V3 m ρ) c)
    unfold Pipeline.ΦA
    iintro ⟨Hp, -, Hr⟩
    isplitl [Hr]; · iexact Hr
    iexact Hp
  hout c := by
    rw [Pipeline.ownSems0_none]
    refine (attn_hout (V3 m ρ) c).trans ?_
    unfold Pipeline.ΦA
    iintro ⟨Hr, Hp⟩
    isplitl [Hp]; · iexact Hp
    isplitr; · iempintro
    iexact Hr
  hexit c := by
    have hjoin := attn_arrays_out (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest]
    · ihave Hb := hjoin $$ [Ha Hrest]
      · isplitl [Ha]; · iexact Ha
        iexact Hrest
      iexact Hb
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting; the final state holds the result array at the last boundary's contents and each argument array
    as launched. -/
theorem run_all : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.KernelIdeal.Run

end
-- ==== Proof.AttnCondsB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's three branch conditions, from the grid coordinates

The grid point is (batch, head pair, query tile, key tile). The first branch resets the running softmax state at
key tile 0; the second updates it when the key tile is not above the query tile (the causal triangle); the third
finalises at the last key tile. -/

/-- The key tile is the first one. -/
abbrev atFirst (i : grid1.Coords) : Prop :=
  (Scalar.cmpi .ne (Scalar.extui (Scalar.cmpi .eq (BitVec.ofNat 32 (i 3).val) 0#32)) 0#32) = 1#1
/-- The key tile is at or below the query tile. -/
abbrev inTriangle (i : grid1.Coords) : Prop :=
  (Scalar.cmpi .ne (Scalar.extui (Scalar.cmpi .sle (BitVec.ofNat 32 (i 3).val) (BitVec.ofNat 32 (i 2).val))) 0#32) = 1#1
/-- The key tile is the last one. -/
abbrev atLast (i : grid1.Coords) : Prop := k1_cond3 i = 1#1

theorem atFirst_iff : ∀ t : Fin cfg1.N, atFirst (grid1.coords t) ↔ t.val % 4 = 0 :=
  (by decide +kernel : ∀ t : Fin grid1.N, atFirst (grid1.coords t) ↔ t.val % 4 = 0)
theorem inTriangle_iff : ∀ t : Fin cfg1.N, inTriangle (grid1.coords t) ↔ t.val % 4 ≤ (t.val / 4) % 4 :=
  (by decide +kernel : ∀ t : Fin grid1.N, inTriangle (grid1.coords t) ↔ t.val % 4 ≤ (t.val / 4) % 4)
theorem atLast_iff : ∀ t : Fin cfg1.N, atLast (grid1.coords t) ↔ t.val % 4 = 3 :=
  (by decide +kernel : ∀ t : Fin grid1.N, atLast (grid1.coords t) ↔ t.val % 4 = 3)

end Cert.Kernel.Attn

end
-- ==== Proof.AttnRunFirstB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The first key tile of a query tile: the body resets both heads' running (max, sum, accumulator) to (-∞, 0, 0), folds the tile in, and stores nothing into the output block. The scratch buffers may hold anything on entry. -/
noncomputable def runFirst (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i)
    (x0 x1 x2 : Vec F S1x512x128 .bf16)  :
    Σ' (L8 : List (View.Piece (Elt F) S512x1 .f32)), Σ' (L9 : List (View.Piece (Elt F) S512x1 .f32)), Σ' (L10 : List (View.Piece (Elt F) S512x64 .f32)), Σ' (L11 : List (View.Piece (Elt F) S512x1 .f32)), Σ' (L12 : List (View.Piece (Elt F) S512x1 .f32)), { L13 : List (View.Piece (Elt F) S512x64 .f32) //
      ∀ (xi : Vec F S1x512x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg4 fullShare x0
                ∗ owns (c : Thread nD τ) arg5 fullShare x1
                ∗ owns (c : Thread nD τ) arg6 fullShare x2
                ∗ owns (c : Thread nD τ) arg7 fullShare xi
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%e8, %g8, -, S8⟩, ⟨%e9, %g9, -, S9⟩, ⟨%e10, %g10, -, S10⟩, ⟨%e11, %g11, -, S11⟩, ⟨%e12, %g12, -, S12⟩, ⟨%e13, %g13, -, S13⟩, Hk⟩
    obtain rfl := harg4.eq_unread hf0; obtain rfl := harg5.eq_unread hf1; obtain rfl := harg6.eq_unread hf2; obtain rfl := harg7.eq_unread hf3
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [S8]; · iexists _; iexact S8
    isplitl [S9]; · iexists _; iexact S9
    isplitl [S10]; · iexists _; iexact S10
    isplitl [S11]; · iexists _; iexact S11
    isplitl [S12]; · iexists _; iexact S12
    iexists _; iexact S13

end Cert.Kernel.Attn

end
-- ==== Proof.AttnRunMidB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A key tile inside the causal triangle that is neither the first nor the last: the body folds the tile into both heads' running (max, sum, accumulator) and stores nothing into the output block. The pieces each scratch buffer ends with are what the run finds. -/
noncomputable def runMid (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    Σ' (L8 : List (View.Piece (Elt F) S512x1 .f32)), Σ' (L9 : List (View.Piece (Elt F) S512x1 .f32)), Σ' (L10 : List (View.Piece (Elt F) S512x64 .f32)), Σ' (L11 : List (View.Piece (Elt F) S512x1 .f32)), Σ' (L12 : List (View.Piece (Elt F) S512x1 .f32)), { L13 : List (View.Piece (Elt F) S512x64 .f32) //
      ∀ (xi : Vec F S1x512x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ owns (c : Thread nD τ) arg7 fullShare xi
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, fun xi E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg7.eq_unread hf3; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [S8]; · iexists _; iexact S8
    isplitl [S9]; · iexists _; iexact S9
    isplitl [S10]; · iexists _; iexact S10
    isplitl [S11]; · iexists _; iexact S11
    isplitl [S12]; · iexists _; iexact S12
    iexists _; iexact S13

end Cert.Kernel.Attn

end
-- ==== Proof.AttnRunSkipB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A key tile above the causal triangle that is not the last: the body touches nothing. -/
theorem runSkip (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : ¬atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    ∀ (xi : Vec F S1x512x128 .bf16) (E : Set ℕ) (K : PUnit → sProp 𝕄),
        iprop(owns (c : Thread nD τ) arg4 fullShare x0
            ∗ owns (c : Thread nD τ) arg5 fullShare x1
            ∗ owns (c : Thread nD τ) arg6 fullShare x2
            ∗ owns (c : Thread nD τ) arg7 fullShare xi
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ owns (c : Thread nD τ) arg7 fullShare xi
                ∗ owns (c : Thread nD τ) arg8 fullShare xs8
                ∗ owns (c : Thread nD τ) arg9 fullShare xs9
                ∗ owns (c : Thread nD τ) arg10 fullShare xs10
                ∗ owns (c : Thread nD τ) arg11 fullShare xs11
                ∗ owns (c : Thread nD τ) arg12 fullShare xs12
                ∗ owns (c : Thread nD τ) arg13 fullShare xs13) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K := by
  intro xi E K
  all_goals
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg7.eq_unread hf3; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [S8]
    · iexists _; isplitr; · ipureintro; exact harg8.read_unread _
      iexact S8
    isplitl [S9]
    · iexists _; isplitr; · ipureintro; exact harg9.read_unread _
      iexact S9
    isplitl [S10]
    · iexists _; isplitr; · ipureintro; exact harg10.read_unread _
      iexact S10
    isplitl [S11]
    · iexists _; isplitr; · ipureintro; exact harg11.read_unread _
      iexact S11
    isplitl [S12]
    · iexists _; isplitr; · ipureintro; exact harg12.read_unread _
      iexact S12
    iexists _; isplitr; · ipureintro; exact harg13.read_unread _
    iexact S13

end Cert.Kernel.Attn

end
-- ==== Proof.AttnRunLastB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The last key tile when it lies inside the causal triangle (the last query tile): the body folds the tile in and then stores both heads' normalised accumulators into the two halves of the output block. -/
noncomputable def runLast (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    Σ' (L7 : List (View.Piece (Elt F) S1x512x128 .bf16)), Σ' (L8 : List (View.Piece (Elt F) S512x1 .f32)), Σ' (L9 : List (View.Piece (Elt F) S512x1 .f32)), Σ' (L10 : List (View.Piece (Elt F) S512x64 .f32)), Σ' (L11 : List (View.Piece (Elt F) S512x1 .f32)), Σ' (L12 : List (View.Piece (Elt F) S512x1 .f32)), { L13 : List (View.Piece (Elt F) S512x64 .f32) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [S8]; · iexists _; iexact S8
    isplitl [S9]; · iexists _; iexact S9
    isplitl [S10]; · iexists _; iexact S10
    isplitl [S11]; · iexists _; iexact S11
    isplitl [S12]; · iexists _; iexact S12
    iexists _; iexact S13

end Cert.Kernel.Attn

end
-- ==== Proof.AttnRunLastSkipB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The last key tile when it lies above the causal triangle: the running state is left as it is and both heads' normalised accumulators are stored into the two halves of the output block. -/
noncomputable def runLastSkip (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : atLast i)
    (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    { L7 : List (View.Piece (Elt F) S1x512x128 .bf16) //
      ∀ (E : Set ℕ) (K : PUnit → sProp 𝕄),
        iprop(owns (c : Thread nD τ) arg4 fullShare x0
            ∗ owns (c : Thread nD τ) arg5 fullShare x1
            ∗ owns (c : Thread nD τ) arg6 fullShare x2
            ∗ (∃ d, owns (c : Thread nD τ) arg7 fullShare d)
            ∗ owns (c : Thread nD τ) arg8 fullShare xs8
            ∗ owns (c : Thread nD τ) arg9 fullShare xs9
            ∗ owns (c : Thread nD τ) arg10 fullShare xs10
            ∗ owns (c : Thread nD τ) arg11 fullShare xs11
            ∗ owns (c : Thread nD τ) arg12 fullShare xs12
            ∗ owns (c : Thread nD τ) arg13 fullShare xs13
            ∗ (iprop(owns (c : Thread nD τ) arg4 fullShare x0
                ∗ owns (c : Thread nD τ) arg5 fullShare x1
                ∗ owns (c : Thread nD τ) arg6 fullShare x2
                ∗ (∃ f, arg7.view.loc (c : Thread nD τ) ↦[arg7.view.set]{fullShare} arg7.view.writes (Elt F) f L7)
                ∗ owns (c : Thread nD τ) arg8 fullShare xs8
                ∗ owns (c : Thread nD τ) arg9 fullShare xs9
                ∗ owns (c : Thread nD τ) arg10 fullShare xs10
                ∗ owns (c : Thread nD τ) arg11 fullShare xs11
                ∗ owns (c : Thread nD τ) arg12 fullShare xs12
                ∗ owns (c : Thread nD τ) arg13 fullShare xs13) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%g8, %hg8, S8⟩, ⟨%g9, %hg9, S9⟩, ⟨%g10, %hg10, S10⟩, ⟨%g11, %hg11, S11⟩, ⟨%g12, %hg12, S12⟩, ⟨%g13, %hg13, S13⟩, Hk⟩
    obtain rfl := harg4.eq_unread hf0; obtain rfl := harg5.eq_unread hf1; obtain rfl := harg6.eq_unread hf2; obtain rfl := harg8.eq_unread hg8; obtain rfl := harg9.eq_unread hg9; obtain rfl := harg10.eq_unread hg10; obtain rfl := harg11.eq_unread hg11; obtain rfl := harg12.eq_unread hg12; obtain rfl := harg13.eq_unread hg13
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [S8]
    · iexists _; isplitr; · ipureintro; exact harg8.read_unread _
      iexact S8
    isplitl [S9]
    · iexists _; isplitr; · ipureintro; exact harg9.read_unread _
      iexact S9
    isplitl [S10]
    · iexists _; isplitr; · ipureintro; exact harg10.read_unread _
      iexact S10
    isplitl [S11]
    · iexists _; isplitr; · ipureintro; exact harg11.read_unread _
      iexact S11
    isplitl [S12]
    · iexists _; isplitr; · ipureintro; exact harg12.read_unread _
      iexact S12
    iexists _; isplitr; · ipureintro; exact harg13.read_unread _
    iexact S13

end Cert.Kernel.Attn

end
-- ==== Proof.AttnPiecesB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import proofs.«126977_j57518202028698_2_alg».proof.Proof.AttnRunFirstB
import proofs.«126977_j57518202028698_2_alg».proof.Proof.AttnRunMidB
import proofs.«126977_j57518202028698_2_alg».proof.Proof.AttnRunSkipB
import proofs.«126977_j57518202028698_2_alg».proof.Proof.AttnRunLastB
import proofs.«126977_j57518202028698_2_alg».proof.Proof.AttnRunLastSkipB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers through which contents are stated -/

/-- One staging buffer of the output window, through which the block's contents are stated (the choice does not matter
    once the pieces cover the block). -/
abbrev VO3 : View sig .tc .vmem S1x512x128 .bf16 := (Memref.whole cc1_stg3_0 : Memref sig .tc .vmem S1x512x128 .bf16).view
/-- The six scratch buffers that carry the running softmax state between key tiles: per head of the pair, the row
    maxima (512×1), the row sums (512×1) and the unnormalised accumulator (512×64). -/
abbrev scM8 : Memref sig .tc .vmem S512x1 .f32 := Memref.whole cc1_scratch0
abbrev scM9 : Memref sig .tc .vmem S512x1 .f32 := Memref.whole cc1_scratch1
abbrev scM10 : Memref sig .tc .vmem S512x64 .f32 := Memref.whole cc1_scratch2
abbrev scM11 : Memref sig .tc .vmem S512x1 .f32 := Memref.whole cc1_scratch3
abbrev scM12 : Memref sig .tc .vmem S512x1 .f32 := Memref.whole cc1_scratch4
abbrev scM13 : Memref sig .tc .vmem S512x64 .f32 := Memref.whole cc1_scratch5
abbrev VS8 : View sig .tc .vmem S512x1 .f32 := scM8.view
abbrev VS9 : View sig .tc .vmem S512x1 .f32 := scM9.view
abbrev VS10 : View sig .tc .vmem S512x64 .f32 := scM10.view
abbrev VS11 : View sig .tc .vmem S512x1 .f32 := scM11.view
abbrev VS12 : View sig .tc .vmem S512x1 .f32 := scM12.view
abbrev VS13 : View sig .tc .vmem S512x64 .f32 := scM13.view

/-! ## What each case leaves in each buffer it stores into -/

/-- The pieces found for scratch buffer 0 in the First case tile it, so they cover it. -/
theorem coverFirst_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).1 S512x1.size (by sl_kernel_rfl) y
/-- What the First case leaves there: its pieces read back. -/
def leftFirst_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS8.read (Elt F) (VS8.writes (Elt F) VS8.junk (runFirst c i arg4 harg4 arg5 harg5 arg6 harg6 arg7 harg7 arg8 harg8 arg9 harg9 arg10 harg10 arg11 harg11 arg12 harg12 arg13 harg13 hc0 hc1 hc2 x0 x1 x2 ).1)

/-- The pieces found for scratch buffer 1 in the First case tile it, so they cover it. -/
theorem coverFirst_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.1 S512x1.size (by sl_kernel_rfl) y
/-- What the First case leaves there: its pieces read back. -/
def leftFirst_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS9.read (Elt F) (VS9.writes (Elt F) VS9.junk (runFirst c i arg4 harg4 arg5 harg5 arg6 harg6 arg7 harg7 arg8 harg8 arg9 harg9 arg10 harg10 arg11 harg11 arg12 harg12 arg13 harg13 hc0 hc1 hc2 x0 x1 x2 ).2.1)

/-- The pieces found for scratch buffer 2 in the First case tile it, so they cover it. -/
theorem coverFirst_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x64.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.1 S512x64.size (by sl_kernel_rfl) y
/-- What the First case leaves there: its pieces read back. -/
def leftFirst_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x64 .f32 :=
  VS10.read (Elt F) (VS10.writes (Elt F) VS10.junk (runFirst c i arg4 harg4 arg5 harg5 arg6 harg6 arg7 harg7 arg8 harg8 arg9 harg9 arg10 harg10 arg11 harg11 arg12 harg12 arg13 harg13 hc0 hc1 hc2 x0 x1 x2 ).2.2.1)

/-- The pieces found for scratch buffer 3 in the First case tile it, so they cover it. -/
theorem coverFirst_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.2.1 S512x1.size (by sl_kernel_rfl) y
/-- What the First case leaves there: its pieces read back. -/
def leftFirst_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS11.read (Elt F) (VS11.writes (Elt F) VS11.junk (runFirst c i arg4 harg4 arg5 harg5 arg6 harg6 arg7 harg7 arg8 harg8 arg9 harg9 arg10 harg10 arg11 harg11 arg12 harg12 arg13 harg13 hc0 hc1 hc2 x0 x1 x2 ).2.2.2.1)

/-- The pieces found for scratch buffer 4 in the First case tile it, so they cover it. -/
theorem coverFirst_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x1.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.2.2.1 S512x1.size (by sl_kernel_rfl) y
/-- What the First case leaves there: its pieces read back. -/
def leftFirst_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x1 .f32 :=
  VS12.read (Elt F) (VS12.writes (Elt F) VS12.junk (runFirst c i arg4 harg4 arg5 harg5 arg6 harg6 arg7 harg7 arg8 harg8 arg9 harg9 arg10 harg10 arg11 harg11 arg12 harg12 arg13 harg13 hc0 hc1 hc2 x0 x1 x2 ).2.2.2.2.1)

/-- The pieces found for scratch buffer 5 in the First case tile it, so they cover it. -/
theorem coverFirst_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  (y : S512x64.Idx) :
    ∃ pc ∈ (runFirst c i arg4 harg4 arg5 harg5 arg6 harg6 arg7 harg7 arg8 harg8 arg9 harg9 arg10 harg10 arg11 harg11 arg12 harg12 arg13 harg13 hc0 hc1 hc2 x0 x1 x2 ).2.2.2.2.2.1, y ∈ pc.1.set :=
  View.cover_of_tiledL (runFirst c i arg4 harg4 arg5 harg5 arg6 harg6 arg7 harg7 arg8 harg8 arg9 harg9 arg10 harg10 arg11 harg11 arg12 harg12 arg13 harg13 hc0 hc1 hc2 x0 x1 x2 ).2.2.2.2.2.1 S512x64.size (by sl_kernel_rfl) y
/-- What the First case leaves there: its pieces read back. -/
def leftFirst_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  : Vec F S512x64 .f32 :=
  VS13.read (Elt F) (VS13.writes (Elt F) VS13.junk (runFirst c i arg4 harg4 arg5 harg5 arg6 harg6 arg7 harg7 arg8 harg8 arg9 harg9 arg10 harg10 arg11 harg11 arg12 harg12 arg13 harg13 hc0 hc1 hc2 x0 x1 x2 ).2.2.2.2.2.1)

/-- The pieces found for scratch buffer 0 in the Mid case tile it, so they cover it. -/
theorem coverMid_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1 S512x1.size (by sl_kernel_rfl) y
/-- What the Mid case leaves there: its pieces read back. -/
def leftMid_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS8.read (Elt F) (VS8.writes (Elt F) VS8.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1)

/-- The pieces found for scratch buffer 1 in the Mid case tile it, so they cover it. -/
theorem coverMid_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1 S512x1.size (by sl_kernel_rfl) y
/-- What the Mid case leaves there: its pieces read back. -/
def leftMid_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS9.read (Elt F) (VS9.writes (Elt F) VS9.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1)

/-- The pieces found for scratch buffer 2 in the Mid case tile it, so they cover it. -/
theorem coverMid_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1 S512x64.size (by sl_kernel_rfl) y
/-- What the Mid case leaves there: its pieces read back. -/
def leftMid_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS10.read (Elt F) (VS10.writes (Elt F) VS10.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1)

/-- The pieces found for scratch buffer 3 in the Mid case tile it, so they cover it. -/
theorem coverMid_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1 S512x1.size (by sl_kernel_rfl) y
/-- What the Mid case leaves there: its pieces read back. -/
def leftMid_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS11.read (Elt F) (VS11.writes (Elt F) VS11.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1)

/-- The pieces found for scratch buffer 4 in the Mid case tile it, so they cover it. -/
theorem coverMid_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1 S512x1.size (by sl_kernel_rfl) y
/-- What the Mid case leaves there: its pieces read back. -/
def leftMid_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS12.read (Elt F) (VS12.writes (Elt F) VS12.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1)

/-- The pieces found for scratch buffer 5 in the Mid case tile it, so they cover it. -/
theorem coverMid_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1, y ∈ pc.1.set :=
  View.cover_of_tiledL (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1 S512x64.size (by sl_kernel_rfl) y
/-- What the Mid case leaves there: its pieces read back. -/
def leftMid_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS13.read (Elt F) (VS13.writes (Elt F) VS13.junk (runMid c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1)

/-- The pieces found for the output block in the Last case tile it, so they cover it. -/
theorem coverLast_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S1x512x128.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1 S1x512x64.size (by sl_kernel_rfl) y
/-- What the Last case leaves there: its pieces read back. -/
def leftLast_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S1x512x128 .bf16 :=
  VO3.read (Elt F) (VO3.writes (Elt F) VO3.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1)

/-- The pieces found for scratch buffer 0 in the Last case tile it, so they cover it. -/
theorem coverLast_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1 S512x1.size (by sl_kernel_rfl) y
/-- What the Last case leaves there: its pieces read back. -/
def leftLast_sc8 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS8.read (Elt F) (VS8.writes (Elt F) VS8.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.1)

/-- The pieces found for scratch buffer 1 in the Last case tile it, so they cover it. -/
theorem coverLast_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1 S512x1.size (by sl_kernel_rfl) y
/-- What the Last case leaves there: its pieces read back. -/
def leftLast_sc9 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS9.read (Elt F) (VS9.writes (Elt F) VS9.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.1)

/-- The pieces found for scratch buffer 2 in the Last case tile it, so they cover it. -/
theorem coverLast_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1 S512x64.size (by sl_kernel_rfl) y
/-- What the Last case leaves there: its pieces read back. -/
def leftLast_sc10 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS10.read (Elt F) (VS10.writes (Elt F) VS10.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.1)

/-- The pieces found for scratch buffer 3 in the Last case tile it, so they cover it. -/
theorem coverLast_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1 S512x1.size (by sl_kernel_rfl) y
/-- What the Last case leaves there: its pieces read back. -/
def leftLast_sc11 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS11.read (Elt F) (VS11.writes (Elt F) VS11.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.1)

/-- The pieces found for scratch buffer 4 in the Last case tile it, so they cover it. -/
theorem coverLast_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x1.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1 S512x1.size (by sl_kernel_rfl) y
/-- What the Last case leaves there: its pieces read back. -/
def leftLast_sc12 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x1 .f32 :=
  VS12.read (Elt F) (VS12.writes (Elt F) VS12.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.1)

/-- The pieces found for scratch buffer 5 in the Last case tile it, so they cover it. -/
theorem coverLast_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S512x64.Idx) :
    ∃ pc ∈ (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.2.1, y ∈ pc.1.set :=
  View.cover_of_tiledL (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.2.1 S512x64.size (by sl_kernel_rfl) y
/-- What the Last case leaves there: its pieces read back. -/
def leftLast_sc13 (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S512x64 .f32 :=
  VS13.read (Elt F) (VS13.writes (Elt F) VS13.junk (runLast c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).2.2.2.2.2.2.1)

/-- The pieces found for the output block in the LastSkip case tile it, so they cover it. -/
theorem coverLastSkip_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) (y : S1x512x128.Idx) :
    ∃ pc ∈ (runLastSkip c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1, y ∈ pc.1.set :=
  View.cover_of_tiledL (runLastSkip c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1 S1x512x64.size (by sl_kernel_rfl) y
/-- What the LastSkip case leaves there: its pieces read back. -/
def leftLastSkip_out (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) : Vec F S1x512x128 .bf16 :=
  VO3.read (Elt F) (VO3.writes (Elt F) VO3.junk (runLastSkip c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13).1)

end Cert.Kernel.Attn

end
-- ==== Proof.AttnDataB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import proofs.«126977_j57518202028698_2_alg».proof.Proof.AttnPiecesB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at grid point `t`, read off its array as the region finds it: windows 0, 1, 2 are the query,
    key and value column blocks of the fused projection array, window 3 the output block. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched block's
    index has not moved), for any proof data whose array is the entry contents and whose body leaves the block in place. -/
theorem staged0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched block's
    index has not moved), for any proof data whose array is the entry contents and whose body leaves the block in place. -/
theorem staged1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched block's
    index has not moved), for any proof data whose array is the entry contents and whose body leaves the block in place. -/
theorem staged2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .bf16 := win1_3.stage (cfg1.slots t 3)
abbrev hs1_3 (t : Fin cfg1.N) : (ms1_3 t).IsWhole := hstage1_3 ((cfg1.slots t 3).cast nbuf1_3)

/-! ## Where the output window is idle -/

theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
/-- Off the last key tile the body stores nothing into the output block and the block is not written back. -/
theorem idle_out : ∀ t : Fin cfg1.N, ¬atLast (grid1.coords t) → cfg1.idle 3 (grid1.coords t) = true := by decide +kernel
theorem noFlush_out : ∀ t : Fin cfg1.N, ¬atLast (grid1.coords t) → (cfg1.win 3).flush t = false := by decide +kernel
/-- At the last key tile it is live. -/
theorem live_out : ∀ t : Fin cfg1.N, atLast (grid1.coords t) → cfg1.idle 3 (grid1.coords t) = false := by decide +kernel

/-! ## The running state after each grid point -/

/-- A placeholder for the output block at the points that store nothing into it: nothing consults it there. -/
def noOut : Vec F S1x512x128 .bf16 := VO3.read (Elt F) (VO3.writes (Elt F) VO3.junk [])

/-- One grid point's effect on (output block, running state), from the running state `prev` the point before left:
    by the three closed-form conditions, the case's pieces read back. At the first key tile the state is reset, so
    `prev` is not consulted; above the triangle the state passes through unchanged. -/
def stepAt (c : Dev nD) (t : Fin cfg1.N) (prev : (Vec F S512x1 .f32 × Vec F S512x1 .f32 × Vec F S512x64 .f32 × Vec F S512x1 .f32 × Vec F S512x1 .f32 × Vec F S512x64 .f32)) : Vec F S1x512x128 .bf16 × (Vec F S512x1 .f32 × Vec F S512x1 .f32 × Vec F S512x64 .f32 × Vec F S512x1 .f32 × Vec F S512x1 .f32 × Vec F S512x64 .f32) :=
  if h0 : t.val % 4 = 0 then
    if h1 : t.val % 4 ≤ (t.val / 4) % 4 then
      if h2 : t.val % 4 = 3 then (noOut, prev)
      else (noOut, ((leftFirst_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t))))
    else (noOut, prev)
  else
    if h1 : t.val % 4 ≤ (t.val / 4) % 4 then
      if h2 : t.val % 4 = 3 then ((leftLast_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), ((leftLast_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2)))
      else (noOut, ((leftMid_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2)))
    else
      if h2 : t.val % 4 = 3 then ((leftLastSkip_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) ((atLast_iff t).mpr h2) (iblk1 V c 0 t) (iblk1 V c 1 t) (iblk1 V c 2 t) (prev).1 (prev).2.1 (prev).2.2.1 (prev).2.2.2.1 (prev).2.2.2.2.1 (prev).2.2.2.2.2), prev)
      else (noOut, prev)

/-- The running state BEFORE position `n` (what position `n - 1` left); before the first point a placeholder. -/
def scrAt (c : Dev nD) : (n : ℕ) → n ≤ cfg1.N → (Vec F S512x1 .f32 × Vec F S512x1 .f32 × Vec F S512x64 .f32 × Vec F S512x1 .f32 × Vec F S512x1 .f32 × Vec F S512x64 .f32)
  | 0, _ => (VS8.read (Elt F) VS8.junk, VS9.read (Elt F) VS9.junk, VS10.read (Elt F) VS10.junk, VS11.read (Elt F) VS11.junk, VS12.read (Elt F) VS12.junk, VS13.read (Elt F) VS13.junk)
  | n + 1, hn => (stepAt V c ⟨n, hn⟩ (scrAt c n (Nat.le_of_lt hn))).2

theorem scrAt_succ (c : Dev nD) (t : Fin cfg1.N) :
    scrAt V c (t.val + 1) t.isLt = (stepAt V c t (scrAt V c t.val (Nat.le_of_lt t.isLt))).2 := rfl

/-- What the output window's staging buffer holds after point `t` (consulted at the last key tile only). -/
def outAt (c : Dev nD) (t : Fin cfg1.N) : Vec F S1x512x128 .bf16 := (stepAt V c t (scrAt V c t.val (Nat.le_of_lt t.isLt))).1

theorem stepAt_first (c : Dev nD) (t : Fin cfg1.N) (prev) (h0 : t.val % 4 = 0) (h1 : t.val % 4 ≤ (t.val / 4) % 4) (h2 : ¬t.val % 4 = 3) :
    stepAt V c t prev = (noOut, ((leftFirst_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)), (leftFirst_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)))) := by
  unfold stepAt; rw [dif_pos h0, dif_pos h1, dif_neg h2]
theorem stepAt_mid (c : Dev nD) (t : Fin cfg1.N) (prev) (h0 : ¬t.val % 4 = 0) (h1 : t.val % 4 ≤ (t.val / 4) % 4) (h2 : ¬t.val % 4 = 3) :
    stepAt V c t prev = (noOut, ((leftMid_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2), (leftMid_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) (prev).1 (prev).2.1 (prev).2.2.1 (prev).2.2.2.1 (prev).2.2.2.2.1 (prev).2.2.2.2.2))) := by
  unfold stepAt; rw [dif_neg h0, dif_pos h1, dif_neg h2]
theorem stepAt_last (c : Dev nD) (t : Fin cfg1.N) (prev) (h0 : ¬t.val % 4 = 0) (h1 : t.val % 4 ≤ (t.val / 4) % 4) (h2 : t.val % 4 = 3) :
    stepAt V c t prev = ((leftLast_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), ((leftLast_sc8 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc9 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc10 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc11 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc12 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2), (leftLast_sc13 c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) (prev).1 (prev).2.1 (prev).2.2.1 (prev).2.2.2.1 (prev).2.2.2.2.1 (prev).2.2.2.2.2))) := by
  unfold stepAt; rw [dif_neg h0, dif_pos h1, dif_pos h2]
theorem stepAt_lastSkip (c : Dev nD) (t : Fin cfg1.N) (prev) (h0 : ¬t.val % 4 = 0) (h1 : ¬t.val % 4 ≤ (t.val / 4) % 4) (h2 : t.val % 4 = 3) :
    stepAt V c t prev = ((leftLastSkip_out c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) ((atLast_iff t).mpr h2) (iblk1 V c 0 t) (iblk1 V c 1 t) (iblk1 V c 2 t) (prev).1 (prev).2.1 (prev).2.2.1 (prev).2.2.2.1 (prev).2.2.2.2.1 (prev).2.2.2.2.2), prev) := by
  unfold stepAt; rw [dif_neg h0, dif_neg h1, dif_pos h2]
theorem stepAt_skip (c : Dev nD) (t : Fin cfg1.N) (prev) (h0 : ¬t.val % 4 = 0) (h1 : ¬t.val % 4 ≤ (t.val / 4) % 4) (h2 : ¬t.val % 4 = 3) :
    stepAt V c t prev = (noOut, prev) := by
  unfold stepAt; rw [dif_neg h0, dif_neg h1, dif_neg h2]

/-! ## The region's invariant -/

/-- The class invariant with the scratch buffers as memrefs owned at some contents. -/
theorem PhiA1_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM8 fullShare d) ∗ (∃ d, owns (c : Thread nD τ) scM9 fullShare d) ∗ (∃ d, owns (c : Thread nD τ) scM10 fullShare d) ∗ (∃ d, owns (c : Thread nD τ) scM11 fullShare d) ∗ (∃ d, owns (c : Thread nD τ) scM12 fullShare d) ∗ (∃ d, owns (c : Thread nD τ) scM13 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM8, scM9, scM10, scM11, scM12, scM13, owns_whole]; try rfl

/-- The invariant before position `n`: before the first point every scoped buffer the region does not stage at
    anything; afterwards the six scratch buffers at the running state the point before left, the other scoped buffers
    at anything; the generator register at some state throughout. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM8 fullShare ((scrAt V c (n + 1) hn).1) ∗ owns (c : Thread nD τ) scM9 fullShare ((scrAt V c (n + 1) hn).2.1) ∗ owns (c : Thread nD τ) scM10 fullShare ((scrAt V c (n + 1) hn).2.2.1) ∗ owns (c : Thread nD τ) scM11 fullShare ((scrAt V c (n + 1) hn).2.2.2.1) ∗ owns (c : Thread nD τ) scM12 fullShare ((scrAt V c (n + 1) hn).2.2.2.2.1) ∗ owns (c : Thread nD τ) scM13 fullShare ((scrAt V c (n + 1) hn).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM8 fullShare ((scrAt V c (n + 1) hn).1) ∗ owns (c : Thread nD τ) scM9 fullShare ((scrAt V c (n + 1) hn).2.1) ∗ owns (c : Thread nD τ) scM10 fullShare ((scrAt V c (n + 1) hn).2.2.1) ∗ owns (c : Thread nD τ) scM11 fullShare ((scrAt V c (n + 1) hn).2.2.2.1) ∗ owns (c : Thread nD τ) scM12 fullShare ((scrAt V c (n + 1) hn).2.2.2.2.1) ∗ owns (c : Thread nD τ) scM13 fullShare ((scrAt V c (n + 1) hn).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM8 fullShare ((scrAt V c n h).1) ∗ owns (c : Thread nD τ) scM9 fullShare ((scrAt V c n h).2.1) ∗ owns (c : Thread nD τ) scM10 fullShare ((scrAt V c n h).2.2.1) ∗ owns (c : Thread nD τ) scM11 fullShare ((scrAt V c n h).2.2.2.1) ∗ owns (c : Thread nD τ) scM12 fullShare ((scrAt V c n h).2.2.2.2.1) ∗ owns (c : Thread nD τ) scM13 fullShare ((scrAt V c n h).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  cases n with
  | zero => exact absurd rfl hz
  | succ n => rfl

/-! ## The proof data -/

/-- The attention region's proof data on core `c`: the arrays as the region finds them; after the body at point `t`
    each input's buffer at its block and the output's at `outAt`; the invariant `PhiS`; the three input windows
    share one array, split into three shares; nothing owed. -/
def attnDat (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

theorem attnDat_A (c : Dev nD) (w : Fin cfg1.W) : (attnDat V c).A w = V c (Pipeline.arrRef spec1 w) := by
  dsimp only [attnDat]
theorem attnDat_Phi (c : Dev nD) (t : Fin cfg1.N) :
    (attnDat V c).Φ t.castSucc = PhiS V c t.val (Nat.le_of_lt t.isLt) := by
  dsimp only [attnDat]; simp only [Fin.coe_castSucc]
theorem attnDat_after0 (c : Dev nD) (t : Fin cfg1.N) : (attnDat V c).after 0 t = iblk1 V c 0 t := by dsimp only [attnDat]
theorem attnDat_after1 (c : Dev nD) (t : Fin cfg1.N) : (attnDat V c).after 1 t = iblk1 V c 1 t := by dsimp only [attnDat]
theorem attnDat_after2 (c : Dev nD) (t : Fin cfg1.N) : (attnDat V c).after 2 t = iblk1 V c 2 t := by dsimp only [attnDat]
theorem attnDat_after3 (c : Dev nD) (t : Fin cfg1.N) : (attnDat V c).after 3 t = outAt V c t := by dsimp only [attnDat]
theorem attnDat_before0 (c : Dev nD) (t : Fin cfg1.N) (d) : (attnDat V c).before 0 t d = iblk1 V c 0 t :=
  staged0_of V (attnDat V c) (attnDat_A V c 0) (attnDat_after0 V c) t d
theorem attnDat_before1 (c : Dev nD) (t : Fin cfg1.N) (d) : (attnDat V c).before 1 t d = iblk1 V c 1 t :=
  staged1_of V (attnDat V c) (attnDat_A V c 1) (attnDat_after1 V c) t d
theorem attnDat_before2 (c : Dev nD) (t : Fin cfg1.N) (d) : (attnDat V c).before 2 t d = iblk1 V c 2 t :=
  staged2_of V (attnDat V c) (attnDat_A V c 2) (attnDat_after2 V c) t d

end Cert.Kernel.Attn

end
-- ==== Proof.AttnArraysB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import proofs.«126977_j57518202028698_2_alg».proof.Proof.AttnPiecesB
import proofs.«126977_j57518202028698_2_alg».proof.Proof.AttnDataB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The region's arrays, in and out of the core's unscoped buffers

The query, key and value windows read ONE array (the fused projections): it is held in three shares, one per window,
split off the whole buffer on entry and rejoined on exit; the output array is held whole. -/

theorem share_q (c : Dev nD) : (attnDat V c).share 0 = (fullShare : PosShare TreeShare).left := rfl
theorem share_k (c : Dev nD) : (attnDat V c).share 1 = (fullShare : PosShare TreeShare).right.left := rfl
theorem share_v (c : Dev nD) : (attnDat V c).share 2 = (fullShare : PosShare TreeShare).right.right := rfl
theorem share_o (c : Dev nD) : (attnDat V c).share 3 = fullShare := rfl

/-- The four windows' holdings at contents `G`, spelt over the two buffers behind them. -/
theorem arrays_spelt (c : Dev nD) (G : (w : Fin cfg1.W) → Buf (Elt F) ((cfg1.win w).arr.view.loc (c : Thread nD τ))) :
    ((attnDat V c).arrays G : sProp 𝕄)
      = iprop((((c : Thread nD τ).loc main_v4) ↦{(fullShare : PosShare TreeShare).left} G 0)
          ∗ (((c : Thread nD τ).loc main_v4) ↦{(fullShare : PosShare TreeShare).right.left} G 1)
          ∗ (((c : Thread nD τ).loc main_v4) ↦{(fullShare : PosShare TreeShare).right.right} G 2)
          ∗ (((c : Thread nD τ).loc main_v5) ↦{fullShare} G 3)) := by
  unfold Dat.arrays
  rw [bigSep_W1, (arr_whole1 0).set_eq_univ, (arr_whole1 3).set_eq_univ,
    share_q, share_k, share_v, share_o]

/-- The two buffers behind the four windows, whole at contents `V'`. -/
theorem arrBufs_spelt (c : Dev nD) (V' : (b : Ref sig .tc) → Buf (Elt F) ((c : Thread nD τ).loc b)) :
    (Pipeline.arrBufs (cfgs 1).spec c V' : sProp 𝕄)
      = iprop((((c : Thread nD τ).loc main_v4) ↦{fullShare} V' main_v4) ∗ (((c : Thread nD τ).loc main_v5) ↦{fullShare} V' main_v5)) := by
  unfold Pipeline.arrBufs
  rw [BI.bigSep_eq_bigSepL_of_eq [main_v4, main_v5] (by decide) (by decide)]; rfl

/-- ENTRY: the core's unscoped buffers at the entry contents are the region's arrays at their shares beside the rest. -/
theorem attn_arrays_in (c : Dev nD) :
    (unscopedBufs c (V c) : sProp 𝕄) ⊢ iprop((attnDat V c).arrays ((attnDat V c).arrAt · 0)
      ∗ Pipeline.unscopedRest (Ix := Unit) (Name := ℕ) (U := Pipeline.UD sig nD τ) (Lvl := ℕ) spec1 c (V c)) := by
  rw [Pipeline.unscopedBufs_split₀ cfgs 1 (by decide) c (V c), arrays_spelt]
  refine sep_mono ?_ .rfl
  rw [arrBufs_spelt]
  iintro ⟨H4, H5⟩
  ihave Hs := (pointsTo_share (PosShare.mem_left_op_right fullShare)).1 $$ H4
  icases Hs with ⟨Hl, Hr⟩
  ihave Hs2 := (pointsTo_share (PosShare.mem_left_op_right (fullShare : PosShare TreeShare).right)).1 $$ Hr
  icases Hs2 with ⟨Hrl, Hrr⟩
  isplitl [Hl]; · iexact Hl
  isplitl [Hrl]; · iexact Hrl
  isplitl [Hrr]; · iexact Hrr
  iexact H5

/-- EXIT: the arrays after the last write-back (the inputs as entered, their shares rejoined; the output at what the
    write-backs left) beside the rest are the core's unscoped buffers at any contents that have the output array there
    and agree with the entry contents elsewhere. -/
theorem attn_arrays_out (c : Dev nD) (V' : (b : Ref sig .tc) → Buf (Elt F) ((c : Thread nD τ).loc b))
    (hout : V' main_v5 = (attnDat V c).arrAt 3 cfg1.N) (hrest : ∀ b : Ref sig .tc, b ≠ main_v5 → V' b = V c b) :
    iprop((attnDat V c).arrays ((attnDat V c).arrAt · cfg1.N)
      ∗ Pipeline.unscopedRest (Ix := Unit) (Name := ℕ) (U := Pipeline.UD sig nD τ) (Lvl := ℕ) spec1 c (V c))
      ⊢ (unscopedBufs c V' : sProp 𝕄) := by
  rw [Pipeline.unscopedBufs_split₀ cfgs 1 (by decide) c V', arrays_spelt]
  refine sep_mono ?_ (Entails.of_eq ?_)
  · rw [arrBufs_spelt]
    rw [(attnDat V c).arrAt_in 0 rfl cfg1.N, (attnDat V c).arrAt_in 1 rfl cfg1.N, (attnDat V c).arrAt_in 2 rfl cfg1.N]
    iintro ⟨Hl, Hrl, Hrr, H5⟩
    ihave Hr := (pointsTo_share (PosShare.mem_left_op_right (fullShare : PosShare TreeShare).right)).2 $$ [Hrl Hrr]
    · isplitl [Hrl]; · iexact Hrl
      iexact Hrr
    ihave H4 := (pointsTo_share (PosShare.mem_left_op_right fullShare)).2 $$ [Hl Hr]
    · isplitl [Hl]; · iexact Hl
      iexact Hr
    isplitl [H4]
    · rw [hrest main_v4 (by decide)]; iexact H4
    rw [hout]; iexact H5
  · unfold Pipeline.unscopedRest
    exact bigSep_congr fun b hb => by
      rw [hrest b (fun e => (Finset.mem_sdiff.mp hb).2 (Finset.mem_image.mpr ⟨3, Finset.mem_univ _, e.symm⟩))]

end Cert.Kernel.Attn

end
-- ==== Proof.AttnBodyB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import proofs.«126977_j57518202028698_2_alg».proof.Proof.AttnPiecesB
import proofs.«126977_j57518202028698_2_alg».proof.Proof.AttnDataB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The body obligation, at a generic grid point -/

/-- What the body is called with at point `t`: the invariant, nothing owed, and each window's current staging buffer. -/
def bodyPre (c : Dev nD) (t : Fin cfg1.N) : sProp 𝕄 :=
  iprop((attnDat V c).Φ t.castSucc ∗ (attnDat V c).owesAt () t.castSucc
    ∗ (∃ d, owns (c : Thread nD τ) (ms1_0 t) fullShare ((attnDat V c).before 0 t d))
    ∗ (∃ d, owns (c : Thread nD τ) (ms1_1 t) fullShare ((attnDat V c).before 1 t d))
    ∗ (∃ d, owns (c : Thread nD τ) (ms1_2 t) fullShare ((attnDat V c).before 2 t d))
    ∗ (∃ d, owns (c : Thread nD τ) (ms1_3 t) fullShare ((attnDat V c).before 3 t d)))

/-- and what it returns. -/
def bodyPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t)

set_option maxHeartbeats 8000000 in
/-- The body at any grid point. The three input buffers hold their blocks; the closed forms of the three conditions say
    which of the five cases the point is in; that case's run applies. The invariant hands the body the six scratch buffers
    at the running state the point before left (at anything before the first point, where the state is reset) and takes
    them back at this point's state; the output buffer is handed back untouched off the last key tile and holds the
    two normalised halves at it; nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [attnDat_before0, attnDat_before1, attnDat_before2]
  rw [show (attnDat V c).owesAt () t.succ = (attnDat V c).owesAt () t.castSucc from rfl]
  rw [show (attnDat V c).Φ t.succ = PhiS V c (t.val + 1) t.isLt from rfl, PhiS_succ, scrAt_succ]
  rw [show (attnDat V c).leavesExact 0 t = owns (c : Thread nD τ) (ms1_0 t) fullShare ((attnDat V c).after 0 t) from by
    unfold Dat.leavesExact; rw [live_in0 t], attnDat_after0]
  rw [show (attnDat V c).leavesExact 1 t = owns (c : Thread nD τ) (ms1_1 t) fullShare ((attnDat V c).after 1 t) from by
    unfold Dat.leavesExact; rw [live_in1 t], attnDat_after1]
  rw [show (attnDat V c).leavesExact 2 t = owns (c : Thread nD τ) (ms1_2 t) fullShare ((attnDat V c).after 2 t) from by
    unfold Dat.leavesExact; rw [live_in2 t], attnDat_after2]
  have hN : t.val < 256 := lt_of_lt_of_eq t.isLt (show cfg1.N = 256 from N_1)
  by_cases h0 : t.val % 4 = 0
  · have h1 : t.val % 4 ≤ (t.val / 4) % 4 := by omega
    have h2 : ¬t.val % 4 = 3 := by omega
    by_cases hz : t.val = 0
    · rw [Dat.leavesExact_idle (attnDat V c) 3 t (idle_out t (fun h => h2 ((atLast_iff t).mp h))) (noFlush_out t (fun h => h2 ((atLast_iff t).mp h)))]
      rw [stepAt_first V c t _ h0 h1 h2]
      unfold leftFirst_sc8 leftFirst_sc9 leftFirst_sc10 leftFirst_sc11 leftFirst_sc12 leftFirst_sc13; (try dsimp only)
      rw [attnDat_Phi V c t, PhiS_zero V c _ _ hz, PhiA1_eq]
      iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)).2.2.2.2.2.2 _ Set.univ _)
      isplitl [H0]; · iexact H0
      isplitl [H1]; · iexact H1
      isplitl [H2]; · iexact H2
      isplitl [H3]; · iexact H3
      isplitl [HS8]; · iexact HS8
      isplitl [HS9]; · iexact HS9
      isplitl [HS10]; · iexact HS10
      isplitl [HS11]; · iexact HS11
      isplitl [HS12]; · iexact HS12
      isplitl [HS13]; · iexact HS13
      iintro ⟨H0, H1, H2, H3, ⟨%e8, HS8⟩, ⟨%e9, HS9⟩, ⟨%e10, HS10⟩, ⟨%e11, HS11⟩, ⟨%e12, HS12⟩, ⟨%e13, HS13⟩⟩
      isplitl [HR0 HR1 HR2 HR3 HR4 HR5 HS8 HS9 HS10 HS11 HS12 HS13 HQ0 HQ1 HQ2 HQ3 HQ4 Hg]
      · isplitl [HR0 HR1 HR2 HR3 HR4 HR5 HS8 HS9 HS10 HS11 HS12 HS13 HQ0 HQ1 HQ2 HQ3 HQ4]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS8]
          · unfold owns; iexists _; isplitr
            swap; · iexact HS8
            ipureintro; exact View.read_writes_of_cover _ _ _ _ _ (coverFirst_sc8 c _ _ _ _ _ _ _ _ _ _ _ _ _ _ _ _ _ _ _ _ _ _ _ _ _ _ _)
          isplitl [HS9]
          · unfold owns; iexists _; isplitr
            swap; · iexact HS9
            ipureintro; exact View.read_writes_of_cover _ _ _ _ _ (coverFirst_sc9 c _ _ _ _ _ _ _ _ _ _ _ _ _ _ _ _ _ _ _ _ _ _ _ _ _ _ _)
          isplitl [HS10]
          · unfold owns; iexists _; isplitr
            swap; · iexact HS10
            ipureintro; exact View.read_writes_of_cover _ _ _ _ _ (coverFirst_sc10 c _ _ _ _ _ _ _ _ _ _ _ _ _ _ _ _ _ _ _ _ _ _ _ _ _ _ _)
          isplitl [HS11]
          · unfold owns; iexists _; isplitr
            swap; · iexact HS11
            ipureintro; exact View.read_writes_of_cover _ _ _ _ _ (coverFirst_sc11 c _ _ _ _ _ _ _ _ _ _ _ _ _ _ _ _ _ _ _ _ _ _ _ _ _ _ _)
          isplitl [HS12]
          · unfold owns; iexists _; isplitr
            swap; · iexact HS12
            ipureintro; exact View.read_writes_of_cover _ _ _ _ _ (coverFirst_sc12 c _ _ _ _ _ _ _ _ _ _ _ _ _ _ _ _ _ _ _ _ _ _ _ _ _ _ _)
          isplitl [HS13]
          · unfold owns; iexists _; isplitr
            swap; · iexact HS13
            ipureintro; exact View.read_writes_of_cover _ _ _ _ _ (coverFirst_sc13 c _ _ _ _ _ _ _ _ _ _ _ _ _ _ _ _ _ _ _ _ _ _ _ _ _ _ _)
          isplitl [HQ0]; · iexact HQ0
          isplitl [HQ1]; · iexact HQ1
          isplitl [HQ2]; · iexact HQ2
          isplitl [HQ3]; · iexact HQ3
          iexact HQ4
        iexact Hg
      isplitl [Ho]; · iexact Ho
      isplitl [H0]; · iexact H0
      isplitl [H1]; · iexact H1
      isplitl [H2]; · iexact H2
      iexists _; iexact H3
    · rw [Dat.leavesExact_idle (attnDat V c) 3 t (idle_out t (fun h => h2 ((atLast_iff t).mp h))) (noFlush_out t (fun h => h2 ((atLast_iff t).mp h)))]
      rw [stepAt_first V c t _ h0 h1 h2]
      unfold leftFirst_sc8 leftFirst_sc9 leftFirst_sc10 leftFirst_sc11 leftFirst_sc12 leftFirst_sc13; (try dsimp only)
      rw [attnDat_Phi V c t, PhiS_pos V c _ _ hz]
      iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) ((atFirst_iff t).mpr h0) ((inTriangle_iff t).mpr h1) (fun h => h2 ((atLast_iff t).mp h)) (iblk1 V c 0 t) (iblk1 V c 1 t) (iblk1 V c 2 t)).2.2.2.2.2.2 _ Set.univ _)
      isplitl [H0]; · iexact H0
      isplitl [H1]; · iexact H1
      isplitl [H2]; · iexact H2
      isplitl [H3]; · iexact H3
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      iintro ⟨H0, H1, H2, H3, ⟨%e8, HS8⟩, ⟨%e9, HS9⟩, ⟨%e10, HS10⟩, ⟨%e11, HS11⟩, ⟨%e12, HS12⟩, ⟨%e13, HS13⟩⟩
      isplitl [HR0 HR1 HR2 HR3 HR4 HR5 HS8 HS9 HS10 HS11 HS12 HS13 HQ0 HQ1 HQ2 HQ3 HQ4 Hg]
      · isplitl [HR0 HR1 HR2 HR3 HR4 HR5 HS8 HS9 HS10 HS11 HS12 HS13 HQ0 HQ1 HQ2 HQ3 HQ4]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS8]
          · unfold owns; iexists _; isplitr
            swap; · iexact HS8
            ipureintro; exact View.read_writes_of_cover _ _ _ _ _ (coverFirst_sc8 c _ _ _ _ _ _ _ _ _ _ _ _ _ _ _ _ _ _ _ _ _ _ _ _ _ _ _)
          isplitl [HS9]
          · unfold owns; iexists _; isplitr
            swap; · iexact HS9
            ipureintro; exact View.read_writes_of_cover _ _ _ _ _ (coverFirst_sc9 c _ _ _ _ _ _ _ _ _ _ _ _ _ _ _ _ _ _ _ _ _ _ _ _ _ _ _)
          isplitl [HS10]
          · unfold owns; iexists _; isplitr
            swap; · iexact HS10
            ipureintro; exact View.read_writes_of_cover _ _ _ _ _ (coverFirst_sc10 c _ _ _ _ _ _ _ _ _ _ _ _ _ _ _ _ _ _ _ _ _ _ _ _ _ _ _)
          isplitl [HS11]
          · unfold owns; iexists _; isplitr
            swap; · iexact HS11
            ipureintro; exact View.read_writes_of_cover _ _ _ _ _ (coverFirst_sc11 c _ _ _ _ _ _ _ _ _ _ _ _ _ _ _ _ _ _ _ _ _ _ _ _ _ _ _)
          isplitl [HS12]
          · unfold owns; iexists _; isplitr
            swap; · iexact HS12
            ipureintro; exact View.read_writes_of_cover _ _ _ _ _ (coverFirst_sc12 c _ _ _ _ _ _ _ _ _ _ _ _ _ _ _ _ _ _ _ _ _ _ _ _ _ _ _)
          isplitl [HS13]
          · unfold owns; iexists _; isplitr
            swap; · iexact HS13
            ipureintro; exact View.read_writes_of_cover _ _ _ _ _ (coverFirst_sc13 c _ _ _ _ _ _ _ _ _ _ _ _ _ _ _ _ _ _ _ _ _ _ _ _ _ _ _)
          isplitl [HQ0]; · iexact HQ0
          isplitl [HQ1]; · iexact HQ1
          isplitl [HQ2]; · iexact HQ2
          isplitl [HQ3]; · iexact HQ3
          iexact HQ4
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 ≤ (t.val / 4) % 4
    · by_cases h2 : t.val % 4 = 3
      · rw [show (attnDat V c).leavesExact 3 t = owns (c : Thread nD τ) (ms1_3 t) fullShare ((attnDat V c).after 3 t) from by
          unfold Dat.leavesExact; rw [live_out t ((atLast_iff t).mpr h2)], attnDat_after3]
        unfold outAt
        rw [stepAt_last V c t _ h0 h1 h2]
        unfold leftLast_sc8 leftLast_sc9 leftLast_sc10 leftLast_sc11 leftLast_sc12 leftLast_sc13 leftLast_out; (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runLast c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) ((atLast_iff t).mpr h2) (iblk1 V c 0 t) (iblk1 V c 1 t) (iblk1 V c 2 t) _ _ _ _ _ _).2.2.2.2.2.2.2 Set.univ _)
        isplitl [H0]; · iexact H0
        isplitl [H1]; · iexact H1
        isplitl [H2]; · iexact H2
        isplitl [H3]; · iexists _; iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, ⟨%e3, H3⟩, ⟨%e8, HS8⟩, ⟨%e9, HS9⟩, ⟨%e10, HS10⟩, ⟨%e11, HS11⟩, ⟨%e12, HS12⟩, ⟨%e13, HS13⟩⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]
            · unfold owns; iexists _; isplitr
              swap; · iexact HS8
              ipureintro; exact View.read_writes_of_cover _ _ _ _ _ (coverLast_sc8 c _ _ _ _ _ _ _ _ _ _ _ _ _ _ _ _ _ _ _ _ _ _ _ _ _ _ _ _ _ _ _ _ _)
            isplitl [HS9]
            · unfold owns; iexists _; isplitr
              swap; · iexact HS9
              ipureintro; exact View.read_writes_of_cover _ _ _ _ _ (coverLast_sc9 c _ _ _ _ _ _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (coverLast_sc10 c _ _ _ _ _ _ _ _ _ _ _ _ _ _ _ _ _ _ _ _ _ _ _ _ _ _ _ _ _ _ _ _ _)
            isplitl [HS11]
            · unfold owns; iexists _; isplitr
              swap; · iexact HS11
              ipureintro; exact View.read_writes_of_cover _ _ _ _ _ (coverLast_sc11 c _ _ _ _ _ _ _ _ _ _ _ _ _ _ _ _ _ _ _ _ _ _ _ _ _ _ _ _ _ _ _ _ _)
            isplitl [HS12]
            · unfold owns; iexists _; isplitr
              swap; · iexact HS12
              ipureintro; exact View.read_writes_of_cover _ _ _ _ _ (coverLast_sc12 c _ _ _ _ _ _ _ _ _ _ _ _ _ _ _ _ _ _ _ _ _ _ _ _ _ _ _ _ _ _ _ _ _)
            isplitl [HS13]
            · unfold owns; iexists _; isplitr
              swap; · iexact HS13
              ipureintro; exact View.read_writes_of_cover _ _ _ _ _ (coverLast_sc13 c _ _ _ _ _ _ _ _ _ _ _ _ _ _ _ _ _ _ _ _ _ _ _ _ _ _ _ _ _ _ _ _ _)
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLast_out c _ _ _ _ _ _ _ _ _ _ _ _ _ _ _ _ _ _ _ _ _ _ _ _ _ _ _ _ _ _ _ _ _)
      · rw [Dat.leavesExact_idle (attnDat V c) 3 t (idle_out t (fun h => h2 ((atLast_iff t).mp h))) (noFlush_out t (fun h => h2 ((atLast_iff t).mp h)))]
        rw [stepAt_mid V c t _ h0 h1 h2]
        unfold leftMid_sc8 leftMid_sc9 leftMid_sc10 leftMid_sc11 leftMid_sc12 leftMid_sc13; (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runMid c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) ((inTriangle_iff t).mpr h1) (fun h => h2 ((atLast_iff t).mp h)) (iblk1 V c 0 t) (iblk1 V c 1 t) (iblk1 V c 2 t) _ _ _ _ _ _).2.2.2.2.2.2 _ Set.univ _)
        isplitl [H0]; · iexact H0
        isplitl [H1]; · iexact H1
        isplitl [H2]; · iexact H2
        isplitl [H3]; · iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, H3, ⟨%e8, HS8⟩, ⟨%e9, HS9⟩, ⟨%e10, HS10⟩, ⟨%e11, HS11⟩, ⟨%e12, HS12⟩, ⟨%e13, HS13⟩⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]
            · unfold owns; iexists _; isplitr
              swap; · iexact HS8
              ipureintro; exact View.read_writes_of_cover _ _ _ _ _ (coverMid_sc8 c _ _ _ _ _ _ _ _ _ _ _ _ _ _ _ _ _ _ _ _ _ _ _ _ _ _ _ _ _ _ _ _ _)
            isplitl [HS9]
            · unfold owns; iexists _; isplitr
              swap; · iexact HS9
              ipureintro; exact View.read_writes_of_cover _ _ _ _ _ (coverMid_sc9 c _ _ _ _ _ _ _ _ _ _ _ _ _ _ _ _ _ _ _ _ _ _ _ _ _ _ _ _ _ _ _ _ _)
            isplitl [HS10]
            · unfold owns; iexists _; isplitr
              swap; · iexact HS10
              ipureintro; exact View.read_writes_of_cover _ _ _ _ _ (coverMid_sc10 c _ _ _ _ _ _ _ _ _ _ _ _ _ _ _ _ _ _ _ _ _ _ _ _ _ _ _ _ _ _ _ _ _)
            isplitl [HS11]
            · unfold owns; iexists _; isplitr
              swap; · iexact HS11
              ipureintro; exact View.read_writes_of_cover _ _ _ _ _ (coverMid_sc11 c _ _ _ _ _ _ _ _ _ _ _ _ _ _ _ _ _ _ _ _ _ _ _ _ _ _ _ _ _ _ _ _ _)
            isplitl [HS12]
            · unfold owns; iexists _; isplitr
              swap; · iexact HS12
              ipureintro; exact View.read_writes_of_cover _ _ _ _ _ (coverMid_sc12 c _ _ _ _ _ _ _ _ _ _ _ _ _ _ _ _ _ _ _ _ _ _ _ _ _ _ _ _ _ _ _ _ _)
            isplitl [HS13]
            · unfold owns; iexists _; isplitr
              swap; · iexact HS13
              ipureintro; exact View.read_writes_of_cover _ _ _ _ _ (coverMid_sc13 c _ _ _ _ _ _ _ _ _ _ _ _ _ _ _ _ _ _ _ _ _ _ _ _ _ _ _ _ _ _ _ _ _)
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        iexists _; iexact H3
    · by_cases h2 : t.val % 4 = 3
      · rw [show (attnDat V c).leavesExact 3 t = owns (c : Thread nD τ) (ms1_3 t) fullShare ((attnDat V c).after 3 t) from by
          unfold Dat.leavesExact; rw [live_out t ((atLast_iff t).mpr h2)], attnDat_after3]
        unfold outAt
        rw [stepAt_lastSkip V c t _ h0 h1 h2]
        unfold leftLastSkip_out; (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runLastSkip c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) ((atLast_iff t).mpr h2) (iblk1 V c 0 t) (iblk1 V c 1 t) (iblk1 V c 2 t) _ _ _ _ _ _).2 Set.univ _)
        isplitl [H0]; · iexact H0
        isplitl [H1]; · iexact H1
        isplitl [H2]; · iexact H2
        isplitl [H3]; · iexists _; iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, ⟨%e3, H3⟩, HS8, HS9, HS10, HS11, HS12, HS13⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]; · iexact HS8
            isplitl [HS9]; · iexact HS9
            isplitl [HS10]; · iexact HS10
            isplitl [HS11]; · iexact HS11
            isplitl [HS12]; · iexact HS12
            isplitl [HS13]; · iexact HS13
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastSkip_out c _ _ _ _ _ _ _ _ _ _ _ _ _ _ _ _ _ _ _ _ _ _ _ _ _ _ _ _ _ _ _ _ _)
      · rw [Dat.leavesExact_idle (attnDat V c) 3 t (idle_out t (fun h => h2 ((atLast_iff t).mp h))) (noFlush_out t (fun h => h2 ((atLast_iff t).mp h)))]
        rw [stepAt_skip V c t _ h0 h1 h2]
        (try dsimp only)
        rw [attnDat_Phi V c t, PhiS_pos V c _ _ hz]
        iintro ⟨⟨⟨HR0, HR1, HR2, HR3, HR4, HR5, HS8, HS9, HS10, HS11, HS12, HS13, HQ0, HQ1, HQ2, HQ3, HQ4⟩, Hg⟩, Ho, ⟨%d0, H0⟩, ⟨%d1, H1⟩, ⟨%d2, H2⟩, ⟨%d3, H3⟩⟩
        iapply ((runSkip c (grid1.coords t) (ms1_0 t) (hs1_0 t) (ms1_1 t) (hs1_1 t) (ms1_2 t) (hs1_2 t) (ms1_3 t) (hs1_3 t) scM8 (Memref.isWhole_whole _) scM9 (Memref.isWhole_whole _) scM10 (Memref.isWhole_whole _) scM11 (Memref.isWhole_whole _) scM12 (Memref.isWhole_whole _) scM13 (Memref.isWhole_whole _) (fun h => h0 ((atFirst_iff t).mp h)) (fun h => h1 ((inTriangle_iff t).mp h)) (fun h => h2 ((atLast_iff t).mp h)) (iblk1 V c 0 t) (iblk1 V c 1 t) (iblk1 V c 2 t) _ _ _ _ _ _) _ Set.univ _)
        isplitl [H0]; · iexact H0
        isplitl [H1]; · iexact H1
        isplitl [H2]; · iexact H2
        isplitl [H3]; · iexact H3
        isplitl [HS8]; · iexact HS8
        isplitl [HS9]; · iexact HS9
        isplitl [HS10]; · iexact HS10
        isplitl [HS11]; · iexact HS11
        isplitl [HS12]; · iexact HS12
        isplitl [HS13]; · iexact HS13
        iintro ⟨H0, H1, H2, H3, HS8, HS9, HS10, HS11, HS12, HS13⟩
        isplitl [HR0 HR1 HR2 HR3 HR4 HR5 HS8 HS9 HS10 HS11 HS12 HS13 HQ0 HQ1 HQ2 HQ3 HQ4 Hg]
        · isplitl [HR0 HR1 HR2 HR3 HR4 HR5 HS8 HS9 HS10 HS11 HS12 HS13 HQ0 HQ1 HQ2 HQ3 HQ4]
          · isplitl [HR0]; · iexact HR0
            isplitl [HR1]; · iexact HR1
            isplitl [HR2]; · iexact HR2
            isplitl [HR3]; · iexact HR3
            isplitl [HR4]; · iexact HR4
            isplitl [HR5]; · iexact HR5
            isplitl [HS8]; · iexact HS8
            isplitl [HS9]; · iexact HS9
            isplitl [HS10]; · iexact HS10
            isplitl [HS11]; · iexact HS11
            isplitl [HS12]; · iexact HS12
            isplitl [HS13]; · iexact HS13
            isplitl [HQ0]; · iexact HQ0
            isplitl [HQ1]; · iexact HQ1
            isplitl [HQ2]; · iexact HQ2
            isplitl [HQ3]; · iexact HQ3
            iexact HQ4
          iexact Hg
        isplitl [Ho]; · iexact Ho
        isplitl [H0]; · iexact H0
        isplitl [H1]; · iexact H1
        isplitl [H2]; · iexact H2
        iexists _; iexact H3

end Cert.Kernel.Attn

end
-- ==== Proof.AttnObligB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import proofs.«126977_j57518202028698_2_alg».proof.Proof.AttnPiecesB
import proofs.«126977_j57518202028698_2_alg».proof.Proof.AttnDataB
import proofs.«126977_j57518202028698_2_alg».proof.Proof.AttnBodyB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- The library's body obligation, at every grid point. -/
theorem attn_body_obligation (c : Dev nD) : BodyObligation (attnDat (F := F) V c) (defs₀ (F := F)) Variants.none () Set.univ := fun t => by
  rw [bigSep_W1, bigSep_W1]
  exact sound_body V c t

/-- What the launch hands the region is the invariant before the first point. -/
theorem attn_hin (c : Dev nD) : Pipeline.ΦA spec1 c ⊢ (attnDat V c).Φ 0 := by
  rw [show (attnDat V c).Φ 0 = PhiS V c 0 (Nat.zero_le _) from rfl, PhiS_zero V c 0 _ rfl]
  try exact Idealize.SL.BI.Entails.refl _

/-- After any point but the first the invariant gives the class invariant back: the running state's contents are forgotten. -/
theorem attn_Phi_out (c : Dev nD) (t : Fin (cfg1.N + 1)) (ht : t.val ≠ 0) : (attnDat V c).Φ t ⊢ Pipeline.ΦA spec1 c := by
  rw [show (attnDat V c).Φ t = PhiS V c t.val (Nat.le_of_lt_succ t.isLt) from rfl, PhiS_pos V c _ _ ht, PhiA1_eq]
  iintro ⟨⟨HR0, HR1, HR2, HR3, HR4, HR5, HS8, HS9, HS10, HS11, HS12, HS13, HQ0, HQ1, HQ2, HQ3, HQ4⟩, Hg⟩
  isplitl [HR0 HR1 HR2 HR3 HR4 HR5 HS8 HS9 HS10 HS11 HS12 HS13 HQ0 HQ1 HQ2 HQ3 HQ4]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HQ0]; · iexact HQ0
    isplitl [HQ1]; · iexact HQ1
    isplitl [HQ2]; · iexact HQ2
    isplitl [HQ3]; · iexact HQ3
    iexact HQ4
  iexact Hg

/-- The same after the last point. -/
theorem attn_hout (c : Dev nD) : (attnDat V c).Φ (Fin.last cfg1.N) ⊢ Pipeline.ΦA spec1 c :=
  attn_Phi_out V c _ (by rw [Fin.val_last]; have : cfg1.N = 256 := N_1; omega)

end Cert.Kernel.Attn

end
-- ==== Proof.LinRegion0B.lean ====
/- The first linear kernel of @main: the projection to q, k and v, a [4096,1024] by [3072,1024]ᵀ product computed one
   1024×1024 block of the result at a time, read here, in the word-level program, as one pipeline region entered at arbitrary buffer contents V.

   At each grid point the pipeline hands the body three whole staging buffers: a block of the left factor (f32), a block of
   the right factor (bf16) and the block of the result (bf16). The body reads the two factor blocks whole, forms one
   product block (the skeleton's payload k0_pay1: round the left block, transpose the right block, multiply into a zero
   accumulator, round) and stores it over the whole result buffer. Stated below: what the two factor buffers hold at every
   point, what the result buffer holds after the body, the body's triple, and the region's proof data with its body
   obligation. -/
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The blocks the grid points work on -/

/-- The block of window w at grid point t, cut out of the window's array as the region finds it. -/
def qkvBlockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the point's block of the left factor at EVERY point — also at a point
    where the pipeline did not fetch it, because then the block index has not moved since the last fetch. For any
    proof data over V's arrays whose body leaves that buffer as it found it. -/
theorem qkv_left_staged_of {c : Dev nD} (dat : Dat τ (Elt F) Unit ℕ (Pipeline.UD sig nD τ) ℕ cfg0 c)
    (hA : dat.A 0 = V c (Pipeline.arrRef spec0 0)) (hkept : ∀ t, dat.after 0 t = qkvBlockAt V c 0 t)
    (t : Fin cfg0.N) (d) : dat.before 0 t d = qkvBlockAt V c 0 t := by
  have keep : ∀ t, (cfg0.win 0).cut (cfg0.grid.coords t) (dat.after 0 t) = dat.blockOf 0 t := fun t => by
    rw [hkept]; unfold Dat.blockOf qkvBlockAt; rw [hA]; try rfl
  rw [dat.before_in_eq_fetched 0 rfl (fun _ => rfl) (fun _ _ _ => rfl) keep t d]
  unfold Dat.fetched Dat.blockOf qkvBlockAt; rw [hA]; try rfl

/-- The same for the right factor's staging buffer. -/
theorem qkv_right_staged_of {c : Dev nD} (dat : Dat τ (Elt F) Unit ℕ (Pipeline.UD sig nD τ) ℕ cfg0 c)
    (hA : dat.A 1 = V c (Pipeline.arrRef spec0 1)) (hkept : ∀ t, dat.after 1 t = qkvBlockAt V c 1 t)
    (t : Fin cfg0.N) (d) : dat.before 1 t d = qkvBlockAt V c 1 t := by
  have keep : ∀ t, (cfg0.win 1).cut (cfg0.grid.coords t) (dat.after 1 t) = dat.blockOf 1 t := fun t => by
    rw [hkept]; unfold Dat.blockOf qkvBlockAt; rw [hA]; try rfl
  rw [dat.before_in_eq_fetched 1 rfl (fun _ => rfl) (fun _ _ _ => rfl) keep t d]
  unfold Dat.fetched Dat.blockOf qkvBlockAt; rw [hA]; try rfl

/-! ## The product block -/

/-- The rectangle of every access the body makes: the whole 1024×1024 buffer. -/
abbrev qkvTile : Rect S1024x1024 := Rect.unit (s := S1024x1024) ![0, 0] S1024x1024.size inb_S1024x1024_S1024x1024_0_0

/-- What the body leaves in the result's staging buffer, from the two factor blocks x and w: its one store, whose
    value is the payload k0_pay1 of the two loads. -/
def qkvProd (x : Vec F S1024x1024 .f32) (w : Vec F S1024x1024 .bf16) : Vec F S1024x1024 .bf16 :=
  View.canon [⟨qkvTile, k0_pay1 (View.ld x qkvTile) (View.ld w qkvTile)⟩]

/-- The one store covers the buffer: its rectangle is the whole shape. -/
theorem qkvProd_covers (p : qkvTile.shape.Idx → Elt F .bf16) (y : S1024x1024.Idx) :
    ∃ pc ∈ ([⟨qkvTile, p⟩] : List (View.Piece (Elt F) S1024x1024 .bf16)), y ∈ pc.1.set :=
  ⟨_, List.mem_singleton_self _, View.mem_set_unit_zero (by funext a; fin_cases a <;> rfl) inb_S1024x1024_S1024x1024_0_0 y⟩

/-! ## The body's triple -/

set_option maxHeartbeats 1000000 in
/-- The kernel body on three whole staging memrefs — the factors' holding x and w, the result's holding anything —
    runs to a continuation that is handed the factors' buffers unchanged and the result's holding the product block. -/
theorem qkv_kernel_triple (c : Dev nD) (E : Set ℕ) (i : grid0.Coords)
    (ax : Memref sig .tc .vmem S1024x1024 .f32) (hax : ax.IsWhole)
    (aw : Memref sig .tc .vmem S1024x1024 .bf16) (haw : aw.IsWhole)
    (ay : Memref sig .tc .vmem S1024x1024 .bf16) (hay : ay.IsWhole)
    (x : Vec F S1024x1024 .f32) (w : Vec F S1024x1024 .bf16) (K : PUnit → sProp 𝕄) :
    iprop(owns (c : Thread nD τ) ax fullShare x ∗ owns (c : Thread nD τ) aw fullShare w
        ∗ (∃ d, owns (c : Thread nD τ) ay fullShare d)
        ∗ (iprop(owns (c : Thread nD τ) ax fullShare x ∗ owns (c : Thread nD τ) aw fullShare w
            ∗ owns (c : Thread nD τ) ay fullShare (qkvProd x w)) -∗ K ⟨⟩))
      ⊢ wp frame (wpE (defs₀ (F := F)) Variants.none c none) E (cc0__linear_kernel i ax hax aw haw ay hay) K := by
  simp only [cc0__linear_kernel_eq_skeleton]; unfold cc0__linear_kernel_skel
  unfold owns
  iintro ⟨⟨%fx, %hfx, Hx⟩, ⟨%fw, %hfw, Hw⟩, ⟨%d, %fy, -, Hy⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (qkvProd_covers _)

/-! ## The region's proof data -/

/-- The proof data of the region on core c. The windows' arrays are as the region finds them (V); after the body at
    point t the two factor buffers hold their blocks still and the result's holds the product of the two blocks; the
    invariant is the untouched rest of the core's scoped memory and its generator register; every share is full and
    nothing is owed. -/
def qkvDat (c : Dev nD) : Dat τ (Elt F) Unit ℕ (Pipeline.UD sig nD τ) ℕ cfg0 c where
  A w := V c (Pipeline.arrRef spec0 w)
  after w t := match w with
    | ⟨0, _⟩ => qkvBlockAt V c 0 t
    | ⟨1, _⟩ => qkvBlockAt V c 1 t
    | ⟨2, _⟩ => qkvProd (qkvBlockAt V c 0 t) (qkvBlockAt V c 1 t)
  Φ _ := Pipeline.ΦA spec0 c
  q _ := fullShare
  owed _ := 0

/-- Its arrays are the contents at entry. -/
theorem qkvDat_A (c : Dev nD) (w : Fin cfg0.W) : (qkvDat V c).A w = V c (Pipeline.arrRef spec0 w) := by
  dsimp only [qkvDat]

/-- What the body leaves in each window's buffer. -/
theorem qkvDat_after_left (c : Dev nD) (t : Fin cfg0.N) : (qkvDat V c).after 0 t = qkvBlockAt V c 0 t := by
  dsimp only [qkvDat]
theorem qkvDat_after_right (c : Dev nD) (t : Fin cfg0.N) : (qkvDat V c).after 1 t = qkvBlockAt V c 1 t := by
  dsimp only [qkvDat]
theorem qkvDat_after_out (c : Dev nD) (t : Fin cfg0.N) :
    (qkvDat V c).after 2 t = qkvProd (qkvBlockAt V c 0 t) (qkvBlockAt V c 1 t) := by
  dsimp only [qkvDat]

/-- What the body finds in the two factor buffers: their blocks, at every point. -/
theorem qkvDat_before_left (c : Dev nD) (t : Fin cfg0.N) (d) : (qkvDat V c).before 0 t d = qkvBlockAt V c 0 t :=
  qkv_left_staged_of V (qkvDat V c) (qkvDat_A V c 0) (qkvDat_after_left V c) t d
theorem qkvDat_before_right (c : Dev nD) (t : Fin cfg0.N) (d) : (qkvDat V c).before 1 t d = qkvBlockAt V c 1 t :=
  qkv_right_staged_of V (qkvDat V c) (qkvDat_A V c 1) (qkvDat_after_right V c) t d

/-! ## The body obligation -/

/-- What the body is entered with at point t: the invariant, the core's dues, and the three current staging
    buffers at what the proof data say they hold before the body. -/
def qkvBodyPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d)))

/-- What it must return: the same with the buffers at what the proof data say the body leaves. -/
def qkvBodyPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t))

/-- The body at any point: the factor buffers hold their blocks, so the kernel's triple applies; the invariant and
    the dues are not touched. -/
theorem qkv_body_triple (c : Dev nD) (t : Fin cfg0.N) :
    qkvBodyPre V c t ⊢ wp frame (wpE (defs₀ (F := F)) Variants.none c none) Set.univ (bodyAt0 t) (fun _ => qkvBodyPost V c t) := by
  unfold qkvBodyPre qkvBodyPost bodyAt0
  simp only [qkvDat_before_left, qkvDat_before_right]
  rw [show (qkvDat V c).Φ t.succ = (qkvDat V c).Φ t.castSucc from rfl,
    show (qkvDat V c).owesAt () t.succ = (qkvDat V c).owesAt () t.castSucc from rfl,
    qkvDat_after_left, qkvDat_after_right, qkvDat_after_out]
  iintro ⟨HΦ, Ho, ⟨%dx, Hx⟩, ⟨%dw, Hw⟩, ⟨%dy, Hy⟩⟩
  iapply (qkv_kernel_triple c Set.univ (grid0.coords t) _ _ _ _ _ _ (qkvBlockAt V c 0 t) (qkvBlockAt V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

/-- The body obligation of the region's launch theorem, at every point. -/
theorem qkv_body_obligation (c : Dev nD) :
    BodyObligation (qkvDat (F := F) V c) (defs₀ (F := F)) Variants.none () Set.univ := fun t => by
  rw [bigSep_W0, bigSep_W0]
  exact qkv_body_triple V c t

end Cert.Kernel.Lin

end
-- ==== Proof.LinRegion2B.lean ====
/- The second linear kernel of @main: the output projection, a [4096,1024] by [1024,1024]ᵀ product computed one
   1024×1024 block of the result at a time, read here, in the word-level program, as one pipeline region entered at arbitrary buffer contents V.

   At each grid point the pipeline hands the body three whole staging buffers: a block of the left factor (bf16), the
   right factor (bf16; it is a single block, staged once in its one buffer) and the block of the result (f32). The body
   reads the two factor blocks whole, forms one product block (the skeleton's payload k2_pay1: transpose the right
   block, multiply into a zero accumulator) and stores it over the whole result buffer. Stated below: what the two factor
   buffers hold at every point, what the result buffer holds after the body, the body's triple, and the region's proof
   data with its body obligation. -/
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered
variable (V : (c : Dev nD) → (b : Ref sig .tc) → Buf (Elt F) ((c : Thread nD τ).loc b))

/-! ## The blocks the grid points work on -/

/-- The block of window w at grid point t, cut out of the window's array as the region finds it. -/
def projBlockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds the point's block of the left factor at EVERY point — also at a point
    where the pipeline did not fetch it, because then the block index has not moved since the last fetch. For any
    proof data over V's arrays whose body leaves that buffer as it found it. -/
theorem proj_left_staged_of {c : Dev nD} (dat : Dat τ (Elt F) Unit ℕ (Pipeline.UD sig nD τ) ℕ cfg2 c)
    (hA : dat.A 0 = V c (Pipeline.arrRef spec2 0)) (hkept : ∀ t, dat.after 0 t = projBlockAt V c 0 t)
    (t : Fin cfg2.N) (d) : dat.before 0 t d = projBlockAt V c 0 t := by
  have keep : ∀ t, (cfg2.win 0).cut (cfg2.grid.coords t) (dat.after 0 t) = dat.blockOf 0 t := fun t => by
    rw [hkept]; unfold Dat.blockOf projBlockAt; rw [hA]; try rfl
  rw [dat.before_in_eq_fetched 0 rfl (fun _ => rfl) (fun _ _ _ => rfl) keep t d]
  unfold Dat.fetched Dat.blockOf projBlockAt; rw [hA]; try rfl

/-- The same for the right factor's staging buffer. -/
theorem proj_right_staged_of {c : Dev nD} (dat : Dat τ (Elt F) Unit ℕ (Pipeline.UD sig nD τ) ℕ cfg2 c)
    (hA : dat.A 1 = V c (Pipeline.arrRef spec2 1)) (hkept : ∀ t, dat.after 1 t = projBlockAt V c 1 t)
    (t : Fin cfg2.N) (d) : dat.before 1 t d = projBlockAt V c 1 t := by
  have keep : ∀ t, (cfg2.win 1).cut (cfg2.grid.coords t) (dat.after 1 t) = dat.blockOf 1 t := fun t => by
    rw [hkept]; unfold Dat.blockOf projBlockAt; rw [hA]; try rfl
  rw [dat.before_in_eq_fetched 1 rfl (fun _ => rfl) (fun _ _ _ => rfl) keep t d]
  unfold Dat.fetched Dat.blockOf projBlockAt; rw [hA]; try rfl

/-! ## The product block -/

/-- The rectangle of every access the body makes: the whole 1024×1024 buffer. -/
abbrev projTile : Rect S1024x1024 := Rect.unit (s := S1024x1024) ![0, 0] S1024x1024.size inb_S1024x1024_S1024x1024_0_0

/-- What the body leaves in the result's staging buffer, from the two factor blocks x and w: its one store, whose
    value is the payload k2_pay1 of the two loads. -/
def projProd (x : Vec F S1024x1024 .bf16) (w : Vec F S1024x1024 .bf16) : Vec F S1024x1024 .f32 :=
  View.canon [⟨projTile, k2_pay1 (View.ld x projTile) (View.ld w projTile)⟩]

/-- The one store covers the buffer: its rectangle is the whole shape. -/
theorem projProd_covers (p : projTile.shape.Idx → Elt F .f32) (y : S1024x1024.Idx) :
    ∃ pc ∈ ([⟨projTile, p⟩] : List (View.Piece (Elt F) S1024x1024 .f32)), y ∈ pc.1.set :=
  ⟨_, List.mem_singleton_self _, View.mem_set_unit_zero (by funext a; fin_cases a <;> rfl) inb_S1024x1024_S1024x1024_0_0 y⟩

/-! ## The body's triple -/

set_option maxHeartbeats 1000000 in
/-- The kernel body on three whole staging memrefs — the factors' holding x and w, the result's holding anything —
    runs to a continuation that is handed the factors' buffers unchanged and the result's holding the product block. -/
theorem proj_kernel_triple (c : Dev nD) (E : Set ℕ) (i : grid2.Coords)
    (ax : Memref sig .tc .vmem S1024x1024 .bf16) (hax : ax.IsWhole)
    (aw : Memref sig .tc .vmem S1024x1024 .bf16) (haw : aw.IsWhole)
    (ay : Memref sig .tc .vmem S1024x1024 .f32) (hay : ay.IsWhole)
    (x : Vec F S1024x1024 .bf16) (w : Vec F S1024x1024 .bf16) (K : PUnit → sProp 𝕄) :
    iprop(owns (c : Thread nD τ) ax fullShare x ∗ owns (c : Thread nD τ) aw fullShare w
        ∗ (∃ d, owns (c : Thread nD τ) ay fullShare d)
        ∗ (iprop(owns (c : Thread nD τ) ax fullShare x ∗ owns (c : Thread nD τ) aw fullShare w
            ∗ owns (c : Thread nD τ) ay fullShare (projProd x w)) -∗ K ⟨⟩))
      ⊢ wp frame (wpE (defs₀ (F := F)) Variants.none c none) E (cc2__linear_kernel i ax hax aw haw ay hay) K := by
  simp only [cc2__linear_kernel_eq_skeleton]; unfold cc2__linear_kernel_skel
  unfold owns
  iintro ⟨⟨%fx, %hfx, Hx⟩, ⟨%fw, %hfw, Hw⟩, ⟨%d, %fy, -, Hy⟩, Hk⟩
  subst hfx; subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Hy
  ipureintro
  exact View.read_writes_eq_canon _ _ _ (projProd_covers _)

/-! ## The region's proof data -/

/-- The proof data of the region on core c. The windows' arrays are as the region finds them (V); after the body at
    point t the two factor buffers hold their blocks still and the result's holds the product of the two blocks; the
    invariant is the untouched rest of the core's scoped memory and its generator register; every share is full and
    nothing is owed. -/
def projDat (c : Dev nD) : Dat τ (Elt F) Unit ℕ (Pipeline.UD sig nD τ) ℕ cfg2 c where
  A w := V c (Pipeline.arrRef spec2 w)
  after w t := match w with
    | ⟨0, _⟩ => projBlockAt V c 0 t
    | ⟨1, _⟩ => projBlockAt V c 1 t
    | ⟨2, _⟩ => projProd (projBlockAt V c 0 t) (projBlockAt V c 1 t)
  Φ _ := Pipeline.ΦA spec2 c
  q _ := fullShare
  owed _ := 0

/-- Its arrays are the contents at entry. -/
theorem projDat_A (c : Dev nD) (w : Fin cfg2.W) : (projDat V c).A w = V c (Pipeline.arrRef spec2 w) := by
  dsimp only [projDat]

/-- What the body leaves in each window's buffer. -/
theorem projDat_after_left (c : Dev nD) (t : Fin cfg2.N) : (projDat V c).after 0 t = projBlockAt V c 0 t := by
  dsimp only [projDat]
theorem projDat_after_right (c : Dev nD) (t : Fin cfg2.N) : (projDat V c).after 1 t = projBlockAt V c 1 t := by
  dsimp only [projDat]
theorem projDat_after_out (c : Dev nD) (t : Fin cfg2.N) :
    (projDat V c).after 2 t = projProd (projBlockAt V c 0 t) (projBlockAt V c 1 t) := by
  dsimp only [projDat]

/-- What the body finds in the two factor buffers: their blocks, at every point. -/
theorem projDat_before_left (c : Dev nD) (t : Fin cfg2.N) (d) : (projDat V c).before 0 t d = projBlockAt V c 0 t :=
  proj_left_staged_of V (projDat V c) (projDat_A V c 0) (projDat_after_left V c) t d
theorem projDat_before_right (c : Dev nD) (t : Fin cfg2.N) (d) : (projDat V c).before 1 t d = projBlockAt V c 1 t :=
  proj_right_staged_of V (projDat V c) (projDat_A V c 1) (projDat_after_right V c) t d

/-! ## The body obligation -/

/-- What the body is entered with at point t: the invariant, the core's dues, and the three current staging
    buffers at what the proof data say they hold before the body. -/
def projBodyPre (c : Dev nD) (t : Fin cfg2.N) : sProp 𝕄 :=
  iprop((projDat V c).Φ t.castSucc ∗ (projDat V c).owesAt () t.castSucc
    ∗ (∃ d, owns (c : Thread nD τ) (st2_0 t) fullShare ((projDat V c).before 0 t d))
    ∗ (∃ d, owns (c : Thread nD τ) (st2_1 t) fullShare ((projDat V c).before 1 t d))
    ∗ (∃ d, owns (c : Thread nD τ) (st2_2 t) fullShare ((projDat V c).before 2 t d)))

/-- What it must return: the same with the buffers at what the proof data say the body leaves. -/
def projBodyPost (c : Dev nD) (t : Fin cfg2.N) : sProp 𝕄 :=
  iprop((projDat V c).Φ t.succ ∗ (projDat V c).owesAt () t.succ
    ∗ owns (c : Thread nD τ) (st2_0 t) fullShare ((projDat V c).after 0 t)
    ∗ owns (c : Thread nD τ) (st2_1 t) fullShare ((projDat V c).after 1 t)
    ∗ owns (c : Thread nD τ) (st2_2 t) fullShare ((projDat V c).after 2 t))

/-- The body at any point: the factor buffers hold their blocks, so the kernel's triple applies; the invariant and
    the dues are not touched. -/
theorem proj_body_triple (c : Dev nD) (t : Fin cfg2.N) :
    projBodyPre V c t ⊢ wp frame (wpE (defs₀ (F := F)) Variants.none c none) Set.univ (bodyAt2 t) (fun _ => projBodyPost V c t) := by
  unfold projBodyPre projBodyPost bodyAt2
  simp only [projDat_before_left, projDat_before_right]
  rw [show (projDat V c).Φ t.succ = (projDat V c).Φ t.castSucc from rfl,
    show (projDat V c).owesAt () t.succ = (projDat V c).owesAt () t.castSucc from rfl,
    projDat_after_left, projDat_after_right, projDat_after_out]
  iintro ⟨HΦ, Ho, ⟨%dx, Hx⟩, ⟨%dw, Hw⟩, ⟨%dy, Hy⟩⟩
  iapply (proj_kernel_triple c Set.univ (grid2.coords t) _ _ _ _ _ _ (projBlockAt V c 0 t) (projBlockAt V c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

/-- The body obligation of the region's launch theorem, at every point. -/
theorem proj_body_obligation (c : Dev nD) :
    BodyObligation (projDat (F := F) V c) (defs₀ (F := F)) Variants.none () Set.univ := fun t => by
  rw [bigSep_W2, bigSep_W2]
  exact proj_body_triple V c t

end Cert.Kernel.Lin

end
-- ==== Proof.RunValsB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import proofs.«126977_j57518202028698_2_alg».proof.Proof.AttnPiecesB
import proofs.«126977_j57518202028698_2_alg».proof.Proof.AttnDataB
import proofs.«126977_j57518202028698_2_alg».proof.Proof.LinRegion0B
import proofs.«126977_j57518202028698_2_alg».proof.Proof.LinRegion2B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«126977_j57518202028698_2_alg».proof.Proof.Gen.Kernel.Regions
set_option maxRecDepth 16384

noncomputable section

namespace Cert.Kernel.Run

open Cert.Kernel Cert.Kernel.Gen Cert.Kernel.Lin Cert.Kernel.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: @main's seven segments from the launch to the return

## The buffer contents at each segment boundary -/

/-- Core `c`'s buffers at launch. -/
abbrev W0 : Dev nD → Valuation τ sig (Elt F) := fun c b => (s₀ m ρ).mem ((c : Dev nD), b)
/-- After the first host stretch (the two weight casts and the flattening of the input): the first product's entry. -/
abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- After the first product: its output array at what its write-backs leave, every other buffer as entered. -/
def W2 (c : Dev nD) : Valuation τ sig (Elt F) :=
  Pipeline.withArrays spec0 c (W1 m ρ c) fun w => (qkvDat (V1 m ρ) c).arrAt w cfg0.N
theorem W2_arr (c : Dev nD) (w : Fin cfg0.W) :
    W2 m ρ c (Proc.devRef .tc (Pipeline.arrRef spec0 w)) = (qkvDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (qkvDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the fused projections regrouped by batch): the attention region's entry. -/
abbrev W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- After the attention region: the merged-heads array at what its write-backs leave, every other buffer as entered. -/
def W4 (c : Dev nD) : Valuation τ sig (Elt F) :=
  Function.update (W3 m ρ c) main_v5 ((attnDat (V3 m ρ) c).arrAt 3 cfg1.N)
theorem W4_out (c : Dev nD) : W4 m ρ c main_v5 = (attnDat (V3 m ρ) c).arrAt 3 cfg1.N := by
  unfold W4; exact Function.update_self _ _ _
theorem W4_of_ne (c : Dev nD) (b : Ref sig .tc) (hb : b ≠ main_v5) : W4 m ρ c b = W3 m ρ c b := by
  unfold W4; exact Function.update_of_ne (StableHlo.devRef_ne_of_ne hb : (Proc.devRef .tc b : DevRef τ sig) ≠ Proc.devRef .tc main_v5) _ _
abbrev V4 : (c : Dev nD) → (b : Ref sig .tc) → Buf (Elt F) ((c : Thread nD τ).loc b) := fun c b => W4 m ρ c b
/-- After the third host stretch (the merged heads flattened): the second product's entry. -/
abbrev W5 (c : Dev nD) : Valuation τ sig (Elt F) := StableHlo.after hostOps2 (W4 m ρ c)
abbrev V5 : (c : Dev nD) → (b : Ref sig .tc) → Buf (Elt F) ((c : Thread nD τ).loc b) := fun c b => W5 m ρ c b
/-- After the second product. -/
def W6 (c : Dev nD) : Valuation τ sig (Elt F) :=
  Pipeline.withArrays spec2 c (W5 m ρ c) fun w => (projDat (V5 m ρ) c).arrAt w cfg2.N
theorem W6_arr (c : Dev nD) (w : Fin cfg2.W) :
    W6 m ρ c (Proc.devRef .tc (Pipeline.arrRef spec2 w)) = (projDat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (projDat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch (the result regrouped by batch): what the program returns. -/
abbrev W7 (c : Dev nD) : Valuation τ sig (Elt F) := StableHlo.after hostOps3 (W6 m ρ c)

/-! ### The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

end Cert.Kernel.Run

end
-- ==== Proof.RunB.lean ====
import proofs.«126977_j57518202028698_2_alg».proof.Proof.Gen.Kernel.Launch
import proofs.«126977_j57518202028698_2_alg».proof.Proof.Gen.Kernel.Skeleton
import proofs.«126977_j57518202028698_2_alg».proof.Proof.Gen.Kernel.Points
import proofs.«126977_j57518202028698_2_alg».proof.Proof.AttnCondsB
import proofs.«126977_j57518202028698_2_alg».proof.Proof.AttnPiecesB
import proofs.«126977_j57518202028698_2_alg».proof.Proof.AttnDataB
import proofs.«126977_j57518202028698_2_alg».proof.Proof.AttnArraysB
import proofs.«126977_j57518202028698_2_alg».proof.Proof.AttnBodyB
import proofs.«126977_j57518202028698_2_alg».proof.Proof.AttnObligB
import proofs.«126977_j57518202028698_2_alg».proof.Proof.LinRegion0B
import proofs.«126977_j57518202028698_2_alg».proof.Proof.LinRegion2B
import proofs.«126977_j57518202028698_2_alg».proof.Proof.RunValsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«126977_j57518202028698_2_alg».proof.Proof.Gen.Kernel.Regions
set_option maxRecDepth 16384

noncomputable section

namespace Cert.Kernel.Run

open Cert.Kernel Cert.Kernel.Gen Cert.Kernel.Lin Cert.Kernel.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => qkvDat (V1 m ρ) c
  | ⟨1, _⟩ => fun c => attnDat (V3 m ρ) c
  | ⟨2, _⟩ => fun c => projDat (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (qkv_body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (proj_body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. The fused
    projection array is split into the three input windows' shares on entry and rejoined on exit; the merged-heads
    array comes back at what the write-backs left; the generator register goes into the invariant and comes out; the
    scratch buffers' running state is forgotten at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (attn_body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := attn_arrays_in (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (attn_hin (V3 m ρ) c)
    unfold Pipeline.ΦA
    iintro ⟨Hp, -, Hr⟩
    isplitl [Hr]; · iexact Hr
    iexact Hp
  hout c := by
    rw [Pipeline.ownSems0_none]
    refine (attn_hout (V3 m ρ) c).trans ?_
    unfold Pipeline.ΦA
    iintro ⟨Hr, Hp⟩
    isplitl [Hp]; · iexact Hp
    isplitr; · iempintro
    iexact Hr
  hexit c := by
    have hjoin := attn_arrays_out (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest]
    · ihave Hb := hjoin $$ [Ha Hrest]
      · isplitl [Ha]; · iexact Ha
        iexact Hrest
      iexact Hb
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting; the final state holds the result array at the last boundary's contents and each argument array
    as launched. -/
theorem run_all : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.Kernel.Run

end
-- ==== Proof.Spec.lean ====
import Idealize.ShloMosaic.PureOps.Ideal
import Idealize.ShloMosaic.Lib.ValueIdx

/-!
# Causal multi-head attention, index by index

The result of causal multi-head self-attention with 16 heads of 64 lanes on a batch of 2 sequences of 2048 rows of
1024 columns, as plain functions of coordinates on the extended reals, in the order of the plain formulation:

* `qkv`: every row of `x` against every row of the `[3072, 1024]` weight (a sum over the 1024 columns);
  columns 0..1023 of the result are the queries, 1024..2047 the keys, 2048..3071 the values, and head `h` owns the
  columns `64 h .. 64 h + 63` of each third;
* `score`: a query row against a key row (a sum over the head's 64 lanes), times the constant 1/8 (written as its
  float word, on the right of the product);
* `masked`: the score where the key position is not after the query position, and the float word of −∞ elsewhere;
* `rowMax`, `expo`, `rowSum`, `prob`: the row-wise softmax, as the maximum over all 2048 key positions from −∞, the
  exponential of the difference, the sum from the zero word, and the quotient;
* `attn`: the probabilities against the values (a sum over the 2048 key positions);
* `merged`: the heads side by side again (column `c` is lane `c % 64` of head `c / 64`);
* `result`: every merged row against every row of the `[1024, 1024]` weight.

Float constants stay the words `Ideal.ofBits .f32 0x…#32`; nothing here evaluates them.
-/

noncomputable section

namespace Cert.AttnSpec

open Idealize.ShloMosaic

/-- Column `64 h + d` of a third: lane `d` of head `h`. -/
def headCol (h : Fin 16) (d : Fin 64) : Fin 1024 := ⟨h.val * 64 + d.val, by have := h.isLt; have := d.isLt; omega⟩
/-- The query column of lane `d` of head `h` in the fused projection. -/
def qCol (h : Fin 16) (d : Fin 64) : Fin 3072 := ⟨h.val * 64 + d.val, by have := h.isLt; have := d.isLt; omega⟩
/-- The key column of lane `d` of head `h` in the fused projection. -/
def kCol (h : Fin 16) (d : Fin 64) : Fin 3072 := ⟨1024 + (h.val * 64 + d.val), by have := h.isLt; have := d.isLt; omega⟩
/-- The value column of lane `d` of head `h` in the fused projection. -/
def vCol (h : Fin 16) (d : Fin 64) : Fin 3072 := ⟨2048 + (h.val * 64 + d.val), by have := h.isLt; have := d.isLt; omega⟩
/-- The head that owns column `c` of the merged rows. -/
def colHead (c : Fin 1024) : Fin 16 := ⟨c.val / 64, by have := c.isLt; omega⟩
/-- The lane of column `c` inside its head. -/
def colLane (c : Fin 1024) : Fin 64 := ⟨c.val % 64, by omega⟩

theorem colHead_headCol (h : Fin 16) (d : Fin 64) : colHead (headCol h d) = h :=
  Fin.ext (by have := d.isLt; show (h.val * 64 + d.val) / 64 = h.val; omega)
theorem colLane_headCol (h : Fin 16) (d : Fin 64) : colLane (headCol h d) = d :=
  Fin.ext (by have := d.isLt; show (h.val * 64 + d.val) % 64 = d.val; omega)
theorem headCol_colHead_colLane (c : Fin 1024) : headCol (colHead c) (colLane c) = c :=
  Fin.ext (by show c.val / 64 * 64 + c.val % 64 = c.val; omega)

section
variable (x : Fin 2 → Fin 2048 → Fin 1024 → EReal) (wa : Fin 3072 → Fin 1024 → EReal)

/-- The fused projection: row `(b, t)` of `x` against row `o` of the weight. -/
def qkv (b : Fin 2) (t : Fin 2048) (o : Fin 3072) : EReal := ∑ c : Fin 1024, x b t c * wa o c

/-- Lane `d` of head `h`'s query at position `t`. -/
def query (b : Fin 2) (h : Fin 16) (t : Fin 2048) (d : Fin 64) : EReal := qkv x wa b t (qCol h d)
/-- Lane `d` of head `h`'s key at position `s`. -/
def key (b : Fin 2) (h : Fin 16) (s : Fin 2048) (d : Fin 64) : EReal := qkv x wa b s (kCol h d)
/-- Lane `d` of head `h`'s value at position `s`. -/
def value (b : Fin 2) (h : Fin 16) (s : Fin 2048) (d : Fin 64) : EReal := qkv x wa b s (vCol h d)

/-- Query `t` against key `s`, scaled by 1/8 (the word `0x3E000000`, on the right). -/
def score (b : Fin 2) (h : Fin 16) (t s : Fin 2048) : EReal :=
  (∑ d : Fin 64, query x wa b h t d * key x wa b h s d) * Ideal.ofBits .f32 0x3E000000#32

/-- The causal mask: key positions after the query position carry the word of −∞. -/
def masked (b : Fin 2) (h : Fin 16) (t s : Fin 2048) : EReal :=
  if s ≤ t then score x wa b h t s else Ideal.ofBits .f32 0xFF800000#32

/-- The row maximum over all key positions, from the word of −∞. -/
def rowMax (b : Fin 2) (h : Fin 16) (t : Fin 2048) : EReal :=
  (Finset.univ : Finset (Fin 2048)).fold max (Ideal.ofBits .f32 0xFF800000#32) (fun s => masked x wa b h t s)

/-- The exponential of a masked score less its row maximum. -/
def expo (b : Fin 2) (h : Fin 16) (t s : Fin 2048) : EReal := Ideal.exp (masked x wa b h t s - rowMax x wa b h t)

/-- The row sum of the exponentials, from the zero word. -/
def rowSum (b : Fin 2) (h : Fin 16) (t : Fin 2048) : EReal :=
  Ideal.ofBits .f32 0x00000000#32 + ∑ s : Fin 2048, expo x wa b h t s

/-- The attention probability of key position `s` for query position `t`. -/
def prob (b : Fin 2) (h : Fin 16) (t s : Fin 2048) : EReal := Ideal.div (expo x wa b h t s) (rowSum x wa b h t)

/-- The probabilities against the values. -/
def attn (b : Fin 2) (h : Fin 16) (t : Fin 2048) (d : Fin 64) : EReal :=
  ∑ s : Fin 2048, prob x wa b h t s * value x wa b h s d

/-- The heads side by side: column `c` is lane `c % 64` of head `c / 64`. -/
def merged (b : Fin 2) (t : Fin 2048) (c : Fin 1024) : EReal := attn x wa b (colHead c) t (colLane c)

variable (wp : Fin 1024 → Fin 1024 → EReal)

/-- The output projection: merged row `(b, t)` against row `o` of the weight. -/
def result (b : Fin 2) (t : Fin 2048) (o : Fin 1024) : EReal := ∑ c : Fin 1024, merged x wa b t c * wp o c

end

open Idealize.ShloMosaic.ValueIdx in
/-- The whole result as one array: a function of the three argument arrays, read at an index of the result's shape. -/
def attention (x : (⟨3, ![2, 2048, 1024]⟩ : Shape).Idx → EReal) (wa : (⟨2, ![3072, 1024]⟩ : Shape).Idx → EReal)
    (wp : (⟨2, ![1024, 1024]⟩ : Shape).Idx → EReal) : (⟨3, ![2, 2048, 1024]⟩ : Shape).Idx → EReal :=
  fun i => result (fun b t c => x (ix3 b t c)) (fun o c => wa (ix2 o c)) (fun o c => wp (ix2 o c)) (i 0) (i 1) (i 2)

/-- The word `0xFF800000` is −∞. -/
theorem negInf_eq_bot : Ideal.ofBits .f32 0xFF800000#32 = (⊥ : EReal) := by simp [Ideal.ofBits, Ideal.ieee]

end Cert.AttnSpec

end
-- ==== Proof.LibHostRows.lean ====
/-
  The host's row reductions of a matrix read at a row, on the extended reals: a `stablehlo.reduce` over axis 1 of an
  `[a, b]` array with an add body is, at row `p`, the initial value plus the sum of the row's entries; with a maximum body,
  the fold of `max` from the initial value over the row's entries. General in the two extents. (The in-kernel
  counterparts, a lane sum and a lane maximum with kept dimension, are read the same way in LibLanes.)
-/
import Idealize.ShloMosaic.Lib.ValueIdx
import Idealize.ShloMosaic.Lib.IdealHost
import Idealize.ShloMosaic.PureOps.Ideal.Laws
import Idealize.ShloMosaic.PureOps.Reduce
import Mathlib.Data.Finset.Fold

noncomputable section

namespace Cert.LibHostRows

open Idealize.ShloMosaic Idealize.ShloMosaic.ValueIdx

/-- The host's sum over the entries of row `p`, from the initial value. -/
theorem row_sum {a b : ℕ} (x : FVec Ideal (⟨2, ![a, b]⟩ : Shape) .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (_ + ·) (Finset.sum_congr rfl fun k _ => congrArg x (funext fun d => Fin.ext ?_))
  match d with
  | ⟨0, _⟩ => rfl
  | ⟨1, _⟩ => rfl

/-- The host's maximum over the entries of row `p`, from the initial value. -/
theorem row_max {a b : ℕ} (x : FVec Ideal (⟨2, ![a, b]⟩ : Shape) .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun k => x (ix2 p k)) := by
  refine (Host.reduce_eq_fold_single FloatOps.maximumf x init h' h hu (ix1 p)).trans ?_
  refine congrArg (Finset.fold max _ · Finset.univ) (funext fun k => congrArg x (funext fun d => Fin.ext ?_))
  match d with
  | ⟨0, _⟩ => rfl
  | ⟨1, _⟩ => rfl

/-- Taking the maximum with the fold's own starting value once more changes nothing. -/
theorem max_fold_self {b : ℕ} (z : EReal) (f : Fin b → EReal) :
    max z ((Finset.univ : Finset (Fin b)).fold max z f) = (Finset.univ : Finset (Fin b)).fold max z f :=
  max_eq_right ((Finset.le_fold_max (s := (Finset.univ : Finset (Fin b))) (f := f) (b := z) (c := z)).2 (Or.inl le_rfl))

end Cert.LibHostRows

end
-- ==== Proof.RefIsSpec.lean ====
import proofs.«126977_j57518202028698_2_alg».proof.Proof.Spec
import proofs.«126977_j57518202028698_2_alg».proof.Proof.Gen.ReferenceIdeal.Read
import proofs.«126977_j57518202028698_2_alg».proof.Proof.LibHostRows
import Idealize.ShloMosaic.Lib.Affine

/-!
# The plain formulation computes the attention specification

Each stage of the plain program is identified, at explicit coordinates, with the matching function of `Cert.AttnSpec`: the fused projection, the three thirds regrouped
by head, the scaled scores, the causal mask, the row-wise softmax, the weighted sum of the values, the heads merged,
and the output projection.
-/

noncomputable section

namespace Cert.AttnRef

open Cert.ReferenceIdeal Cert.ReferenceIdeal.Gen Cert.ReferenceIdeal.Read Idealize.ShloMosaic Idealize.ShloMosaic.ValueIdx Cert.AttnSpec

variable (x0 : (⟨S2x2048x1024, .f32⟩ : BufTy).Contents (Elt Ideal)) (x1 : (⟨S3072x1024, .f32⟩ : BufTy).Contents (Elt Ideal))

/-- The input rows as a function of coordinates. -/
abbrev X : Fin 2 → Fin 2048 → Fin 1024 → EReal := fun b t c => x0 (ix3 b t c)
/-- The fused projection's weight as a function of coordinates. -/
abbrev WA : Fin 3072 → Fin 1024 → EReal := fun o c => x1 (ix2 o c)

/-! ## The fused projection -/

theorem qkv_at (b : Fin 2) (t : Fin 2048) (o : Fin 3072) :
    val_main_v0 (F := Ideal) x0 x1 (ix3 b t o) = qkv (X x0) (WA x1) b t o := by
  rw [val_main_v0_apply]
  refine Finset.sum_congr rfl fun k _ => ?_
  have el : lidx_main_v0 (ix3 b t o) k = ix3 b t k := funext fun a => by
    match a with | ⟨0, _⟩ => rfl | ⟨1, _⟩ => rfl | ⟨2, _⟩ => rfl
  have er : ridx_main_v0 (ix3 b t o) k = ix2 o k := funext fun a => by
    match a with | ⟨0, _⟩ => rfl | ⟨1, _⟩ => rfl
  rw [el, er]

/-! ## The three thirds, regrouped by head -/

theorem query_at (b : Fin 2) (h : Fin 16) (t : Fin 2048) (d : Fin 64) :
    val_main_v5 (F := Ideal) x0 x1 (ix4 b h t d) = query (X x0) (WA x1) b h t d := by
  rw [val_main_v5_apply, val_main_v4_apply, val_main_v1_apply]
  have e : idx_main_v1 (idx_main_v4 (idx_main_v5 (ix4 b h t d))) = ix3 b t (qCol h d) := funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => show (((b.val * 2048 + t.val) * 16 + h.val) * 64 + d.val) % 1024 = h.val * 64 + d.val; omega)
  rw [e, qkv_at]; rfl

theorem key_at (b : Fin 2) (h : Fin 16) (s : Fin 2048) (d : Fin 64) :
    val_main_v7 (F := Ideal) x0 x1 (ix4 b h s d) = key (X x0) (WA x1) b h s d := by
  rw [val_main_v7_apply, val_main_v6_apply, val_main_v2_apply]
  have e : idx_main_v2 (idx_main_v6 (idx_main_v7 (ix4 b h s d))) = ix3 b s (kCol h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show 1024 + (((b.val * 2048 + s.val) * 16 + h.val) * 64 + d.val) % 1024 = 1024 + (h.val * 64 + d.val); omega)
  rw [e, qkv_at]; rfl

theorem value_at (b : Fin 2) (h : Fin 16) (s : Fin 2048) (d : Fin 64) :
    val_main_v9 (F := Ideal) x0 x1 (ix4 b h s d) = value (X x0) (WA x1) b h s d := by
  rw [val_main_v9_apply, val_main_v8_apply, val_main_v3_apply]
  have e : idx_main_v3 (idx_main_v8 (idx_main_v9 (ix4 b h s d))) = ix3 b s (vCol h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show 2048 + (((b.val * 2048 + s.val) * 16 + h.val) * 64 + d.val) % 1024 = 2048 + (h.val * 64 + d.val); omega)
  rw [e, qkv_at]; rfl

/-! ## The scaled scores -/

theorem score_at (b : Fin 2) (h : Fin 16) (t s : Fin 2048) :
    val_main_v12 (F := Ideal) x0 x1 (ix4 b h t s) = score (X x0) (WA x1) b h t s := by
  rw [val_main_v12_apply, val_main_v10_apply, val_main_v11_apply, val_main_cst_apply]
  have e : ∀ k : Fin 64, val_main_v5 (F := Ideal) x0 x1 (lidx_main_v10 (ix4 b h t s) k)
        * val_main_v7 (F := Ideal) x0 x1 (ridx_main_v10 (ix4 b h t s) k)
      = query (X x0) (WA x1) b h t k * key (X x0) (WA x1) b h s k := fun k => by
    have el : lidx_main_v10 (ix4 b h t s) k = ix4 b h t k := funext fun a => by
      match a with | ⟨0, _⟩ => rfl | ⟨1, _⟩ => rfl | ⟨2, _⟩ => rfl | ⟨3, _⟩ => rfl
    have er : ridx_main_v10 (ix4 b h t s) k = ix4 b h s k := funext fun a => by
      match a with | ⟨0, _⟩ => rfl | ⟨1, _⟩ => rfl | ⟨2, _⟩ => rfl | ⟨3, _⟩ => rfl
    rw [el, er, query_at, key_at]
  rw [Finset.sum_congr rfl fun k _ => e k]
  rfl

/-! ## The causal mask -/

/-- A position below 2048 is itself as a signed 32-bit word. -/
theorem toInt_position (n : ℕ) (h : n < 2048) : (BitVec.ofNat 32 n).toInt = (n : ℤ) := by
  rw [BitVec.toInt_eq_toNat_of_lt (by rw [BitVec.toNat_ofNat]; omega), BitVec.toNat_ofNat]
  omega

/-- The strictly upper triangle as the plain program builds it — "row plus zero is at least the column" selects false,
    anything else true — used as a selector: `A` strictly above the diagonal, `B` on and below it. -/
theorem select_above_diagonal (t s : ℕ) (ht : t < 2048) (hs : s < 2048) {α : Type} (A B : α) :
    Scalar.select (Scalar.select (IntOp.cmpi .sge (IntOp.addi (BitVec.ofNat 32 t) 0#32) (BitVec.ofNat 32 s)) 0#1 1#1) A B
      = if s ≤ t then B else A := by
  have e : IntOp.addi (BitVec.ofNat 32 t) 0#32 = BitVec.ofNat 32 t := BitVec.add_zero _
  rw [e]
  by_cases h : s ≤ t
  · have c : IntOp.cmpi .sge (BitVec.ofNat 32 t) (BitVec.ofNat 32 s) = 1#1 :=
      IntOp.cmpi_sge.2 (by rw [toInt_position t ht, toInt_position s hs]; exact_mod_cast h)
    rw [c, if_pos h]; rfl
  · have c : ¬ IntOp.cmpi .sge (BitVec.ofNat 32 t) (BitVec.ofNat 32 s) = (1 : BitVec 1) := fun hc => h (by
      have := IntOp.cmpi_sge.1 hc
      rw [toInt_position t ht, toInt_position s hs] at this; exact_mod_cast this)
    rw [if_neg h]
    show (if (if IntOp.cmpi .sge (BitVec.ofNat 32 t) (BitVec.ofNat 32 s) = 1 then 0#1 else 1#1) = 1 then A else B) = A
    rw [if_neg c]; rfl

theorem masked_at (b : Fin 2) (h : Fin 16) (t s : Fin 2048) :
    val_main_v15 (F := Ideal) x0 x1 (ix4 b h t s) = masked (X x0) (WA x1) b h t s := by
  rw [val_main_v15_apply, val_main_call1_v1_apply, val_main_call1_v2_apply, val_main_call1_v0_apply,
    val_main_cst_0_apply, score_at]
  have e : idx_main_call1_v1 (ix4 b h t s) = ix2 t s := funext fun a => by
    match a with | ⟨0, _⟩ => rfl | ⟨1, _⟩ => rfl
  rw [e, val_main_v14_apply, val_main_call0_v4_apply, val_main_call0_v2_apply, val_main_call0_v0_apply,
    val_main_call0_v1_apply, val_main_call0_c_apply, val_main_call0_v3_apply, val_main_call0_v5_apply,
    val_main_call0_c_0_apply, val_main_v13_apply, val_main_c_apply]
  exact select_above_diagonal t.val s.val t.isLt s.isLt _ _

/-! ## The row-wise softmax -/

theorem rowMax_at (b : Fin 2) (h : Fin 16) (t : Fin 2048) :
    val_main_v18 (F := Ideal) x0 x1 (ix3 b h t) = rowMax (X x0) (WA x1) b h t := by
  have hr : S2x16x2048x2048.Reduces [3] S2x16x2048 := by decide
  have e : val_main_v16 (F := Ideal) x0 x1 (ix3 b h t) = rowMax (X x0) (WA x1) b h t := by
    unfold val_main_v16
    refine (Host.reduce_eq_fold_single FloatOps.maximumf _ _ reducesTo_S2x16x2048x2048_S2x16x2048_d3 hr h_S_ (ix3 b h t)).trans ?_
    unfold rowMax
    refine congrArg (Finset.fold max _ · Finset.univ) (funext fun (k : Fin 2048) => ?_)
    have ei : hr.lift (ix3 b h t) k = ix4 b h t k := funext fun a => Fin.ext (by
      match a with | ⟨0, _⟩ => rfl | ⟨1, _⟩ => rfl | ⟨2, _⟩ => rfl | ⟨3, _⟩ => rfl)
    show val_main_v15 (F := Ideal) x0 x1 (hr.lift (ix3 b h t) k) = _
    rw [ei, masked_at]
  rw [val_main_v18_apply, val_main_v17_apply, val_main_cst_2_apply, e]
  unfold rowMax
  exact Cert.LibHostRows.max_fold_self _ _

theorem expo_at (b : Fin 2) (h : Fin 16) (t s : Fin 2048) :
    val_main_v22 (F := Ideal) x0 x1 (ix4 b h t s) = expo (X x0) (WA x1) b h t s := by
  rw [val_main_v22_apply, val_main_v21_apply, val_main_v20_apply, val_main_v19_apply, masked_at]
  have e : idx_main_v19 (idx_main_v20 (ix4 b h t s)) = ix3 b h t := funext fun a => by
    match a with | ⟨0, _⟩ => rfl | ⟨1, _⟩ => rfl | ⟨2, _⟩ => rfl
  rw [e, rowMax_at]; rfl

theorem rowSum_at (b : Fin 2) (h : Fin 16) (t : Fin 2048) :
    val_main_v23 (F := Ideal) x0 x1 (ix3 b h t) = rowSum (X x0) (WA x1) b h t := by
  rw [val_main_v23_apply, val_main_cst_3_apply]
  have e : ∀ k : Fin 2048, val_main_v22 (F := Ideal) x0 x1 (idx_main_v23 (ix3 b h t) k)
      = expo (X x0) (WA x1) b h t k := fun k => by
    have ei : idx_main_v23 (ix3 b h t) k = ix4 b h t k := funext fun a => by
      match a with | ⟨0, _⟩ => rfl | ⟨1, _⟩ => rfl | ⟨2, _⟩ => rfl | ⟨3, _⟩ => rfl
    rw [ei, expo_at]
  rw [Finset.sum_congr rfl fun k _ => e k]; rfl

theorem prob_at (b : Fin 2) (h : Fin 16) (t s : Fin 2048) :
    val_main_v26 (F := Ideal) x0 x1 (ix4 b h t s) = prob (X x0) (WA x1) b h t s := by
  rw [val_main_v26_apply, val_main_v25_apply, val_main_v24_apply, expo_at]
  have e : idx_main_v24 (idx_main_v25 (ix4 b h t s)) = ix3 b h t := funext fun a => by
    match a with | ⟨0, _⟩ => rfl | ⟨1, _⟩ => rfl | ⟨2, _⟩ => rfl
  rw [e, rowSum_at]; rfl

/-! ## The weighted sum of the values, and the heads merged -/

theorem attn_at (b : Fin 2) (h : Fin 16) (t : Fin 2048) (d : Fin 64) :
    val_main_v27 (F := Ideal) x0 x1 (ix4 b h t d) = attn (X x0) (WA x1) b h t d := by
  rw [val_main_v27_apply]
  have e : ∀ k : Fin 2048, val_main_v26 (F := Ideal) x0 x1 (lidx_main_v27 (ix4 b h t d) k)
        * val_main_v9 (F := Ideal) x0 x1 (ridx_main_v27 (ix4 b h t d) k)
      = prob (X x0) (WA x1) b h t k * value (X x0) (WA x1) b h k d := fun k => by
    have el : lidx_main_v27 (ix4 b h t d) k = ix4 b h t k := funext fun a => by
      match a with | ⟨0, _⟩ => rfl | ⟨1, _⟩ => rfl | ⟨2, _⟩ => rfl | ⟨3, _⟩ => rfl
    have er : ridx_main_v27 (ix4 b h t d) k = ix4 b h k d := funext fun a => by
      match a with | ⟨0, _⟩ => rfl | ⟨1, _⟩ => rfl | ⟨2, _⟩ => rfl | ⟨3, _⟩ => rfl
    rw [el, er, prob_at, value_at]
  rw [Finset.sum_congr rfl fun k _ => e k]; rfl

theorem merged_at (b : Fin 2) (t : Fin 2048) (c : Fin 1024) :
    val_main_v29 (F := Ideal) x0 x1 (ix3 b t c) = merged (X x0) (WA x1) b t c := by
  rw [val_main_v29_apply, val_main_v28_apply]
  have e : idx_main_v28 (idx_main_v29 (ix3 b t c)) = ix4 b (colHead c) t (colLane c) := funext fun a => Fin.ext (by
    have hb := b.isLt; have ht := t.isLt; have hc := c.isLt
    match a with
    | ⟨0, _⟩ => show ((b.val * 2048 + t.val) * 1024 + c.val) / 2097152 = b.val; omega
    | ⟨1, _⟩ => show ((b.val * 2048 + t.val) * 1024 + c.val) / 64 % 16 = c.val / 64; omega
    | ⟨2, _⟩ => show ((b.val * 2048 + t.val) * 1024 + c.val) / 1024 % 2048 = t.val; omega
    | ⟨3, _⟩ => show ((b.val * 2048 + t.val) * 1024 + c.val) % 64 = c.val % 64; omega)
  rw [e, attn_at]; rfl

/-! ## The output projection, and the whole result -/

variable (x2 : (⟨S1024x1024, .f32⟩ : BufTy).Contents (Elt Ideal))

/-- The output projection's weight as a function of coordinates. -/
abbrev WP : Fin 1024 → Fin 1024 → EReal := fun o c => x2 (ix2 o c)

theorem result_at (b : Fin 2) (t : Fin 2048) (o : Fin 1024) :
    val_main_v30 (F := Ideal) x0 x1 x2 (ix3 b t o) = result (X x0) (WA x1) (WP x2) b t o := by
  rw [val_main_v30_apply]
  have e : ∀ k : Fin 1024, val_main_v29 (F := Ideal) x0 x1 (lidx_main_v30 (ix3 b t o) k) * x2 (ridx_main_v30 (ix3 b t o) k)
      = merged (X x0) (WA x1) b t k * WP x2 o k := fun k => by
    have el : lidx_main_v30 (ix3 b t o) k = ix3 b t k := funext fun a => by
      match a with | ⟨0, _⟩ => rfl | ⟨1, _⟩ => rfl | ⟨2, _⟩ => rfl
    have er : ridx_main_v30 (ix3 b t o) k = ix2 o k := funext fun a => by
      match a with | ⟨0, _⟩ => rfl | ⟨1, _⟩ => rfl
    rw [el, er, merged_at]
  rw [Finset.sum_congr rfl fun k _ => e k]; rfl

/-- The plain program's result stage is the attention specification of its three argument arrays, as whole arrays. -/
theorem reference_eq_attention :
    val_main_v30 (F := Ideal) x0 x1 x2 = attention x0 x1 x2 := by
  funext i
  obtain ⟨b, t, o, rfl⟩ : ∃ (b : Fin 2) (t : Fin 2048) (o : Fin 1024), i = ix3 b t o := ⟨i 0, i 1, i 2, eq_ix3 i⟩
  exact result_at x0 x1 x2 b t o

/-! ## The plain program's run -/

open Idealize.ShloMosaic.TcCoe Idealize.SL.Sem Idealize.ShloMosaic.StableHlo in
/-- Every weakly fair execution of the plain program terminates with its result array at the attention specification of
    the three argument arrays as they stood at launch, and the arguments unchanged. -/
theorem run_attention (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = attention (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨by rw [(h c).1, Read.val_main_v30_eq, reference_eq_attention], (h c).2⟩)
    (Cert.ReferenceIdeal.Value.run (F := Ideal) m ρ)

end Cert.AttnRef

end
-- ==== Proof.LinDotCols.lean ====
/-
  The product of an [a, K] matrix with a [K, b] matrix (the left operand contracted on its last axis, the right one on
  its first, no batch axes) read at an entry on the extended reals: (x · y)[p, c] = Σₖ x[p, k] · y[k, c], the sum over
  Fin K. Stated for any dimension record of that form, then for a kernel's matrix-unit product into a zero accumulator.
-/
import Idealize.ShloMosaic.PureOps.Ideal.Laws
import Idealize.ShloMosaic.Lib.ValueIdx

noncomputable section

namespace Cert.LinDotCols

open Idealize.ShloMosaic Idealize.ShloMosaic.ValueIdx

/-- The dimension numbers of the plain matrix product: contract the left operand's axis 1 with the right operand's
    axis 0, keep the left operand's axis 0 and the right operand's axis 1, no batch axes. -/
structure IsCols {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of the plain matrix product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at (p, c), for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain matrix product at the entry (p, c) is the inner product of the left operand's row p
    with the right operand's column c. -/
theorem sum_cols {a K b : ℕ} (D : DotDims ⟨2, ![a, K]⟩ ⟨2, ![K, b]⟩ ⟨2, ![a, b]⟩) (h : IsCols D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's plain matrix product into the zero accumulator, at an entry. -/
theorem matmul_zero_apply {a K b : ℕ} {φ₁ φ₂ : FTy} (D : DotDims ⟨2, ![a, K]⟩ ⟨2, ![K, b]⟩ ⟨2, ![a, b]⟩) (h : IsCols D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_cols D h x y p c)

end Cert.LinDotCols

end
-- ==== Proof.LibTranspose.lean ====
/-
  A matrix transposed, read at an entry: the transpose of an `[a, b]` matrix holds at `(k, c)` the matrix's entry at
  `(c, k)`. General in the two extents and the element type; the library's read-at-an-index lemma for a transpose with the
  permutation `[1, 0]`, its per-axis obligation discharged for indices written by coordinates.
-/
import Idealize.ShloMosaic.Lib.Pipeline.Value
import Idealize.ShloMosaic.Lib.ValueIdx

namespace Cert.LibTranspose

open Idealize.ShloMosaic Idealize.ShloMosaic.ValueIdx

/-- A matrix `[a, b]` transposed reads, at `(k, c)`, the matrix at `(c, k)`. -/
theorem transpose_ab_apply {α : Type} {a b : ℕ} (x : (⟨2, ![a, b]⟩ : Shape).Idx → α)
    (h : (⟨2, ![a, b]⟩ : Shape).Transposes [1, 0] ⟨2, ![b, a]⟩) (k : Fin b) (c : Fin a) :
    transpose ⟨2, ![b, a]⟩ [1, 0] x h (ix2 k c) = x (ix2 c k) :=
  transpose_apply [1, 0] x h (ix2 k c) (ix2 c k) fun ax => by
    match ax with
    | ⟨0, _⟩ => rfl
    | ⟨1, _⟩ => rfl

end Cert.LibTranspose
-- ==== Proof.LinValue.lean ====
/- The two linear kernels' product blocks read at an entry, on the extended reals: the block a grid point of either kernel
   stores holds at (p, c) the inner product of row p of the left factor's block with row c of the right factor's block
   (the kernels multiply by the transposed right block). At the ideal instance the roundings to bf16 are the identity. -/
import proofs.«126977_j57518202028698_2_alg».proof.Proof.LinRegion0
import proofs.«126977_j57518202028698_2_alg».proof.Proof.LinRegion2
import proofs.«126977_j57518202028698_2_alg».proof.Proof.LinDotCols
import proofs.«126977_j57518202028698_2_alg».proof.Proof.LibTranspose
import Idealize.ShloMosaic.PureOps.Ideal.Laws
import Idealize.ShloMosaic.Lib.ValueIdx
import Idealize.ShloMosaic.Lib.Pipeline.Value

noncomputable section

namespace Cert.KernelIdeal.Lin

open Cert.KernelIdeal Cert.KernelIdeal.Gen
open Idealize.ShloMosaic Idealize.ShloMosaic.ValueIdx

/-- The offsets of the whole-block rectangle are all zero. -/
theorem tile_offsets_zero : (![0, 0] : Fin S1024x1024.rank → ℕ) = fun _ => 0 := by
  funext a; fin_cases a <;> rfl

/-- The first kernel's payload at an entry: Σₖ x[p, k] · w[c, k]. -/
theorem k0_pay1_apply (x : Vec Ideal S1024x1024 .f32) (w : Vec Ideal S1024x1024 .bf16) (p c : Fin 1024) :
    k0_pay1 x w (ix2 p c) = ∑ k : Fin 1024, x (ix2 p k) * w (ix2 c k) := by
  unfold k0_pay1
  simp only [shapeCast_self]
  show FloatOps.matmul (φ₁ := .bf16) (φ₂ := .bf16) dot_S1024x1024_S1024x1024_S1024x1024_1_0_0_1_n_n none
      (truncf .bf16 (x : FVec Ideal S1024x1024 .f32) bitsLt_bf16_f32 : FVec Ideal S1024x1024 .bf16)
      (transpose S1024x1024 [1, 0] (w : FVec Ideal S1024x1024 .bf16) transposes_S1024x1024_p1_0_S1024x1024 : FVec Ideal S1024x1024 .bf16)
      (constant S1024x1024 .f32 0x00000000#32) (ix2 p c) = _
  rw [Cert.LinDotCols.matmul_zero_apply _ ⟨rfl, rfl, rfl, rfl, rfl, rfl⟩]
  refine Finset.sum_congr rfl fun k _ => ?_
  rw [Cert.LibTranspose.transpose_ab_apply]
  rfl

/-- The second kernel's payload at an entry: Σₖ x[p, k] · w[c, k]. -/
theorem k2_pay1_apply (x : Vec Ideal S1024x1024 .bf16) (w : Vec Ideal S1024x1024 .bf16) (p c : Fin 1024) :
    k2_pay1 x w (ix2 p c) = ∑ k : Fin 1024, x (ix2 p k) * w (ix2 c k) := by
  unfold k2_pay1
  simp only [shapeCast_self]
  show FloatOps.matmul (φ₁ := .bf16) (φ₂ := .bf16) dot_S1024x1024_S1024x1024_S1024x1024_1_0_0_1_n_n none
      (x : FVec Ideal S1024x1024 .bf16)
      (transpose S1024x1024 [1, 0] (w : FVec Ideal S1024x1024 .bf16) transposes_S1024x1024_p1_0_S1024x1024 : FVec Ideal S1024x1024 .bf16)
      (constant S1024x1024 .f32 0x00000000#32) (ix2 p c) = _
  rw [Cert.LinDotCols.matmul_zero_apply _ ⟨rfl, rfl, rfl, rfl, rfl, rfl⟩]
  refine Finset.sum_congr rfl fun k _ => ?_
  rw [Cert.LibTranspose.transpose_ab_apply]

/-- The block the first kernel leaves in the result's buffer, at an entry: the one store through the whole-block
    rectangle leaves its payload, and the loads through it read the factor blocks themselves. -/
theorem qkvProd_apply (x : Vec Ideal S1024x1024 .f32) (w : Vec Ideal S1024x1024 .bf16) (p c : Fin 1024) :
    qkvProd x w (ix2 p c) = ∑ k : Fin 1024, x (ix2 p k) * w (ix2 c k) := by
  unfold qkvProd
  rw [View.canon_unit_zero tile_offsets_zero]
  simp only [View.ld_unit_zero (S := S1024x1024) tile_offsets_zero]
  exact k0_pay1_apply x w p c

/-- The same for the second kernel. -/
theorem projProd_apply (x : Vec Ideal S1024x1024 .bf16) (w : Vec Ideal S1024x1024 .bf16) (p c : Fin 1024) :
    projProd x w (ix2 p c) = ∑ k : Fin 1024, x (ix2 p k) * w (ix2 c k) := by
  unfold projProd
  rw [View.canon_unit_zero tile_offsets_zero]
  simp only [View.ld_unit_zero (S := S1024x1024) tile_offsets_zero]
  exact k2_pay1_apply x w p c

end Cert.KernelIdeal.Lin

end
-- ==== Proof.LinArray.lean ====
/- The arrays the two linear regions leave, on the extended reals, each as ONE function of the arrays the region finds:
   the result array holds at (r, j) the inner product of row r of the left factor with row j of the right factor,
   Σₖ X[r, k] · W[j, k]; the two factor arrays are unchanged. Each grid point writes back the block of that function its
   block index names (the block's rows are rows of X, its columns rows of W), and the blocks of the grid tile the result. -/
import proofs.«126977_j57518202028698_2_alg».proof.Proof.LinValue
import Idealize.ShloMosaic.Lib.Pipeline.Value

noncomputable section

namespace Cert.KernelIdeal.Lin

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The first linear region: [4096,1024] by [3072,1024]ᵀ -/

/-- Rows of X against rows of W: the [4096,3072] array of the inner products. -/
def qkvWhole (X : S4096x1024.Idx → EReal) (W : S3072x1024.Idx → EReal) : S4096x3072.Idx → EReal :=
  fun i => ∑ k : Fin 1024, X (ix2 (i 0) k) * W (ix2 (i 1) k)

theorem qkvWhole_apply (X : S4096x1024.Idx → EReal) (W : S3072x1024.Idx → EReal) (r : Fin 4096) (j : Fin 3072) :
    qkvWhole X W (ix2 r j) = ∑ k : Fin 1024, X (ix2 r k) * W (ix2 j k) := rfl

/-- The index maps over the 12 grid points: the left factor's block row is the result's block row, the right factor's
    block row is the result's block column, neither factor is cut along the contraction axis, and the result's block
    indices range over 4 by 3. -/
theorem qkv_index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 2 :=
  (by decide +kernel : ∀ t : Fin grid0.N, _)

/-- Every block of the 4 by 3 tiling is some grid point's. -/
theorem qkv_index_onto : ∀ (q0 : Fin 4) (q1 : Fin 3), ∃ t : Fin cfg0.N, win0_2.index t = ![q0.val, q1.val] :=
  (by decide +kernel : ∀ (q0 : Fin 4) (q1 : Fin 3), ∃ t : Fin grid0.N, win0_2.index t = ![q0.val, q1.val])

/-- What grid point t writes back is its block of the whole product. -/
theorem qkv_flushed_eq (c : Dev nD) (t : Fin cfg0.N) :
    (qkvDat V c).flushed 2 t = ((cfg0.win 2).blk t).view.read (Elt Ideal) (qkvWhole (V c main_v2) (V c main_v0)) := by
  show (cfg0.win 2).cut (grid0.coords t) ((qkvDat V c).after 2 t) = _
  rw [qkvDat_after_out]
  obtain ⟨e0, e1, e2, e3, b0, b1⟩ := qkv_index_facts t
  funext j
  show qkvProd (qkvBlockAt V c 0 t) (qkvBlockAt V c 1 t) j
    = qkvWhole (V c main_v2) (V c main_v0) (((cfg0.win 2).blk t).view.emb j)
  have hj0 : (j 0).val < 1024 := (j 0).isLt
  have hj1 : (j 1).val < 1024 := (j 1).isLt
  -- the entry's place inside the block, and in the array
  have hj : (j : S1024x1024.Idx) = ix2 (⟨(j 0).val, hj0⟩ : Fin 1024) (⟨(j 1).val, hj1⟩ : Fin 1024) :=
    funext fun a => by
      match a with
      | ⟨0, _⟩ => rfl
      | ⟨1, _⟩ => rfl
  have hemb : (((cfg0.win 2).blk t).view.emb j : S4096x3072.Idx)
      = ix2 (⟨win0_2.index t (0 : Fin 2) * 1024 + (j 0).val, by omega⟩ : Fin 4096)
          (⟨win0_2.index t (1 : Fin 2) * 1024 + (j 1).val, by omega⟩ : Fin 3072) :=
    funext fun a => Fin.ext (by
      match a with
      | ⟨0, _⟩ =>
        show win0_2.index t (0 : Fin 2) * 1024 + 1 * (j 0).val = win0_2.index t (0 : Fin 2) * 1024 + (j 0).val
        omega
      | ⟨1, _⟩ =>
        show win0_2.index t (1 : Fin 2) * 1024 + 1 * (j 1).val = win0_2.index t (1 : Fin 2) * 1024 + (j 1).val
        omega)
  refine ((congrArg (qkvProd (qkvBlockAt V c 0 t) (qkvBlockAt V c 1 t)) hj).trans ?_).trans
    (congrArg (qkvWhole (V c main_v2) (V c main_v0)) hemb).symm
  refine (qkvProd_apply _ _ _ _).trans ?_
  refine Eq.trans ?_ (qkvWhole_apply _ _ _ _).symm
  refine Finset.sum_congr rfl fun k _ => ?_
  have hk : k.val < 1024 := k.isLt
  have hl : qkvBlockAt V c 0 t (ix2 (⟨(j 0).val, hj0⟩ : Fin 1024) k)
      = V c main_v2 (ix2 (⟨win0_2.index t (0 : Fin 2) * 1024 + (j 0).val, by omega⟩ : Fin 4096) k) := by
    show V c main_v2 (((cfg0.win 0).blk t).view.emb (ix2 (⟨(j 0).val, hj0⟩ : Fin 1024) k)) = _
    refine congrArg (V c main_v2) (funext fun a => Fin.ext ?_)
    match a with
    | ⟨0, _⟩ =>
      show win0_0.index t (0 : Fin 2) * 1024 + 1 * (j 0).val = win0_2.index t (0 : Fin 2) * 1024 + (j 0).val
      omega
    | ⟨1, _⟩ =>
      show win0_0.index t (1 : Fin 2) * 1024 + 1 * k.val = k.val
      omega
  have hr : qkvBlockAt V c 1 t (ix2 (⟨(j 1).val, hj1⟩ : Fin 1024) k)
      = V c main_v0 (ix2 (⟨win0_2.index t (1 : Fin 2) * 1024 + (j 1).val, by omega⟩ : Fin 3072) k) := by
    show V c main_v0 (((cfg0.win 1).blk t).view.emb (ix2 (⟨(j 1).val, hj1⟩ : Fin 1024) k)) = _
    refine congrArg (V c main_v0) (funext fun a => Fin.ext ?_)
    match a with
    | ⟨0, _⟩ =>
      show win0_1.index t (0 : Fin 2) * 1024 + 1 * (j 1).val = win0_2.index t (1 : Fin 2) * 1024 + (j 1).val
      omega
    | ⟨1, _⟩ =>
      show win0_1.index t (1 : Fin 2) * 1024 + 1 * k.val = k.val
      omega
  rw [hl, hr]

/-- An index of the result array lies in grid point t's block when each coordinate lies in the block's range. -/
theorem qkv_mem_block (t : Fin cfg0.N) (i : S4096x3072.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- The 12 blocks tile the result: the entry (r, j) lies in the block (r / 1024, j / 1024). -/
theorem qkv_cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := qkv_index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [qkv_mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the region: the whole product of the two factor arrays as the region found them. -/
theorem qkv_array (c : Dev nD) : (qkvDat V c).arrAt 2 cfg0.N = qkvWhole (V c main_v2) (V c main_v0) :=
  (qkvDat V c).arrAt_eq_of_cover 2 _ (fun t _ => qkv_flushed_eq V c t) qkv_cover

/-- The two factor arrays are never written. -/
theorem qkv_left_array (c : Dev nD) (n : ℕ) : (qkvDat V c).arrAt 0 n = V c main_v2 :=
  ((qkvDat V c).arrAt_in 0 rfl n).trans (qkvDat_A V c 0)
theorem qkv_right_array (c : Dev nD) (n : ℕ) : (qkvDat V c).arrAt 1 n = V c main_v0 :=
  ((qkvDat V c).arrAt_in 1 rfl n).trans (qkvDat_A V c 1)

/-! ## The second linear region: [4096,1024] by [1024,1024]ᵀ -/

/-- Rows of X against rows of W: the [4096,1024] array of the inner products. -/
def projWhole (X : S4096x1024.Idx → EReal) (W : S1024x1024.Idx → EReal) : S4096x1024.Idx → EReal :=
  fun i => ∑ k : Fin 1024, X (ix2 (i 0) k) * W (ix2 (i 1) k)

theorem projWhole_apply (X : S4096x1024.Idx → EReal) (W : S1024x1024.Idx → EReal) (r : Fin 4096) (j : Fin 1024) :
    projWhole X W (ix2 r j) = ∑ k : Fin 1024, X (ix2 r k) * W (ix2 j k) := rfl

/-- The index maps over the 4 grid points: the left factor's block row is the result's block row, the right factor's
    block row is the result's block column, neither factor is cut along the contraction axis, and the result's block
    indices range over 4 by 1. -/
theorem proj_index_facts : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 3 ∧ win2_2.index t (1 : Fin 2) ≤ 0 :=
  (by decide +kernel : ∀ t : Fin grid2.N, _)

/-- Every block of the 4 by 1 tiling is some grid point's. -/
theorem proj_index_onto : ∀ (q0 : Fin 4) (q1 : Fin 1), ∃ t : Fin cfg2.N, win2_2.index t = ![q0.val, q1.val] :=
  (by decide +kernel : ∀ (q0 : Fin 4) (q1 : Fin 1), ∃ t : Fin grid2.N, win2_2.index t = ![q0.val, q1.val])

/-- What grid point t writes back is its block of the whole product. -/
theorem proj_flushed_eq (c : Dev nD) (t : Fin cfg2.N) :
    (projDat V c).flushed 2 t = ((cfg2.win 2).blk t).view.read (Elt Ideal) (projWhole (V c main_v6) (V c main_v1)) := by
  show (cfg2.win 2).cut (grid2.coords t) ((projDat V c).after 2 t) = _
  rw [projDat_after_out]
  obtain ⟨e0, e1, e2, e3, b0, b1⟩ := proj_index_facts t
  funext j
  show projProd (projBlockAt V c 0 t) (projBlockAt V c 1 t) j
    = projWhole (V c main_v6) (V c main_v1) (((cfg2.win 2).blk t).view.emb j)
  have hj0 : (j 0).val < 1024 := (j 0).isLt
  have hj1 : (j 1).val < 1024 := (j 1).isLt
  -- the entry's place inside the block, and in the array
  have hj : (j : S1024x1024.Idx) = ix2 (⟨(j 0).val, hj0⟩ : Fin 1024) (⟨(j 1).val, hj1⟩ : Fin 1024) :=
    funext fun a => by
      match a with
      | ⟨0, _⟩ => rfl
      | ⟨1, _⟩ => rfl
  have hemb : (((cfg2.win 2).blk t).view.emb j : S4096x1024.Idx)
      = ix2 (⟨win2_2.index t (0 : Fin 2) * 1024 + (j 0).val, by omega⟩ : Fin 4096)
          (⟨win2_2.index t (1 : Fin 2) * 1024 + (j 1).val, by omega⟩ : Fin 1024) :=
    funext fun a => Fin.ext (by
      match a with
      | ⟨0, _⟩ =>
        show win2_2.index t (0 : Fin 2) * 1024 + 1 * (j 0).val = win2_2.index t (0 : Fin 2) * 1024 + (j 0).val
        omega
      | ⟨1, _⟩ =>
        show win2_2.index t (1 : Fin 2) * 1024 + 1 * (j 1).val = win2_2.index t (1 : Fin 2) * 1024 + (j 1).val
        omega)
  refine ((congrArg (projProd (projBlockAt V c 0 t) (projBlockAt V c 1 t)) hj).trans ?_).trans
    (congrArg (projWhole (V c main_v6) (V c main_v1)) hemb).symm
  refine (projProd_apply _ _ _ _).trans ?_
  refine Eq.trans ?_ (projWhole_apply _ _ _ _).symm
  refine Finset.sum_congr rfl fun k _ => ?_
  have hk : k.val < 1024 := k.isLt
  have hl : projBlockAt V c 0 t (ix2 (⟨(j 0).val, hj0⟩ : Fin 1024) k)
      = V c main_v6 (ix2 (⟨win2_2.index t (0 : Fin 2) * 1024 + (j 0).val, by omega⟩ : Fin 4096) k) := by
    show V c main_v6 (((cfg2.win 0).blk t).view.emb (ix2 (⟨(j 0).val, hj0⟩ : Fin 1024) k)) = _
    refine congrArg (V c main_v6) (funext fun a => Fin.ext ?_)
    match a with
    | ⟨0, _⟩ =>
      show win2_0.index t (0 : Fin 2) * 1024 + 1 * (j 0).val = win2_2.index t (0 : Fin 2) * 1024 + (j 0).val
      omega
    | ⟨1, _⟩ =>
      show win2_0.index t (1 : Fin 2) * 1024 + 1 * k.val = k.val
      omega
  have hr : projBlockAt V c 1 t (ix2 (⟨(j 1).val, hj1⟩ : Fin 1024) k)
      = V c main_v1 (ix2 (⟨win2_2.index t (1 : Fin 2) * 1024 + (j 1).val, by omega⟩ : Fin 1024) k) := by
    show V c main_v1 (((cfg2.win 1).blk t).view.emb (ix2 (⟨(j 1).val, hj1⟩ : Fin 1024) k)) = _
    refine congrArg (V c main_v1) (funext fun a => Fin.ext ?_)
    match a with
    | ⟨0, _⟩ =>
      show win2_1.index t (0 : Fin 2) * 1024 + 1 * (j 1).val = win2_2.index t (1 : Fin 2) * 1024 + (j 1).val
      omega
    | ⟨1, _⟩ =>
      show win2_1.index t (1 : Fin 2) * 1024 + 1 * k.val = k.val
      omega
  rw [hl, hr]

/-- An index of the result array lies in grid point t's block when each coordinate lies in the block's range. -/
theorem proj_mem_block (t : Fin cfg2.N) (i : S4096x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v7).slice (win2_2.rect t)).set ↔ _
  rw [View.set_slice_whole, Rect.mem_set_unit]
  exact Iff.rfl

/-- The 4 blocks tile the result: the entry (r, j) lies in the block (r / 1024, j / 1024). -/
theorem proj_cover (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := proj_index_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [proj_mem_block]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1024 ≤ (i 1).val ∧ (i 1).val < win2_2.index t (1 : Fin 2) * 1024 + 1024
    omega

/-- THE RESULT ARRAY after the region: the whole product of the two factor arrays as the region found them. -/
theorem proj_array (c : Dev nD) : (projDat V c).arrAt 2 cfg2.N = projWhole (V c main_v6) (V c main_v1) :=
  (projDat V c).arrAt_eq_of_cover 2 _ (fun t _ => proj_flushed_eq V c t) proj_cover

/-- The two factor arrays are never written. -/
theorem proj_left_array (c : Dev nD) (n : ℕ) : (projDat V c).arrAt 0 n = V c main_v6 :=
  ((projDat V c).arrAt_in 0 rfl n).trans (projDat_A V c 0)
theorem proj_right_array (c : Dev nD) (n : ℕ) : (projDat V c).arrAt 1 n = V c main_v1 :=
  ((projDat V c).arrAt_in 1 rfl n).trans (projDat_A V c 1)

end Cert.KernelIdeal.Lin

end
-- ==== Proof.LibRowGroups.lean ====
/-
  A stack of `a` matrices of `b` rows and `c` columns, shape `[a, b, c]`, beside the one matrix of `a · b` rows that holds the
  same entries in the same row-major order, shape `[a · b, c]`: row `n` of matrix `p` is row `p · b + n` of the flat matrix.
  Read at an entry: the two reshapes between them; a matrix `[a, c]` and a vector `[c]` spread over the stack (one row
  per matrix, respectively one row for all); and the sum over the rows of each matrix of the stack.
-/
import Idealize.ShloMosaic.Lib.ValueIdx
import Idealize.ShloMosaic.Lib.Pipeline.Value
import Idealize.ShloMosaic.PureOps.Ideal.Laws

noncomputable section

namespace Cert.LibRowGroups

open Idealize.ShloMosaic Idealize.ShloMosaic.ValueIdx

variable {α : Type}

/-- Row `n` of matrix `p` sits below `a · b` rows. -/
theorem flat_lt {a b : ℕ} (p : Fin a) (n : Fin b) : p.val * b + n.val < a * b :=
  calc p.val * b + n.val < p.val * b + b := Nat.add_lt_add_left n.isLt _
    _ = (p.val + 1) * b := (Nat.succ_mul _ _).symm
    _ ≤ a * b := Nat.mul_le_mul_right _ p.isLt

/-- The row of the flat matrix that holds row `n` of matrix `p`. -/
abbrev flatRow {a b ab : ℕ} (hab : ab = a * b) (p : Fin a) (n : Fin b) : Fin ab :=
  ⟨p.val * b + n.val, hab ▸ flat_lt p n⟩

/-- The stack flattened: row `p · b + n` of the flat matrix is row `n` of matrix `p`. -/
theorem shapeCast_flatten_apply {a b c ab : ℕ} (hab : ab = a * b) (x : (⟨3, ![a, b, c]⟩ : Shape).Idx → α)
    (h : (⟨3, ![a, b, c]⟩ : Shape).ShapeCasts ⟨2, ![ab, c]⟩) (p : Fin a) (n : Fin b) (d : Fin c) :
    shapeCast ⟨2, ![ab, c]⟩ x h (ix2 (flatRow hab p n) d) = x (ix3 p n d) :=
  shapeCast_apply x h _ _ (by
    rw [Shape.rowMajor_val_three, Shape.rowMajor_val_two]
    rfl)

/-- The flat matrix cut into the stack: row `n` of matrix `p` is row `p · b + n` of the flat matrix. -/
theorem shapeCast_stack_apply {a b c ab : ℕ} (hab : ab = a * b) (x : (⟨2, ![ab, c]⟩ : Shape).Idx → α)
    (h : (⟨2, ![ab, c]⟩ : Shape).ShapeCasts ⟨3, ![a, b, c]⟩) (p : Fin a) (n : Fin b) (d : Fin c) :
    shapeCast ⟨3, ![a, b, c]⟩ x h (ix3 p n d) = x (ix2 (flatRow hab p n) d) :=
  shapeCast_apply x h _ _ (by
    rw [Shape.rowMajor_val_three, Shape.rowMajor_val_two]
    rfl)

/-- A matrix `[a, c]` given a middle axis of one row, `[a, 1, c]`: the entry at `(p, u, d)` is the matrix's at `(p, d)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- `[a, 1, c]` spread over `b` rows per matrix: every row `n` of matrix `p` is the one row of `p`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A vector `[c]` made the one row of the one matrix `[1, 1, c]`. -/
theorem shapeCast_c_11c_apply {c : ℕ} (x : (⟨1, ![c]⟩ : Shape).Idx → α)
    (h : (⟨1, ![c]⟩ : Shape).ShapeCasts ⟨3, ![1, 1, c]⟩) (u w : Fin 1) (d : Fin c) :
    shapeCast ⟨3, ![1, 1, c]⟩ x h (ix3 u w d) = x (ix1 d) :=
  shapeCast_apply x h _ _ (by
    have hu : u.val = 0 := by omega
    have hw : w.val = 0 := by omega
    rw [Shape.rowMajor_val_one, Shape.rowMajor_val_three]
    show d.val = (u.val * 1 + w.val) * c + d.val
    rw [hu, hw]
    simp)

/-- `[1, 1, c]` spread over the whole stack: every row of every matrix is that one row. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (n : Fin b) (d : Fin c) :
    broadcastTo ⟨3, ![a, b, c]⟩ v h (ix3 p n d) = v (ix3 (0 : Fin 1) (0 : Fin 1) d) := by
  refine broadcastTo_apply v h (ix3 p n d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- The sum over the rows of matrix `p` of the stack, column by column, on the extended reals. -/
theorem rows_sum {a b c : ℕ} (v : FVec Ideal (⟨3, ![a, b, c]⟩ : Shape) .f32)
    (h : (⟨3, ![a, b, c]⟩ : Shape).Reduces [1] ⟨2, ![a, c]⟩)
    (hφ : FKind.Formats .f32) (hacc : (0x00000000#32 : BitVec 32) = 0x00000000#32) (p : Fin a) (d : Fin c) :
    multiReduction .add [1] (⟨2, ![a, c]⟩ : Shape) v 0x00000000#32 h hφ hacc (ix2 p d) = ∑ n : Fin b, v (ix3 p n d) := by
  refine (Ideal.multiReduction_add_single v 0x00000000#32 h hφ hacc (ix2 p d)).trans ?_
  refine Finset.sum_congr rfl fun n _ => congrArg v (funext fun ax => Fin.ext ?_)
  match ax with
  | ⟨0, _⟩ => rfl
  | ⟨1, _⟩ => rfl
  | ⟨2, _⟩ => rfl

end Cert.LibRowGroups

end
-- ==== Proof.LinHost.lean ====
/- The host operations around the three regions of the idealized program, read at an entry on the extended reals: the
   two weight arrays rounded to bf16 are the weight arrays themselves (rounding is the identity at the ideal instance),
   and the four reshapes between [2,2048,·] and [4096,·] identify row p · 2048 + n of the flat matrix with row n of
   matrix p. Each is stated for any contents W of the buffers before the stretch of host operations. -/
import proofs.«126977_j57518202028698_2_alg».proof.Proof.Gen.KernelIdeal.Launch
import proofs.«126977_j57518202028698_2_alg».proof.Proof.LibRowGroups
import Idealize.ShloMosaic.Lib.StableHlo.Run
import Idealize.ShloMosaic.PureOps.Ideal.Laws
import Idealize.ShloMosaic.Lib.ValueIdx

noncomputable section

namespace Cert.KernelIdeal.Lin

open Cert.KernelIdeal Cert.KernelIdeal.Gen
open Idealize.ShloMosaic Idealize.ShloMosaic.TcCoe Idealize.SL.Sem Idealize.ShloMosaic.ValueIdx
open Idealize.ShloMosaic.StableHlo
open Cert.LibRowGroups (flatRow)

variable (W : Valuation τ sig (Elt Ideal))

/-! ## Before the first region: the weights rounded, the input flattened -/

/-- The qkv weight rounded to bf16 is the weight. -/
theorem host0_v0 : (StableHlo.after hostOps0 W (Proc.devRef .tc main_v0) : S3072x1024.Idx → EReal)
    = W (Proc.devRef .tc main_arg1) := by
  after_results
  rfl

/-- The output-projection weight rounded to bf16 is the weight. -/
theorem host0_v1 : (StableHlo.after hostOps0 W (Proc.devRef .tc main_v1) : S1024x1024.Idx → EReal)
    = W (Proc.devRef .tc main_arg2) := by
  after_results
  rfl

/-- The input flattened: row p · 2048 + n of the [4096,1024] matrix is row n of batch p. -/
theorem host0_v2 (p : Fin 2) (n : Fin 2048) (d : Fin 1024) :
    (StableHlo.after hostOps0 W (Proc.devRef .tc main_v2) : S4096x1024.Idx → EReal) (ix2 (flatRow rfl p n) d)
      = (W (Proc.devRef .tc main_arg0) : S2x2048x1024.Idx → EReal) (ix3 p n d) := by
  have e : (StableHlo.after hostOps0 W (Proc.devRef .tc main_v2) : S4096x1024.Idx → EReal)
      = shapeCast S4096x1024 (W (Proc.devRef .tc main_arg0) : S2x2048x1024.Idx → EReal) shapeCasts_S2x2048x1024_S4096x1024 := by
    after_results
    rfl
  rw [e]
  exact Cert.LibRowGroups.shapeCast_flatten_apply rfl _ _ p n d

/-! ## Between the regions, and after the last -/

/-- The projected q, k, v stacked by batch: row n of batch p is row p · 2048 + n of the [4096,3072] matrix. -/
theorem host1_v4 (p : Fin 2) (n : Fin 2048) (d : Fin 3072) :
    (StableHlo.after hostOps1 W (Proc.devRef .tc main_v4) : S2x2048x3072.Idx → EReal) (ix3 p n d)
      = (W (Proc.devRef .tc main_v3) : S4096x3072.Idx → EReal) (ix2 (flatRow rfl p n) d) := by
  have e : (StableHlo.after hostOps1 W (Proc.devRef .tc main_v4) : S2x2048x3072.Idx → EReal)
      = shapeCast S2x2048x3072 (W (Proc.devRef .tc main_v3) : S4096x3072.Idx → EReal) shapeCasts_S4096x3072_S2x2048x3072 := by
    after_results
    rfl
  rw [e]
  exact Cert.LibRowGroups.shapeCast_stack_apply rfl _ _ p n d

/-- The attention output flattened: row p · 2048 + n of the [4096,1024] matrix is row n of batch p. -/
theorem host2_v6 (p : Fin 2) (n : Fin 2048) (d : Fin 1024) :
    (StableHlo.after hostOps2 W (Proc.devRef .tc main_v6) : S4096x1024.Idx → EReal) (ix2 (flatRow rfl p n) d)
      = (W (Proc.devRef .tc main_v5) : S2x2048x1024.Idx → EReal) (ix3 p n d) := by
  have e : (StableHlo.after hostOps2 W (Proc.devRef .tc main_v6) : S4096x1024.Idx → EReal)
      = shapeCast S4096x1024 (W (Proc.devRef .tc main_v5) : S2x2048x1024.Idx → EReal) shapeCasts_S2x2048x1024_S4096x1024 := by
    after_results
    rfl
  rw [e]
  exact Cert.LibRowGroups.shapeCast_flatten_apply rfl _ _ p n d

/-- The result stacked by batch: row n of batch p is row p · 2048 + n of the [4096,1024] matrix. -/
theorem host3_v8 (p : Fin 2) (n : Fin 2048) (d : Fin 1024) :
    (StableHlo.after hostOps3 W (Proc.devRef .tc main_v8) : S2x2048x1024.Idx → EReal) (ix3 p n d)
      = (W (Proc.devRef .tc main_v7) : S4096x1024.Idx → EReal) (ix2 (flatRow rfl p n) d) := by
  have e : (StableHlo.after hostOps3 W (Proc.devRef .tc main_v8) : S2x2048x1024.Idx → EReal)
      = shapeCast S2x2048x1024 (W (Proc.devRef .tc main_v7) : S4096x1024.Idx → EReal) shapeCasts_S4096x1024_S2x2048x1024 := by
    after_results
    rfl
  rw [e]
  exact Cert.LibRowGroups.shapeCast_stack_apply rfl _ _ p n d

end Cert.KernelIdeal.Lin

end
-- ==== Proof.Compose.lean ====
/- The values the program's arrays hold between its regions, on the extended reals, as functions of the three argument
   arrays: the attention region is entered with the fused projection of the input (every input row against every row of
   the first weight), and, given that the attention region leaves the merged heads, the program returns the merged rows
   against the rows of the second weight — the whole-array attention of the specification. The two linear regions
   contribute their whole products; the host operations between the regions only regroup rows by batch and round the
   weights, which changes no value at the ideal instance. -/
import proofs.«126977_j57518202028698_2_alg».proof.Proof.RunVals
import proofs.«126977_j57518202028698_2_alg».proof.Proof.LinArray
import proofs.«126977_j57518202028698_2_alg».proof.Proof.LinHost
import proofs.«126977_j57518202028698_2_alg».proof.Proof.Spec

noncomputable section

namespace Cert.KernelIdeal.Compose

open Cert.KernelIdeal Cert.KernelIdeal.Gen Cert.KernelIdeal.Lin Cert.KernelIdeal.Run
open Idealize.ShloMosaic Idealize.ShloMosaic.TcCoe Idealize.SL.Sem Idealize.ShloMosaic.ValueIdx
open Cert.LibRowGroups (flatRow)

variable (m : (ℓ : Loc nD τ sig) → Buf (Elt Ideal) ℓ) (ρ : Dev nD → PrngReg)

/-- The input by coordinates: batch, position, column. -/
abbrev argX (c : Dev nD) : Fin 2 → Fin 2048 → Fin 1024 → EReal :=
  fun b t k => (m ((c : Thread nD τ).loc main_arg0) : S2x2048x1024.Idx → EReal) (ix3 b t k)
/-- The first weight by coordinates: output column, input column. -/
abbrev argWA (c : Dev nD) : Fin 3072 → Fin 1024 → EReal :=
  fun o k => (m ((c : Thread nD τ).loc main_arg1) : S3072x1024.Idx → EReal) (ix2 o k)
/-- The second weight by coordinates: output column, input column. -/
abbrev argWP (c : Dev nD) : Fin 1024 → Fin 1024 → EReal :=
  fun o k => (m ((c : Thread nD τ).loc main_arg2) : S1024x1024.Idx → EReal) (ix2 o k)

/-! ## What the attention region is entered with -/

/-- The flattened input the first region finds, by coordinates. -/
theorem entry1_input (c : Dev nD) (b : Fin 2) (t : Fin 2048) (k : Fin 1024) :
    (V1 m ρ c main_v2 : S4096x1024.Idx → EReal) (ix2 (flatRow rfl b t) k) = argX m c b t k :=
  host0_v2 (W0 m ρ c) b t k

/-- The first weight as the first region finds it. -/
theorem entry1_weight (c : Dev nD) :
    (V1 m ρ c main_v0 : S3072x1024.Idx → EReal) = m ((c : Thread nD τ).loc main_arg1) :=
  host0_v0 (W0 m ρ c)

/-- The first region's result array after the region: the whole product of what it found. -/
theorem after_region0 (c : Dev nD) :
    (W2 m ρ c (Proc.devRef .tc main_v3) : S4096x3072.Idx → EReal)
      = qkvWhole (V1 m ρ c main_v2) (V1 m ρ c main_v0) :=
  (W2_arr m ρ c 2).trans (qkv_array (V1 m ρ) c)

/-- (A) The attention region is entered with the fused projection of the input. -/
theorem attention_entry (c : Dev nD) (b : Fin 2) (t : Fin 2048) (o : Fin 3072) :
    (V3 m ρ c main_v4 : S2x2048x3072.Idx → EReal) (ix3 b t o) = Cert.AttnSpec.qkv (argX m c) (argWA m c) b t o := by
  refine (host1_v4 (W2 m ρ c) b t o).trans ?_
  rw [after_region0, qkvWhole_apply]
  show (_ : EReal) = _
  unfold Cert.AttnSpec.qkv
  refine Finset.sum_congr rfl fun k _ => ?_
  rw [entry1_input, entry1_weight]

/-! ## What the program returns -/

/-- The second weight as the last region finds it: rounded by the first host stretch, written by nothing after. -/
theorem entry3_weight (c : Dev nD) :
    (V5 m ρ c main_v1 : S1024x1024.Idx → EReal) = m ((c : Thread nD τ).loc main_arg2) :=
  calc (W5 m ρ c (Proc.devRef .tc main_v1) : S1024x1024.Idx → EReal)
    _ = W4 m ρ c (Proc.devRef .tc main_v1) := StableHlo.after_of_writes_sub hostOps2 _ hostOps2_writes (by decide)
    _ = W3 m ρ c (Proc.devRef .tc main_v1) := W4_of_ne m ρ c main_v1 (by decide)
    _ = W2 m ρ c (Proc.devRef .tc main_v1) := StableHlo.after_of_writes_sub hostOps1 _ hostOps1_writes (by decide)
    _ = W1 m ρ c (Proc.devRef .tc main_v1) := W2_of_ne m ρ c main_v1 (by decide)
    _ = m ((c : Thread nD τ).loc main_arg2) := host0_v1 (W0 m ρ c)

/-- The flattened merged heads the last region finds, given what the attention region leaves. -/
theorem entry3_input (c : Dev nD)
    (hattn : ∀ (b : Fin 2) (t : Fin 2048) (col : Fin 1024),
      (W4 m ρ c main_v5 : S2x2048x1024.Idx → EReal) (ix3 b t col) = Cert.AttnSpec.merged (argX m c) (argWA m c) b t col)
    (b : Fin 2) (t : Fin 2048) (k : Fin 1024) :
    (V5 m ρ c main_v6 : S4096x1024.Idx → EReal) (ix2 (flatRow rfl b t) k)
      = Cert.AttnSpec.merged (argX m c) (argWA m c) b t k :=
  (host2_v6 (W4 m ρ c) b t k).trans (hattn b t k)

/-- The last region's result array after the region: the whole product of what it found. -/
theorem after_region2 (c : Dev nD) :
    (W6 m ρ c (Proc.devRef .tc main_v7) : S4096x1024.Idx → EReal)
      = projWhole (V5 m ρ c main_v6) (V5 m ρ c main_v1) :=
  (W6_arr m ρ c 2).trans (proj_array (V5 m ρ) c)

/-- (B) Given that the attention region leaves the merged heads, the program returns the attention of its arguments. -/
theorem program_result (c : Dev nD)
    (hattn : ∀ (b : Fin 2) (t : Fin 2048) (col : Fin 1024),
      (W4 m ρ c main_v5 : S2x2048x1024.Idx → EReal) (ix3 b t col) = Cert.AttnSpec.merged (argX m c) (argWA m c) b t col) :
    (W7 m ρ c (Proc.devRef .tc main_v8) : S2x2048x1024.Idx → EReal)
      = Cert.AttnSpec.attention (m ((c : Thread nD τ).loc main_arg0)) (m ((c : Thread nD τ).loc main_arg1))
          (m ((c : Thread nD τ).loc main_arg2)) := by
  funext i
  obtain ⟨p, n, d, rfl⟩ : ∃ (p : Fin 2) (n : Fin 2048) (d : Fin 1024), i = ix3 p n d := ⟨i 0, i 1, i 2, eq_ix3 i⟩
  refine (host3_v8 (W6 m ρ c) p n d).trans ?_
  rw [after_region2, projWhole_apply]
  show (_ : EReal) = ∑ k : Fin 1024, Cert.AttnSpec.merged (argX m c) (argWA m c) p n k * argWP m c d k
  refine Finset.sum_congr rfl fun k _ => ?_
  rw [entry3_input m ρ c hattn, entry3_weight]

end Cert.KernelIdeal.Compose

end
-- ==== Proof.AttnBlocks.lean ====
import proofs.«126977_j57518202028698_2_alg».proof.Proof.AttnData
import Idealize.ShloMosaic.Lib.Pipeline.Value
import Idealize.ShloMosaic.Lib.ValueIdx

/-!
# The attention region's blocks and its arrays

The region runs on a grid of 2 · 8 · 4 · 4 points: batch, head pair, query tile, key tile, the key tile running
fastest. Point number `t` therefore has batch `t / 128`, head pair `t / 16 % 8`, query tile `t / 4 % 4` and key tile
`t % 4`. The query block of a point is rows `512 · (query tile) …` and columns `128 · (head pair) …` of the fused
projection array; the key and value blocks are rows `512 · min (key tile) (query tile) …` and columns
`128 · (8 + head pair) …`, `128 · (16 + head pair) …`; the output block sits where the query block sits, in the
merged-heads array, and is written back at the last key tile. The 64 output blocks written back tile that array.
-/

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## A point's coordinates and block indices, as numbers -/

/-- The region has 256 grid points. -/
theorem points_eq : cfg1.N = 256 := by decide

/-- The coordinates of point number `t`: batch, head pair, query tile, key tile. -/
theorem coords_eq : ∀ t : Fin cfg1.N,
    (grid1.coords t 0).val = t.val / 128 ∧ (grid1.coords t 1).val = t.val / 16 % 8
    ∧ (grid1.coords t 2).val = t.val / 4 % 4 ∧ (grid1.coords t 3).val = t.val % 4 :=
  (by decide +kernel : ∀ t : Fin grid1.N,
    (grid1.coords t 0).val = t.val / 128 ∧ (grid1.coords t 1).val = t.val / 16 % 8
    ∧ (grid1.coords t 2).val = t.val / 4 % 4 ∧ (grid1.coords t 3).val = t.val % 4)

/-- The query window's block index at point `t`: (batch, query tile, head pair). -/
theorem index_q : ∀ t : Fin cfg1.N,
    win1_0.index t (0 : Fin 3) = t.val / 128 ∧ win1_0.index t (1 : Fin 3) = t.val / 4 % 4
    ∧ win1_0.index t (2 : Fin 3) = t.val / 16 % 8 :=
  (by decide +kernel : ∀ t : Fin grid1.N,
    win1_0.index t (0 : Fin 3) = t.val / 128 ∧ win1_0.index t (1 : Fin 3) = t.val / 4 % 4
    ∧ win1_0.index t (2 : Fin 3) = t.val / 16 % 8)

/-- The key window's block index at point `t`: (batch, the lesser of key tile and query tile, 8 + head pair). -/
theorem index_k : ∀ t : Fin cfg1.N,
    win1_1.index t (0 : Fin 3) = t.val / 128 ∧ win1_1.index t (1 : Fin 3) = min (t.val % 4) (t.val / 4 % 4)
    ∧ win1_1.index t (2 : Fin 3) = 8 + t.val / 16 % 8 :=
  (by decide +kernel : ∀ t : Fin grid1.N,
    win1_1.index t (0 : Fin 3) = t.val / 128 ∧ win1_1.index t (1 : Fin 3) = min (t.val % 4) (t.val / 4 % 4)
    ∧ win1_1.index t (2 : Fin 3) = 8 + t.val / 16 % 8)

/-- The value window's block index at point `t`: (batch, the lesser of key tile and query tile, 16 + head pair). -/
theorem index_v : ∀ t : Fin cfg1.N,
    win1_2.index t (0 : Fin 3) = t.val / 128 ∧ win1_2.index t (1 : Fin 3) = min (t.val % 4) (t.val / 4 % 4)
    ∧ win1_2.index t (2 : Fin 3) = 16 + t.val / 16 % 8 :=
  (by decide +kernel : ∀ t : Fin grid1.N,
    win1_2.index t (0 : Fin 3) = t.val / 128 ∧ win1_2.index t (1 : Fin 3) = min (t.val % 4) (t.val / 4 % 4)
    ∧ win1_2.index t (2 : Fin 3) = 16 + t.val / 16 % 8)

/-- The output window's block index at point `t`: (batch, query tile, head pair). -/
theorem index_o : ∀ t : Fin cfg1.N,
    win1_3.index t (0 : Fin 3) = t.val / 128 ∧ win1_3.index t (1 : Fin 3) = t.val / 4 % 4
    ∧ win1_3.index t (2 : Fin 3) = t.val / 16 % 8 :=
  (by decide +kernel : ∀ t : Fin grid1.N,
    win1_3.index t (0 : Fin 3) = t.val / 128 ∧ win1_3.index t (1 : Fin 3) = t.val / 4 % 4
    ∧ win1_3.index t (2 : Fin 3) = t.val / 16 % 8)

/-! ## Where a block's entry sits in its array -/

theorem point_lt (t : Fin cfg1.N) : t.val < 256 := points_eq ▸ t.isLt

/-- Point `t`'s batch. -/
def ptBatch (t : Fin cfg1.N) : Fin 2 := ⟨t.val / 128, by have := point_lt t; omega⟩
/-- Row `r` of point `t`'s query tile (and of its output block). -/
def qRow (t : Fin cfg1.N) (r : Fin 512) : Fin 2048 := ⟨t.val / 4 % 4 * 512 + r.val, by have := r.isLt; omega⟩
/-- Row `r` of the key tile point `t` reads: the lesser of its key tile and its query tile. -/
def kRow (t : Fin cfg1.N) (r : Fin 512) : Fin 2048 :=
  ⟨min (t.val % 4) (t.val / 4 % 4) * 512 + r.val, by have := r.isLt; omega⟩
/-- Column `l` of point `t`'s head pair among the query columns of the fused projection. -/
def qLane (t : Fin cfg1.N) (l : Fin 128) : Fin 3072 := ⟨t.val / 16 % 8 * 128 + l.val, by have := l.isLt; omega⟩
/-- Column `l` of point `t`'s head pair among the key columns. -/
def kLane (t : Fin cfg1.N) (l : Fin 128) : Fin 3072 := ⟨(8 + t.val / 16 % 8) * 128 + l.val, by have := l.isLt; omega⟩
/-- Column `l` of point `t`'s head pair among the value columns. -/
def vLane (t : Fin cfg1.N) (l : Fin 128) : Fin 3072 := ⟨(16 + t.val / 16 % 8) * 128 + l.val, by have := l.isLt; omega⟩
/-- Column `l` of point `t`'s head pair in the merged-heads array. -/
def oLane (t : Fin cfg1.N) (l : Fin 128) : Fin 1024 := ⟨t.val / 16 % 8 * 128 + l.val, by have := l.isLt; omega⟩

/-- The query block at an entry. -/
theorem iblk_q (c : Dev nD) (t : Fin cfg1.N) (r : Fin 512) (l : Fin 128) :
    iblk1 V c 0 t (ix3 (0 : Fin 1) r l) = V c main_v4 (ix3 (ptBatch t) (qRow t r) (qLane t l)) := by
  obtain ⟨e0, e1, e2⟩ := index_q t
  show V c main_v4 (((cfg1.win 0).blk t).view.emb (ix3 (0 : Fin 1) r l)) = _
  refine congrArg (V c main_v4) (funext fun a => Fin.ext ?_)
  match a with
  | ⟨0, _⟩ => show win1_0.index t (0 : Fin 3) * 1 + 1 * 0 = t.val / 128; omega
  | ⟨1, _⟩ => show win1_0.index t (1 : Fin 3) * 512 + 1 * r.val = t.val / 4 % 4 * 512 + r.val; omega
  | ⟨2, _⟩ => show win1_0.index t (2 : Fin 3) * 128 + 1 * l.val = t.val / 16 % 8 * 128 + l.val; omega

/-- The key block at an entry. -/
theorem iblk_k (c : Dev nD) (t : Fin cfg1.N) (r : Fin 512) (l : Fin 128) :
    iblk1 V c 1 t (ix3 (0 : Fin 1) r l) = V c main_v4 (ix3 (ptBatch t) (kRow t r) (kLane t l)) := by
  obtain ⟨e0, e1, e2⟩ := index_k t
  show V c main_v4 (((cfg1.win 1).blk t).view.emb (ix3 (0 : Fin 1) r l)) = _
  refine congrArg (V c main_v4) (funext fun a => Fin.ext ?_)
  match a with
  | ⟨0, _⟩ => show win1_1.index t (0 : Fin 3) * 1 + 1 * 0 = t.val / 128; omega
  | ⟨1, _⟩ =>
    show win1_1.index t (1 : Fin 3) * 512 + 1 * r.val = min (t.val % 4) (t.val / 4 % 4) * 512 + r.val
    rw [e1]; omega
  | ⟨2, _⟩ => show win1_1.index t (2 : Fin 3) * 128 + 1 * l.val = (8 + t.val / 16 % 8) * 128 + l.val; omega

/-- The value block at an entry. -/
theorem iblk_v (c : Dev nD) (t : Fin cfg1.N) (r : Fin 512) (l : Fin 128) :
    iblk1 V c 2 t (ix3 (0 : Fin 1) r l) = V c main_v4 (ix3 (ptBatch t) (kRow t r) (vLane t l)) := by
  obtain ⟨e0, e1, e2⟩ := index_v t
  show V c main_v4 (((cfg1.win 2).blk t).view.emb (ix3 (0 : Fin 1) r l)) = _
  refine congrArg (V c main_v4) (funext fun a => Fin.ext ?_)
  match a with
  | ⟨0, _⟩ => show win1_2.index t (0 : Fin 3) * 1 + 1 * 0 = t.val / 128; omega
  | ⟨1, _⟩ =>
    show win1_2.index t (1 : Fin 3) * 512 + 1 * r.val = min (t.val % 4) (t.val / 4 % 4) * 512 + r.val
    rw [e1]; omega
  | ⟨2, _⟩ => show win1_2.index t (2 : Fin 3) * 128 + 1 * l.val = (16 + t.val / 16 % 8) * 128 + l.val; omega

/-! ## The output array from its blocks -/

/-- An index of the merged-heads array lies in point `t`'s output block when each coordinate lies in the block's range. -/
theorem out_mem_block (t : Fin cfg1.N) (i : S2x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v5).slice (win1_3.rect t)).set ↔ _
  rw [View.set_slice_whole, Rect.mem_set_unit]
  exact Iff.rfl

/-- The 64 blocks written back tile the array: the entry (batch, row, column) lies in the block of the point with that
    batch, head pair `column / 128`, query tile `row / 512` and the last key tile. -/
theorem out_cover (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨n, hn⟩ : ∃ n : ℕ, n = (((i 0).val * 8 + (i 2).val / 128) * 4 + (i 1).val / 512) * 4 + 3 := ⟨_, rfl⟩
  have hlt : n < cfg1.N := by rw [points_eq]; omega
  obtain ⟨e0, e1, e2⟩ := index_o ⟨n, hlt⟩
  have e0' : win1_3.index ⟨n, hlt⟩ (0 : Fin 3) = n / 128 := e0
  have e1' : win1_3.index ⟨n, hlt⟩ (1 : Fin 3) = n / 4 % 4 := e1
  have e2' : win1_3.index ⟨n, hlt⟩ (2 : Fin 3) = n / 16 % 8 := e2
  refine ⟨⟨n, hlt⟩, (flush1_3 _).2 (by show n % 4 = 3; omega), ?_⟩
  rw [out_mem_block]
  intro a
  match a with
  | ⟨0, _⟩ =>
    show win1_3.index ⟨n, hlt⟩ (0 : Fin 3) * 1 ≤ (i 0).val ∧ (i 0).val < win1_3.index ⟨n, hlt⟩ (0 : Fin 3) * 1 + 1
    omega
  | ⟨1, _⟩ =>
    show win1_3.index ⟨n, hlt⟩ (1 : Fin 3) * 512 ≤ (i 1).val ∧ (i 1).val < win1_3.index ⟨n, hlt⟩ (1 : Fin 3) * 512 + 512
    omega
  | ⟨2, _⟩ =>
    show win1_3.index ⟨n, hlt⟩ (2 : Fin 3) * 128 ≤ (i 2).val ∧ (i 2).val < win1_3.index ⟨n, hlt⟩ (2 : Fin 3) * 128 + 128
    omega

/-- THE OUTPUT ARRAY after the region: any array `G` whose block at every point that writes back is what that point
    left in the output block, entry by entry, is the array the region leaves. -/
theorem out_array (c : Dev nD) (G : S2x2048x1024.Idx → Elt F .bf16)
    (hG : ∀ t : Fin cfg1.N, t.val % 4 = 3 → ∀ (r : Fin 512) (l : Fin 128),
      outAt V c t (ix3 (0 : Fin 1) r l) = G (ix3 (ptBatch t) (qRow t r) (oLane t l))) :
    (attnDat V c).arrAt 3 cfg1.N = G := by
  refine (attnDat V c).arrAt_eq_of_cover 3 G (fun t hf => ?_) out_cover
  have h3 : t.val % 4 = 3 := (flush1_3 t).1 hf
  obtain ⟨e0, e1, e2⟩ := index_o t
  show (cfg1.win 3).cut (grid1.coords t) ((attnDat V c).after 3 t) = _
  rw [attnDat_after3]
  funext j
  obtain ⟨z, r, l, rfl⟩ : ∃ (z : Fin 1) (r : Fin 512) (l : Fin 128), j = ix3 z r l := ⟨j 0, j 1, j 2, eq_ix3 j⟩
  obtain rfl : z = 0 := Subsingleton.elim _ _
  show outAt V c t (ix3 (0 : Fin 1) r l) = G (((cfg1.win 3).blk t).view.emb (ix3 (0 : Fin 1) r l))
  rw [hG t h3 r l]
  refine congrArg G (funext fun a => Fin.ext ?_)
  match a with
  | ⟨0, _⟩ => show t.val / 128 = win1_3.index t (0 : Fin 3) * 1 + 1 * 0; omega
  | ⟨1, _⟩ => show t.val / 4 % 4 * 512 + r.val = win1_3.index t (1 : Fin 3) * 512 + 1 * r.val; omega
  | ⟨2, _⟩ => show t.val / 16 % 8 * 128 + l.val = win1_3.index t (2 : Fin 3) * 128 + 1 * l.val; omega

/-- The fused projection array is never written by the region. -/
theorem in_array (c : Dev nD) (n : ℕ) : (attnDat V c).arrAt 0 n = V c main_v4 :=
  ((attnDat V c).arrAt_in 0 rfl n).trans (attnDat_A V c 0)

end Cert.KernelIdeal.Attn

end
-- ==== Proof.LibOnlineSoftmax.lean ====
/-
  The online-softmax law.

  A softmax-weighted sum over a long row of keys can be computed one tile of keys at a time, keeping a running maximum
  `m`, a running normaliser `l` and a running weighted sum `acc`: a new tile raises the maximum to `m'`, the old
  normaliser and the old weighted sum are rescaled by `exp (m - m')`, and the tile's own terms `exp (s - m')` are
  added. After the last tile `acc · (1 / l)` is the softmax-weighted sum of the whole row.

  This file states that law on the extended reals and proves it: scores are reals or `⊥` (a masked key, whose weight
  `exp ⊥` is `0`), values are reals, the first tile has an unmasked key (so the running maximum is a real from the first
  tile on and nothing is ever rescaled by `exp (⊥ - ⊥)`), and the tiles after the first `n` are wholly masked, so
  stopping after `n` tiles loses nothing. The proof goes to the reals: with a real maximum every weight is a
  nonnegative real, the rescaling is `exp (M - M') · exp (s - M) = exp (s - M')`, and distributivity is that of `ℝ`.

  Generic; nothing mentions a program.
-/
import Idealize.ShloMosaic.PureOps.Ideal

open scoped BigOperators

noncomputable section

namespace Cert.LibOnlineSoftmax

open Idealize.ShloMosaic

/-! ### The recurrence -/

/-- One key tile's update of the state `(m, l, acc)`. -/
def upd {w : ℕ} (s v : Fin w → EReal) (st : EReal × EReal × EReal) : EReal × EReal × EReal :=
  let m' := max st.1 ((Finset.univ : Finset (Fin w)).fold max ⊥ s)
  let a := Ideal.exp (st.1 - m')
  (m', a * st.2.1 + ∑ k, Ideal.exp (s k - m'), a * st.2.2 + ∑ k, Ideal.exp (s k - m') * v k)

/-- The state after the first `j` tiles, from `(⊥, 0, 0)`. -/
def run {w : ℕ} (s v : ℕ → Fin w → EReal) : ℕ → EReal × EReal × EReal
  | 0 => (⊥, 0, 0)
  | j + 1 => upd (s j) (v j) (run s v j)

/-- The state after `n` tiles depends only on the first `n` tiles. -/
theorem run_congr {w : ℕ} (s v s' v' : ℕ → Fin w → EReal) (n : ℕ)
    (h : ∀ j, j < n → s j = s' j ∧ v j = v' j) : run s v n = run s' v' n := by
  induction n with
  | zero => rfl
  | succ n ih =>
    show upd (s n) (v n) (run s v n) = upd (s' n) (v' n) (run s' v' n)
    rw [ih fun j hj => h j (Nat.lt_succ_of_lt hj), (h n (Nat.lt_succ_self n)).1, (h n (Nat.lt_succ_self n)).2]

/-! ### Reals and masked scores -/

/-- `x` is (the coercion of) a real number. -/
def IsReal (x : EReal) : Prop := ∃ r : ℝ, x = (r : EReal)

/-- `x` is a real number or `⊥` (a masked score). -/
def RealOrBot (x : EReal) : Prop := x = ⊥ ∨ IsReal x

theorem IsReal.coe_toReal {x : EReal} (h : IsReal x) : ((x.toReal : ℝ) : EReal) = x := by
  obtain ⟨r, rfl⟩ := h; rw [EReal.toReal_coe]

theorem RealOrBot.ne_top {x : EReal} (h : RealOrBot x) : x ≠ ⊤ := by
  rcases h with rfl | ⟨r, rfl⟩
  · exact bot_ne_top
  · exact EReal.coe_ne_top r

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight `exp (x - M)` of a score against a real maximum, as a real number. -/
def wt (x : EReal) (M : ℝ) : ℝ := (Ideal.exp (x - (M : EReal))).toReal

theorem wt_bot (M : ℝ) : wt ⊥ M = 0 := by
  unfold wt
  rw [EReal.bot_sub, Ideal.exp_bot, EReal.toReal_zero]

theorem wt_coe (r M : ℝ) : wt (r : EReal) M = Real.exp (r - M) := by
  unfold wt
  rw [← EReal.coe_sub, Ideal.exp_coe, EReal.toReal_coe]

theorem wt_nonneg {x : EReal} (hx : RealOrBot x) (M : ℝ) : 0 ≤ wt x M := by
  rcases hx with rfl | ⟨r, rfl⟩
  · rw [wt_bot]
  · rw [wt_coe]; exact (Real.exp_pos _).le

/-- The weight on the extended reals is the coercion of `wt`. -/
theorem exp_sub_coe {x : EReal} (hx : RealOrBot x) (M : ℝ) : Ideal.exp (x - (M : EReal)) = ((wt x M : ℝ) : EReal) := by
  rcases hx with rfl | ⟨r, rfl⟩
  · rw [wt_bot, EReal.bot_sub, Ideal.exp_bot, EReal.coe_zero]
  · rw [wt_coe, ← EReal.coe_sub, Ideal.exp_coe]

/-- Raising the maximum from `M` to `M'` rescales every weight by `exp (M - M')`. -/
theorem wt_rescale {x : EReal} (hx : RealOrBot x) (M M' : ℝ) : Real.exp (M - M') * wt x M = wt x M' := by
  rcases hx with rfl | ⟨r, rfl⟩
  · rw [wt_bot, wt_bot, mul_zero]
  · rw [wt_coe, wt_coe, ← Real.exp_add]; congr 1; ring

/-! ### One tile -/

/-- Every score of a tile is at most the tile's maximum. -/
theorem le_tileMax {w : ℕ} (s : Fin w → EReal) (k : Fin w) : s k ≤ (Finset.univ : Finset (Fin w)).fold max ⊥ s :=
  (Finset.le_fold_max _).mpr (Or.inr ⟨k, Finset.mem_univ k, le_rfl⟩)

/-- A tile's maximum is `⊥` or one of its scores. -/
theorem tileMax_eq {w : ℕ} (s : Fin w → EReal) :
    (Finset.univ : Finset (Fin w)).fold max ⊥ s = ⊥ ∨ ∃ k, (Finset.univ : Finset (Fin w)).fold max ⊥ s = s k := by
  rcases (Finset.le_fold_max _).mp (le_refl ((Finset.univ : Finset (Fin w)).fold max ⊥ s)) with h | ⟨k, _, h⟩
  · exact Or.inl (le_bot_iff.mp h)
  · exact Or.inr ⟨k, le_antisymm h (le_tileMax s k)⟩

/-- One tile's update of a state whose normaliser and weighted sum are reals, when the new maximum is the real `M'`
    and the rescaling factor `exp (m - M')` is the real `a`. -/
theorem upd_real {w : ℕ} (s v : Fin w → EReal) (hs : ∀ k, RealOrBot (s k)) (hv : ∀ k, IsReal (v k))
    (m : EReal) (L A M' a : ℝ)
    (hM' : max m ((Finset.univ : Finset (Fin w)).fold max ⊥ s) = (M' : EReal))
    (ha : Ideal.exp (m - (M' : EReal)) = (a : EReal)) :
    upd s v (m, (L : EReal), (A : EReal)) =
      ((M' : EReal), ((a * L + ∑ k, wt (s k) M' : ℝ) : EReal), ((a * A + ∑ k, wt (s k) M' * (v k).toReal : ℝ) : EReal)) := by
  unfold upd
  simp only [hM', ha]
  refine Prod.ext rfl (Prod.ext ?_ ?_)
  · show (a : EReal) * (L : EReal) + ∑ k, Ideal.exp (s k - (M' : EReal)) = ((a * L + ∑ k, wt (s k) M' : ℝ) : EReal)
    rw [EReal.coe_add, EReal.coe_mul, coe_sum]
    congr 1
    exact Finset.sum_congr rfl fun k _ => exp_sub_coe (hs k) M'
  · show (a : EReal) * (A : EReal) + ∑ k, Ideal.exp (s k - (M' : EReal)) * v k =
      ((a * A + ∑ k, wt (s k) M' * (v k).toReal : ℝ) : EReal)
    rw [EReal.coe_add, EReal.coe_mul, coe_sum]
    congr 1
    apply Finset.sum_congr rfl
    intro k _
    rw [exp_sub_coe (hs k) M', EReal.coe_mul, (hv k).coe_toReal]

/-! ### The invariant along a row laid out key by key -/

/-- `M` is the maximum of `F` over the first `N` keys. -/
def IsMaxBelow (F : ℕ → EReal) (N : ℕ) (M : EReal) : Prop := (∀ i, i < N → F i ≤ M) ∧ ∃ i, i < N ∧ F i = M

/-- Tile `j` of width `w` of a row laid out key by key. -/
def tile (F : ℕ → EReal) (w : ℕ) (j : ℕ) (k : Fin w) : EReal := F (j * w + k.val)

/-- The new maximum after one more tile: a real as soon as some key seen so far is unmasked. -/
theorem step_max (F : ℕ → EReal) (hF : ∀ i, RealOrBot (F i)) (N w : ℕ) (m : EReal)
    (hm : (m = ⊥ ∧ N = 0) ∨ IsMaxBelow F N m) (hreal : ∃ i, i < N + w ∧ IsReal (F i)) :
    ∃ M' : ℝ, max m ((Finset.univ : Finset (Fin w)).fold max ⊥ fun k => F (N + k.val)) = (M' : EReal) ∧
      IsMaxBelow F (N + w) (M' : EReal) := by
  set tm := (Finset.univ : Finset (Fin w)).fold max ⊥ fun k => F (N + k.val) with htm
  have hb : ∀ i, i < N + w → F i ≤ max m tm := by
    intro i hi
    by_cases hiN : i < N
    · rcases hm with ⟨_, hN⟩ | ⟨hle, _⟩
      · omega
      · exact (hle i hiN).trans (le_max_left _ _)
    · have hk : i - N < w := by omega
      have h1 := le_tileMax (fun k : Fin w => F (N + k.val)) ⟨i - N, hk⟩
      have h2 : N + (i - N) = i := by omega
      simp only [h2] at h1
      exact h1.trans (le_max_right _ _)
  obtain ⟨i0, hi0, r0, hr0⟩ := hreal
  have hne : max m tm ≠ ⊥ := by
    intro h
    have := hb i0 hi0
    rw [h, hr0] at this
    exact EReal.coe_ne_bot r0 (le_bot_iff.mp this)
  have hatt : ∃ i, i < N + w ∧ F i = max m tm := by
    rcases max_choice m tm with h | h
    · rcases hm with ⟨hm0, _⟩ | ⟨_, i, hi, hiM⟩
      · exact absurd (h.trans hm0) hne
      · exact ⟨i, by omega, hiM.trans h.symm⟩
    · rcases tileMax_eq (fun k : Fin w => F (N + k.val)) with h' | ⟨k, h'⟩
      · exact absurd (h.trans h') hne
      · exact ⟨N + k.val, by omega, (h.trans h').symm⟩
  obtain ⟨i1, hi1, hi1M⟩ := hatt
  rcases hF i1 with hbot | ⟨r, hr⟩
  · exact absurd (hi1M.symm.trans hbot) hne
  · refine ⟨r, hi1M.symm.trans hr, ?_, i1, hi1, hr⟩
    intro i hi
    rw [← hr, hi1M]
    exact hb i hi

/-- One more tile: the state after `N` keys becomes the state after `N + w` keys. -/
theorem step (F G : ℕ → EReal) (hF : ∀ i, RealOrBot (F i)) (hG : ∀ i, IsReal (G i)) (N w : ℕ) (m : EReal) (L A : ℝ)
    (h : (m = ⊥ ∧ N = 0 ∧ L = 0 ∧ A = 0) ∨
      ∃ M : ℝ, m = (M : EReal) ∧ IsMaxBelow F N (M : EReal) ∧ L = ∑ i ∈ Finset.range N, wt (F i) M ∧
        A = ∑ i ∈ Finset.range N, wt (F i) M * (G i).toReal)
    (hreal : ∃ i, i < N + w ∧ IsReal (F i)) :
    ∃ M' : ℝ, upd (fun k : Fin w => F (N + k.val)) (fun k : Fin w => G (N + k.val)) (m, (L : EReal), (A : EReal)) =
        ((M' : EReal), ((∑ i ∈ Finset.range (N + w), wt (F i) M' : ℝ) : EReal),
          ((∑ i ∈ Finset.range (N + w), wt (F i) M' * (G i).toReal : ℝ) : EReal)) ∧
      IsMaxBelow F (N + w) (M' : EReal) := by
  have hm : (m = ⊥ ∧ N = 0) ∨ IsMaxBelow F N m := by
    rcases h with ⟨h1, h2, _⟩ | ⟨M, h1, h2, _⟩
    · exact Or.inl ⟨h1, h2⟩
    · exact Or.inr (h1 ▸ h2)
  obtain ⟨M', hM', hmax⟩ := step_max F hF N w m hm hreal
  refine ⟨M', ?_, hmax⟩
  -- the rescaling factor, and what it does to the sums so far
  obtain ⟨a, ha, hL, hA⟩ : ∃ a : ℝ, Ideal.exp (m - (M' : EReal)) = (a : EReal) ∧
      a * L = ∑ i ∈ Finset.range N, wt (F i) M' ∧ a * A = ∑ i ∈ Finset.range N, wt (F i) M' * (G i).toReal := by
    rcases h with ⟨h1, h2, h3, h4⟩ | ⟨M, h1, _, h3, h4⟩
    · refine ⟨0, ?_, ?_, ?_⟩
      · rw [h1, EReal.bot_sub, Ideal.exp_bot, EReal.coe_zero]
      · rw [h2, h3]; simp
      · rw [h2, h4]; simp
    · refine ⟨Real.exp (M - M'), ?_, ?_, ?_⟩
      · rw [h1, ← EReal.coe_sub, Ideal.exp_coe]
      · rw [h3, Finset.mul_sum]
        exact Finset.sum_congr rfl fun i _ => wt_rescale (hF i) M M'
      · rw [h4, Finset.mul_sum]
        apply Finset.sum_congr rfl
        intro i _
        rw [← mul_assoc, wt_rescale (hF i) M M']
  rw [upd_real _ _ (fun k => hF _) (fun k => hG _) m L A M' a hM' ha, hL, hA,
    Finset.sum_range_add (fun i => wt (F i) M') N w, Finset.sum_range_add (fun i => wt (F i) M' * (G i).toReal) N w,
    ← Fin.sum_univ_eq_sum_range (fun i => wt (F (N + i)) M') w,
    ← Fin.sum_univ_eq_sum_range (fun i => wt (F (N + i)) M' * (G (N + i)).toReal) w]

/-- After `j ≥ 1` tiles the state is the real maximum of the keys so far, their weights' sum and their weighted sum. -/
theorem run_inv (F G : ℕ → EReal) (hF : ∀ i, RealOrBot (F i)) (hG : ∀ i, IsReal (G i)) (w : ℕ)
    (h0 : ∃ i, i < w ∧ IsReal (F i)) (j : ℕ) (hj : 1 ≤ j) :
    ∃ M : ℝ, run (tile F w) (tile G w) j =
        ((M : EReal), ((∑ i ∈ Finset.range (j * w), wt (F i) M : ℝ) : EReal),
          ((∑ i ∈ Finset.range (j * w), wt (F i) M * (G i).toReal : ℝ) : EReal)) ∧
      IsMaxBelow F (j * w) (M : EReal) := by
  obtain ⟨i0, hi0, hr0⟩ := h0
  induction j, hj using Nat.le_induction with
  | base =>
    obtain ⟨M', h1, h2⟩ := step F G hF hG (0 * w) w ⊥ 0 0 (Or.inl ⟨rfl, Nat.zero_mul w, rfl, rfl⟩)
      ⟨i0, by omega, hr0⟩
    have e : 1 * w = 0 * w + w := by ring
    refine ⟨M', ?_, ?_⟩
    · rw [e]; exact h1
    · rw [e]; exact h2
  | succ j hj ih =>
    obtain ⟨M, hrun, hmax⟩ := ih
    obtain ⟨M', h1, h2⟩ := step F G hF hG (j * w) w (M : EReal) _ _ (Or.inr ⟨M, rfl, hmax, rfl, rfl⟩)
      ⟨i0, by nlinarith, hr0⟩
    have e : (j + 1) * w = j * w + w := by ring
    refine ⟨M', ?_, ?_⟩
    · rw [e]
      show upd (tile F w j) (tile G w j) (run (tile F w) (tile G w) j) = _
      rw [hrun]; exact h1
    · rw [e]; exact h2

/-! ### A row of `T · w` keys -/

/-- A row given on `Fin N`, continued by `d` on the other naturals. -/
def ext {N : ℕ} (d : EReal) (S : Fin N → EReal) (i : ℕ) : EReal := if h : i < N then S ⟨i, h⟩ else d

theorem ext_val {N : ℕ} (d : EReal) (S : Fin N → EReal) (i : Fin N) : ext d S i.val = S i := by
  unfold ext; rw [dif_pos i.isLt]

/-- Tile `j` of the scores: keys `j * w + k`, `⊥` past the end of the row. -/
def tileS {T w : ℕ} (S : Fin (T * w) → EReal) (j : ℕ) (k : Fin w) : EReal :=
  if h : j * w + k.val < T * w then S ⟨j * w + k.val, h⟩ else ⊥

/-- Tile `j` of the values: keys `j * w + k`, `0` past the end of the row. -/
def tileV {T w : ℕ} (V : Fin (T * w) → EReal) (j : ℕ) (k : Fin w) : EReal :=
  if h : j * w + k.val < T * w then V ⟨j * w + k.val, h⟩ else 0

theorem tileS_of_lt {T w : ℕ} (S : Fin (T * w) → EReal) (j : ℕ) (k : Fin w) (h : j * w + k.val < T * w) :
    tileS S j k = S ⟨j * w + k.val, h⟩ := dif_pos h

theorem tileV_of_lt {T w : ℕ} (V : Fin (T * w) → EReal) (j : ℕ) (k : Fin w) (h : j * w + k.val < T * w) :
    tileV V j k = V ⟨j * w + k.val, h⟩ := dif_pos h

theorem tileS_eq {T w : ℕ} (S : Fin (T * w) → EReal) : tileS S = tile (ext ⊥ S) w := rfl
theorem tileV_eq {T w : ℕ} (V : Fin (T * w) → EReal) : tileV V = tile (ext 0 V) w := rfl

/-- A sum over the first `N` naturals of a function that vanishes from `N` on, as a sum over `Fin N'`, `N ≤ N'`. -/
theorem sum_range_eq_fin (h : ℕ → ℝ) (N N' : ℕ) (hNN' : N ≤ N') (hz : ∀ i, N ≤ i → h i = 0) :
    ∑ i ∈ Finset.range N, h i = ∑ i : Fin N', h i.val := by
  rw [Fin.sum_univ_eq_sum_range h N']
  refine Finset.sum_subset (Finset.range_mono hNN') fun i _ hi => hz i ?_
  simpa using hi

/-- The state after `n` tiles, in real numbers: the row's maximum `M`, the sum of the weights, the weighted sum. -/
theorem online_core {T w n : ℕ} (hn : 0 < n) (hnT : n ≤ T) (S V : Fin (T * w) → EReal)
    (hS : ∀ i, S i = ⊥ ∨ ∃ r : ℝ, S i = (r : EReal)) (hV : ∀ i, ∃ r : ℝ, V i = (r : EReal))
    (h0 : ∃ i : Fin (T * w), i.val < w ∧ ∃ r : ℝ, S i = (r : EReal))
    (hmask : ∀ i : Fin (T * w), n * w ≤ i.val → S i = ⊥) :
    ∃ M : ℝ, (Finset.univ : Finset (Fin (T * w))).fold max ⊥ S = (M : EReal) ∧
      run (tileS S) (tileV V) n =
        ((M : EReal), ((∑ i, wt (S i) M : ℝ) : EReal), ((∑ i, wt (S i) M * (V i).toReal : ℝ) : EReal)) ∧
      0 < ∑ i, wt (S i) M := by
  have hF : ∀ i, RealOrBot (ext ⊥ S i) := by
    intro i; unfold ext; split
    · exact hS _
    · exact Or.inl rfl
  have hG : ∀ i, IsReal (ext 0 V i) := by
    intro i; unfold ext; split
    · exact hV _
    · exact ⟨0, EReal.coe_zero.symm⟩
  have hle : n * w ≤ T * w := Nat.mul_le_mul_right w hnT
  have hbot : ∀ i, n * w ≤ i → ext ⊥ S i = ⊥ := by
    intro i hi; unfold ext; split
    · exact hmask _ hi
    · rfl
  obtain ⟨i0, hi0, hr0⟩ := h0
  obtain ⟨M, hrun, hmaxle, i1, hi1, hi1M⟩ := run_inv (ext ⊥ S) (ext 0 V) hF hG w
    ⟨i0.val, hi0, by rw [ext_val]; exact hr0⟩ n hn
  have hL : ∑ i ∈ Finset.range (n * w), wt (ext ⊥ S i) M = ∑ i : Fin (T * w), wt (S i) M := by
    rw [sum_range_eq_fin (fun i => wt (ext ⊥ S i) M) (n * w) (T * w) hle (fun i hi => by rw [hbot i hi, wt_bot])]
    simp only [ext_val]
  have hA : ∑ i ∈ Finset.range (n * w), wt (ext ⊥ S i) M * (ext 0 V i).toReal =
      ∑ i : Fin (T * w), wt (S i) M * (V i).toReal := by
    rw [sum_range_eq_fin (fun i => wt (ext ⊥ S i) M * (ext 0 V i).toReal) (n * w) (T * w) hle
      (fun i hi => by rw [hbot i hi, wt_bot, zero_mul])]
    simp only [ext_val]
  refine ⟨M, ?_, ?_, ?_⟩
  · apply le_antisymm
    · refine (Finset.fold_max_le _).mpr ⟨bot_le, fun x _ => ?_⟩
      rw [← ext_val ⊥ S x]
      by_cases hx : x.val < n * w
      · exact hmaxle _ hx
      · rw [hbot _ (by omega)]; exact bot_le
    · refine (Finset.le_fold_max _).mpr (Or.inr ⟨⟨i1, by omega⟩, Finset.mem_univ _, ?_⟩)
      rw [← hi1M, ← ext_val ⊥ S ⟨i1, by omega⟩]
  · rw [tileS_eq, tileV_eq, hrun, hL, hA]
  · rw [← hL]
    refine Finset.sum_pos' (fun i _ => wt_nonneg (hF i) M) ⟨i1, Finset.mem_range.mpr hi1, ?_⟩
    rw [hi1M, wt_coe, sub_self, Real.exp_zero]; exact one_pos

/-! ### The law -/

section Law

variable {T w n : ℕ} (hn : 0 < n) (hnT : n ≤ T) (S V : Fin (T * w) → EReal)
  (hS : ∀ i, S i = ⊥ ∨ ∃ r : ℝ, S i = (r : EReal)) (hV : ∀ i, ∃ r : ℝ, V i = (r : EReal))
  (h0 : ∃ i : Fin (T * w), i.val < w ∧ ∃ r : ℝ, S i = (r : EReal))
  (hmask : ∀ i : Fin (T * w), n * w ≤ i.val → S i = ⊥)

include hn hnT hS hV h0 hmask

/-- After `n` tiles the running maximum is the maximum of the whole row, and it is a real. -/
theorem online_max :
    (run (tileS S) (tileV V) n).1 = (Finset.univ : Finset (Fin (T * w))).fold max ⊥ S ∧
      ∃ r : ℝ, (Finset.univ : Finset (Fin (T * w))).fold max ⊥ S = (r : EReal) := by
  obtain ⟨M, hM, hrun, _⟩ := online_core hn hnT S V hS hV h0 hmask
  rw [hrun, hM]
  exact ⟨rfl, M, rfl⟩

/-- After `n` tiles the running normaliser is the whole row's sum of weights, and it is a positive real. -/
theorem online_norm :
    (run (tileS S) (tileV V) n).2.1 =
        ∑ i, Ideal.exp (S i - (Finset.univ : Finset (Fin (T * w))).fold max ⊥ S) ∧
      ∃ r : ℝ, 0 < r ∧ ∑ i, Ideal.exp (S i - (Finset.univ : Finset (Fin (T * w))).fold max ⊥ S) = (r : EReal) := by
  obtain ⟨M, hM, hrun, hpos⟩ := online_core hn hnT S V hS hV h0 hmask
  have e : ∑ i, Ideal.exp (S i - (M : EReal)) = ((∑ i, wt (S i) M : ℝ) : EReal) := by
    rw [coe_sum]
    exact Finset.sum_congr rfl fun i _ => exp_sub_coe (hS i) M
  rw [hrun, hM, e]
  exact ⟨rfl, _, hpos, rfl⟩

/-- After `n` tiles the running weighted sum is the whole row's. -/
theorem online_acc :
    (run (tileS S) (tileV V) n).2.2 =
      ∑ i, Ideal.exp (S i - (Finset.univ : Finset (Fin (T * w))).fold max ⊥ S) * V i := by
  obtain ⟨M, hM, hrun, _⟩ := online_core hn hnT S V hS hV h0 hmask
  rw [hrun, hM]
  show ((∑ i, wt (S i) M * (V i).toReal : ℝ) : EReal) = _
  rw [coe_sum]
  apply Finset.sum_congr rfl
  intro i _
  rw [exp_sub_coe (hS i) M, EReal.coe_mul, IsReal.coe_toReal (hV i)]

/-- The online-softmax law: the tiled computation's `acc · (1 / l)` after `n` tiles is the softmax-weighted sum of the
    values over the whole row. -/
theorem online_eq_softmax :
    (run (tileS S) (tileV V) n).2.2 * Ideal.div 1 (run (tileS S) (tileV V) n).2.1 =
      ∑ i : Fin (T * w),
        Ideal.div (Ideal.exp (S i - (Finset.univ : Finset (Fin (T * w))).fold max ⊥ S))
          (∑ i', Ideal.exp (S i' - (Finset.univ : Finset (Fin (T * w))).fold max ⊥ S)) * V i := by
  obtain ⟨M, hM, hrun, hpos⟩ := online_core hn hnT S V hS hV h0 hmask
  have e : ∑ i, Ideal.exp (S i - (M : EReal)) = ((∑ i, wt (S i) M : ℝ) : EReal) := by
    rw [coe_sum]
    exact Finset.sum_congr rfl fun i _ => exp_sub_coe (hS i) M
  rw [hrun, hM, e]
  show ((∑ i, wt (S i) M * (V i).toReal : ℝ) : EReal) * Ideal.div 1 ((∑ i, wt (S i) M : ℝ) : EReal) = _
  rw [Ideal.div_coe hpos.ne', one_mul, ← EReal.coe_mul, Finset.sum_mul, coe_sum]
  apply Finset.sum_congr rfl
  intro i _
  obtain ⟨r, hr⟩ := hV i
  rw [Ideal.div_coe hpos.ne', exp_sub_coe (hS i) M, hr, EReal.toReal_coe, ← EReal.coe_mul, ← EReal.coe_mul]
  congr 1
  ring

end Law

end Cert.LibOnlineSoftmax

end
-- ==== Proof.LibReal.lean ====
/-
  Real-valued extended reals.

  On the extended reals the laws that a rearrangement of a computation needs — distributivity, cancelling, moving a
  factor across a sum — fail at the infinities. A computation whose inputs are finite never leaves the reals as long as
  it adds, subtracts, multiplies, takes maxima and finite sums, divides by a nonzero real, takes the reciprocal square
  root of a positive real, exponentials and logistic values. This file is that closure, stated with the predicate
  `IsReal x` ("x is the coercion of a real number"), together with the sign facts a later division needs (a logistic
  value is positive; a sum of nonnegative reals is nonnegative).

  Generic; nothing mentions a program.
-/
import Idealize.ShloMosaic.PureOps.Ideal

noncomputable section

namespace Cert.Lib.Real

open Idealize.ShloMosaic

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption

/-- A finite sum of reals is a real. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real by a nonzero real is a real. -/
theorem IsReal.div {x : EReal} (hx : IsReal x) {r : ℝ} (hr : r ≠ 0) : IsReal (Ideal.div x (r : EReal)) := by
  obtain ⟨a, rfl⟩ := hx
  rw [Ideal.div_coe hr, ← EReal.coe_mul]
  exact ⟨_, rfl⟩

/-- The exponential of a real is a real. -/
theorem IsReal.exp {x : EReal} (hx : IsReal x) : IsReal (Ideal.exp x) := by
  obtain ⟨a, rfl⟩ := hx; exact ⟨Real.exp a, Ideal.exp_coe a⟩

/-- The logistic value of a real is a POSITIVE real. -/
theorem logistic_coe_pos (a : ℝ) : ∃ r : ℝ, 0 < r ∧ Ideal.logistic (a : EReal) = (r : EReal) :=
  ⟨(1 + Real.exp (-a))⁻¹, inv_pos.mpr (by positivity), Ideal.logistic_coe a⟩

theorem IsReal.logistic {x : EReal} (hx : IsReal x) : IsReal (Ideal.logistic x) := by
  obtain ⟨a, rfl⟩ := hx
  obtain ⟨r, -, hr⟩ := logistic_coe_pos a
  exact ⟨r, hr⟩

/-- The reciprocal square root of a POSITIVE real is a real. -/
theorem isReal_rsqrt_of_pos {r : ℝ} (hr : 0 < r) : IsReal (Ideal.rsqrt (r : EReal)) := by
  refine ⟨(Real.sqrt r)⁻¹, ?_⟩
  rw [Ideal.rsqrt_coe, if_neg (not_lt.mpr hr.le), if_neg hr.ne']

/-- A finite sum of nonnegative reals, coerced, is a nonnegative real. -/
theorem sum_coe_nonneg {ι : Type} (s : Finset ι) (f : ι → ℝ) (h : ∀ i ∈ s, 0 ≤ f i) :
    ∃ r : ℝ, 0 ≤ r ∧ (∑ i ∈ s, ((f i : ℝ) : EReal)) = (r : EReal) := by
  classical
  refine ⟨∑ i ∈ s, f i, Finset.sum_nonneg h, ?_⟩
  induction s using Finset.induction_on with
  | empty => simp
  | insert a s ha ih =>
    rw [Finset.sum_insert ha, Finset.sum_insert ha, ih fun i hi => h i (Finset.mem_insert_of_mem hi), EReal.coe_add]

end Cert.Lib.Real

end
-- ==== Proof.AttnJoin.lean ====
import proofs.«126977_j57518202028698_2_alg».proof.Proof.Spec
import proofs.«126977_j57518202028698_2_alg».proof.Proof.LibOnlineSoftmax
import proofs.«126977_j57518202028698_2_alg».proof.Proof.LibReal
import Idealize.ShloMosaic.PureOps.Ideal.Laws

/-!
# The tiled row computation yields the specification's attention row

For a query position `t` the 2048 key positions are cut into 4 tiles of 512. The online recurrence over the tiles
`0 … t / 512` — those that hold a key position not after `t` — keeps a running maximum, a running normaliser and a
running weighted sum; its final `acc · (1 / l)` is the softmax-weighted sum of the values, which is the
specification's `attn`. The online-softmax law needs: real inputs make every score and every value a real; key
position 0 is never masked; every key position from `(t / 512 + 1) · 512` on is masked.
-/

noncomputable section

namespace Cert.AttnJoin

open Idealize.ShloMosaic Cert.AttnSpec Cert.LibOnlineSoftmax
open Cert.Lib.Real (IsReal)

/-- The scale word `0x3E000000` is the real number 1/8. -/
theorem scale_eq : Ideal.ofBits .f32 0x3E000000#32 = (((1 / 8 : ℝ)) : EReal) := by
  simp [Ideal.ofBits, Ideal.ieee, -EReal.coe_mul]; norm_num

section
variable (x : Fin 2 → Fin 2048 → Fin 1024 → EReal) (wa : Fin 3072 → Fin 1024 → EReal)
  (hx : ∀ b t c, ∃ r : ℝ, x b t c = (r : EReal)) (hwa : ∀ o c, ∃ r : ℝ, wa o c = (r : EReal))

include hx hwa

/-- With real inputs every entry of the fused projection is a real. -/
theorem qkv_real (b : Fin 2) (t : Fin 2048) (o : Fin 3072) : ∃ r : ℝ, qkv x wa b t o = (r : EReal) :=
  IsReal.sum _ _ fun c _ => IsReal.mul (hx b t c) (hwa o c)

/-- With real inputs every value is a real. -/
theorem value_real (b : Fin 2) (h : Fin 16) (s : Fin 2048) (d : Fin 64) : ∃ r : ℝ, value x wa b h s d = (r : EReal) :=
  qkv_real x wa hx hwa b s (vCol h d)

/-- With real inputs every score is a real. -/
theorem score_real (b : Fin 2) (h : Fin 16) (t s : Fin 2048) : ∃ r : ℝ, score x wa b h t s = (r : EReal) := by
  unfold score
  rw [scale_eq]
  exact IsReal.mul (IsReal.sum _ _ fun d _ => IsReal.mul (qkv_real x wa hx hwa b t (qCol h d)) (qkv_real x wa hx hwa b s (kCol h d)))
    ⟨_, rfl⟩

omit hx hwa in
/-- The masked scores of query position `t`, as a row of 4 tiles of 512, with −∞ written `⊥`. -/
def scoreRow (b : Fin 2) (h : Fin 16) (t : Fin 2048) : Fin (4 * 512) → EReal :=
  fun i => if (i : Fin 2048) ≤ t then score x wa b h t i else ⊥

omit hx hwa in
/-- Lane `d` of the values of all key positions, as a row of 4 tiles of 512. -/
def valueRow (b : Fin 2) (h : Fin 16) (d : Fin 64) : Fin (4 * 512) → EReal :=
  fun i => value x wa b h (i : Fin 2048) d

omit hx hwa in
theorem scoreRow_eq_masked (b : Fin 2) (h : Fin 16) (t s : Fin 2048) : masked x wa b h t s = scoreRow x wa b h t s := by
  unfold masked scoreRow; rw [negInf_eq_bot]

/-- The number of key tiles that hold a key position not after `t`. -/
abbrev tilesOf (t : Fin 2048) : ℕ := t.val / 512 + 1

omit hx hwa in
theorem tilesOf_pos (t : Fin 2048) : 0 < tilesOf t := Nat.succ_pos _
omit hx hwa in
theorem tilesOf_le (t : Fin 2048) : tilesOf t ≤ 4 := by have := t.isLt; show t.val / 512 + 1 ≤ 4; omega

theorem scoreRow_realOrBot (b : Fin 2) (h : Fin 16) (t : Fin 2048) (i : Fin (4 * 512)) :
    scoreRow x wa b h t i = ⊥ ∨ ∃ r : ℝ, scoreRow x wa b h t i = (r : EReal) := by
  unfold scoreRow
  by_cases hi : (i : Fin 2048) ≤ t
  · rw [if_pos hi]; exact Or.inr (score_real x wa hx hwa b h t i)
  · rw [if_neg hi]; exact Or.inl rfl

theorem scoreRow_first (b : Fin 2) (h : Fin 16) (t : Fin 2048) :
    ∃ i : Fin (4 * 512), i.val < 512 ∧ ∃ r : ℝ, scoreRow x wa b h t i = (r : EReal) := by
  refine ⟨⟨0, by decide⟩, by decide, ?_⟩
  unfold scoreRow
  rw [if_pos (Fin.mk_le_of_le_val (Nat.zero_le _))]
  exact score_real x wa hx hwa b h t _

omit hx hwa in
theorem scoreRow_masked (b : Fin 2) (h : Fin 16) (t : Fin 2048) (i : Fin (4 * 512)) (hi : tilesOf t * 512 ≤ i.val) :
    scoreRow x wa b h t i = ⊥ := by
  unfold scoreRow
  refine if_neg fun hle => ?_
  have h1 : i.val ≤ t.val := hle
  have h2 : (t.val / 512 + 1) * 512 ≤ i.val := hi
  omega

/-! ## The specification's row quantities in the law's form -/

omit hx hwa in
theorem rowMax_eq (b : Fin 2) (h : Fin 16) (t : Fin 2048) :
    rowMax x wa b h t = (Finset.univ : Finset (Fin (4 * 512))).fold max ⊥ (scoreRow x wa b h t) := by
  simp only [rowMax, scoreRow_eq_masked, negInf_eq_bot]

omit hx hwa in
theorem expo_eq (b : Fin 2) (h : Fin 16) (t s : Fin 2048) :
    expo x wa b h t s
      = Ideal.exp (scoreRow x wa b h t s - (Finset.univ : Finset (Fin (4 * 512))).fold max ⊥ (scoreRow x wa b h t)) := by
  unfold expo; rw [rowMax_eq, scoreRow_eq_masked]

omit hx hwa in
theorem rowSum_eq (b : Fin 2) (h : Fin 16) (t : Fin 2048) :
    rowSum x wa b h t = ∑ i : Fin (4 * 512),
      Ideal.exp (scoreRow x wa b h t i - (Finset.univ : Finset (Fin (4 * 512))).fold max ⊥ (scoreRow x wa b h t)) := by
  simp only [rowSum, expo_eq, Ideal.ofBits_zero_f32, zero_add]

omit hx hwa in
/-- The specification's attention row is the softmax-weighted sum the online-softmax law speaks of. -/
theorem attn_eq_softmax (b : Fin 2) (h : Fin 16) (t : Fin 2048) (d : Fin 64) :
    attn x wa b h t d = ∑ i : Fin (4 * 512),
      Ideal.div (Ideal.exp (scoreRow x wa b h t i - (Finset.univ : Finset (Fin (4 * 512))).fold max ⊥ (scoreRow x wa b h t)))
        (∑ i' : Fin (4 * 512),
          Ideal.exp (scoreRow x wa b h t i' - (Finset.univ : Finset (Fin (4 * 512))).fold max ⊥ (scoreRow x wa b h t)))
        * valueRow x wa b h d i := by
  simp only [attn, prob, rowSum_eq, expo_eq]
  rfl

/-! ## The tiled computation against the specification -/

/-- The tiled row computation over the key tiles `0 … t / 512` ends with `acc · (1 / l)` equal to the specification's
    attention row. -/
theorem online_eq_attn (b : Fin 2) (h : Fin 16) (t : Fin 2048) (d : Fin 64) :
    (run (tileS (scoreRow x wa b h t)) (tileV (valueRow x wa b h d)) (tilesOf t)).2.2
        * Ideal.div 1 (run (tileS (scoreRow x wa b h t)) (tileV (valueRow x wa b h d)) (tilesOf t)).2.1
      = attn x wa b h t d :=
  (online_eq_softmax (tilesOf_pos t) (tilesOf_le t) (scoreRow x wa b h t) (valueRow x wa b h d)
    (scoreRow_realOrBot x wa hx hwa b h t) (fun i => value_real x wa hx hwa b h i d) (scoreRow_first x wa hx hwa b h t)
    (scoreRow_masked x wa b h t)).trans (attn_eq_softmax x wa b h t d).symm

/-- Its running maximum ends at the specification's row maximum. -/
theorem online_max_eq (b : Fin 2) (h : Fin 16) (t : Fin 2048) (d : Fin 64) :
    (run (tileS (scoreRow x wa b h t)) (tileV (valueRow x wa b h d)) (tilesOf t)).1 = rowMax x wa b h t :=
  (online_max (tilesOf_pos t) (tilesOf_le t) (scoreRow x wa b h t) (valueRow x wa b h d)
    (scoreRow_realOrBot x wa hx hwa b h t) (fun i => value_real x wa hx hwa b h i d) (scoreRow_first x wa hx hwa b h t)
    (scoreRow_masked x wa b h t)).1.trans (rowMax_eq x wa b h t).symm

/-- Its running normaliser ends at the specification's row sum. -/
theorem online_norm_eq (b : Fin 2) (h : Fin 16) (t : Fin 2048) (d : Fin 64) :
    (run (tileS (scoreRow x wa b h t)) (tileV (valueRow x wa b h d)) (tilesOf t)).2.1 = rowSum x wa b h t :=
  (online_norm (tilesOf_pos t) (tilesOf_le t) (scoreRow x wa b h t) (valueRow x wa b h d)
    (scoreRow_realOrBot x wa hx hwa b h t) (fun i => value_real x wa hx hwa b h i d) (scoreRow_first x wa hx hwa b h t)
    (scoreRow_masked x wa b h t)).1.trans (rowSum_eq x wa b h t).symm

/-- With real inputs the row maximum is a real. -/
theorem rowMax_real (b : Fin 2) (h : Fin 16) (t : Fin 2048) : ∃ r : ℝ, rowMax x wa b h t = (r : EReal) := by
  rw [rowMax_eq]
  exact (online_max (tilesOf_pos t) (tilesOf_le t) (scoreRow x wa b h t) (valueRow x wa b h 0)
    (scoreRow_realOrBot x wa hx hwa b h t) (fun i => value_real x wa hx hwa b h i 0) (scoreRow_first x wa hx hwa b h t)
    (scoreRow_masked x wa b h t)).2

/-- With real inputs the row sum is a positive real. -/
theorem rowSum_pos (b : Fin 2) (h : Fin 16) (t : Fin 2048) : ∃ r : ℝ, 0 < r ∧ rowSum x wa b h t = (r : EReal) := by
  rw [rowSum_eq]
  exact (online_norm (tilesOf_pos t) (tilesOf_le t) (scoreRow x wa b h t) (valueRow x wa b h 0)
    (scoreRow_realOrBot x wa hx hwa b h t) (fun i => value_real x wa hx hwa b h i 0) (scoreRow_first x wa hx hwa b h t)
    (scoreRow_masked x wa b h t)).2

end

end Cert.AttnJoin

end
-- ==== Proof.AttnPayDot.lean ====
/-
  The product of two matrices, `[a, K] · [K, b]` (the left operand contracted on its last axis, the right one on its
  first, no batch axes), read at an entry on the extended reals: `(x · y)[p, c] = Σₖ x[p, k] · y[k, c]`, the sum over
  `Fin K`. Stated for any dimension record of that form, then for a kernel's matrix-unit product into a zero
  accumulator.
-/
import Idealize.ShloMosaic.PureOps.Ideal.Laws
import Idealize.ShloMosaic.Lib.ValueIdx

noncomputable section

namespace Cert.AttnPayDot

open Idealize.ShloMosaic Idealize.ShloMosaic.ValueIdx

/-- The dimension numbers of a plain matrix product: contract the left operand's axis 1 with the right operand's
    axis 0, keep the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain matrix product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain matrix product at the entry `(p, c)`: row `p` of the left operand against column `c` of
    the right one. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's plain matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

end Cert.AttnPayDot

end
-- ==== Proof.AttnPayScore.lean ====
/-
  The attention body's score tile at an entry, at the ideal instance.

  For a query tile `qi` and a key tile `ki` (tiles of 512 rows), the body forms, per head, the matrix of scaled inner
  products of the query rows with the key rows over the head's 64 lanes, and masks every entry whose key position
  `ki · 512 + k'` lies after its query position `qi · 512 + r` with the named constant that denotes `⊥`. This file
  reads that tile at the entry `(r, k')`, for the head in lanes `0 … 63` and for the head in lanes `64 … 127`.
-/
import proofs.«126977_j57518202028698_2_alg».proof.Proof.Gen.KernelIdeal.Skeleton
import proofs.«126977_j57518202028698_2_alg».proof.Proof.AttnPayDot
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.AttnPay

open Cert.KernelIdeal Cert.KernelIdeal.Gen Idealize.ShloMosaic Idealize.ShloMosaic.ValueIdx

/-! ### Words -/

theorem toInt_ofNat_small (a : ℕ) (ha : a < 2 ^ 31) : (BitVec.ofNat 32 a).toInt = (a : Int) := by
  have h1 : (BitVec.ofNat 32 a).toNat = a := by rw [BitVec.toNat_ofNat]; exact Nat.mod_eq_of_lt (by omega)
  rw [BitVec.toInt_eq_toNat_of_lt (by rw [h1]; omega), h1]

/-- The signed comparison of two small naturals' words is their comparison. -/
theorem cmpi_sle_ofNat (a b : ℕ) (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ _
  unfold BitVec.sle
  rw [toInt_ofNat_small a ha, toInt_ofNat_small b hb]
  by_cases h : a ≤ b <;> simp [h]

/-- A tile number times 512 plus a position in the tile, in words. -/
theorem word_affine (t x : ℕ) :
    IntOp.addi (Scalar.muli (BitVec.ofNat 32 t) 512#32) (BitVec.ofNat 32 x) = BitVec.ofNat 32 (t * 512 + x) := by
  show BitVec.ofNat 32 t * 512#32 + BitVec.ofNat 32 x = _
  rw [BitVec.ofNat_add, BitVec.ofNat_mul]

/-! ### The causal mask -/

/-- The mask is set at `(r, k')` exactly when the key position is not after the query position. -/
theorem mask_apply (qi ki : ℕ) (hqi : qi < 4) (hki : ki < 4) (r k' : Fin 512) :
    k1_pay19 (BitVec.ofNat 32 qi) (BitVec.ofNat 32 ki) (ix2 r k') = 1#1 ↔ ki * 512 + k'.val ≤ qi * 512 + r.val := by
  unfold k1_pay19
  show IntOp.cmpi .sle
      (IntOp.addi (Scalar.muli (BitVec.ofNat 32 ki) 512#32) (iota .tc S512x512 32 [1] iota_S512x512_d1_w32 (ix2 r k')))
      (IntOp.addi (Scalar.muli (BitVec.ofNat 32 qi) 512#32) (iota .tc S512x512 32 [0] iota_S512x512_d0_w32 (ix2 r k'))) = 1#1 ↔ _
  rw [iota_single_apply, iota_single_apply]
  show IntOp.cmpi .sle (IntOp.addi (Scalar.muli (BitVec.ofNat 32 ki) 512#32) (BitVec.ofNat 32 k'.val))
      (IntOp.addi (Scalar.muli (BitVec.ofNat 32 qi) 512#32) (BitVec.ofNat 32 r.val)) = 1#1 ↔ _
  rw [word_affine, word_affine]
  exact cmpi_sle_ofNat _ _ (by have := k'.isLt; omega) (by have := r.isLt; omega)

/-! ### The two heads' lanes -/

/-- Lane `d` of the head in lanes `0 … 63`. -/
def lo (d : Fin 64) : Fin 128 := ⟨d.val, by omega⟩

/-- Lane `d` of the head in lanes `64 … 127`. -/
def hi (d : Fin 64) : Fin 128 := ⟨64 + d.val, by omega⟩

/-- A loaded block with its unit axis dropped, cut to the lanes `0 … 63`, at `(r, d)`. -/
theorem head_lo (x : Vec Ideal S1x512x128 .bf16) (r : Fin 512) (d : Fin 64) :
    extractStridedSlice S512x64 ![0, 0] (shapeCast S512x128 x shapeCasts_S1x512x128_S512x128) slices_S512x128_o0_0_S512x64 (ix2 r d)
      = x (ix3 0 r (lo d)) := by
  rw [slice2_axis1_apply 0 _ _ r d (lo d) (by show d.val = 0 + d.val; omega)]
  exact shapeCast_1ab_ab_apply _ _ r (lo d)

/-- The same cut to the lanes `64 … 127`. -/
theorem head_hi (x : Vec Ideal S1x512x128 .bf16) (r : Fin 512) (d : Fin 64) :
    extractStridedSlice S512x64 ![0, 64] (shapeCast S512x128 x shapeCasts_S1x512x128_S512x128) slices_S512x128_o0_64_S512x64 (ix2 r d)
      = x (ix3 0 r (hi d)) := by
  rw [slice2_axis1_apply 64 _ _ r d (hi d) rfl]
  exact shapeCast_1ab_ab_apply _ _ r (hi d)

/-! ### The scores -/

/-- The scaled inner product of query row `r` with key row `k'` over the lanes `h` of one head, masked with `⊥` where
    the key position `ki · 512 + k'` is after the query position `qi · 512 + r`. -/
def sc (h : Fin 64 → Fin 128) (q k : Vec Ideal S1x512x128 .bf16) (qi ki : ℕ) (r k' : Fin 512) : EReal :=
  if ki * 512 + k'.val ≤ qi * 512 + r.val then
    (∑ d : Fin 64, q (ix3 0 r (h d)) * k (ix3 0 k' (h d))) * Ideal.ofBits .f32 0x3E000000#32
  else ⊥

/-- The named masking constant denotes `⊥`. -/
theorem neg_big : Named.named (F := Ideal) Cert.KernelIdeal.κ "neg_big" (φ := .f32) 0xFF333332#32 = (⊥ : EReal) :=
  IdealRules.named_const.ideal_named_scalar _ _ _ _ rfl

/-- Queries times transposed keys, into the zero accumulator, at `(r, k')`: the inner product of the two rows. -/
theorem qk_apply (x y : FVec Ideal S512x64 .bf16) (r k' : Fin 512) :
    FloatOps.matmul dot_S512x64_S64x512_S512x512_1_0_0_1_n_n none x
        (transpose S64x512 [1, 0] y transposes_S512x64_p1_0_S64x512) (constant (F := Ideal) S512x512 .f32 0x00000000#32) (ix2 r k')
      = ∑ d : Fin 64, x (ix2 r d) * y (ix2 k' d) := by
  refine (Cert.AttnPayDot.matmul_zero_apply _ ⟨rfl, rfl, rfl, rfl, rfl, rfl⟩ none x _ r k').trans ?_
  refine Finset.sum_congr rfl fun d _ => ?_
  rw [transpose_ix2_apply]

/-- The score tile of the head in lanes `0 … 63`. -/
theorem pay20_apply (qi ki : ℕ) (hqi : qi < 4) (hki : ki < 4) (q k : Vec Ideal S1x512x128 .bf16) (r k' : Fin 512) :
    k1_pay20 (F := Ideal) (BitVec.ofNat 32 qi) (BitVec.ofNat 32 ki) q k (ix2 r k') = sc lo q k qi ki r k' := by
  unfold k1_pay20 sc k1_pay12 k1_pay13
  show (if k1_pay19 (BitVec.ofNat 32 qi) (BitVec.ofNat 32 ki) (ix2 r k') = 1#1 then
      FloatOps.matmul dot_S512x64_S64x512_S512x512_1_0_0_1_n_n none _ _ (constant (F := Ideal) S512x512 .f32 0x00000000#32) (ix2 r k')
        * Ideal.ofBits .f32 0x3E000000#32
    else Named.named (F := Ideal) Cert.KernelIdeal.κ "neg_big" (φ := .f32) 0xFF333332#32) = _
  rw [neg_big, qk_apply]
  refine if_congr (mask_apply qi ki hqi hki r k') ?_ rfl
  refine congrArg (· * Ideal.ofBits .f32 0x3E000000#32) (Finset.sum_congr rfl fun d _ => ?_)
  rw [head_lo, head_lo]

/-- The score tile of the head in lanes `64 … 127`. -/
theorem pay29_apply (qi ki : ℕ) (hqi : qi < 4) (hki : ki < 4) (q k : Vec Ideal S1x512x128 .bf16) (r k' : Fin 512) :
    k1_pay29 (F := Ideal) (k1_pay15 q) (k1_pay16 k) (k1_pay19 (BitVec.ofNat 32 qi) (BitVec.ofNat 32 ki)) (ix2 r k')
      = sc hi q k qi ki r k' := by
  unfold k1_pay29 sc k1_pay15 k1_pay16 k1_pay12 k1_pay13
  show (if k1_pay19 (BitVec.ofNat 32 qi) (BitVec.ofNat 32 ki) (ix2 r k') = 1#1 then
      FloatOps.matmul dot_S512x64_S64x512_S512x512_1_0_0_1_n_n none _ _ (constant (F := Ideal) S512x512 .f32 0x00000000#32) (ix2 r k')
        * Ideal.ofBits .f32 0x3E000000#32
    else Named.named (F := Ideal) Cert.KernelIdeal.κ "neg_big" (φ := .f32) 0xFF333332#32) = _
  rw [neg_big, qk_apply]
  refine if_congr (mask_apply qi ki hqi hki r k') ?_ rfl
  refine congrArg (· * Ideal.ofBits .f32 0x3E000000#32) (Finset.sum_congr rfl fun d _ => ?_)
  rw [head_hi, head_hi]

end Cert.KernelIdeal.AttnPay

end
-- ==== Proof.LibLanes.lean ====
/-
  Reading a lane reduction with kept dimension at an index, at the ideal instance: the sum (or the maximum) over the lanes of a
  row, cast from a vector of rows to a column, and a column broadcast back over the lanes. General in the two extents.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) (fun d => by
    match d with
    | ⟨0, _⟩ =>
      show p.val = if a = 1 then 0 else p.val
      split
      · have := p.isLt; omega
      · rfl
    | ⟨1, _⟩ => rfl)

/-- The sum over the lanes of row `p`. -/
theorem lane_sum {a b : ℕ} (v : FVec Ideal (⟨2, ![a, b]⟩ : Shape) .f32) (h : (⟨2, ![a, b]⟩ : Shape).Reduces [1] ⟨1, ![a]⟩)
    (hφ : FKind.Formats .f32) (hacc : (0x00000000#32 : BitVec 32) = 0x00000000#32) (p : Fin a) :
    multiReduction .add [1] (⟨1, ![a]⟩ : Shape) v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun d => Fin.ext ?_)
  match d with
  | ⟨0, _⟩ => rfl
  | ⟨1, _⟩ => rfl

/-- The maximum over the lanes of row `p`, from minus infinity. -/
theorem lane_max {a b : ℕ} (v : FVec Ideal (⟨2, ![a, b]⟩ : Shape) .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] (⟨1, ![a]⟩ : Shape) v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (Finset.fold max _ · Finset.univ) (funext fun k => congrArg v (funext fun d => Fin.ext ?_))
  match d with
  | ⟨0, _⟩ => rfl
  | ⟨1, _⟩ => rfl

end Cert.Lib

end
-- ==== Proof.AttnPay.lean ====
/-
  The attention body's arithmetic at an entry, at the ideal instance, as the online-softmax update.

  Per head the body keeps, for each of the 512 query rows of a tile, a running maximum `m`, a running normaliser `l`
  and a running weighted sum `acc` (64 lanes). One key tile's work is: the new maximum is the old one against the
  largest score of the row; the old normaliser and weighted sum are rescaled by `exp (m - m')`; the row's weights
  `exp (score - m')` are summed into the normaliser and, against the value rows, into the weighted sum. Read at a row
  `r` and a lane `d` this is exactly `LibOnlineSoftmax.upd` on the row's scores and the lane's values. The file
  proves that for both heads, and reads the reset values and the final `acc · (1 / l)` at an entry.
-/
import proofs.«126977_j57518202028698_2_alg».proof.Proof.Gen.KernelIdeal.Skeleton
import proofs.«126977_j57518202028698_2_alg».proof.Proof.AttnPayScore
import proofs.«126977_j57518202028698_2_alg».proof.Proof.AttnPayDot
import proofs.«126977_j57518202028698_2_alg».proof.Proof.LibOnlineSoftmax
import proofs.«126977_j57518202028698_2_alg».proof.Proof.LibLanes
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnPay

open Cert.KernelIdeal Cert.KernelIdeal.Gen Idealize.ShloMosaic Idealize.ShloMosaic.ValueIdx

/-! ### Constants -/

theorem ofBits_neg_inf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee]
  rw [← EReal.coe_mul, ← EReal.coe_one]
  exact congrArg _ (by norm_num)

/-! ### One key tile's work on a score tile `P` and a value block `W` -/

/-- The new running maximum. -/
def gMax (P : FVec Ideal S512x512 .f32) (m : Vec Ideal S512x1 .f32) : FVec Ideal S512x1 .f32 :=
  maximumf m (shapeCast S512x1 (multiReduction .maximumf [1] S512 P 0xFF800000#32 reduces_S512x512_S512 (.inl rfl) rfl)
    shapeCasts_S512_S512x1)

/-- The rescaling factor `exp (m - m')`. -/
def gAlpha (P : FVec Ideal S512x512 .f32) (m : Vec Ideal S512x1 .f32) : FVec Ideal S512x1 .f32 :=
  exp (subf m (gMax P m))

/-- The tile's weights `exp (score - m')`. -/
def gExp (P : FVec Ideal S512x512 .f32) (m : Vec Ideal S512x1 .f32) : FVec Ideal S512x512 .f32 :=
  exp (subf P (broadcastTo S512x512 (gMax P m) broadcasts_S512x1_S512x512))

/-- The new running normaliser. -/
def gL (P : FVec Ideal S512x512 .f32) (m l : Vec Ideal S512x1 .f32) : FVec Ideal S512x1 .f32 :=
  addf (mulf (gAlpha P m) l)
    (shapeCast S512x1 (multiReduction .add [1] S512 (gExp P m) 0x00000000#32 reduces_S512x512_S512 (.inl rfl) rfl)
      shapeCasts_S512_S512x1)

/-- The new running weighted sum. -/
def gAcc (W : FVec Ideal S512x64 .bf16) (P : FVec Ideal S512x512 .f32) (m : Vec Ideal S512x1 .f32)
    (acc : Vec Ideal S512x64 .f32) : FVec Ideal S512x64 .f32 :=
  addf (mulf (broadcastTo S512x64 (gAlpha P m) broadcasts_S512x1_S512x64) acc)
    (matmul dot_S512x512_S512x64_S512x64_1_0_0_1_n_n none (truncf .bf16 (gExp P m) bitsLt_bf16_f32) W
      (constant S512x64 .f32 0x00000000#32))

section Generic
variable (W : FVec Ideal S512x64 .bf16) (P : FVec Ideal S512x512 .f32) (m l : Vec Ideal S512x1 .f32)
  (acc : Vec Ideal S512x64 .f32) (r : Fin 512)

theorem gMax_apply :
    gMax P m (ix2 r 0) = max (m (ix2 r 0)) ((Finset.univ : Finset (Fin 512)).fold max ⊥ fun k' => P (ix2 r k')) := by
  unfold gMax
  rw [maximumf_apply, Cert.Lib.shapeCast_a_a1_apply, ← ofBits_neg_inf]
  exact congrArg (max (m (ix2 r 0))) (Cert.Lib.lane_max P _ _ _ r)

theorem gAlpha_apply : gAlpha P m (ix2 r 0) = Ideal.exp (m (ix2 r 0) - gMax P m (ix2 r 0)) := rfl

theorem gExp_apply (k' : Fin 512) : gExp P m (ix2 r k') = Ideal.exp (P (ix2 r k') - gMax P m (ix2 r 0)) := by
  unfold gExp
  show Ideal.exp (P (ix2 r k') - broadcastTo S512x512 (gMax P m) broadcasts_S512x1_S512x512 (ix2 r k')) = _
  rw [Cert.Lib.broadcastTo_a1_ab_apply]

theorem gL_apply : gL P m l (ix2 r 0) = gAlpha P m (ix2 r 0) * l (ix2 r 0) + ∑ k' : Fin 512, gExp P m (ix2 r k') := by
  unfold gL
  rw [addf_apply, mulf_apply, Cert.Lib.shapeCast_a_a1_apply]
  exact congrArg (gAlpha P m (ix2 r 0) * l (ix2 r 0) + ·) (Cert.Lib.lane_sum (gExp P m) _ _ _ r)

theorem gAcc_apply (d : Fin 64) :
    gAcc W P m acc (ix2 r d)
      = gAlpha P m (ix2 r 0) * acc (ix2 r d) + ∑ k' : Fin 512, gExp P m (ix2 r k') * W (ix2 k' d) := by
  unfold gAcc
  rw [addf_apply, mulf_apply, Cert.Lib.broadcastTo_a1_ab_apply]
  exact congrArg (gAlpha P m (ix2 r 0) * acc (ix2 r d) + ·)
    (Cert.AttnPayDot.matmul_zero_apply _ ⟨rfl, rfl, rfl, rfl, rfl, rfl⟩ none (truncf .bf16 (gExp P m) bitsLt_bf16_f32) W r d)

/-- One key tile's work at row `r` and lane `d` is the online-softmax update on the row's scores and the lane's values. -/
theorem g_upd (d : Fin 64) :
    (gMax P m (ix2 r 0), gL P m l (ix2 r 0), gAcc W P m acc (ix2 r d))
      = Cert.LibOnlineSoftmax.upd (fun k' : Fin 512 => P (ix2 r k')) (fun k' : Fin 512 => W (ix2 k' d))
          (m (ix2 r 0), l (ix2 r 0), acc (ix2 r d)) := by
  unfold Cert.LibOnlineSoftmax.upd
  refine Prod.ext (gMax_apply P m r) (Prod.ext ?_ ?_)
  · show gL P m l (ix2 r 0) = _
    rw [gL_apply, gAlpha_apply, gMax_apply]
    exact congrArg _ (Finset.sum_congr rfl fun k' _ => by rw [gExp_apply, gMax_apply])
  · show gAcc W P m acc (ix2 r d) = _
    rw [gAcc_apply, gAlpha_apply, gMax_apply]
    exact congrArg _ (Finset.sum_congr rfl fun k' _ => by rw [gExp_apply, gMax_apply])

end Generic

/-! ### The two heads -/

section Heads
variable (qi ki : ℕ) (hqi : qi < 4) (hki : ki < 4) (q k v : Vec Ideal S1x512x128 .bf16)
  (m l : Vec Ideal S512x1 .f32) (acc : Vec Ideal S512x64 .f32) (r : Fin 512) (d : Fin 64)

/-- The value block of the head in lanes `0 … 63` at `(k', d)`. -/
theorem pay17_apply (k' : Fin 512) : k1_pay17 (F := Ideal) v (ix2 k' d) = v (ix3 0 k' (lo d)) := by
  unfold k1_pay17 k1_pay14; exact head_lo v k' d

/-- The value block of the head in lanes `64 … 127` at `(k', d)`. -/
theorem pay18_apply (k' : Fin 512) : k1_pay18 (F := Ideal) v (ix2 k' d) = v (ix3 0 k' (hi d)) := by
  unfold k1_pay18 k1_pay14; exact head_hi v k' d

include hqi hki

/-- One key tile's work of the head in lanes `0 … 63`, at row `r` and lane `d`. -/
theorem head0_upd :
    (k1_pay28 (F := Ideal) (k1_pay21 (BitVec.ofNat 32 qi) (BitVec.ofNat 32 ki) q k m) (ix2 r 0),
      k1_pay26 (F := Ideal) (k1_pay24 (BitVec.ofNat 32 qi) (BitVec.ofNat 32 ki) q k m l)
        (k1_pay25 (BitVec.ofNat 32 qi) (BitVec.ofNat 32 ki) q k m) (ix2 r 0),
      k1_pay27 (F := Ideal) (k1_pay17 v) (k1_pay22 (BitVec.ofNat 32 qi) (BitVec.ofNat 32 ki) q k m)
        (k1_pay23 (BitVec.ofNat 32 qi) (BitVec.ofNat 32 ki) q k m) acc (ix2 r d))
      = Cert.LibOnlineSoftmax.upd (sc lo q k qi ki r) (fun k' : Fin 512 => v (ix3 0 k' (lo d)))
          (m (ix2 r 0), l (ix2 r 0), acc (ix2 r d)) := by
  have e1 : k1_pay28 (F := Ideal) (k1_pay21 (BitVec.ofNat 32 qi) (BitVec.ofNat 32 ki) q k m)
      = gMax (k1_pay20 (BitVec.ofNat 32 qi) (BitVec.ofNat 32 ki) q k) m := by
    unfold k1_pay28 k1_pay21; exact shapeCast_self _ _
  have e2 : k1_pay26 (F := Ideal) (k1_pay24 (BitVec.ofNat 32 qi) (BitVec.ofNat 32 ki) q k m l)
        (k1_pay25 (BitVec.ofNat 32 qi) (BitVec.ofNat 32 ki) q k m)
      = gL (k1_pay20 (BitVec.ofNat 32 qi) (BitVec.ofNat 32 ki) q k) m l := by
    unfold k1_pay26 k1_pay24 k1_pay25 k1_pay22 k1_pay23 k1_pay21; exact shapeCast_self _ _
  have e3 : k1_pay27 (F := Ideal) (k1_pay17 v) (k1_pay22 (BitVec.ofNat 32 qi) (BitVec.ofNat 32 ki) q k m)
        (k1_pay23 (BitVec.ofNat 32 qi) (BitVec.ofNat 32 ki) q k m) acc
      = gAcc (k1_pay17 v) (k1_pay20 (BitVec.ofNat 32 qi) (BitVec.ofNat 32 ki) q k) m acc := by
    unfold k1_pay27 k1_pay22 k1_pay23 k1_pay21; exact shapeCast_self _ _
  rw [e1, e2, e3, g_upd]
  have es : (fun k' : Fin 512 => k1_pay20 (F := Ideal) (BitVec.ofNat 32 qi) (BitVec.ofNat 32 ki) q k (ix2 r k'))
      = sc lo q k qi ki r := funext fun k' => pay20_apply qi ki hqi hki q k r k'
  have ev : (fun k' : Fin 512 => k1_pay17 (F := Ideal) v (ix2 k' d)) = fun k' : Fin 512 => v (ix3 0 k' (lo d)) :=
    funext fun k' => pay17_apply v d k'
  rw [es, ev]

/-- One key tile's work of the head in lanes `64 … 127`, at row `r` and lane `d`. -/
theorem head1_upd :
    (k1_pay9 (F := Ideal) (k1_pay30 (k1_pay15 q) (k1_pay16 k) (k1_pay19 (BitVec.ofNat 32 qi) (BitVec.ofNat 32 ki)) m) (ix2 r 0),
      k1_pay7 (F := Ideal) (k1_pay33 (k1_pay15 q) (k1_pay16 k) (k1_pay19 (BitVec.ofNat 32 qi) (BitVec.ofNat 32 ki)) m l) (ix2 r 0),
      k1_pay8 (F := Ideal) (k1_pay18 v) (k1_pay31 (k1_pay15 q) (k1_pay16 k) (k1_pay19 (BitVec.ofNat 32 qi) (BitVec.ofNat 32 ki)) m)
        (k1_pay32 (k1_pay15 q) (k1_pay16 k) (k1_pay19 (BitVec.ofNat 32 qi) (BitVec.ofNat 32 ki)) m) acc (ix2 r d))
      = Cert.LibOnlineSoftmax.upd (sc hi q k qi ki r) (fun k' : Fin 512 => v (ix3 0 k' (hi d)))
          (m (ix2 r 0), l (ix2 r 0), acc (ix2 r d)) := by
  have e1 : k1_pay9 (F := Ideal) (k1_pay30 (k1_pay15 q) (k1_pay16 k) (k1_pay19 (BitVec.ofNat 32 qi) (BitVec.ofNat 32 ki)) m)
      = gMax (k1_pay29 (k1_pay15 q) (k1_pay16 k) (k1_pay19 (BitVec.ofNat 32 qi) (BitVec.ofNat 32 ki))) m := by
    unfold k1_pay9 k1_pay30; exact shapeCast_self _ _
  have e2 : k1_pay7 (F := Ideal) (k1_pay33 (k1_pay15 q) (k1_pay16 k) (k1_pay19 (BitVec.ofNat 32 qi) (BitVec.ofNat 32 ki)) m l)
      = gL (k1_pay29 (k1_pay15 q) (k1_pay16 k) (k1_pay19 (BitVec.ofNat 32 qi) (BitVec.ofNat 32 ki))) m l := by
    unfold k1_pay7 k1_pay33 k1_pay31 k1_pay32 k1_pay30; exact shapeCast_self _ _
  have e3 : k1_pay8 (F := Ideal) (k1_pay18 v) (k1_pay31 (k1_pay15 q) (k1_pay16 k) (k1_pay19 (BitVec.ofNat 32 qi) (BitVec.ofNat 32 ki)) m)
        (k1_pay32 (k1_pay15 q) (k1_pay16 k) (k1_pay19 (BitVec.ofNat 32 qi) (BitVec.ofNat 32 ki)) m) acc
      = gAcc (k1_pay18 v) (k1_pay29 (k1_pay15 q) (k1_pay16 k) (k1_pay19 (BitVec.ofNat 32 qi) (BitVec.ofNat 32 ki))) m acc := by
    unfold k1_pay8 k1_pay31 k1_pay32 k1_pay30; exact shapeCast_self _ _
  rw [e1, e2, e3, g_upd]
  have es : (fun k' : Fin 512 => k1_pay29 (F := Ideal) (k1_pay15 q) (k1_pay16 k)
        (k1_pay19 (BitVec.ofNat 32 qi) (BitVec.ofNat 32 ki)) (ix2 r k'))
      = sc hi q k qi ki r := funext fun k' => pay29_apply qi ki hqi hki q k r k'
  have ev : (fun k' : Fin 512 => k1_pay18 (F := Ideal) v (ix2 k' d)) = fun k' : Fin 512 => v (ix3 0 k' (hi d)) :=
    funext fun k' => pay18_apply v d k'
  rw [es, ev]

end Heads

/-! ### The reset -/

theorem pay1_apply (r : Fin 512) : k1_pay1 (F := Ideal) (ix2 r 0) = (⊥ : EReal) := by
  unfold k1_pay1; rw [shapeCast_self]; exact ofBits_neg_inf
theorem pay2_apply (r : Fin 512) : k1_pay2 (F := Ideal) (ix2 r 0) = (0 : EReal) := by
  unfold k1_pay2; rw [shapeCast_self]; exact Ideal.ofBits_zero_f32
theorem pay3_apply (r : Fin 512) (d : Fin 64) : k1_pay3 (F := Ideal) (ix2 r d) = (0 : EReal) := by
  unfold k1_pay3; rw [shapeCast_self]; exact Ideal.ofBits_zero_f32
theorem pay4_apply (r : Fin 512) : k1_pay4 (F := Ideal) (ix2 r 0) = (⊥ : EReal) := by
  unfold k1_pay4; rw [shapeCast_self]; exact ofBits_neg_inf
theorem pay5_apply (r : Fin 512) : k1_pay5 (F := Ideal) (ix2 r 0) = (0 : EReal) := by
  unfold k1_pay5; rw [shapeCast_self]; exact Ideal.ofBits_zero_f32
theorem pay6_apply (r : Fin 512) (d : Fin 64) : k1_pay6 (F := Ideal) (ix2 r d) = (0 : EReal) := by
  unfold k1_pay6; rw [shapeCast_self]; exact Ideal.ofBits_zero_f32

/-! ### The finalisation -/

theorem pay10_apply (acc : Vec Ideal S512x64 .f32) (l : Vec Ideal S512x1 .f32) (r : Fin 512) (d : Fin 64) :
    k1_pay10 (F := Ideal) acc l (ix3 0 r d) = acc (ix2 r d) * Ideal.div 1 (l (ix2 r 0)) := by
  unfold k1_pay10
  rw [shapeCast_ab_1ab_apply _ _ 0 r d, truncf_apply, mulf_apply, Cert.Lib.broadcastTo_a1_ab_apply, divf_apply, broadcast_apply]
  exact congrArg (fun z => acc (ix2 r d) * Ideal.div z (l (ix2 r 0))) ofBits_one

theorem pay11_apply (acc : Vec Ideal S512x64 .f32) (l : Vec Ideal S512x1 .f32) (r : Fin 512) (d : Fin 64) :
    k1_pay11 (F := Ideal) acc l (ix3 0 r d) = acc (ix2 r d) * Ideal.div 1 (l (ix2 r 0)) := by
  unfold k1_pay11
  rw [shapeCast_ab_1ab_apply _ _ 0 r d, truncf_apply, mulf_apply, Cert.Lib.broadcastTo_a1_ab_apply, divf_apply, broadcast_apply]
  exact congrArg (fun z => acc (ix2 r d) * Ideal.div z (l (ix2 r 0))) ofBits_one

end Cert.KernelIdeal.AttnPay

end
-- ==== Proof.AttnStep.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import proofs.«126977_j57518202028698_2_alg».proof.Proof.AttnData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## One grid point's arithmetic, as pure functions of the loaded blocks and the running state

The running state is, per head of the pair, the row maxima, the row sums and the unnormalised accumulator. -/

/-- The running state: (max, sum, accumulator) of the first head, then of the second. -/
abbrev Scr (F : FTy → Type) : Type := Vec F S512x1 .f32 × Vec F S512x1 .f32 × Vec F S512x64 .f32 × Vec F S512x1 .f32 × Vec F S512x1 .f32 × Vec F S512x64 .f32

/-- Folding one key tile into the running state of both heads (the body's update branch), from the query, key and value
    blocks and the two tile numbers as words. -/
def updScr (a2 a3 : BitVec 32) (q k v : Vec F S1x512x128 .bf16) (s : Scr F) : Scr F :=
  (k1_pay28 (k1_pay21 a2 a3 q k s.1),
   k1_pay26 (k1_pay24 a2 a3 q k s.1 s.2.1) (k1_pay25 a2 a3 q k s.1),
   k1_pay27 (k1_pay17 v) (k1_pay22 a2 a3 q k s.1) (k1_pay23 a2 a3 q k s.1) s.2.2.1,
   k1_pay9 (k1_pay30 (k1_pay15 q) (k1_pay16 k) (k1_pay19 a2 a3) s.2.2.2.1),
   k1_pay7 (k1_pay33 (k1_pay15 q) (k1_pay16 k) (k1_pay19 a2 a3) s.2.2.2.1 s.2.2.2.2.1),
   k1_pay8 (k1_pay18 v) (k1_pay31 (k1_pay15 q) (k1_pay16 k) (k1_pay19 a2 a3) s.2.2.2.1) (k1_pay32 (k1_pay15 q) (k1_pay16 k) (k1_pay19 a2 a3) s.2.2.2.1) s.2.2.2.2.2)

/-- The reset state: maxima at minus infinity, sums and accumulators at zero. -/
def resetScr : Scr F := (k1_pay1, k1_pay2, k1_pay3, k1_pay4, k1_pay5, k1_pay6)

/-- The output block from a running state: each head's accumulator times the reciprocal of its row sums, in its half
    of the 128 lanes. -/
def finOut (s : Scr F) : Vec F S1x512x128 .bf16 :=
  View.canon [(⟨Rect.unit (s := S1x512x128) ![0, 0, 64] ![1, 512, 64] inb_S1x512x128_S1x512x64_0_0_64, k1_pay11 (s.2.2.2.2.2) (s.2.2.2.2.1)⟩ : View.Piece (Elt F) S1x512x128 .bf16), ⟨Rect.unit (s := S1x512x128) ![0, 0, 0] ![1, 512, 64] inb_S1x512x128_S1x512x64_0_0_0, k1_pay10 (s.2.2.1) (s.2.1)⟩]

/-- One grid point, by its position `n` in the grid's order (key tile `n % 4`, query tile `n / 4 % 4`): reset and
    fold at the first key tile, fold inside the causal triangle, pass the state through above it, and emit the output
    block at the last key tile. -/
def attnStep (n : ℕ) (a2 a3 : BitVec 32) (q k v : Vec F S1x512x128 .bf16) (prev : Scr F) : Vec F S1x512x128 .bf16 × Scr F :=
  if n % 4 = 0 then
    if n % 4 ≤ n / 4 % 4 then
      if n % 4 = 3 then (noOut, prev) else (noOut, updScr a2 a3 q k v resetScr)
    else (noOut, prev)
  else
    if n % 4 ≤ n / 4 % 4 then
      if n % 4 = 3 then (finOut (updScr a2 a3 q k v prev), updScr a2 a3 q k v prev)
      else (noOut, updScr a2 a3 q k v prev)
    else
      if n % 4 = 3 then (finOut prev, prev) else (noOut, prev)

end Cert.KernelIdeal.Attn

end
-- ==== Proof.AttnVals.lean ====
import proofs.«126977_j57518202028698_2_alg».proof.Proof.Gen.KernelIdeal.Launch
import proofs.«126977_j57518202028698_2_alg».proof.Proof.Gen.KernelIdeal.Skeleton
import proofs.«126977_j57518202028698_2_alg».proof.Proof.Gen.KernelIdeal.Points
import proofs.«126977_j57518202028698_2_alg».proof.Proof.AttnConds
import proofs.«126977_j57518202028698_2_alg».proof.Proof.AttnPieces
import proofs.«126977_j57518202028698_2_alg».proof.Proof.AttnData
import proofs.«126977_j57518202028698_2_alg».proof.Proof.AttnStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

open Idealize.ShloMosaic.Pipeline
theorem hz2 : (![0, 0] : Fin 2 → ℕ) = fun _ => 0 := by funext a; fin_cases a <;> rfl
theorem hz3 : (![0, 0, 0] : Fin 3 → ℕ) = fun _ => 0 := by funext a; fin_cases a <;> rfl

/-! ## What the found pieces hold, as the step's pure terms -/

theorem leftFirst_sc8_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  :
    leftFirst_sc8 c i arg4 harg4 arg5 harg5 arg6 harg6 arg7 harg7 arg8 harg8 arg9 harg9 arg10 harg10 arg11 harg11 arg12 harg12 arg13 harg13 hc0 hc1 hc2 x0 x1 x2  = k1_pay28 (k1_pay21 (BitVec.ofNat 32 (i 2).val) (BitVec.ofNat 32 (i 3).val) x0 x1 k1_pay1) := by
  unfold leftFirst_sc8
  rw [View.read_writes_eq_canon _ _ _ (coverFirst_sc8 c i arg4 harg4 arg5 harg5 arg6 harg6 arg7 harg7 arg8 harg8 arg9 harg9 arg10 harg10 arg11 harg11 arg12 harg12 arg13 harg13 hc0 hc1 hc2 x0 x1 x2 )]
  unfold runFirst
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftFirst_sc9_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  :
    leftFirst_sc9 c i arg4 harg4 arg5 harg5 arg6 harg6 arg7 harg7 arg8 harg8 arg9 harg9 arg10 harg10 arg11 harg11 arg12 harg12 arg13 harg13 hc0 hc1 hc2 x0 x1 x2  = k1_pay26 (k1_pay24 (BitVec.ofNat 32 (i 2).val) (BitVec.ofNat 32 (i 3).val) x0 x1 k1_pay1 k1_pay2) (k1_pay25 (BitVec.ofNat 32 (i 2).val) (BitVec.ofNat 32 (i 3).val) x0 x1 k1_pay1) := by
  unfold leftFirst_sc9
  rw [View.read_writes_eq_canon _ _ _ (coverFirst_sc9 c i arg4 harg4 arg5 harg5 arg6 harg6 arg7 harg7 arg8 harg8 arg9 harg9 arg10 harg10 arg11 harg11 arg12 harg12 arg13 harg13 hc0 hc1 hc2 x0 x1 x2 )]
  unfold runFirst
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftFirst_sc10_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  :
    leftFirst_sc10 c i arg4 harg4 arg5 harg5 arg6 harg6 arg7 harg7 arg8 harg8 arg9 harg9 arg10 harg10 arg11 harg11 arg12 harg12 arg13 harg13 hc0 hc1 hc2 x0 x1 x2  = k1_pay27 (k1_pay17 x2) (k1_pay22 (BitVec.ofNat 32 (i 2).val) (BitVec.ofNat 32 (i 3).val) x0 x1 k1_pay1) (k1_pay23 (BitVec.ofNat 32 (i 2).val) (BitVec.ofNat 32 (i 3).val) x0 x1 k1_pay1) k1_pay3 := by
  unfold leftFirst_sc10
  rw [View.read_writes_eq_canon _ _ _ (coverFirst_sc10 c i arg4 harg4 arg5 harg5 arg6 harg6 arg7 harg7 arg8 harg8 arg9 harg9 arg10 harg10 arg11 harg11 arg12 harg12 arg13 harg13 hc0 hc1 hc2 x0 x1 x2 )]
  unfold runFirst
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftFirst_sc11_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  :
    leftFirst_sc11 c i arg4 harg4 arg5 harg5 arg6 harg6 arg7 harg7 arg8 harg8 arg9 harg9 arg10 harg10 arg11 harg11 arg12 harg12 arg13 harg13 hc0 hc1 hc2 x0 x1 x2  = k1_pay9 (k1_pay30 (k1_pay15 x0) (k1_pay16 x1) (k1_pay19 (BitVec.ofNat 32 (i 2).val) (BitVec.ofNat 32 (i 3).val)) k1_pay4) := by
  unfold leftFirst_sc11
  rw [View.read_writes_eq_canon _ _ _ (coverFirst_sc11 c i arg4 harg4 arg5 harg5 arg6 harg6 arg7 harg7 arg8 harg8 arg9 harg9 arg10 harg10 arg11 harg11 arg12 harg12 arg13 harg13 hc0 hc1 hc2 x0 x1 x2 )]
  unfold runFirst
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftFirst_sc12_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  :
    leftFirst_sc12 c i arg4 harg4 arg5 harg5 arg6 harg6 arg7 harg7 arg8 harg8 arg9 harg9 arg10 harg10 arg11 harg11 arg12 harg12 arg13 harg13 hc0 hc1 hc2 x0 x1 x2  = k1_pay7 (k1_pay33 (k1_pay15 x0) (k1_pay16 x1) (k1_pay19 (BitVec.ofNat 32 (i 2).val) (BitVec.ofNat 32 (i 3).val)) k1_pay4 k1_pay5) := by
  unfold leftFirst_sc12
  rw [View.read_writes_eq_canon _ _ _ (coverFirst_sc12 c i arg4 harg4 arg5 harg5 arg6 harg6 arg7 harg7 arg8 harg8 arg9 harg9 arg10 harg10 arg11 harg11 arg12 harg12 arg13 harg13 hc0 hc1 hc2 x0 x1 x2 )]
  unfold runFirst
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftFirst_sc13_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : atFirst i) (hc1 : inTriangle i) (hc2 : ¬atLast i) (x0 x1 x2 : Vec F S1x512x128 .bf16)  :
    leftFirst_sc13 c i arg4 harg4 arg5 harg5 arg6 harg6 arg7 harg7 arg8 harg8 arg9 harg9 arg10 harg10 arg11 harg11 arg12 harg12 arg13 harg13 hc0 hc1 hc2 x0 x1 x2  = k1_pay8 (k1_pay18 x2) (k1_pay31 (k1_pay15 x0) (k1_pay16 x1) (k1_pay19 (BitVec.ofNat 32 (i 2).val) (BitVec.ofNat 32 (i 3).val)) k1_pay4) (k1_pay32 (k1_pay15 x0) (k1_pay16 x1) (k1_pay19 (BitVec.ofNat 32 (i 2).val) (BitVec.ofNat 32 (i 3).val)) k1_pay4) k1_pay6 := by
  unfold leftFirst_sc13
  rw [View.read_writes_eq_canon _ _ _ (coverFirst_sc13 c i arg4 harg4 arg5 harg5 arg6 harg6 arg7 harg7 arg8 harg8 arg9 harg9 arg10 harg10 arg11 harg11 arg12 harg12 arg13 harg13 hc0 hc1 hc2 x0 x1 x2 )]
  unfold runFirst
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftMid_sc8_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftMid_sc8 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay28 (k1_pay21 (BitVec.ofNat 32 (i 2).val) (BitVec.ofNat 32 (i 3).val) x0 x1 xs8) := by
  unfold leftMid_sc8
  rw [View.read_writes_eq_canon _ _ _ (coverMid_sc8 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runMid
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftMid_sc9_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftMid_sc9 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay26 (k1_pay24 (BitVec.ofNat 32 (i 2).val) (BitVec.ofNat 32 (i 3).val) x0 x1 xs8 xs9) (k1_pay25 (BitVec.ofNat 32 (i 2).val) (BitVec.ofNat 32 (i 3).val) x0 x1 xs8) := by
  unfold leftMid_sc9
  rw [View.read_writes_eq_canon _ _ _ (coverMid_sc9 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runMid
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftMid_sc10_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftMid_sc10 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay27 (k1_pay17 x2) (k1_pay22 (BitVec.ofNat 32 (i 2).val) (BitVec.ofNat 32 (i 3).val) x0 x1 xs8) (k1_pay23 (BitVec.ofNat 32 (i 2).val) (BitVec.ofNat 32 (i 3).val) x0 x1 xs8) xs10 := by
  unfold leftMid_sc10
  rw [View.read_writes_eq_canon _ _ _ (coverMid_sc10 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runMid
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftMid_sc11_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftMid_sc11 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay9 (k1_pay30 (k1_pay15 x0) (k1_pay16 x1) (k1_pay19 (BitVec.ofNat 32 (i 2).val) (BitVec.ofNat 32 (i 3).val)) xs11) := by
  unfold leftMid_sc11
  rw [View.read_writes_eq_canon _ _ _ (coverMid_sc11 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runMid
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftMid_sc12_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftMid_sc12 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay7 (k1_pay33 (k1_pay15 x0) (k1_pay16 x1) (k1_pay19 (BitVec.ofNat 32 (i 2).val) (BitVec.ofNat 32 (i 3).val)) xs11 xs12) := by
  unfold leftMid_sc12
  rw [View.read_writes_eq_canon _ _ _ (coverMid_sc12 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runMid
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftMid_sc13_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : ¬atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftMid_sc13 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay8 (k1_pay18 x2) (k1_pay31 (k1_pay15 x0) (k1_pay16 x1) (k1_pay19 (BitVec.ofNat 32 (i 2).val) (BitVec.ofNat 32 (i 3).val)) xs11) (k1_pay32 (k1_pay15 x0) (k1_pay16 x1) (k1_pay19 (BitVec.ofNat 32 (i 2).val) (BitVec.ofNat 32 (i 3).val)) xs11) xs13 := by
  unfold leftMid_sc13
  rw [View.read_writes_eq_canon _ _ _ (coverMid_sc13 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runMid
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLast_sc8_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLast_sc8 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay28 (k1_pay21 (BitVec.ofNat 32 (i 2).val) (BitVec.ofNat 32 (i 3).val) x0 x1 xs8) := by
  unfold leftLast_sc8
  rw [View.read_writes_eq_canon _ _ _ (coverLast_sc8 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLast
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLast_sc9_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLast_sc9 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay26 (k1_pay24 (BitVec.ofNat 32 (i 2).val) (BitVec.ofNat 32 (i 3).val) x0 x1 xs8 xs9) (k1_pay25 (BitVec.ofNat 32 (i 2).val) (BitVec.ofNat 32 (i 3).val) x0 x1 xs8) := by
  unfold leftLast_sc9
  rw [View.read_writes_eq_canon _ _ _ (coverLast_sc9 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLast
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLast_sc10_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLast_sc10 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay27 (k1_pay17 x2) (k1_pay22 (BitVec.ofNat 32 (i 2).val) (BitVec.ofNat 32 (i 3).val) x0 x1 xs8) (k1_pay23 (BitVec.ofNat 32 (i 2).val) (BitVec.ofNat 32 (i 3).val) x0 x1 xs8) xs10 := by
  unfold leftLast_sc10
  rw [View.read_writes_eq_canon _ _ _ (coverLast_sc10 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLast
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLast_sc11_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLast_sc11 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay9 (k1_pay30 (k1_pay15 x0) (k1_pay16 x1) (k1_pay19 (BitVec.ofNat 32 (i 2).val) (BitVec.ofNat 32 (i 3).val)) xs11) := by
  unfold leftLast_sc11
  rw [View.read_writes_eq_canon _ _ _ (coverLast_sc11 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLast
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLast_sc12_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLast_sc12 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay7 (k1_pay33 (k1_pay15 x0) (k1_pay16 x1) (k1_pay19 (BitVec.ofNat 32 (i 2).val) (BitVec.ofNat 32 (i 3).val)) xs11 xs12) := by
  unfold leftLast_sc12
  rw [View.read_writes_eq_canon _ _ _ (coverLast_sc12 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLast
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLast_sc13_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLast_sc13 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = k1_pay8 (k1_pay18 x2) (k1_pay31 (k1_pay15 x0) (k1_pay16 x1) (k1_pay19 (BitVec.ofNat 32 (i 2).val) (BitVec.ofNat 32 (i 3).val)) xs11) (k1_pay32 (k1_pay15 x0) (k1_pay16 x1) (k1_pay19 (BitVec.ofNat 32 (i 2).val) (BitVec.ofNat 32 (i 3).val)) xs11) xs13 := by
  unfold leftLast_sc13
  rw [View.read_writes_eq_canon _ _ _ (coverLast_sc13 c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLast
  dsimp only
  sl_unfold_words
  rw [View.canon_cons_unit_zero hz2]
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLast_out_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLast_out c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = View.canon [(⟨Rect.unit (s := S1x512x128) ![0, 0, 64] ![1, 512, 64] inb_S1x512x128_S1x512x64_0_0_64, k1_pay11 (k1_pay8 (k1_pay18 x2) (k1_pay31 (k1_pay15 x0) (k1_pay16 x1) (k1_pay19 (BitVec.ofNat 32 (i 2).val) (BitVec.ofNat 32 (i 3).val)) xs11) (k1_pay32 (k1_pay15 x0) (k1_pay16 x1) (k1_pay19 (BitVec.ofNat 32 (i 2).val) (BitVec.ofNat 32 (i 3).val)) xs11) xs13) (k1_pay7 (k1_pay33 (k1_pay15 x0) (k1_pay16 x1) (k1_pay19 (BitVec.ofNat 32 (i 2).val) (BitVec.ofNat 32 (i 3).val)) xs11 xs12))⟩ : View.Piece (Elt F) S1x512x128 .bf16), ⟨Rect.unit (s := S1x512x128) ![0, 0, 0] ![1, 512, 64] inb_S1x512x128_S1x512x64_0_0_0, k1_pay10 (k1_pay27 (k1_pay17 x2) (k1_pay22 (BitVec.ofNat 32 (i 2).val) (BitVec.ofNat 32 (i 3).val) x0 x1 xs8) (k1_pay23 (BitVec.ofNat 32 (i 2).val) (BitVec.ofNat 32 (i 3).val) x0 x1 xs8) xs10) (k1_pay26 (k1_pay24 (BitVec.ofNat 32 (i 2).val) (BitVec.ofNat 32 (i 3).val) x0 x1 xs8 xs9) (k1_pay25 (BitVec.ofNat 32 (i 2).val) (BitVec.ofNat 32 (i 3).val) x0 x1 xs8))⟩] := by
  unfold leftLast_out
  rw [View.read_writes_eq_canon _ _ _ (coverLast_out c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLast
  dsimp only
  sl_unfold_words
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

theorem leftLastSkip_out_eq (c : Dev nD) (i : grid1.Coords) (arg4 : Memref sig .tc .vmem S1x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x64 .f32) (harg13 : arg13.IsWhole) (hc0 : ¬atFirst i) (hc1 : ¬inTriangle i) (hc2 : atLast i) (x0 x1 x2 : Vec F S1x512x128 .bf16) (xs8 : Vec F S512x1 .f32) (xs9 : Vec F S512x1 .f32) (xs10 : Vec F S512x64 .f32) (xs11 : Vec F S512x1 .f32) (xs12 : Vec F S512x1 .f32) (xs13 : Vec F S512x64 .f32) :
    leftLastSkip_out c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13 = View.canon [(⟨Rect.unit (s := S1x512x128) ![0, 0, 64] ![1, 512, 64] inb_S1x512x128_S1x512x64_0_0_64, k1_pay11 (xs13) (xs12)⟩ : View.Piece (Elt F) S1x512x128 .bf16), ⟨Rect.unit (s := S1x512x128) ![0, 0, 0] ![1, 512, 64] inb_S1x512x128_S1x512x64_0_0_0, k1_pay10 (xs10) (xs9)⟩] := by
  unfold leftLastSkip_out
  rw [View.read_writes_eq_canon _ _ _ (coverLastSkip_out c i arg4 harg4 arg5 harg5 arg6 harg6 arg7 harg7 arg8 harg8 arg9 harg9 arg10 harg10 arg11 harg11 arg12 harg12 arg13 harg13 hc0 hc1 hc2 x0 x1 x2 xs8 xs9 xs10 xs11 xs12 xs13)]
  unfold runLastSkip
  dsimp only
  sl_unfold_words
  simp only [View.readAt_eq_ld, harg4.read_unread, harg5.read_unread, harg6.read_unread, harg8.read_unread, harg9.read_unread, harg10.read_unread, harg11.read_unread, harg12.read_unread, harg13.read_unread, View.ld_unit_zero (S := S512x1) hz2, View.ld_unit_zero (S := S512x64) hz2, View.ld_unit_zero (S := S1x512x128) hz3, View.readCov_unit_zero (S := S512x1) arg8.view hz2 inb_S512x1_S512x1_0_0, View.readCov_unit_zero (S := S512x1) arg9.view hz2 inb_S512x1_S512x1_0_0, View.readCov_unit_zero (S := S512x64) arg10.view hz2 inb_S512x64_S512x64_0_0, View.readCov_unit_zero (S := S512x1) arg11.view hz2 inb_S512x1_S512x1_0_0, View.readCov_unit_zero (S := S512x1) arg12.view hz2 inb_S512x1_S512x1_0_0, View.readCov_unit_zero (S := S512x64) arg13.view hz2 inb_S512x64_S512x64_0_0]

variable (V : (c : Dev nD) → (b : Ref sig .tc) → Buf (Elt F) ((c : Thread nD τ).loc b))

/-- A grid point's effect on (output block, running state) is the pure step at the point's position, its two tile
    numbers as words and its three input blocks. -/
theorem stepAt_eq (c : Dev nD) (t : Fin cfg1.N) (prev : Scr F) :
    stepAt V c t prev = attnStep t.val (BitVec.ofNat 32 (grid1.coords t 2).val) (BitVec.ofNat 32 (grid1.coords t 3).val)
      (iblk1 V c 0 t) (iblk1 V c 1 t) (iblk1 V c 2 t) prev := by
  unfold stepAt attnStep
  by_cases h0 : t.val % 4 = 0
  · by_cases h1 : t.val % 4 ≤ (t.val / 4) % 4
    · by_cases h2 : t.val % 4 = 3
      · rw [dif_pos h0, dif_pos h1, dif_pos h2, if_pos h0, if_pos h1, if_pos h2]
      · rw [dif_pos h0, dif_pos h1, dif_neg h2, if_pos h0, if_pos h1, if_neg h2]
        rw [leftFirst_sc8_eq, leftFirst_sc9_eq, leftFirst_sc10_eq, leftFirst_sc11_eq, leftFirst_sc12_eq, leftFirst_sc13_eq]
        rfl
    · rw [dif_pos h0, dif_neg h1, if_pos h0, if_neg h1]
  · by_cases h1 : t.val % 4 ≤ (t.val / 4) % 4
    · by_cases h2 : t.val % 4 = 3
      · rw [dif_neg h0, dif_pos h1, dif_pos h2, if_neg h0, if_pos h1, if_pos h2]
        rw [leftLast_out_eq, leftLast_sc8_eq, leftLast_sc9_eq, leftLast_sc10_eq, leftLast_sc11_eq, leftLast_sc12_eq, leftLast_sc13_eq]
        rfl
      · rw [dif_neg h0, dif_pos h1, dif_neg h2, if_neg h0, if_pos h1, if_neg h2]
        rw [leftMid_sc8_eq, leftMid_sc9_eq, leftMid_sc10_eq, leftMid_sc11_eq, leftMid_sc12_eq, leftMid_sc13_eq]
        rfl
    · by_cases h2 : t.val % 4 = 3
      · rw [dif_neg h0, dif_neg h1, dif_pos h2, if_neg h0, if_neg h1, if_pos h2]
        rw [leftLastSkip_out_eq]
        rfl
      · rw [dif_neg h0, dif_neg h1, dif_neg h2, if_neg h0, if_neg h1, if_neg h2]

end Cert.KernelIdeal.Attn

end
-- ==== Proof.AttnIter.lean ====
/-
  The kernel's iteration over the four key tiles of one query tile is the online-softmax run.

  For a query tile `qi` the grid visits the key tiles `0, 1, 2, 3` in turn. The first visit resets the running state
  and folds key tile `0` in; each later visit inside the causal triangle (`ki ≤ qi`) folds key tile `ki` in; a visit
  above the triangle leaves the state alone; the last visit emits the output block `acc · (1 / l)`. Read at a row `r`,
  a head and a lane `d`, the state after the visit of key tile `ki ≤ qi` is the online-softmax state after `ki + 1`
  tiles of the row's scores against all `4 · 512` keys, and the emitted block is that run's `acc · (1 / l)` after
  `qi + 1` tiles.
-/
import proofs.«126977_j57518202028698_2_alg».proof.Proof.AttnStep
import proofs.«126977_j57518202028698_2_alg».proof.Proof.AttnPay
import proofs.«126977_j57518202028698_2_alg».proof.Proof.LibOnlineSoftmax

noncomputable section

namespace Cert.KernelIdeal.AttnIter

open Cert.KernelIdeal Cert.KernelIdeal.Gen Cert.KernelIdeal.Attn Cert.KernelIdeal.AttnPay
open Idealize.ShloMosaic Idealize.ShloMosaic.ValueIdx
open Cert.LibOnlineSoftmax (upd run tileS tileV)

/-! ### The running state at a row and a lane, per head -/

/-- The first head's `(m, l, acc)` at row `r` and lane `d`. -/
def row0 (s : Scr Ideal) (r : Fin 512) (d : Fin 64) : EReal × EReal × EReal :=
  (s.1 (ix2 r 0), s.2.1 (ix2 r 0), s.2.2.1 (ix2 r d))

/-- The second head's `(m, l, acc)` at row `r` and lane `d`. -/
def row1 (s : Scr Ideal) (r : Fin 512) (d : Fin 64) : EReal × EReal × EReal :=
  (s.2.2.2.1 (ix2 r 0), s.2.2.2.2.1 (ix2 r 0), s.2.2.2.2.2 (ix2 r d))

theorem row0_reset (r : Fin 512) (d : Fin 64) : row0 (resetScr (F := Ideal)) r d = (⊥, 0, 0) :=
  Prod.ext (pay1_apply r) (Prod.ext (pay2_apply r) (pay3_apply r d))

theorem row1_reset (r : Fin 512) (d : Fin 64) : row1 (resetScr (F := Ideal)) r d = (⊥, 0, 0) :=
  Prod.ext (pay4_apply r) (Prod.ext (pay5_apply r) (pay6_apply r d))

theorem row0_upd (qi ki : ℕ) (hqi : qi < 4) (hki : ki < 4) (q k v : Vec Ideal S1x512x128 .bf16) (s : Scr Ideal)
    (r : Fin 512) (d : Fin 64) :
    row0 (updScr (BitVec.ofNat 32 qi) (BitVec.ofNat 32 ki) q k v s) r d
      = upd (sc lo q k qi ki r) (fun k' : Fin 512 => v (ix3 0 k' (lo d))) (row0 s r d) :=
  head0_upd qi ki hqi hki q k v s.1 s.2.1 s.2.2.1 r d

theorem row1_upd (qi ki : ℕ) (hqi : qi < 4) (hki : ki < 4) (q k v : Vec Ideal S1x512x128 .bf16) (s : Scr Ideal)
    (r : Fin 512) (d : Fin 64) :
    row1 (updScr (BitVec.ofNat 32 qi) (BitVec.ofNat 32 ki) q k v s) r d
      = upd (sc hi q k qi ki r) (fun k' : Fin 512 => v (ix3 0 k' (hi d))) (row1 s r d) :=
  head1_upd qi ki hqi hki q k v s.2.2.2.1 s.2.2.2.2.1 s.2.2.2.2.2 r d

/-! ### One visit, by cases -/

section Step
variable (qi ki n0 : ℕ) (hqi : qi < 4) (hki : ki < 4) (hn0 : n0 % 16 = 4 * qi)
  (a2 a3 : BitVec 32) (q k v : Vec Ideal S1x512x128 .bf16) (prev : Scr Ideal)
include hqi hki hn0

theorem step_first (h : ki = 0) : (attnStep (n0 + ki) a2 a3 q k v prev).2 = updScr a2 a3 q k v resetScr := by
  have h1 : (n0 + ki) % 4 = 0 := by omega
  unfold attnStep
  rw [if_pos h1, if_pos (by omega), if_neg (by omega)]

theorem step_fold (h0 : ki ≠ 0) (h : ki ≤ qi) : (attnStep (n0 + ki) a2 a3 q k v prev).2 = updScr a2 a3 q k v prev := by
  have h1 : (n0 + ki) % 4 = ki := by omega
  have h2 : (n0 + ki) / 4 % 4 = qi := by omega
  unfold attnStep
  rw [if_neg (by omega), if_pos (by omega)]
  split <;> rfl

theorem step_skip (h : qi < ki) : (attnStep (n0 + ki) a2 a3 q k v prev).2 = prev := by
  have h1 : (n0 + ki) % 4 = ki := by omega
  have h2 : (n0 + ki) / 4 % 4 = qi := by omega
  unfold attnStep
  rw [if_neg (by omega), if_neg (by omega)]
  split <;> rfl

omit hki in
theorem step_last : (attnStep (n0 + 3) a2 a3 q k v prev).1 = finOut (attnStep (n0 + 3) a2 a3 q k v prev).2 := by
  have h1 : (n0 + 3) % 4 = 3 := by omega
  unfold attnStep
  rw [if_neg (by omega)]
  by_cases h : (n0 + 3) % 4 ≤ (n0 + 3) / 4 % 4
  · rw [if_pos h, if_pos h1]
  · rw [if_neg h, if_pos h1]

end Step

/-! ### The emitted block at an entry -/

theorem finOut_hi (s : Scr Ideal) (r : Fin 512) (d : Fin 64) :
    finOut s (ix3 0 r (hi d)) = k1_pay11 (F := Ideal) s.2.2.2.2.2 s.2.2.2.2.1 (ix3 0 r d) := by
  unfold finOut
  have e : (Rect.unit (s := S1x512x128) ![0, 0, 64] ![1, 512, 64] inb_S1x512x128_S1x512x64_0_0_64).emb (ix3 0 r d)
      = ix3 0 r (hi d) := by
    funext a
    apply Fin.ext
    match a with
    | ⟨0, _⟩ => rfl
    | ⟨1, _⟩ => show 0 + 1 * r.val = r.val; omega
    | ⟨2, _⟩ => show 64 + 1 * d.val = 64 + d.val; omega
  rw [← e]
  exact View.canon_cons_emb _ _ _ _

theorem finOut_lo (s : Scr Ideal) (r : Fin 512) (d : Fin 64) :
    finOut s (ix3 0 r (lo d)) = k1_pay10 (F := Ideal) s.2.2.1 s.2.1 (ix3 0 r d) := by
  unfold finOut
  rw [View.canon_cons_of_not_mem _ _ (by
    intro hm
    have hm' : ix3 0 r (lo d) ∈
        (Rect.unit (s := S1x512x128) ![0, 0, 64] ![1, 512, 64] inb_S1x512x128_S1x512x64_0_0_64).set := hm
    have h2 := (Rect.mem_set_unit.mp hm') ⟨2, by decide⟩
    have h3 : 64 ≤ d.val := h2.1
    have := d.isLt
    omega)]
  have e : (Rect.unit (s := S1x512x128) ![0, 0, 0] ![1, 512, 64] inb_S1x512x128_S1x512x64_0_0_0).emb (ix3 0 r d)
      = ix3 0 r (lo d) := by
    funext a
    apply Fin.ext
    match a with
    | ⟨0, _⟩ => rfl
    | ⟨1, _⟩ => show 0 + 1 * r.val = r.val; omega
    | ⟨2, _⟩ => show 0 + 1 * d.val = d.val; omega
  rw [← e]
  exact View.canon_cons_emb _ _ _ _

/-! ### The row's scores and the lane's values over all `4 · 512` keys -/

/-- The scores of query row `r` of query tile `qi` against all keys: key `i` is row `i % 512` of key tile `i / 512`. -/
def rowS (h : Fin 64 → Fin 128) (q : Vec Ideal S1x512x128 .bf16) (kb : ℕ → Vec Ideal S1x512x128 .bf16) (qi : ℕ)
    (r : Fin 512) : Fin (4 * 512) → EReal :=
  fun i => sc h q (kb (i.val / 512)) qi (i.val / 512) r ⟨i.val % 512, Nat.mod_lt _ (by norm_num)⟩

/-- Lane `h d` of the values of all keys. -/
def colW (h : Fin 64 → Fin 128) (vb : ℕ → Vec Ideal S1x512x128 .bf16) (d : Fin 64) : Fin (4 * 512) → EReal :=
  fun i => vb (i.val / 512) (ix3 0 ⟨i.val % 512, Nat.mod_lt _ (by norm_num)⟩ (h d))

theorem tileS_rowS (h : Fin 64 → Fin 128) (q : Vec Ideal S1x512x128 .bf16) (kb : ℕ → Vec Ideal S1x512x128 .bf16) (qi : ℕ)
    (r : Fin 512) (j : ℕ) (hj : j < 4) : tileS (rowS h q kb qi r) j = sc h q (kb j) qi j r := by
  funext k'
  have hk := k'.isLt
  have hlt : j * 512 + k'.val < 4 * 512 := by omega
  have e1 : (j * 512 + k'.val) / 512 = j := by omega
  have e2 : (j * 512 + k'.val) % 512 = k'.val := by omega
  rw [Cert.LibOnlineSoftmax.tileS_of_lt _ _ _ hlt]
  show sc h q (kb ((j * 512 + k'.val) / 512)) qi ((j * 512 + k'.val) / 512) r ⟨(j * 512 + k'.val) % 512, _⟩ = _
  rw [e1]
  exact congrArg (sc h q (kb j) qi j r) (Fin.ext e2)

theorem tileV_colW (h : Fin 64 → Fin 128) (vb : ℕ → Vec Ideal S1x512x128 .bf16) (d : Fin 64) (j : ℕ) (hj : j < 4) :
    tileV (colW h vb d) j = fun k' : Fin 512 => vb j (ix3 0 k' (h d)) := by
  funext k'
  have hk := k'.isLt
  have hlt : j * 512 + k'.val < 4 * 512 := by omega
  have e1 : (j * 512 + k'.val) / 512 = j := by omega
  have e2 : (j * 512 + k'.val) % 512 = k'.val := by omega
  rw [Cert.LibOnlineSoftmax.tileV_of_lt _ _ _ hlt]
  show vb ((j * 512 + k'.val) / 512) (ix3 0 ⟨(j * 512 + k'.val) % 512, _⟩ (h d)) = _
  rw [e1]
  exact congrArg (fun x : Fin 512 => vb j (ix3 0 x (h d))) (Fin.ext e2)

/-! ### The four visits -/

/-- The running state before the visit of key tile `ki`, from the state `s0` before the first visit; the visit of key
    tile `ki` is the grid point at position `n0 + ki` and loads key and value tile `min ki qi`. -/
def stAt (qi n0 : ℕ) (q : Vec Ideal S1x512x128 .bf16) (kb vb : ℕ → Vec Ideal S1x512x128 .bf16) (s0 : Scr Ideal) :
    ℕ → Scr Ideal
  | 0 => s0
  | ki + 1 => (attnStep (n0 + ki) (BitVec.ofNat 32 qi) (BitVec.ofNat 32 ki) q (kb (min ki qi)) (vb (min ki qi))
      (stAt qi n0 q kb vb s0 ki)).2

/-- The block the last visit emits. -/
def outAt (qi n0 : ℕ) (q : Vec Ideal S1x512x128 .bf16) (kb vb : ℕ → Vec Ideal S1x512x128 .bf16) (s0 : Scr Ideal) :
    Vec Ideal S1x512x128 .bf16 :=
  (attnStep (n0 + 3) (BitVec.ofNat 32 qi) (BitVec.ofNat 32 3) q (kb (min 3 qi)) (vb (min 3 qi)) (stAt qi n0 q kb vb s0 3)).1

section Iter
variable (qi n0 : ℕ) (hqi : qi < 4) (hn0 : n0 % 16 = 4 * qi) (q : Vec Ideal S1x512x128 .bf16)
  (kb vb : ℕ → Vec Ideal S1x512x128 .bf16) (s0 : Scr Ideal) (r : Fin 512) (d : Fin 64)
include hqi hn0

/-- Inside the triangle: the first head's state after the visit of key tile `ki` is the run after `ki + 1` tiles. -/
theorem row0_stAt (ki : ℕ) (hk : ki ≤ qi) :
    row0 (stAt qi n0 q kb vb s0 (ki + 1)) r d = run (tileS (rowS lo q kb qi r)) (tileV (colW lo vb d)) (ki + 1) := by
  induction ki with
  | zero =>
    show row0 (attnStep (n0 + 0) (BitVec.ofNat 32 qi) (BitVec.ofNat 32 0) q (kb (min 0 qi)) (vb (min 0 qi)) s0).2 r d
      = upd (tileS (rowS lo q kb qi r) 0) (tileV (colW lo vb d) 0) (⊥, 0, 0)
    rw [step_first qi 0 n0 hqi (by omega) hn0 _ _ _ _ _ _ rfl, Nat.zero_min, row0_upd qi 0 hqi (by omega), row0_reset,
      tileS_rowS _ _ _ _ _ 0 (by omega), tileV_colW _ _ _ 0 (by omega)]
  | succ ki ih =>
    show row0 (attnStep (n0 + (ki + 1)) (BitVec.ofNat 32 qi) (BitVec.ofNat 32 (ki + 1)) q (kb (min (ki + 1) qi))
        (vb (min (ki + 1) qi)) (stAt qi n0 q kb vb s0 (ki + 1))).2 r d
      = upd (tileS (rowS lo q kb qi r) (ki + 1)) (tileV (colW lo vb d) (ki + 1))
          (run (tileS (rowS lo q kb qi r)) (tileV (colW lo vb d)) (ki + 1))
    rw [step_fold qi (ki + 1) n0 hqi (by omega) hn0 _ _ _ _ _ _ (by omega) hk, Nat.min_eq_left hk,
      row0_upd qi (ki + 1) hqi (by omega), ih (by omega), tileS_rowS _ _ _ _ _ (ki + 1) (by omega),
      tileV_colW _ _ _ (ki + 1) (by omega)]

/-- The same for the second head. -/
theorem row1_stAt (ki : ℕ) (hk : ki ≤ qi) :
    row1 (stAt qi n0 q kb vb s0 (ki + 1)) r d = run (tileS (rowS hi q kb qi r)) (tileV (colW hi vb d)) (ki + 1) := by
  induction ki with
  | zero =>
    show row1 (attnStep (n0 + 0) (BitVec.ofNat 32 qi) (BitVec.ofNat 32 0) q (kb (min 0 qi)) (vb (min 0 qi)) s0).2 r d
      = upd (tileS (rowS hi q kb qi r) 0) (tileV (colW hi vb d) 0) (⊥, 0, 0)
    rw [step_first qi 0 n0 hqi (by omega) hn0 _ _ _ _ _ _ rfl, Nat.zero_min, row1_upd qi 0 hqi (by omega), row1_reset,
      tileS_rowS _ _ _ _ _ 0 (by omega), tileV_colW _ _ _ 0 (by omega)]
  | succ ki ih =>
    show row1 (attnStep (n0 + (ki + 1)) (BitVec.ofNat 32 qi) (BitVec.ofNat 32 (ki + 1)) q (kb (min (ki + 1) qi))
        (vb (min (ki + 1) qi)) (stAt qi n0 q kb vb s0 (ki + 1))).2 r d
      = upd (tileS (rowS hi q kb qi r) (ki + 1)) (tileV (colW hi vb d) (ki + 1))
          (run (tileS (rowS hi q kb qi r)) (tileV (colW hi vb d)) (ki + 1))
    rw [step_fold qi (ki + 1) n0 hqi (by omega) hn0 _ _ _ _ _ _ (by omega) hk, Nat.min_eq_left hk,
      row1_upd qi (ki + 1) hqi (by omega), ih (by omega), tileS_rowS _ _ _ _ _ (ki + 1) (by omega),
      tileV_colW _ _ _ (ki + 1) (by omega)]

omit r d in
/-- Above the triangle the state is left alone. -/
theorem stAt_above (m : ℕ) (h1 : qi + 1 ≤ m) (h4 : m ≤ 4) : stAt qi n0 q kb vb s0 m = stAt qi n0 q kb vb s0 (qi + 1) := by
  induction m, h1 using Nat.le_induction with
  | base => rfl
  | succ m hm ih =>
    show (attnStep (n0 + m) (BitVec.ofNat 32 qi) (BitVec.ofNat 32 m) q (kb (min m qi)) (vb (min m qi))
      (stAt qi n0 q kb vb s0 m)).2 = _
    rw [step_skip qi m n0 hqi (by omega) hn0 _ _ _ _ _ _ (by omega), ih (by omega)]

omit r d in
/-- The emitted block is the output block of the state after all four visits. -/
theorem outAt_eq : outAt qi n0 q kb vb s0 = finOut (stAt qi n0 q kb vb s0 (qi + 1)) := by
  unfold outAt
  rw [step_last qi n0 hqi hn0, ← stAt_above qi n0 hqi hn0 q kb vb s0 4 (by omega) le_rfl]
  rfl

/-- The emitted block at row `r`, lane `d` of the first head: the run's `acc · (1 / l)` after `qi + 1` tiles. -/
theorem outAt_lo :
    outAt qi n0 q kb vb s0 (ix3 0 r (lo d))
      = (run (tileS (rowS lo q kb qi r)) (tileV (colW lo vb d)) (qi + 1)).2.2
          * Ideal.div 1 (run (tileS (rowS lo q kb qi r)) (tileV (colW lo vb d)) (qi + 1)).2.1 := by
  rw [outAt_eq qi n0 hqi hn0, finOut_lo, pay10_apply, ← row0_stAt qi n0 hqi hn0 q kb vb s0 r d qi le_rfl]
  rfl

/-- The emitted block at row `r`, lane `d` of the second head. -/
theorem outAt_hi :
    outAt qi n0 q kb vb s0 (ix3 0 r (hi d))
      = (run (tileS (rowS hi q kb qi r)) (tileV (colW hi vb d)) (qi + 1)).2.2
          * Ideal.div 1 (run (tileS (rowS hi q kb qi r)) (tileV (colW hi vb d)) (qi + 1)).2.1 := by
  rw [outAt_eq qi n0 hqi hn0, finOut_hi, pay11_apply, ← row1_stAt qi n0 hqi hn0 q kb vb s0 r d qi le_rfl]
  rfl

end Iter

end Cert.KernelIdeal.AttnIter

end
-- ==== Proof.AttnGlue.lean ====
import proofs.«126977_j57518202028698_2_alg».proof.Proof.AttnBlocks
import proofs.«126977_j57518202028698_2_alg».proof.Proof.AttnJoin
import proofs.«126977_j57518202028698_2_alg».proof.Proof.AttnPay
import proofs.«126977_j57518202028698_2_alg».proof.Proof.AttnStep
import proofs.«126977_j57518202028698_2_alg».proof.Proof.AttnVals
import proofs.«126977_j57518202028698_2_alg».proof.Proof.AttnIter

/-!
# The attention region's array is the specification's merged heads

A point that writes its output block back closes a run of four points — the four key tiles of one batch, one head
pair and one query tile. Along the run the query block is one block of the fused projection array and the key and
value blocks are its key and value blocks number `min (key tile) (query tile)`. Read through the fused projection's
specification those blocks give, row by row and head by head, exactly the specification's masked scores and values,
so the online-softmax law turns what the run leaves in the output block into the specification's attention rows,
placed as the merged heads place them.
-/

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL.Sem
open Idealize.ShloMosaic.Pipeline (Dat)
open Cert.AttnSpec Cert.AttnJoin
open Cert.KernelIdeal.AttnPay (sc lo hi)

variable (V : (c : Dev nD) → (b : Ref sig .tc) → Buf (Elt Ideal) ((c : Thread nD τ).loc b))

/-! ## The blocks of a run, read off the fused projection array -/

/-- The query block of batch `b`, head pair `p`, query tile `qi`. -/
def qBlock (c : Dev nD) (b : Fin 2) (p : Fin 8) (qi : Fin 4) : Vec Ideal S1x512x128 .bf16 := fun j =>
  V c main_v4 (ix3 b
    (⟨qi.val * 512 + (j 1).val, by have h : (j 1).val < 512 := (j 1).isLt; have := qi.isLt; omega⟩ : Fin 2048)
    (⟨p.val * 128 + (j 2).val, by have h : (j 2).val < 128 := (j 2).isLt; have := p.isLt; omega⟩ : Fin 3072))

/-- Key block number `n % 4` of batch `b`, head pair `p`. -/
def kBlock (c : Dev nD) (b : Fin 2) (p : Fin 8) (n : ℕ) : Vec Ideal S1x512x128 .bf16 := fun j =>
  V c main_v4 (ix3 b
    (⟨n % 4 * 512 + (j 1).val, by have h : (j 1).val < 512 := (j 1).isLt; omega⟩ : Fin 2048)
    (⟨(8 + p.val) * 128 + (j 2).val, by have h : (j 2).val < 128 := (j 2).isLt; have := p.isLt; omega⟩ : Fin 3072))

/-- Value block number `n % 4` of batch `b`, head pair `p`. -/
def vBlock (c : Dev nD) (b : Fin 2) (p : Fin 8) (n : ℕ) : Vec Ideal S1x512x128 .bf16 := fun j =>
  V c main_v4 (ix3 b
    (⟨n % 4 * 512 + (j 1).val, by have h : (j 1).val < 512 := (j 1).isLt; omega⟩ : Fin 2048)
    (⟨(16 + p.val) * 128 + (j 2).val, by have h : (j 2).val < 128 := (j 2).isLt; have := p.isLt; omega⟩ : Fin 3072))

/-- Point `t`'s head pair. -/
def ptPair (t : Fin cfg1.N) : Fin 8 := ⟨t.val / 16 % 8, by omega⟩
/-- Point `t`'s query tile. -/
def ptTile (t : Fin cfg1.N) : Fin 4 := ⟨t.val / 4 % 4, by omega⟩

/-- A block index is its three coordinates, the first of them zero. -/
theorem blockIdx_eq (j : S1x512x128.Idx) : ∃ (r : Fin 512) (l : Fin 128), j = ix3 (0 : Fin 1) r l :=
  ⟨j 1, j 2, (eq_ix3 j).trans (congrArg (fun z : Fin 1 => ix3 z (j 1) (j 2)) (@Subsingleton.elim (Fin 1) _ (j 0) (0 : Fin 1)))⟩

theorem iblk_q_eq (c : Dev nD) (t : Fin cfg1.N) : iblk1 V c 0 t = qBlock V c (ptBatch t) (ptPair t) (ptTile t) := by
  funext j
  obtain ⟨r, l, rfl⟩ := blockIdx_eq j
  exact iblk_q V c t r l

theorem iblk_k_eq (c : Dev nD) (t : Fin cfg1.N) :
    iblk1 V c 1 t = kBlock V c (ptBatch t) (ptPair t) (min (t.val % 4) (t.val / 4 % 4)) := by
  funext j
  obtain ⟨r, l, rfl⟩ := blockIdx_eq j
  refine (iblk_k V c t r l).trans (congrArg (V c main_v4) (funext fun a => Fin.ext ?_))
  match a with
  | ⟨0, _⟩ => rfl
  | ⟨1, _⟩ =>
    show min (t.val % 4) (t.val / 4 % 4) * 512 + r.val = min (t.val % 4) (t.val / 4 % 4) % 4 * 512 + r.val
    omega
  | ⟨2, _⟩ => rfl

theorem iblk_v_eq (c : Dev nD) (t : Fin cfg1.N) :
    iblk1 V c 2 t = vBlock V c (ptBatch t) (ptPair t) (min (t.val % 4) (t.val / 4 % 4)) := by
  funext j
  obtain ⟨r, l, rfl⟩ := blockIdx_eq j
  refine (iblk_v V c t r l).trans (congrArg (V c main_v4) (funext fun a => Fin.ext ?_))
  match a with
  | ⟨0, _⟩ => rfl
  | ⟨1, _⟩ =>
    show min (t.val % 4) (t.val / 4 % 4) * 512 + r.val = min (t.val % 4) (t.val / 4 % 4) % 4 * 512 + r.val
    omega
  | ⟨2, _⟩ => rfl

/-! ## The blocks through the fused projection's specification: scores and values of a row -/

/-- Head `e` (0 or 1) of head pair `p`. -/
def pairHead (p : Fin 8) (e : Fin 2) : Fin 16 := ⟨2 * p.val + e.val, by omega⟩
/-- Position `r` of tile `qi`. -/
def tilePos (qi : Fin 4) (r : Fin 512) : Fin 2048 := ⟨qi.val * 512 + r.val, by omega⟩

section Rows
variable (X : Fin 2 → Fin 2048 → Fin 1024 → EReal) (WA : Fin 3072 → Fin 1024 → EReal) (c : Dev nD)
  (hqkv : ∀ (b : Fin 2) (t : Fin 2048) (o : Fin 3072), V c main_v4 (ix3 b t o) = qkv X WA b t o)
  (b : Fin 2) (p : Fin 8) (e : Fin 2) (hh : Fin 64 → Fin 128) (hhh : ∀ d, (hh d).val = e.val * 64 + d.val)

include hqkv hhh

/-- Lane `hh d` of the query block's row `r` is the specification's query. -/
theorem qBlock_apply (qi : Fin 4) (r : Fin 512) (d : Fin 64) :
    qBlock V c b p qi (ix3 (0 : Fin 1) r (hh d)) = query X WA b (pairHead p e) (tilePos qi r) d := by
  unfold qBlock query
  refine (hqkv _ _ _).trans (congrArg₂ (qkv X WA b) (Fin.ext rfl) (Fin.ext ?_))
  show p.val * 128 + (hh d).val = (2 * p.val + e.val) * 64 + d.val
  rw [hhh]; omega

/-- Lane `hh d` of row `i % 512` of key block `i / 512` is the specification's key at position `i`. -/
theorem kBlock_apply (i : Fin (4 * 512)) (d : Fin 64) :
    kBlock V c b p (i.val / 512) (ix3 (0 : Fin 1) (⟨i.val % 512, Nat.mod_lt _ (by decide)⟩ : Fin 512) (hh d))
      = key X WA b (pairHead p e) i d := by
  have hi : i.val < 2048 := i.isLt
  unfold kBlock key
  refine (hqkv _ _ _).trans (congrArg₂ (qkv X WA b) (Fin.ext ?_) (Fin.ext ?_))
  · show i.val / 512 % 4 * 512 + i.val % 512 = i.val; omega
  · show (8 + p.val) * 128 + (hh d).val = 1024 + ((2 * p.val + e.val) * 64 + d.val)
    rw [hhh]; omega

/-- Lane `hh d` of row `i % 512` of value block `i / 512` is the specification's value at position `i`. -/
theorem vBlock_apply (i : Fin (4 * 512)) (d : Fin 64) :
    vBlock V c b p (i.val / 512) (ix3 (0 : Fin 1) (⟨i.val % 512, Nat.mod_lt _ (by decide)⟩ : Fin 512) (hh d))
      = valueRow X WA b (pairHead p e) d i := by
  have hi : i.val < 2048 := i.isLt
  unfold vBlock valueRow value
  refine (hqkv _ _ _).trans (congrArg₂ (qkv X WA b) (Fin.ext ?_) (Fin.ext ?_))
  · show i.val / 512 % 4 * 512 + i.val % 512 = i.val; omega
  · show (16 + p.val) * 128 + (hh d).val = 2048 + ((2 * p.val + e.val) * 64 + d.val)
    rw [hhh]; omega

/-- The body's masked score of row `r` of query tile `qi` against position `i` is the specification's. -/
theorem sc_apply (qi : Fin 4) (r : Fin 512) (i : Fin (4 * 512)) :
    sc hh (qBlock V c b p qi) (kBlock V c b p (i.val / 512)) qi.val (i.val / 512) r
        (⟨i.val % 512, Nat.mod_lt _ (by decide)⟩ : Fin 512)
      = scoreRow X WA b (pairHead p e) (tilePos qi r) i := by
  have hi : i.val < 2048 := i.isLt
  unfold sc scoreRow
  refine if_congr ?_ ?_ rfl
  · show i.val / 512 * 512 + i.val % 512 ≤ qi.val * 512 + r.val ↔ i.val ≤ qi.val * 512 + r.val
    omega
  · unfold score
    refine congrArg (· * Ideal.ofBits .f32 0x3E000000#32) (Finset.sum_congr rfl fun d _ => ?_)
    rw [qBlock_apply V X WA c hqkv b p e hh hhh qi r d, kBlock_apply V X WA c hqkv b p e hh hhh i d]

end Rows

theorem lo_val (d : Fin 64) : (lo d).val = (0 : Fin 2).val * 64 + d.val := by show d.val = 0 * 64 + d.val; omega
theorem hi_val (d : Fin 64) : (hi d).val = (1 : Fin 2).val * 64 + d.val := by show 64 + d.val = 1 * 64 + d.val; omega

/-! ## The run of four points that ends at a point writing back -/

/-- Point `u`, number `n`, in the same run as point `t` (same batch, head pair and query tile: `n / 4 = t / 4`), at key
    tile `ki`: its step is the pure step on the run's query block and on key and value block `min ki (query tile)`. -/
theorem stepAt_run (c : Dev nD) (t u : Fin cfg1.N) (n ki : ℕ) (hn : u.val = n) (hq : n / 4 = t.val / 4) (hk : n % 4 = ki)
    (prev : Scr Ideal) :
    stepAt V c u prev
      = attnStep n (BitVec.ofNat 32 (ptTile t).val) (BitVec.ofNat 32 ki) (qBlock V c (ptBatch t) (ptPair t) (ptTile t))
          (kBlock V c (ptBatch t) (ptPair t) (min ki (ptTile t).val)) (vBlock V c (ptBatch t) (ptPair t) (min ki (ptTile t).val))
          prev := by
  subst hn hk
  have hb : ptBatch u = ptBatch t := Fin.ext (by show u.val / 128 = t.val / 128; omega)
  have hp : ptPair u = ptPair t := Fin.ext (by show u.val / 16 % 8 = t.val / 16 % 8; omega)
  have hT : ptTile u = ptTile t := Fin.ext (by show u.val / 4 % 4 = t.val / 4 % 4; omega)
  obtain ⟨-, -, e2, e3⟩ := coords_eq u
  have e2' : (grid1.coords u 2).val = (ptTile t).val := e2.trans (by show u.val / 4 % 4 = t.val / 4 % 4; omega)
  have hm : min (u.val % 4) (u.val / 4 % 4) = min (u.val % 4) (ptTile t).val := by
    show min (u.val % 4) (u.val / 4 % 4) = min (u.val % 4) (t.val / 4 % 4); omega
  rw [stepAt_eq, iblk_q_eq, iblk_k_eq, iblk_v_eq, hb, hp, hT, e2', e3, hm]

/-- The running state along the run: after the point at key tile `ki` it is the pure step's. -/
theorem scrAt_run (c : Dev nD) (t : Fin cfg1.N) (h3 : t.val % 4 = 3) (ki : ℕ) (hki : ki < 4)
    (h1 : t.val - 3 + ki < cfg1.N) :
    scrAt V c (t.val - 3 + ki + 1) h1
      = (attnStep (t.val - 3 + ki) (BitVec.ofNat 32 (ptTile t).val) (BitVec.ofNat 32 ki)
          (qBlock V c (ptBatch t) (ptPair t) (ptTile t))
          (kBlock V c (ptBatch t) (ptPair t) (min ki (ptTile t).val)) (vBlock V c (ptBatch t) (ptPair t) (min ki (ptTile t).val))
          (scrAt V c (t.val - 3 + ki) (Nat.le_of_lt h1))).2 := by
  show (stepAt V c ⟨t.val - 3 + ki, h1⟩ (scrAt V c (t.val - 3 + ki) (Nat.le_of_lt h1))).2 = _
  rw [stepAt_run V c t ⟨t.val - 3 + ki, h1⟩ (t.val - 3 + ki) ki rfl (by omega) (by omega)]

/-- What the point that writes back leaves in the output block: the pure step's output on the state the run's first
    three points left. -/
theorem outAt_run (c : Dev nD) (t : Fin cfg1.N) (h3 : t.val % 4 = 3) :
    outAt V c t
      = (attnStep t.val (BitVec.ofNat 32 (ptTile t).val) (BitVec.ofNat 32 3)
          (qBlock V c (ptBatch t) (ptPair t) (ptTile t))
          (kBlock V c (ptBatch t) (ptPair t) (min 3 (ptTile t).val)) (vBlock V c (ptBatch t) (ptPair t) (min 3 (ptTile t).val))
          (scrAt V c t.val (Nat.le_of_lt t.isLt))).1 := by
  unfold outAt
  rw [stepAt_run V c t t t.val 3 rfl rfl h3]

/-! ## The run is the iteration over the four key tiles -/

theorem scrAt_congr (c : Dev nD) {n m : ℕ} (e : n = m) (hn : n ≤ cfg1.N) (hm : m ≤ cfg1.N) :
    scrAt V c n hn = scrAt V c m hm := by subst e; rfl

/-- The running state before the run's point at key tile `ki` is the iteration's, from the state the run found. -/
theorem scrAt_eq_stAt (c : Dev nD) (t : Fin cfg1.N) (h3 : t.val % 4 = 3) (ki : ℕ) (hki : ki ≤ 3)
    (h : t.val - 3 + ki ≤ cfg1.N) (h0 : t.val - 3 ≤ cfg1.N) :
    scrAt V c (t.val - 3 + ki) h
      = Cert.KernelIdeal.AttnIter.stAt (ptTile t).val (t.val - 3) (qBlock V c (ptBatch t) (ptPair t) (ptTile t))
          (kBlock V c (ptBatch t) (ptPair t)) (vBlock V c (ptBatch t) (ptPair t)) (scrAt V c (t.val - 3) h0) ki := by
  induction ki with
  | zero => rfl
  | succ k ih =>
    have hlt : t.val - 3 + k < cfg1.N := h
    show scrAt V c (t.val - 3 + k + 1) hlt
      = (attnStep (t.val - 3 + k) (BitVec.ofNat 32 (ptTile t).val) (BitVec.ofNat 32 k)
          (qBlock V c (ptBatch t) (ptPair t) (ptTile t))
          (kBlock V c (ptBatch t) (ptPair t) (min k (ptTile t).val)) (vBlock V c (ptBatch t) (ptPair t) (min k (ptTile t).val))
          (Cert.KernelIdeal.AttnIter.stAt (ptTile t).val (t.val - 3) (qBlock V c (ptBatch t) (ptPair t) (ptTile t))
            (kBlock V c (ptBatch t) (ptPair t)) (vBlock V c (ptBatch t) (ptPair t)) (scrAt V c (t.val - 3) h0) k)).2
    rw [scrAt_run V c t h3 k (by omega) hlt, ih (by omega) (Nat.le_of_lt hlt)]

/-- What the point that writes back leaves in the output block is the iteration's emitted block. -/
theorem outAt_eq_iter (c : Dev nD) (t : Fin cfg1.N) (h3 : t.val % 4 = 3) (h0 : t.val - 3 ≤ cfg1.N) :
    outAt V c t
      = Cert.KernelIdeal.AttnIter.outAt (ptTile t).val (t.val - 3) (qBlock V c (ptBatch t) (ptPair t) (ptTile t))
          (kBlock V c (ptBatch t) (ptPair t)) (vBlock V c (ptBatch t) (ptPair t)) (scrAt V c (t.val - 3) h0) := by
  have e : t.val - 3 + 3 = t.val := by omega
  have h33 : t.val - 3 + 3 ≤ cfg1.N := by rw [e]; exact Nat.le_of_lt t.isLt
  rw [outAt_run V c t h3, scrAt_congr V c e.symm (Nat.le_of_lt t.isLt) h33, scrAt_eq_stAt V c t h3 3 le_rfl h33 h0]
  unfold Cert.KernelIdeal.AttnIter.outAt
  rw [e]

/-! ## The output block against the specification -/

section Final
variable (X : Fin 2 → Fin 2048 → Fin 1024 → EReal) (WA : Fin 3072 → Fin 1024 → EReal)
  (hx : ∀ b t c, ∃ r : ℝ, X b t c = (r : EReal)) (hwa : ∀ o c, ∃ r : ℝ, WA o c = (r : EReal))
  (c : Dev nD)
  (hqkv : ∀ (b : Fin 2) (t : Fin 2048) (o : Fin 3072), V c main_v4 (ix3 b t o) = qkv X WA b t o)

include hx hwa hqkv

/-- The iteration's `acc · (1 / l)` of head `e` of the pair, row `r`, lane `d`, is the specification's attention row. -/
theorem iter_eq_attn (b : Fin 2) (p : Fin 8) (qi : Fin 4) (e : Fin 2) (hh : Fin 64 → Fin 128)
    (hhh : ∀ d, (hh d).val = e.val * 64 + d.val) (r : Fin 512) (d : Fin 64) :
    (Cert.LibOnlineSoftmax.run
          (Cert.LibOnlineSoftmax.tileS (Cert.KernelIdeal.AttnIter.rowS hh (qBlock V c b p qi) (kBlock V c b p) qi.val r))
          (Cert.LibOnlineSoftmax.tileV (Cert.KernelIdeal.AttnIter.colW hh (vBlock V c b p) d)) (qi.val + 1)).2.2
        * Ideal.div 1 (Cert.LibOnlineSoftmax.run
          (Cert.LibOnlineSoftmax.tileS (Cert.KernelIdeal.AttnIter.rowS hh (qBlock V c b p qi) (kBlock V c b p) qi.val r))
          (Cert.LibOnlineSoftmax.tileV (Cert.KernelIdeal.AttnIter.colW hh (vBlock V c b p) d)) (qi.val + 1)).2.1
      = attn X WA b (pairHead p e) (tilePos qi r) d := by
  have eS : Cert.KernelIdeal.AttnIter.rowS hh (qBlock V c b p qi) (kBlock V c b p) qi.val r
      = scoreRow X WA b (pairHead p e) (tilePos qi r) :=
    funext fun i => sc_apply V X WA c hqkv b p e hh hhh qi r i
  have eW : Cert.KernelIdeal.AttnIter.colW hh (vBlock V c b p) d = valueRow X WA b (pairHead p e) d :=
    funext fun i => vBlock_apply V X WA c hqkv b p e hh hhh i d
  have eN : qi.val + 1 = tilesOf (tilePos qi r) := by
    show qi.val + 1 = (qi.val * 512 + r.val) / 512 + 1
    have := r.isLt; omega
  rw [eS, eW, eN]
  exact online_eq_attn X WA hx hwa b (pairHead p e) (tilePos qi r) d

/-- The output block a point writes back holds, entry by entry, the specification's merged heads. -/
theorem outAt_eq_merged (t : Fin cfg1.N) (h3 : t.val % 4 = 3) (r : Fin 512) (l : Fin 128) :
    outAt V c t (ix3 (0 : Fin 1) r l) = merged X WA (ptBatch t) (qRow t r) (oLane t l) := by
  have hl := l.isLt
  have h0 : t.val - 3 ≤ cfg1.N := le_trans (Nat.sub_le _ _) (Nat.le_of_lt t.isLt)
  have hqi : (ptTile t).val < 4 := (ptTile t).isLt
  have hn0 : (t.val - 3) % 16 = 4 * (ptTile t).val := by show (t.val - 3) % 16 = 4 * (t.val / 4 % 4); omega
  have hrow : qRow t r = tilePos (ptTile t) r := Fin.ext rfl
  rw [outAt_eq_iter V c t h3 h0]
  unfold merged
  by_cases hlo : l.val < 64
  · have el : l = lo ⟨l.val, hlo⟩ := Fin.ext rfl
    have eh : colHead (oLane t l) = pairHead (ptPair t) 0 := Fin.ext (by
      show (t.val / 16 % 8 * 128 + l.val) / 64 = 2 * (t.val / 16 % 8) + 0; omega)
    have ed : colLane (oLane t l) = (⟨l.val, hlo⟩ : Fin 64) := Fin.ext (by
      show (t.val / 16 % 8 * 128 + l.val) % 64 = l.val; omega)
    rw [eh, ed, hrow]
    conv_lhs => rw [el]
    rw [Cert.KernelIdeal.AttnIter.outAt_lo (ptTile t).val (t.val - 3) hqi hn0]
    exact iter_eq_attn V X WA hx hwa c hqkv (ptBatch t) (ptPair t) (ptTile t) 0 lo lo_val r ⟨l.val, hlo⟩
  · have hd : l.val - 64 < 64 := by omega
    have el : l = hi ⟨l.val - 64, hd⟩ := Fin.ext (by show l.val = 64 + (l.val - 64); omega)
    have eh : colHead (oLane t l) = pairHead (ptPair t) 1 := Fin.ext (by
      show (t.val / 16 % 8 * 128 + l.val) / 64 = 2 * (t.val / 16 % 8) + 1; omega)
    have ed : colLane (oLane t l) = (⟨l.val - 64, hd⟩ : Fin 64) := Fin.ext (by
      show (t.val / 16 % 8 * 128 + l.val) % 64 = l.val - 64; omega)
    rw [eh, ed, hrow]
    conv_lhs => rw [el]
    rw [Cert.KernelIdeal.AttnIter.outAt_hi (ptTile t).val (t.val - 3) hqi hn0]
    exact iter_eq_attn V X WA hx hwa c hqkv (ptBatch t) (ptPair t) (ptTile t) 1 hi hi_val r ⟨l.val - 64, hd⟩

/-- THE ATTENTION REGION'S ARRAY: where the fused projection array the region finds is the specification's fused
    projection of real inputs, the merged-heads array the region leaves is the specification's merged heads. -/
theorem attn_array_eq_merged (b : Fin 2) (t : Fin 2048) (col : Fin 1024) :
    (attnDat V c).arrAt 3 cfg1.N (ix3 b t col) = merged X WA b t col := by
  have h := out_array V c (fun i : S2x2048x1024.Idx => merged X WA (i 0) (i 1) (i 2))
    (fun t h3 r l => outAt_eq_merged V X WA hx hwa c hqkv t h3 r l)
  rw [h]

end Final

end Cert.KernelIdeal.Attn

end
-- ==== Proof.Finite.lean ====
import proofs.«126977_j57518202028698_2_alg».proof.Defs
import Idealize.ShloMosaic.Lib.ReduceAll
import Idealize.ShloMosaic.Lib.ValueIdx

/-!
# From the precondition to real numbers

The precondition says of each of the three argument arrays that every entry has absolute value below +∞, the three
conjunctions joined into one word. On the extended reals `|x| < ⊤` rules out both infinities, so every entry of every
argument array is a real number.
-/

noncomputable section

namespace Cert.AttnFinite

open Idealize.ShloMosaic

/-- The word `0x7F800000` is +∞. -/
theorem top_word : Ideal.ofBits .f32 0x7F800000#32 = (⊤ : EReal) := by simp [Ideal.ofBits, Ideal.ieee]

/-- An extended real whose absolute value compares below the word of +∞ is a real number. -/
theorem real_of_abs_lt_top (x : EReal)
    (h : Ideal.cmp .olt (max x (-x)) (Ideal.ofBits .f32 0x7F800000#32) = 1#1) : ∃ r : ℝ, x = (r : EReal) := by
  rw [top_word] at h
  have hb : BitVec.ofBool (decide (max x (-x) < (⊤ : EReal))) = 1#1 := h
  have hlt : max x (-x) < (⊤ : EReal) := by
    by_contra hn
    rw [decide_eq_false hn] at hb
    exact absurd hb (by decide)
  induction x using EReal.rec with
  | bot => exact absurd hlt (by simp)
  | top => exact absurd hlt (by simp)
  | coe r => exact ⟨r, rfl⟩

section
variable [Cert.Pre_finite_inputs.Facts]

/-- Where the printed precondition holds of three arrays, every entry of each is a real number. -/
theorem reals_of_finite_inputs (a0 : FVec Ideal Cert.Pre_finite_inputs.S2x2048x1024 .f32)
    (a1 : FVec Ideal Cert.Pre_finite_inputs.S3072x1024 .f32) (a2 : FVec Ideal Cert.Pre_finite_inputs.S1024x1024 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  haveI : Subsingleton Cert.Pre_finite_inputs.S_.Idx := ⟨fun a b => funext fun d => d.elim0⟩
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_top _ (Host.reduce_andi_all _ _ _ _ _ h0' i),
    fun i => real_of_abs_lt_top _ (Host.reduce_andi_all _ _ _ _ _ h1 i),
    fun i => real_of_abs_lt_top _ (Host.reduce_andi_all _ _ _ _ _ h2 i)⟩

/-- Under the precondition every entry of the idealized program's three argument arrays, on every device, is a real
    number. -/
theorem reals_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (⟨3, ![2, 2048, 1024]⟩ : Shape).Idx, ∃ r : ℝ,
        (m ((c.tc : Thread Cert.KernelIdeal.nD Cert.KernelIdeal.τ).loc Cert.KernelIdeal.main_arg0)
          : (⟨3, ![2, 2048, 1024]⟩ : Shape).Idx → EReal) i = (r : EReal))
    ∧ (∀ i : (⟨2, ![3072, 1024]⟩ : Shape).Idx, ∃ r : ℝ,
        (m ((c.tc : Thread Cert.KernelIdeal.nD Cert.KernelIdeal.τ).loc Cert.KernelIdeal.main_arg1)
          : (⟨2, ![3072, 1024]⟩ : Shape).Idx → EReal) i = (r : EReal))
    ∧ (∀ i : (⟨2, ![1024, 1024]⟩ : Shape).Idx, ∃ r : ℝ,
        (m ((c.tc : Thread Cert.KernelIdeal.nD Cert.KernelIdeal.τ).loc Cert.KernelIdeal.main_arg2)
          : (⟨2, ![1024, 1024]⟩ : Shape).Idx → EReal) i = (r : EReal)) :=
  reals_of_finite_inputs _ _ _ (h c)

end

end Cert.AttnFinite

end
-- ==== Proof.Bridge.lean ====
/- The idealized kernel program returns the attention of its three argument arrays: the three regions' values composed.
   The first product and the host operations before the attention region hand that region the fused projection of the
   input; with every argument entry a real number (the precondition) the attention region leaves the merged heads; the
   second product and the host operations around it return the merged rows against the rows of the second weight. -/
import proofs.«126977_j57518202028698_2_alg».proof.Proof.RunVals
import proofs.«126977_j57518202028698_2_alg».proof.Proof.Compose
import proofs.«126977_j57518202028698_2_alg».proof.Proof.AttnGlue
import proofs.«126977_j57518202028698_2_alg».proof.Proof.Finite

noncomputable section

namespace Cert.Bridge

open Cert.KernelIdeal Cert.KernelIdeal.Gen Cert.KernelIdeal.Run Cert.KernelIdeal.Compose
open Idealize.ShloMosaic Idealize.ShloMosaic.TcCoe Idealize.SL.Sem Idealize.ShloMosaic.ValueIdx

variable [Cert.Pre_finite_inputs.Facts]

/-- Under the precondition, the result array of the idealized kernel program at its return is the specification's
    attention of the three argument arrays as launched. -/
theorem result_eq (m : (ℓ : Loc nD τ sig) → Buf (Elt Ideal) ℓ) (ρ : Dev nD → PrngReg) (hpre : Cert.Pre_KernelIdeal m) (c : Dev nD) :
    W7 m ρ c (Proc.devRef .tc main_v8)
      = Cert.AttnSpec.attention (m ((c.tc : Thread nD τ).loc main_arg0)) (m ((c.tc : Thread nD τ).loc main_arg1))
          (m ((c.tc : Thread nD τ).loc main_arg2)) := by
  obtain ⟨hx, hwa, _⟩ := Cert.AttnFinite.reals_of_pre m hpre c
  refine program_result m ρ c fun b t col => ?_
  rw [W4_out]
  exact Cert.KernelIdeal.Attn.attn_array_eq_merged (V3 m ρ) (argX m c) (argWA m c)
    (fun b t k => hx (ix3 b t k)) (fun o k => hwa (ix2 o k)) c (fun b t o => attention_entry m ρ c b t o) b t col

end Cert.Bridge

end
-- ==== Proof.lean ====
/-
  Causal multi-head attention (batch 2, 2048 positions, 16 heads of 64, model width 1024) as three kernel calls — the
  fused query/key/value projection x·Wᵀ in 1024×1024 blocks, a flash-attention kernel over (batch, head pair, query tile,
  key tile) with tiles of 512 that keeps an online softmax (running row maximum, row sum and unnormalised accumulator) in
  scratch between key tiles, skips the tiles above the causal diagonal and normalises at the last key tile, and the
  output projection — against the plain reference: einsum, a minus-infinity mask above the diagonal, softmax, einsum.

  At the ideal instance both compute, for every batch b, position t and output column o,
      Σ_c ( Σ_{s ≤ t} softmax_s( q_t·k_s / 8 ) · v_s )_c · Wp[o, c],
  on the extended reals. The two sides differ only in how a row's softmax-weighted sum is arranged: the reference takes
  the maximum and the normaliser over all 2048 keys at once (masked keys contribute exp(−∞) = 0), the kernel folds key
  tiles in one at a time, rescaling by exp(m_old − m_new), and multiplies by the reciprocal of the sum at the end. With
  finite inputs every unmasked score is a real number, every row has its diagonal key unmasked, and the two arrangements
  agree (the online-softmax law). The kernel's masking constant is named minus infinity at the ideal instance.

  Frames: each of the three programs runs to the end and leaves its arguments as launched; for the two kernel programs
  this is the run over @main's seven segments (four host stretches, three kernel regions), for the reference its run.
-/
import proofs.«126977_j57518202028698_2_alg».proof.Defs
import proofs.«126977_j57518202028698_2_alg».proof.Proof.Gen.Kernel
import proofs.«126977_j57518202028698_2_alg».proof.Proof.Gen.KernelIdeal
import proofs.«126977_j57518202028698_2_alg».proof.Proof.Gen.ReferenceIdeal
import proofs.«126977_j57518202028698_2_alg».proof.Proof.Gen.ReferenceIdeal.Run
import proofs.«126977_j57518202028698_2_alg».proof.Proof.Gen.ReferenceIdeal.Read
import proofs.«126977_j57518202028698_2_alg».proof.Proof.Gen.Pre_finite_inputs
import proofs.«126977_j57518202028698_2_alg».proof.Proof.Run
import proofs.«126977_j57518202028698_2_alg».proof.Proof.RunB
import proofs.«126977_j57518202028698_2_alg».proof.Proof.RefIsSpec
import proofs.«126977_j57518202028698_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel (hKernel := Cert.Kernel.Gen.facts) (hPre_finite_inputs := Cert.Pre_finite_inputs.Gen.facts) :=
  fun m ρ _ => Cert.Kernel.Run.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame (F := Ideal) m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The masking constant, a large negative float in the word-level program, is named minus infinity: both occurrences. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- From memories agreeing on the arguments, both idealized programs end with the result array at the specification's
    attention of the three argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.AttnSpec.attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1.trans (Cert.Bridge.result_eq m ρ hpre c), (h c).2⟩)
      (Cert.KernelIdeal.Run.run_all (F := Ideal) m ρ)
  · refine (θ_run Cert.ReferenceIdeal.defs _ _).mono (fun r h c => ⟨(h c).1.trans ?_, (h c).2⟩) (Cert.AttnRef.run_attention m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
